-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v196) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S100000x64 : Shape := ⟨2, ![100000, 64]⟩
abbrev S20000x64 : Shape := ⟨2, ![20000, 64]⟩
abbrev S500000 : Shape := ⟨1, ![500000]⟩
abbrev S64x64 : Shape := ⟨2, ![64, 64]⟩
abbrev S64 : Shape := ⟨1, ![64]⟩
abbrev S128x64 : Shape := ⟨2, ![128, 64]⟩
abbrev S64x2 : Shape := ⟨2, ![64, 2]⟩
abbrev S2 : Shape := ⟨1, ![2]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S20000x64 : S_.BroadcastsInDim S20000x64 (![] : Fin 0 → Fin S20000x64.rank)
  reducesTo_S20000x64_S_d0_1 : S20000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_v98 : IVec S_ 1) (main_v101 : IVec S2 1) (main_c_39 : IVec S_ 1) : IVec S_ 1 :=
  let main_v102 : IVec S_ 1 := (fun x v => Host.reduce IntOp.andi x v reducesTo_S2_S_d0 h_S_) main_v101 main_c_39
  let main_v103 : IVec S_ 1 := andi main_v98 main_v102
  main_v103

def fn_part5 {F : FTy → Type} [FloatOps F] (main_arg26 : FVec F S64 .f32) (main_arg27 : FVec F S64x2 .f32) (main_arg28 : FVec F S2 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S64 .f32 := Host.absf main_arg26
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x2 .f32 := Host.absf main_arg27
  let main_cst_36 : FVec F S_ .f32 := constant S_ .f32 0x7F800000#32
  let main_v95 : FVec F S64x2 .f32 := broadcastInDim S64x2 ![] bcast_S_S64x2 main_cst_36
  let main_v96 : IVec S64x2 1 := cmpf .olt main_v94 main_v95
  let main_c_37 : IVec S_ 1 := constantI S_ 1 1#1
  let main_v97 : IVec S_ 1 := (fun x v => Host.reduce IntOp.andi x v reducesTo_S64x2_S_d0_1 h_S_) main_v96 main_c_37
  let main_v98 : IVec S_ 1 := andi main_v93 main_v97
  let main_v99 : FVec F S2 .f32 := Host.absf main_arg28
  let main_cst_38 : FVec F S_ .f32 := constant S_ .f32 0x7F800000#32
  let main_v100 : FVec F S2 .f32 := broadcastInDim S2 ![] bcast_S_S2 main_cst_38
  let main_v101 : IVec S2 1 := cmpf .olt main_v99 main_v100
  let main_c_39 : IVec S_ 1 := constantI S_ 1 1#1
  fn_part6 (F := F) main_v98 main_v101 main_c_39

def fn_part4 {F : FTy → Type} [FloatOps F] (main_arg22 : FVec F S64 .f32) (main_arg23 : FVec F S128x64 .f32) (main_arg24 : FVec F S64 .f32) (main_arg25 : FVec F S64x64 .f32) (main_arg26 : FVec F S64 .f32) (main_arg27 : FVec F S64x2 .f32) (main_arg28 : FVec F S2 .f32) (main_v63 : IVec S_ 1) (main_v67 : IVec S_ 1) : IVec S_ 1 :=
  let main_v68 : IVec S_ 1 := andi main_v63 main_v67
  let main_v69 : FVec F S64 .f32 := Host.absf main_arg22
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S128x64 .f32 := Host.absf main_arg23
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64 .f32 := Host.absf main_arg24
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x64 .f32 := Host.absf main_arg25
  let main_cst_32 : FVec F S_ .f32 := constant S_ .f32 0x7F800000#32
  fn_part5 (F := F) main_arg26 main_arg27 main_arg28 main_v83 main_v84 main_cst_32

def fn_part3 {F : FTy → Type} [FloatOps F] (main_arg19 : FVec F S128x64 .f32) (main_arg20 : FVec F S64 .f32) (main_arg21 : FVec F S64x64 .f32) (main_arg22 : FVec F S64 .f32) (main_arg23 : FVec F S128x64 .f32) (main_arg24 : FVec F S64 .f32) (main_arg25 : FVec F S64x64 .f32) (main_arg26 : FVec F S64 .f32) (main_arg27 : FVec F S64x2 .f32) (main_arg28 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S128x64 .f32 := Host.absf main_arg19
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg20
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg21
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg22 main_arg23 main_arg24 main_arg25 main_arg26 main_arg27 main_arg28 main_v63 main_v67

def fn_part2 {F : FTy → Type} [FloatOps F] (main_arg15 : FVec F S64x64 .f32) (main_arg16 : FVec F S64 .f32) (main_arg17 : FVec F S64x64 .f32) (main_arg18 : FVec F S64 .f32) (main_arg19 : FVec F S128x64 .f32) (main_arg20 : FVec F S64 .f32) (main_arg21 : FVec F S64x64 .f32) (main_arg22 : FVec F S64 .f32) (main_arg23 : FVec F S128x64 .f32) (main_arg24 : FVec F S64 .f32) (main_arg25 : FVec F S64x64 .f32) (main_arg26 : FVec F S64 .f32) (main_arg27 : FVec F S64x2 .f32) (main_arg28 : FVec F S2 .f32) (main_v33 : IVec S_ 1) : IVec S_ 1 :=
  let main_v34 : FVec F S64x64 .f32 := Host.absf main_arg15
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg16
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg17
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg18
  let main_cst_18 : FVec F S_ .f32 := constant S_ .f32 0x7F800000#32
  let main_v50 : FVec F S64 .f32 := broadcastInDim S64 ![] bcast_S_S64 main_cst_18
  fn_part3 (F := F) main_arg19 main_arg20 main_arg21 main_arg22 main_arg23 main_arg24 main_arg25 main_arg26 main_arg27 main_arg28 main_v48 main_v49 main_v50

def fn_part1 {F : FTy → Type} [FloatOps F] (main_arg12 : FVec F S64 .f32) (main_arg13 : FVec F S64x64 .f32) (main_arg14 : FVec F S64 .f32) (main_arg15 : FVec F S64x64 .f32) (main_arg16 : FVec F S64 .f32) (main_arg17 : FVec F S64x64 .f32) (main_arg18 : FVec F S64 .f32) (main_arg19 : FVec F S128x64 .f32) (main_arg20 : FVec F S64 .f32) (main_arg21 : FVec F S64x64 .f32) (main_arg22 : FVec F S64 .f32) (main_arg23 : FVec F S128x64 .f32) (main_arg24 : FVec F S64 .f32) (main_arg25 : FVec F S64x64 .f32) (main_arg26 : FVec F S64 .f32) (main_arg27 : FVec F S64x2 .f32) (main_arg28 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg12
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg13
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg14
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg15 main_arg16 main_arg17 main_arg18 main_arg19 main_arg20 main_arg21 main_arg22 main_arg23 main_arg24 main_arg25 main_arg26 main_arg27 main_arg28 main_v33

def fn {F : FTy → Type} [FloatOps F] (main_arg0 : FVec F S500000x128 .f32) (main_arg1 : FVec F S100000x64 .f32) (main_arg2 : FVec F S20000x64 .f32) (main_arg3 : IVec S500000 32) (main_arg4 : IVec S500000 32) (main_arg5 : IVec S500000 32) (main_arg6 : IVec S500000 32) (main_arg7 : IVec S500000 32) (main_arg8 : IVec S500000 32) (main_arg9 : IVec S500000 32) (main_arg10 : IVec S500000 32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S64x64 .f32) (main_arg18 : FVec F S64 .f32) (main_arg19 : FVec F S128x64 .f32) (main_arg20 : FVec F S64 .f32) (main_arg21 : FVec F S64x64 .f32) (main_arg22 : FVec F S64 .f32) (main_arg23 : FVec F S128x64 .f32) (main_arg24 : FVec F S64 .f32) (main_arg25 : FVec F S64x64 .f32) (main_arg26 : FVec F S64 .f32) (main_arg27 : FVec F S64x2 .f32) (main_arg28 : FVec F S2 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S20000x64 .f32 := Host.absf main_arg2
  let main_cst_2 : FVec F S_ .f32 := constant S_ .f32 0x7F800000#32
  let main_v10 : FVec F S20000x64 .f32 := broadcastInDim S20000x64 ![] bcast_S_S20000x64 main_cst_2
  let main_v11 : IVec S20000x64 1 := cmpf .olt main_v9 main_v10
  let main_c_3 : IVec S_ 1 := constantI S_ 1 1#1
  let main_v12 : IVec S_ 1 := (fun x v => Host.reduce IntOp.andi x v reducesTo_S20000x64_S_d0_1 h_S_) main_v11 main_c_3
  let main_v13 : IVec S_ 1 := andi main_v8 main_v12
  let main_v14 : FVec F S64x64 .f32 := Host.absf main_arg11
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S500000x128 : Shape := ⟨2, ![500000, 128]⟩
abbrev S100000x64 : Shape := ⟨2, ![100000, 64]⟩
abbrev S20000x64 : Shape := ⟨2, ![20000, 64]⟩
abbrev S500000 : Shape := ⟨1, ![500000]⟩
abbrev S64x64 : Shape := ⟨2, ![64, 64]⟩
abbrev S64 : Shape := ⟨1, ![64]⟩
abbrev S128x64 : Shape := ⟨2, ![128, 64]⟩
abbrev S64x2 : Shape := ⟨2, ![64, 2]⟩
abbrev S2 : Shape := ⟨1, ![2]⟩
abbrev S128x128 : Shape := ⟨2, ![128, 128]⟩
abbrev S128 : Shape := ⟨1, ![128]⟩
abbrev S1x128 : Shape := ⟨2, ![1, 128]⟩
abbrev S4000x128 : Shape := ⟨2, ![4000, 128]⟩
abbrev S500000x64 : Shape := ⟨2, ![500000, 64]⟩
abbrev S_ : Shape := ⟨0, ![]⟩
abbrev S500000x1 : Shape := ⟨2, ![500000, 1]⟩
abbrev S100000 : Shape := ⟨1, ![100000]⟩
abbrev S100000x1 : Shape := ⟨2, ![100000, 1]⟩
abbrev S20000 : Shape := ⟨1, ![20000]⟩
abbrev S20000x1 : Shape := ⟨2, ![20000, 1]⟩
abbrev S1x64 : Shape := ⟨2, ![1, 64]⟩
abbrev S4000x64 : Shape := ⟨2, ![4000, 64]⟩
abbrev S4000x1 : Shape := ⟨2, ![4000, 1]⟩
abbrev S1x2 : Shape := ⟨2, ![1, 2]⟩
abbrev S500000x2 : Shape := ⟨2, ![500000, 2]⟩
abbrev S2000x64 : Shape := ⟨2, ![2000, 64]⟩
abbrev S2000x1 : Shape := ⟨2, ![2000, 1]⟩
abbrev S2000x2 : Shape := ⟨2, ![2000, 2]⟩

abbrev nBuf : Space → Nat
  | .hbm => 125
  | .vmem => 34
  | .smem => 0
  | _ => 0

abbrev bufTy : (tb : Table) → Fin (tcTables nBuf tb) → BufTy
  | .hbm, ⟨0, _⟩ => ⟨S500000x128, .f32⟩
  | .hbm, ⟨1, _⟩ => ⟨S100000x64, .f32⟩
  | .hbm, ⟨2, _⟩ => ⟨S20000x64, .f32⟩
  | .hbm, ⟨3, _⟩ => ⟨S500000, .i32⟩
  | .hbm, ⟨4, _⟩ => ⟨S500000, .i32⟩
  | .hbm, ⟨5, _⟩ => ⟨S500000, .i32⟩
  | .hbm, ⟨6, _⟩ => ⟨S500000, .i32⟩
  | .hbm, ⟨7, _⟩ => ⟨S500000, .i32⟩
  | .hbm, ⟨8, _⟩ => ⟨S500000, .i32⟩
  | .hbm, ⟨9, _⟩ => ⟨S500000, .i32⟩
  | .hbm, ⟨10, _⟩ => ⟨S500000, .i32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x64, .f32⟩
  | .hbm, ⟨18, _⟩ => ⟨S64, .f32⟩
  | .hbm, ⟨19, _⟩ => ⟨S128x64, .f32⟩
  | .hbm, ⟨20, _⟩ => ⟨S64, .f32⟩
  | .hbm, ⟨21, _⟩ => ⟨S64x64, .f32⟩
  | .hbm, ⟨22, _⟩ => ⟨S64, .f32⟩
  | .hbm, ⟨23, _⟩ => ⟨S128x64, .f32⟩
  | .hbm, ⟨24, _⟩ => ⟨S64, .f32⟩
  | .hbm, ⟨25, _⟩ => ⟨S64x64, .f32⟩
  | .hbm, ⟨26, _⟩ => ⟨S64, .f32⟩
  | .hbm, ⟨27, _⟩ => ⟨S64x2, .f32⟩
  | .hbm, ⟨28, _⟩ => ⟨S2, .f32⟩
  | .hbm, ⟨29, _⟩ => ⟨S128x128, .f32⟩
  | .hbm, ⟨30, _⟩ => ⟨S128, .f32⟩
  | .hbm, ⟨31, _⟩ => ⟨S1x128, .f32⟩
  | .hbm, ⟨32, _⟩ => ⟨S500000x128, .bf16⟩
  | .hbm, ⟨33, _⟩ => ⟨S500000x64, .bf16⟩
  | .hbm, ⟨34, _⟩ => ⟨S500000x64, .bf16⟩
  | .hbm, ⟨35, _⟩ => ⟨S_, .i32⟩
  | .hbm, ⟨36, _⟩ => ⟨S500000, .i32⟩
  | .hbm, ⟨37, _⟩ => ⟨S500000, .i1⟩
  | .hbm, ⟨38, _⟩ => ⟨S_, .i32⟩
  | .hbm, ⟨39, _⟩ => ⟨S500000, .i32⟩
  | .hbm, ⟨40, _⟩ => ⟨S500000, .i32⟩
  | .hbm, ⟨41, _⟩ => ⟨S500000, .i32⟩
  | .hbm, ⟨42, _⟩ => ⟨S500000x1, .i32⟩
  | .hbm, ⟨43, _⟩ => ⟨S500000x64, .bf16⟩
  | .hbm, ⟨44, _⟩ => ⟨S500000x64, .f32⟩
  | .hbm, ⟨45, _⟩ => ⟨S_, .f32⟩
  | .hbm, ⟨46, _⟩ => ⟨S100000x64, .f32⟩
  | .hbm, ⟨47, _⟩ => ⟨S500000x1, .i32⟩
  | .hbm, ⟨48, _⟩ => ⟨S100000x64, .f32⟩
  | .hbm, ⟨49, _⟩ => ⟨S_, .f32⟩
  | .hbm, ⟨50, _⟩ => ⟨S500000, .f32⟩
  | .hbm, ⟨51, _⟩ => ⟨S_, .f32⟩
  | .hbm, ⟨52, _⟩ => ⟨S100000, .f32⟩
  | .hbm, ⟨53, _⟩ => ⟨S500000x1, .i32⟩
  | .hbm, ⟨54, _⟩ => ⟨S100000, .f32⟩
  | .hbm, ⟨55, _⟩ => ⟨S100000x1, .f32⟩
  | .hbm, ⟨56, _⟩ => ⟨S_, .i32⟩
  | .hbm, ⟨57, _⟩ => ⟨S500000, .i32⟩
  | .hbm, ⟨58, _⟩ => ⟨S500000, .i1⟩
  | .hbm, ⟨59, _⟩ => ⟨S_, .i32⟩
  | .hbm, ⟨60, _⟩ => ⟨S500000, .i32⟩
  | .hbm, ⟨61, _⟩ => ⟨S500000, .i32⟩
  | .hbm, ⟨62, _⟩ => ⟨S500000, .i32⟩
  | .hbm, ⟨63, _⟩ => ⟨S500000x1, .i32⟩
  | .hbm, ⟨64, _⟩ => ⟨S500000x64, .bf16⟩
  | .hbm, ⟨65, _⟩ => ⟨S500000x64, .f32⟩
  | .hbm, ⟨66, _⟩ => ⟨S_, .f32⟩
  | .hbm, ⟨67, _⟩ => ⟨S20000x64, .f32⟩
  | .hbm, ⟨68, _⟩ => ⟨S500000x1, .i32⟩
  | .hbm, ⟨69, _⟩ => ⟨S20000x64, .f32⟩
  | .hbm, ⟨70, _⟩ => ⟨S_, .f32⟩
  | .hbm, ⟨71, _⟩ => ⟨S500000, .f32⟩
  | .hbm, ⟨72, _⟩ => ⟨S_, .f32⟩
  | .hbm, ⟨73, _⟩ => ⟨S20000, .f32⟩
  | .hbm, ⟨74, _⟩ => ⟨S500000x1, .i32⟩
  | .hbm, ⟨75, _⟩ => ⟨S20000, .f32⟩
  | .hbm, ⟨76, _⟩ => ⟨S20000x1, .f32⟩
  | .hbm, ⟨77, _⟩ => ⟨S1x64, .f32⟩
  | .hbm, ⟨78, _⟩ => ⟨S100000x64, .bf16⟩
  | .hbm, ⟨79, _⟩ => ⟨S1x64, .f32⟩
  | .hbm, ⟨80, _⟩ => ⟨S20000x64, .bf16⟩
  | .hbm, ⟨81, _⟩ => ⟨S_, .i32⟩
  | .hbm, ⟨82, _⟩ => ⟨S500000, .i32⟩
  | .hbm, ⟨83, _⟩ => ⟨S500000, .i1⟩
  | .hbm, ⟨84, _⟩ => ⟨S_, .i32⟩
  | .hbm, ⟨85, _⟩ => ⟨S500000, .i32⟩
  | .hbm, ⟨86, _⟩ => ⟨S500000, .i32⟩
  | .hbm, ⟨87, _⟩ => ⟨S500000, .i32⟩
  | .hbm, ⟨88, _⟩ => ⟨S500000x1, .i32⟩
  | .hbm, ⟨89, _⟩ => ⟨S500000x64, .bf16⟩
  | .hbm, ⟨90, _⟩ => ⟨S500000x64, .f32⟩
  | .hbm, ⟨91, _⟩ => ⟨S_, .f32⟩
  | .hbm, ⟨92, _⟩ => ⟨S500000x64, .f32⟩
  | .hbm, ⟨93, _⟩ => ⟨S500000x1, .i32⟩
  | .hbm, ⟨94, _⟩ => ⟨S500000x64, .f32⟩
  | .hbm, ⟨95, _⟩ => ⟨S_, .f32⟩
  | .hbm, ⟨96, _⟩ => ⟨S500000, .f32⟩
  | .hbm, ⟨97, _⟩ => ⟨S_, .f32⟩
  | .hbm, ⟨98, _⟩ => ⟨S500000, .f32⟩
  | .hbm, ⟨99, _⟩ => ⟨S500000x1, .i32⟩
  | .hbm, ⟨100, _⟩ => ⟨S500000, .f32⟩
  | .hbm, ⟨101, _⟩ => ⟨S500000x1, .f32⟩
  | .hbm, ⟨102, _⟩ => ⟨S_, .i32⟩
  | .hbm, ⟨103, _⟩ => ⟨S500000, .i32⟩
  | .hbm, ⟨104, _⟩ => ⟨S500000, .i1⟩
  | .hbm, ⟨105, _⟩ => ⟨S_, .i32⟩
  | .hbm, ⟨106, _⟩ => ⟨S500000, .i32⟩
  | .hbm, ⟨107, _⟩ => ⟨S500000, .i32⟩
  | .hbm, ⟨108, _⟩ => ⟨S500000, .i32⟩
  | .hbm, ⟨109, _⟩ => ⟨S500000x1, .i32⟩
  | .hbm, ⟨110, _⟩ => ⟨S500000x64, .bf16⟩
  | .hbm, ⟨111, _⟩ => ⟨S500000x64, .f32⟩
  | .hbm, ⟨112, _⟩ => ⟨S_, .f32⟩
  | .hbm, ⟨113, _⟩ => ⟨S500000x64, .f32⟩
  | .hbm, ⟨114, _⟩ => ⟨S500000x1, .i32⟩
  | .hbm, ⟨115, _⟩ => ⟨S500000x64, .f32⟩
  | .hbm, ⟨116, _⟩ => ⟨S_, .f32⟩
  | .hbm, ⟨117, _⟩ => ⟨S500000, .f32⟩
  | .hbm, ⟨118, _⟩ => ⟨S_, .f32⟩
  | .hbm, ⟨119, _⟩ => ⟨S500000, .f32⟩
  | .hbm, ⟨120, _⟩ => ⟨S500000x1, .i32⟩
  | .hbm, ⟨121, _⟩ => ⟨S500000, .f32⟩
  | .hbm, ⟨122, _⟩ => ⟨S500000x1, .f32⟩
  | .hbm, ⟨123, _⟩ => ⟨S1x2, .f32⟩
  | .hbm, ⟨124, _⟩ => ⟨S500000x2, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S1x128, .f32⟩
  | .local _ .vmem, ⟨4, _⟩ => ⟨S4000x128, .bf16⟩
  | .local _ .vmem, ⟨5, _⟩ => ⟨S4000x128, .bf16⟩
  | .local _ .vmem, ⟨6, _⟩ => ⟨S4000x64, .f32⟩
  | .local _ .vmem, ⟨7, _⟩ => ⟨S4000x64, .f32⟩
  | .local _ .vmem, ⟨8, _⟩ => ⟨S4000x1, .f32⟩
  | .local _ .vmem, ⟨9, _⟩ => ⟨S4000x1, .f32⟩
  | .local _ .vmem, ⟨10, _⟩ => ⟨S64x64, .f32⟩
  | .local _ .vmem, ⟨11, _⟩ => ⟨S1x64, .f32⟩
  | .local _ .vmem, ⟨12, _⟩ => ⟨S4000x64, .bf16⟩
  | .local _ .vmem, ⟨13, _⟩ => ⟨S4000x64, .bf16⟩
  | .local _ .vmem, ⟨14, _⟩ => ⟨S4000x64, .f32⟩
  | .local _ .vmem, ⟨15, _⟩ => ⟨S4000x64, .f32⟩
  | .local _ .vmem, ⟨16, _⟩ => ⟨S4000x1, .f32⟩
  | .local _ .vmem, ⟨17, _⟩ => ⟨S4000x1, .f32⟩
  | .local _ .vmem, ⟨18, _⟩ => ⟨S64x64, .f32⟩
  | .local _ .vmem, ⟨19, _⟩ => ⟨S1x64, .f32⟩
  | .local _ .vmem, ⟨20, _⟩ => ⟨S4000x64, .bf16⟩
  | .local _ .vmem, ⟨21, _⟩ => ⟨S4000x64, .bf16⟩
  | .local _ .vmem, ⟨22, _⟩ => ⟨S2000x64, .f32⟩
  | .local _ .vmem, ⟨23, _⟩ => ⟨S2000x64, .f32⟩
  | .local _ .vmem, ⟨24, _⟩ => ⟨S2000x1, .f32⟩
  | .local _ .vmem, ⟨25, _⟩ => ⟨S2000x1, .f32⟩
  | .local _ .vmem, ⟨26, _⟩ => ⟨S2000x64, .f32⟩
  | .local _ .vmem, ⟨27, _⟩ => ⟨S2000x64, .f32⟩
  | .local _ .vmem, ⟨28, _⟩ => ⟨S2000x1, .f32⟩
  | .local _ .vmem, ⟨29, _⟩ => ⟨S2000x1, .f32⟩
  | .local _ .vmem, ⟨30, _⟩ => ⟨S64x2, .f32⟩
  | .local _ .vmem, ⟨31, _⟩ => ⟨S1x2, .f32⟩
  | .local _ .vmem, ⟨32, _⟩ => ⟨S2000x2, .f32⟩
  | .local _ .vmem, ⟨33, _⟩ => ⟨S2000x2, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_c : Ref sig .tc := ⟨.hbm, 35, rfl⟩
abbrev main_v6 : Ref sig .tc := ⟨.hbm, 36, rfl⟩
abbrev main_v7 : Ref sig .tc := ⟨.hbm, 37, rfl⟩
abbrev main_c_0 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_cst_1 : Ref sig .tc := ⟨.hbm, 49, rfl⟩
abbrev main_v17 : Ref sig .tc := ⟨.hbm, 50, rfl⟩
abbrev main_cst_2 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_c_3 : Ref sig .tc := ⟨.hbm, 56, rfl⟩
abbrev main_v22 : Ref sig .tc := ⟨.hbm, 57, rfl⟩
abbrev main_v23 : Ref sig .tc := ⟨.hbm, 58, rfl⟩
abbrev main_c_4 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_5 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst_6 : Ref sig .tc := ⟨.hbm, 70, rfl⟩
abbrev main_v33 : Ref sig .tc := ⟨.hbm, 71, rfl⟩
abbrev main_cst_7 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_c_8 : Ref sig .tc := ⟨.hbm, 81, rfl⟩
abbrev main_v42 : Ref sig .tc := ⟨.hbm, 82, rfl⟩
abbrev main_v43 : Ref sig .tc := ⟨.hbm, 83, rfl⟩
abbrev main_c_9 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_cst_10 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_cst_11 : Ref sig .tc := ⟨.hbm, 95, rfl⟩
abbrev main_v53 : Ref sig .tc := ⟨.hbm, 96, rfl⟩
abbrev main_cst_12 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_c_13 : Ref sig .tc := ⟨.hbm, 102, rfl⟩
abbrev main_v58 : Ref sig .tc := ⟨.hbm, 103, rfl⟩
abbrev main_v59 : Ref sig .tc := ⟨.hbm, 104, rfl⟩
abbrev main_c_14 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_cst_15 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_cst_16 : Ref sig .tc := ⟨.hbm, 116, rfl⟩
abbrev main_v69 : Ref sig .tc := ⟨.hbm, 117, rfl⟩
abbrev main_cst_17 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg6_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev cc3_sem4_0 : DmaSem sig := 30
abbrev cc3_sem5_0 : DmaSem sig := 31
abbrev cc3_sem6_0 : DmaSem sig := 32
abbrev cc3_sem6_1 : DmaSem sig := 33

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![250], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S64x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x2 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  concatenates_S128x64_S128x64_S128x128_d1 : Shape.Concatenates [S128x64, S128x64] S128x128 1
  concatenates_S64_S64_S128_d0 : Shape.Concatenates [S64, S64] S128 0
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  slices_S500000x128_S500000x64_0_0 : S500000x128.Slices ![0, 0] S500000x64
  slices_S500000x128_S500000x64_0_64 : S500000x128.Slices ![0, 64] S500000x64
  bcast_S_S500000 : S_.BroadcastsInDim S500000 (![] : Fin 0 → Fin S500000.rank)
  bcast_S500000_S500000x1_0 : S500000.BroadcastsInDim S500000x1 (![0] : Fin 1 → Fin S500000x1.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  bcast_S_S20000x64 : S_.BroadcastsInDim S20000x64 (![] : Fin 0 → Fin S20000x64.rank)
  bcast_S_S20000 : S_.BroadcastsInDim S20000 (![] : Fin 0 → Fin S20000.rank)
  shapeCasts_S20000_S20000x1 : S20000.ShapeCasts S20000x1
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  packedbf16_S4000x64_S4000x64_0_0 : (Rect.unit (s := S4000x64) ![0, 0] S4000x64.size inb_S4000x64_S4000x64_0_0).PackedRows (EltTy.packing .bf16)
  bcast_S_S500000x64 : S_.BroadcastsInDim S500000x64 (![] : Fin 0 → Fin S500000x64.rank)
  shapeCasts_S500000_S500000x1 : S500000.ShapeCasts S500000x1
  shapeCasts_S2_S1x2 : S2.ShapeCasts S1x2
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  dot_S4000x128_S128x128_S4000x128_1_0_0_1_n_n_wf : DotDims.WF S4000x128 S128x128 S4000x128 [1] [0] [0] [1] [] []
  gather_S500000x64_S500000x1_S500000x64_1_0_n_n_0_1_164_wf : GatherDims.WF S500000x64 S500000x1 S500000x64 [1] [0] [] [0] [] 1 ![1, 64]
  scatter_S100000x64_S500000x1_S500000x64_1_0_0_1_wf : ScatterDims.WF S100000x64 S500000x1 S500000x64 [1] [0] [0] 1
  scatter_S100000_S500000x1_S500000_n_0_0_1_wf : ScatterDims.WF S100000 S500000x1 S500000 [] [0] [0] 1
  scatter_S20000x64_S500000x1_S500000x64_1_0_0_1_wf : ScatterDims.WF S20000x64 S500000x1 S500000x64 [1] [0] [0] 1
  scatter_S20000_S500000x1_S500000_n_0_0_1_wf : ScatterDims.WF S20000 S500000x1 S500000 [] [0] [0] 1
  dot_S4000x64_S64x64_S4000x64_1_0_0_1_n_n_wf : DotDims.WF S4000x64 S64x64 S4000x64 [1] [0] [0] [1] [] []
  gather_S100000x64_S500000x1_S500000x64_1_0_n_n_0_1_164_wf : GatherDims.WF S100000x64 S500000x1 S500000x64 [1] [0] [] [0] [] 1 ![1, 64]
  scatter_S500000x64_S500000x1_S500000x64_1_0_0_1_wf : ScatterDims.WF S500000x64 S500000x1 S500000x64 [1] [0] [0] 1
  scatter_S500000_S500000x1_S500000_n_0_0_1_wf : ScatterDims.WF S500000 S500000x1 S500000 [] [0] [0] 1
  gather_S20000x64_S500000x1_S500000x64_1_0_n_n_0_1_164_wf : GatherDims.WF S20000x64 S500000x1 S500000x64 [1] [0] [] [0] [] 1 ![1, 64]
  dot_S2000x64_S64x2_S2000x2_1_0_0_1_n_n_wf : DotDims.WF S2000x64 S64x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S500000x128.size a
  hwx0_0 : ∀ i : grid0.Coords, EltTy.bits .f32 = 32 ∨ (Rect.block (s := S500000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S500000x128.size a
  hwx0_3 : ∀ i : grid0.Coords, EltTy.bits .bf16 = 32 ∨ (Rect.block (s := S500000x128) S4000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S100000x64.size a
  hwx1_4 : ∀ i : grid1.Coords, EltTy.bits .bf16 = 32 ∨ (Rect.block (s := S100000x64) S4000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S20000x64.size a
  hwx2_0 : ∀ i : grid2.Coords, EltTy.bits .f32 = 32 ∨ (Rect.block (s := S20000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S20000x1.size a
  hwx2_1 : ∀ i : grid2.Coords, EltTy.bits .f32 = 32 ∨ (Rect.block (s := S20000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x64.size a ≤ S20000x64.size a
  hwx2_4 : ∀ i : grid2.Coords, EltTy.bits .bf16 = 32 ∨ (Rect.block (s := S20000x64) S4000x64.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S500000x64.size a
  hwx3_0 : ∀ i : grid3.Coords, EltTy.bits .f32 = 32 ∨ (Rect.block (s := S500000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S500000x1.size a
  hwx3_1 : ∀ i : grid3.Coords, EltTy.bits .f32 = 32 ∨ (Rect.block (s := S500000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S500000x64.size a
  hwx3_2 : ∀ i : grid3.Coords, EltTy.bits .f32 = 32 ∨ (Rect.block (s := S500000x64) S2000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x1.size a ≤ S500000x1.size a
  hwx3_3 : ∀ i : grid3.Coords, EltTy.bits .f32 = 32 ∨ (Rect.block (s := S500000x1) S2000x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x2.size a ≤ S64x2.size a
  hwx3_4 : ∀ i : grid3.Coords, EltTy.bits .f32 = 32 ∨ (Rect.block (s := S64x2) S64x2.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x2.size a ≤ S1x2.size a
  hwx3_5 : ∀ i : grid3.Coords, EltTy.bits .f32 = 32 ∨ (Rect.block (s := S1x2) S1x2.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x2.size a ≤ S500000x2.size a
  hwx3_6 : ∀ i : grid3.Coords, EltTy.bits .f32 = 32 ∨ (Rect.block (s := S500000x2) S2000x2.size (cc3_transform_6 i) (hinb3_6 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S500000x64_S500000x1_S500000x64_1_0_n_n_0_1_164 : GatherDims S500000x64 S500000x1 S500000x64 where
  offsetDims := [1]
  collapsedSliceDims := [0]
  operandBatchingDims := []
  startIndicesBatchingDims := []
  startIndexMap := [0]
  indexVectorDim := 1
  sliceSizes := ![1, 64]
  wf := gather_S500000x64_S500000x1_S500000x64_1_0_n_n_0_1_164_wf
def scatter_S100000x64_S500000x1_S500000x64_1_0_0_1 : ScatterDims S100000x64 S500000x1 S500000x64 where
  updateWindowDims := [1]
  insertedWindowDims := [0]
  scatterDimsToOperandDims := [0]
  indexVectorDim := 1
  wf := scatter_S100000x64_S500000x1_S500000x64_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def scatter_S20000x64_S500000x1_S500000x64_1_0_0_1 : ScatterDims S20000x64 S500000x1 S500000x64 where
  updateWindowDims := [1]
  insertedWindowDims := [0]
  scatterDimsToOperandDims := [0]
  indexVectorDim := 1
  wf := scatter_S20000x64_S500000x1_S500000x64_1_0_0_1_wf
def scatter_S20000_S500000x1_S500000_n_0_0_1 : ScatterDims S20000 S500000x1 S500000 where
  updateWindowDims := []
  insertedWindowDims := [0]
  scatterDimsToOperandDims := [0]
  indexVectorDim := 1
  wf := scatter_S20000_S500000x1_S500000_n_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def scatter_S500000x64_S500000x1_S500000x64_1_0_0_1 : ScatterDims S500000x64 S500000x1 S500000x64 where
  updateWindowDims := [1]
  insertedWindowDims := [0]
  scatterDimsToOperandDims := [0]
  indexVectorDim := 1
  wf := scatter_S500000x64_S500000x1_S500000x64_1_0_0_1_wf
def scatter_S500000_S500000x1_S500000_n_0_0_1 : ScatterDims S500000 S500000x1 S500000 where
  updateWindowDims := []
  insertedWindowDims := [0]
  scatterDimsToOperandDims := [0]
  indexVectorDim := 1
  wf := scatter_S500000_S500000x1_S500000_n_0_0_1_wf
def gather_S20000x64_S500000x1_S500000x64_1_0_n_n_0_1_164 : GatherDims S20000x64 S500000x1 S500000x64 where
  offsetDims := [1]
  collapsedSliceDims := [0]
  operandBatchingDims := []
  startIndicesBatchingDims := []
  startIndexMap := [0]
  indexVectorDim := 1
  sliceSizes := ![1, 64]
  wf := gather_S20000x64_S500000x1_S500000x64_1_0_n_n_0_1_164_wf
def dot_S2000x64_S64x2_S2000x2_1_0_0_1_n_n : DotDims S2000x64 S64x2 S2000x2 where
  lhsContracting := [1]
  rhsContracting := [0]
  lhsNonContracting := [0]
  rhsNonContracting := [1]
  lhsBatch := []
  rhsBatch := []
  wf := dot_S2000x64_S64x2_S2000x2_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg13) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v32) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg17) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S4000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v52) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v68) S2000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v73) S2000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg27) S64x2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v74) S1x2.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v75) S2000x2.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S500000x128 : Shape := ⟨2, ![500000, 128]⟩
abbrev S100000x64 : Shape := ⟨2, ![100000, 64]⟩
abbrev S20000x64 : Shape := ⟨2, ![20000, 64]⟩
abbrev S500000 : Shape := ⟨1, ![500000]⟩
abbrev S64x64 : Shape := ⟨2, ![64, 64]⟩
abbrev S64 : Shape := ⟨1, ![64]⟩
abbrev S128x64 : Shape := ⟨2, ![128, 64]⟩
abbrev S64x2 : Shape := ⟨2, ![64, 2]⟩
abbrev S2 : Shape := ⟨1, ![2]⟩
abbrev S1x64 : Shape := ⟨2, ![1, 64]⟩
abbrev S_ : Shape := ⟨0, ![]⟩
abbrev S500000x1 : Shape := ⟨2, ![500000, 1]⟩
abbrev S500000x64 : Shape := ⟨2, ![500000, 64]⟩
abbrev S100000x1 : Shape := ⟨2, ![100000, 1]⟩
abbrev S20000x1 : Shape := ⟨2, ![20000, 1]⟩
abbrev S500000x2 : Shape := ⟨2, ![500000, 2]⟩
abbrev S1x2 : Shape := ⟨2, ![1, 2]⟩

abbrev nBuf : Space → Nat
  | .hbm => 298
  | .vmem => 0
  | .smem => 0
  | _ => 0

abbrev hbmTy0_0 (i : Nat) : BufTy := match i % 128 with
  | 0 => ⟨S500000x128, .f32⟩
  | 1 => ⟨S100000x64, .f32⟩
  | 2 => ⟨S20000x64, .f32⟩
  | 3 => ⟨S500000, .i32⟩
  | 4 => ⟨S500000, .i32⟩
  | 5 => ⟨S500000, .i32⟩
  | 6 => ⟨S500000, .i32⟩
  | 7 => ⟨S500000, .i32⟩
  | 8 => ⟨S500000, .i32⟩
  | 9 => ⟨S500000, .i32⟩
  | 10 => ⟨S500000, .i32⟩
  | 11 => ⟨S64x64, .f32⟩
  | 12 => ⟨S64, .f32⟩
  | 13 => ⟨S64x64, .f32⟩
  | 14 => ⟨S64, .f32⟩
  | 15 => ⟨S64x64, .f32⟩
  | 16 => ⟨S64, .f32⟩
  | 17 => ⟨S64x64, .f32⟩
  | 18 => ⟨S64, .f32⟩
  | 19 => ⟨S128x64, .f32⟩
  | 20 => ⟨S64, .f32⟩
  | 21 => ⟨S64x64, .f32⟩
  | 22 => ⟨S64, .f32⟩
  | 23 => ⟨S128x64, .f32⟩
  | 24 => ⟨S64, .f32⟩
  | 25 => ⟨S64x64, .f32⟩
  | 26 => ⟨S64, .f32⟩
  | 27 => ⟨S64x2, .f32⟩
  | 28 => ⟨S2, .f32⟩
  | 29 => ⟨S100000x64, .f32⟩
  | 30 => ⟨S1x64, .f32⟩
  | 31 => ⟨S100000x64, .f32⟩
  | 32 => ⟨S100000x64, .f32⟩
  | 33 => ⟨S_, .i32⟩
  | 34 => ⟨S500000, .i32⟩
  | 35 => ⟨S500000, .i1⟩
  | 36 => ⟨S_, .i32⟩
  | 37 => ⟨S500000, .i32⟩
  | 38 => ⟨S500000, .i32⟩
  | 39 => ⟨S500000, .i32⟩
  | 40 => ⟨S500000x1, .i32⟩
  | 41 => ⟨S500000x64, .f32⟩
  | 42 => ⟨S_, .f32⟩
  | 43 => ⟨S500000x64, .f32⟩
  | 44 => ⟨S500000x1, .i32⟩
  | 45 => ⟨S500000x64, .f32⟩
  | 46 => ⟨S_, .f32⟩
  | 47 => ⟨S500000x1, .f32⟩
  | 48 => ⟨S_, .f32⟩
  | 49 => ⟨S500000x1, .f32⟩
  | 50 => ⟨S500000x1, .i32⟩
  | 51 => ⟨S500000x1, .f32⟩
  | 52 => ⟨S_, .f32⟩
  | 53 => ⟨S500000x1, .f32⟩
  | 54 => ⟨S500000x1, .f32⟩
  | 55 => ⟨S500000x64, .f32⟩
  | 56 => ⟨S500000x64, .f32⟩
  | 57 => ⟨S_, .f32⟩
  | 58 => ⟨S500000x64, .f32⟩
  | 59 => ⟨S500000x64, .f32⟩
  | 60 => ⟨S20000x64, .f32⟩
  | 61 => ⟨S1x64, .f32⟩
  | 62 => ⟨S20000x64, .f32⟩
  | 63 => ⟨S20000x64, .f32⟩
  | 64 => ⟨S_, .i32⟩
  | 65 => ⟨S500000, .i32⟩
  | 66 => ⟨S500000, .i1⟩
  | 67 => ⟨S_, .i32⟩
  | 68 => ⟨S500000, .i32⟩
  | 69 => ⟨S500000, .i32⟩
  | 70 => ⟨S500000, .i32⟩
  | 71 => ⟨S500000x1, .i32⟩
  | 72 => ⟨S500000x64, .f32⟩
  | 73 => ⟨S_, .f32⟩
  | 74 => ⟨S500000x64, .f32⟩
  | 75 => ⟨S500000x1, .i32⟩
  | 76 => ⟨S500000x64, .f32⟩
  | 77 => ⟨S_, .f32⟩
  | 78 => ⟨S500000x1, .f32⟩
  | 79 => ⟨S_, .f32⟩
  | 80 => ⟨S500000x1, .f32⟩
  | 81 => ⟨S500000x1, .i32⟩
  | 82 => ⟨S500000x1, .f32⟩
  | 83 => ⟨S_, .f32⟩
  | 84 => ⟨S500000x1, .f32⟩
  | 85 => ⟨S500000x1, .f32⟩
  | 86 => ⟨S500000x64, .f32⟩
  | 87 => ⟨S500000x64, .f32⟩
  | 88 => ⟨S500000x64, .f32⟩
  | 89 => ⟨S500000x64, .f32⟩
  | 90 => ⟨S1x64, .f32⟩
  | 91 => ⟨S500000x64, .f32⟩
  | 92 => ⟨S500000x64, .f32⟩
  | 93 => ⟨S_, .i32⟩
  | 94 => ⟨S500000, .i32⟩
  | 95 => ⟨S500000, .i1⟩
  | 96 => ⟨S_, .i32⟩
  | 97 => ⟨S500000, .i32⟩
  | 98 => ⟨S500000, .i32⟩
  | 99 => ⟨S500000, .i32⟩
  | 100 => ⟨S500000x1, .i32⟩
  | 101 => ⟨S500000x64, .f32⟩
  | 102 => ⟨S_, .f32⟩
  | 103 => ⟨S100000x64, .f32⟩
  | 104 => ⟨S500000x1, .i32⟩
  | 105 => ⟨S100000x64, .f32⟩
  | 106 => ⟨S_, .f32⟩
  | 107 => ⟨S500000x1, .f32⟩
  | 108 => ⟨S_, .f32⟩
  | 109 => ⟨S100000x1, .f32⟩
  | 110 => ⟨S500000x1, .i32⟩
  | 111 => ⟨S100000x1, .f32⟩
  | 112 => ⟨S_, .f32⟩
  | 113 => ⟨S100000x1, .f32⟩
  | 114 => ⟨S100000x1, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S500000x64, .f32⟩
  | 121 => ⟨S1x64, .f32⟩
  | 122 => ⟨S500000x64, .f32⟩
  | 123 => ⟨S500000x64, .f32⟩
  | 124 => ⟨S_, .i32⟩
  | 125 => ⟨S500000, .i32⟩
  | 126 => ⟨S500000, .i1⟩
  | 127 => ⟨S_, .i32⟩
  | _ => ⟨S500000x128, .f32⟩

abbrev hbmTy0_1 (i : Nat) : BufTy := match i % 128 with
  | 0 => ⟨S500000, .i32⟩
  | 1 => ⟨S500000, .i32⟩
  | 2 => ⟨S500000, .i32⟩
  | 3 => ⟨S500000x1, .i32⟩
  | 4 => ⟨S500000x64, .f32⟩
  | 5 => ⟨S_, .f32⟩
  | 6 => ⟨S20000x64, .f32⟩
  | 7 => ⟨S500000x1, .i32⟩
  | 8 => ⟨S20000x64, .f32⟩
  | 9 => ⟨S_, .f32⟩
  | 10 => ⟨S500000x1, .f32⟩
  | 11 => ⟨S_, .f32⟩
  | 12 => ⟨S20000x1, .f32⟩
  | 13 => ⟨S500000x1, .i32⟩
  | 14 => ⟨S20000x1, .f32⟩
  | 15 => ⟨S_, .f32⟩
  | 16 => ⟨S20000x1, .f32⟩
  | 17 => ⟨S20000x1, .f32⟩
  | 18 => ⟨S20000x64, .f32⟩
  | 19 => ⟨S20000x64, .f32⟩
  | 20 => ⟨S_, .f32⟩
  | 21 => ⟨S20000x64, .f32⟩
  | 22 => ⟨S20000x64, .f32⟩
  | 23 => ⟨S_, .f32⟩
  | 24 => ⟨S500000x64, .f32⟩
  | 25 => ⟨S500000x64, .i1⟩
  | 26 => ⟨S_, .f32⟩
  | 27 => ⟨S500000x64, .f32⟩
  | 28 => ⟨S500000x64, .f32⟩
  | 29 => ⟨S500000x64, .f32⟩
  | 30 => ⟨S_, .f32⟩
  | 31 => ⟨S100000x64, .f32⟩
  | 32 => ⟨S100000x64, .i1⟩
  | 33 => ⟨S_, .f32⟩
  | 34 => ⟨S100000x64, .f32⟩
  | 35 => ⟨S100000x64, .f32⟩
  | 36 => ⟨S100000x64, .f32⟩
  | 37 => ⟨S_, .f32⟩
  | 38 => ⟨S20000x64, .f32⟩
  | 39 => ⟨S20000x64, .i1⟩
  | 40 => ⟨S_, .f32⟩
  | 41 => ⟨S20000x64, .f32⟩
  | 42 => ⟨S20000x64, .f32⟩
  | 43 => ⟨S20000x64, .f32⟩
  | 44 => ⟨S100000x64, .f32⟩
  | 45 => ⟨S1x64, .f32⟩
  | 46 => ⟨S100000x64, .f32⟩
  | 47 => ⟨S100000x64, .f32⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S500000x64, .f32⟩
  | 57 => ⟨S_, .f32⟩
  | 58 => ⟨S500000x64, .f32⟩
  | 59 => ⟨S500000x1, .i32⟩
  | 60 => ⟨S500000x64, .f32⟩
  | 61 => ⟨S_, .f32⟩
  | 62 => ⟨S500000x1, .f32⟩
  | 63 => ⟨S_, .f32⟩
  | 64 => ⟨S500000x1, .f32⟩
  | 65 => ⟨S500000x1, .i32⟩
  | 66 => ⟨S500000x1, .f32⟩
  | 67 => ⟨S_, .f32⟩
  | 68 => ⟨S500000x1, .f32⟩
  | 69 => ⟨S500000x1, .f32⟩
  | 70 => ⟨S500000x64, .f32⟩
  | 71 => ⟨S500000x64, .f32⟩
  | 72 => ⟨S_, .f32⟩
  | 73 => ⟨S500000x64, .f32⟩
  | 74 => ⟨S500000x64, .f32⟩
  | 75 => ⟨S20000x64, .f32⟩
  | 76 => ⟨S1x64, .f32⟩
  | 77 => ⟨S20000x64, .f32⟩
  | 78 => ⟨S20000x64, .f32⟩
  | 79 => ⟨S_, .i32⟩
  | 80 => ⟨S500000, .i32⟩
  | 81 => ⟨S500000, .i1⟩
  | 82 => ⟨S_, .i32⟩
  | 83 => ⟨S500000, .i32⟩
  | 84 => ⟨S500000, .i32⟩
  | 85 => ⟨S500000, .i32⟩
  | 86 => ⟨S500000x1, .i32⟩
  | 87 => ⟨S500000x64, .f32⟩
  | 88 => ⟨S_, .f32⟩
  | 89 => ⟨S500000x64, .f32⟩
  | 90 => ⟨S500000x1, .i32⟩
  | 91 => ⟨S500000x64, .f32⟩
  | 92 => ⟨S_, .f32⟩
  | 93 => ⟨S500000x1, .f32⟩
  | 94 => ⟨S_, .f32⟩
  | 95 => ⟨S500000x1, .f32⟩
  | 96 => ⟨S500000x1, .i32⟩
  | 97 => ⟨S500000x1, .f32⟩
  | 98 => ⟨S_, .f32⟩
  | 99 => ⟨S500000x1, .f32⟩
  | 100 => ⟨S500000x1, .f32⟩
  | 101 => ⟨S500000x64, .f32⟩
  | 102 => ⟨S500000x64, .f32⟩
  | 103 => ⟨S500000x64, .f32⟩
  | 104 => ⟨S500000x64, .f32⟩
  | 105 => ⟨S1x64, .f32⟩
  | 106 => ⟨S500000x64, .f32⟩
  | 107 => ⟨S500000x64, .f32⟩
  | 108 => ⟨S_, .i32⟩
  | 109 => ⟨S500000, .i32⟩
  | 110 => ⟨S500000, .i1⟩
  | 111 => ⟨S_, .i32⟩
  | 112 => ⟨S500000, .i32⟩
  | 113 => ⟨S500000, .i32⟩
  | 114 => ⟨S500000, .i32⟩
  | 115 => ⟨S500000x1, .i32⟩
  | 116 => ⟨S500000x64, .f32⟩
  | 117 => ⟨S_, .f32⟩
  | 118 => ⟨S100000x64, .f32⟩
  | 119 => ⟨S500000x1, .i32⟩
  | 120 => ⟨S100000x64, .f32⟩
  | 121 => ⟨S_, .f32⟩
  | 122 => ⟨S500000x1, .f32⟩
  | 123 => ⟨S_, .f32⟩
  | 124 => ⟨S100000x1, .f32⟩
  | 125 => ⟨S500000x1, .i32⟩
  | 126 => ⟨S100000x1, .f32⟩
  | 127 => ⟨S_, .f32⟩
  | _ => ⟨S500000x128, .f32⟩

abbrev hbmTy0_2 (i : Nat) : BufTy := match i % 128 with
  | 0 => ⟨S100000x1, .f32⟩
  | 1 => ⟨S100000x1, .f32⟩
  | 2 => ⟨S100000x64, .f32⟩
  | 3 => ⟨S100000x64, .f32⟩
  | 4 => ⟨S_, .f32⟩
  | 5 => ⟨S100000x64, .f32⟩
  | 6 => ⟨S100000x64, .f32⟩
  | 7 => ⟨S500000x64, .f32⟩
  | 8 => ⟨S1x64, .f32⟩
  | 9 => ⟨S500000x64, .f32⟩
  | 10 => ⟨S500000x64, .f32⟩
  | 11 => ⟨S_, .i32⟩
  | 12 => ⟨S500000, .i32⟩
  | 13 => ⟨S500000, .i1⟩
  | 14 => ⟨S_, .i32⟩
  | 15 => ⟨S500000, .i32⟩
  | 16 => ⟨S500000, .i32⟩
  | 17 => ⟨S500000, .i32⟩
  | 18 => ⟨S500000x1, .i32⟩
  | 19 => ⟨S500000x64, .f32⟩
  | 20 => ⟨S_, .f32⟩
  | 21 => ⟨S20000x64, .f32⟩
  | 22 => ⟨S500000x1, .i32⟩
  | 23 => ⟨S20000x64, .f32⟩
  | 24 => ⟨S_, .f32⟩
  | 25 => ⟨S500000x1, .f32⟩
  | 26 => ⟨S_, .f32⟩
  | 27 => ⟨S20000x1, .f32⟩
  | 28 => ⟨S500000x1, .i32⟩
  | 29 => ⟨S20000x1, .f32⟩
  | 30 => ⟨S_, .f32⟩
  | 31 => ⟨S20000x1, .f32⟩
  | 32 => ⟨S20000x1, .f32⟩
  | 33 => ⟨S20000x64, .f32⟩
  | 34 => ⟨S20000x64, .f32⟩
  | 35 => ⟨S_, .f32⟩
  | 36 => ⟨S20000x64, .f32⟩
  | 37 => ⟨S20000x64, .f32⟩
  | 38 => ⟨S500000x2, .f32⟩
  | 39 => ⟨S1x2, .f32⟩
  | 40 => ⟨S500000x2, .f32⟩
  | 41 => ⟨S500000x2, .f32⟩
  | _ => ⟨S500000x128, .f32⟩

abbrev hbmTy (i : Nat) : BufTy := match i / 128 with
  | 0 => hbmTy0_0 i
  | 1 => hbmTy0_1 i
  | 2 => hbmTy0_2 i
  | _ => ⟨S500000x128, .f32⟩

abbrev bufTy : (tb : Table) → Fin (tcTables nBuf tb) → BufTy
  | .hbm, ⟨i, _⟩ => hbmTy i
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_c : Ref sig .tc := ⟨.hbm, 33, rfl⟩
abbrev main_v4 : Ref sig .tc := ⟨.hbm, 34, rfl⟩
abbrev main_v5 : Ref sig .tc := ⟨.hbm, 35, rfl⟩
abbrev main_c_0 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_1 : Ref sig .tc := ⟨.hbm, 46, rfl⟩
abbrev main_v14 : Ref sig .tc := ⟨.hbm, 47, rfl⟩
abbrev main_cst_2 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst_3 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_cst_4 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_c_5 : Ref sig .tc := ⟨.hbm, 64, rfl⟩
abbrev main_v28 : Ref sig .tc := ⟨.hbm, 65, rfl⟩
abbrev main_v29 : Ref sig .tc := ⟨.hbm, 66, rfl⟩
abbrev main_c_6 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_7 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst_8 : Ref sig .tc := ⟨.hbm, 77, rfl⟩
abbrev main_v38 : Ref sig .tc := ⟨.hbm, 78, rfl⟩
abbrev main_cst_9 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_cst_10 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_c_11 : Ref sig .tc := ⟨.hbm, 93, rfl⟩
abbrev main_v51 : Ref sig .tc := ⟨.hbm, 94, rfl⟩
abbrev main_v52 : Ref sig .tc := ⟨.hbm, 95, rfl⟩
abbrev main_c_12 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_13 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_cst_14 : Ref sig .tc := ⟨.hbm, 106, rfl⟩
abbrev main_v61 : Ref sig .tc := ⟨.hbm, 107, rfl⟩
abbrev main_cst_15 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_cst_16 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_cst_17 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_c_18 : Ref sig .tc := ⟨.hbm, 124, rfl⟩
abbrev main_v75 : Ref sig .tc := ⟨.hbm, 125, rfl⟩
abbrev main_v76 : Ref sig .tc := ⟨.hbm, 126, rfl⟩
abbrev main_c_19 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_cst_20 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_cst_21 : Ref sig .tc := ⟨.hbm, 137, rfl⟩
abbrev main_v85 : Ref sig .tc := ⟨.hbm, 138, rfl⟩
abbrev main_cst_22 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_cst_23 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_cst_24 : Ref sig .tc := ⟨.hbm, 148, rfl⟩
abbrev main_v93 : Ref sig .tc := ⟨.hbm, 149, rfl⟩
abbrev main_v94 : Ref sig .tc := ⟨.hbm, 150, rfl⟩
abbrev main_call0_cst : Ref sig .tc := ⟨.hbm, 151, rfl⟩
abbrev main_call0_v0 : Ref sig .tc := ⟨.hbm, 152, rfl⟩
abbrev main_call0_v1 : Ref sig .tc := ⟨.hbm, 153, rfl⟩
abbrev main_call0_cst_0 : Ref sig .tc := ⟨.hbm, 154, rfl⟩
abbrev main_call0_v2 : Ref sig .tc := ⟨.hbm, 155, rfl⟩
abbrev main_call0_v3 : Ref sig .tc := ⟨.hbm, 156, rfl⟩
abbrev main_v95 : Ref sig .tc := ⟨.hbm, 157, rfl⟩
abbrev main_call1_cst : Ref sig .tc := ⟨.hbm, 158, rfl⟩
abbrev main_call1_v0 : Ref sig .tc := ⟨.hbm, 159, rfl⟩
abbrev main_call1_v1 : Ref sig .tc := ⟨.hbm, 160, rfl⟩
abbrev main_call1_cst_0 : Ref sig .tc := ⟨.hbm, 161, rfl⟩
abbrev main_call1_v2 : Ref sig .tc := ⟨.hbm, 162, rfl⟩
abbrev main_call1_v3 : Ref sig .tc := ⟨.hbm, 163, rfl⟩
abbrev main_v96 : Ref sig .tc := ⟨.hbm, 164, rfl⟩
abbrev main_call2_cst : Ref sig .tc := ⟨.hbm, 165, rfl⟩
abbrev main_call2_v0 : Ref sig .tc := ⟨.hbm, 166, rfl⟩
abbrev main_call2_v1 : Ref sig .tc := ⟨.hbm, 167, rfl⟩
abbrev main_call2_cst_0 : Ref sig .tc := ⟨.hbm, 168, rfl⟩
abbrev main_call2_v2 : Ref sig .tc := ⟨.hbm, 169, rfl⟩
abbrev main_call2_v3 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_c_25 : Ref sig .tc := ⟨.hbm, 176, rfl⟩
abbrev main_v102 : Ref sig .tc := ⟨.hbm, 177, rfl⟩
abbrev main_v103 : Ref sig .tc := ⟨.hbm, 178, rfl⟩
abbrev main_c_26 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_cst_27 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_cst_28 : Ref sig .tc := ⟨.hbm, 189, rfl⟩
abbrev main_v112 : Ref sig .tc := ⟨.hbm, 190, rfl⟩
abbrev main_cst_29 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_cst_30 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_cst_31 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_c_32 : Ref sig .tc := ⟨.hbm, 207, rfl⟩
abbrev main_v126 : Ref sig .tc := ⟨.hbm, 208, rfl⟩
abbrev main_v127 : Ref sig .tc := ⟨.hbm, 209, rfl⟩
abbrev main_c_33 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_cst_34 : Ref sig .tc := ⟨.hbm, 216, rfl⟩
abbrev main_v133 : Ref sig .tc := ⟨.hbm, 217, rfl⟩
abbrev main_v134 : Ref sig .tc := ⟨.hbm, 218, rfl⟩
abbrev main_v135 : Ref sig .tc := ⟨.hbm, 219, rfl⟩
abbrev main_cst_35 : Ref sig .tc := ⟨.hbm, 220, rfl⟩
abbrev main_v136 : Ref sig .tc := ⟨.hbm, 221, rfl⟩
abbrev main_cst_36 : Ref sig .tc := ⟨.hbm, 222, rfl⟩
abbrev main_v137 : Ref sig .tc := ⟨.hbm, 223, rfl⟩
abbrev main_v138 : Ref sig .tc := ⟨.hbm, 224, rfl⟩
abbrev main_v139 : Ref sig .tc := ⟨.hbm, 225, rfl⟩
abbrev main_cst_37 : Ref sig .tc := ⟨.hbm, 226, rfl⟩
abbrev main_v140 : Ref sig .tc := ⟨.hbm, 227, rfl⟩
abbrev main_v141 : Ref sig .tc := ⟨.hbm, 228, rfl⟩
abbrev main_v142 : Ref sig .tc := ⟨.hbm, 229, rfl⟩
abbrev main_v143 : Ref sig .tc := ⟨.hbm, 230, rfl⟩
abbrev main_v144 : Ref sig .tc := ⟨.hbm, 231, rfl⟩
abbrev main_v145 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_c_38 : Ref sig .tc := ⟨.hbm, 236, rfl⟩
abbrev main_v149 : Ref sig .tc := ⟨.hbm, 237, rfl⟩
abbrev main_v150 : Ref sig .tc := ⟨.hbm, 238, rfl⟩
abbrev main_c_39 : Ref sig .tc := ⟨.hbm, 239, rfl⟩
abbrev main_v151 : Ref sig .tc := ⟨.hbm, 240, rfl⟩
abbrev main_v152 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_cst_40 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_cst_41 : Ref sig .tc := ⟨.hbm, 249, rfl⟩
abbrev main_v159 : Ref sig .tc := ⟨.hbm, 250, rfl⟩
abbrev main_cst_42 : Ref sig .tc := ⟨.hbm, 251, rfl⟩
abbrev main_v160 : Ref sig .tc := ⟨.hbm, 252, rfl⟩
abbrev main_v161 : Ref sig .tc := ⟨.hbm, 253, rfl⟩
abbrev main_v162 : Ref sig .tc := ⟨.hbm, 254, rfl⟩
abbrev main_cst_43 : Ref sig .tc := ⟨.hbm, 255, rfl⟩
abbrev main_v163 : Ref sig .tc := ⟨.hbm, 256, rfl⟩
abbrev main_v164 : Ref sig .tc := ⟨.hbm, 257, rfl⟩
abbrev main_v165 : Ref sig .tc := ⟨.hbm, 258, rfl⟩
abbrev main_v166 : Ref sig .tc := ⟨.hbm, 259, rfl⟩
abbrev main_cst_44 : Ref sig .tc := ⟨.hbm, 260, rfl⟩
abbrev main_v167 : Ref sig .tc := ⟨.hbm, 261, rfl⟩
abbrev main_v168 : Ref sig .tc := ⟨.hbm, 262, rfl⟩
abbrev main_v169 : Ref sig .tc := ⟨.hbm, 263, rfl⟩
abbrev main_v170 : Ref sig .tc := ⟨.hbm, 264, rfl⟩
abbrev main_v171 : Ref sig .tc := ⟨.hbm, 265, rfl⟩
abbrev main_v172 : Ref sig .tc := ⟨.hbm, 266, rfl⟩
abbrev main_c_45 : Ref sig .tc := ⟨.hbm, 267, rfl⟩
abbrev main_v173 : Ref sig .tc := ⟨.hbm, 268, rfl⟩
abbrev main_v174 : Ref sig .tc := ⟨.hbm, 269, rfl⟩
abbrev main_c_46 : Ref sig .tc := ⟨.hbm, 270, rfl⟩
abbrev main_v175 : Ref sig .tc := ⟨.hbm, 271, rfl⟩
abbrev main_v176 : Ref sig .tc := ⟨.hbm, 272, rfl⟩
abbrev main_v177 : Ref sig .tc := ⟨.hbm, 273, rfl⟩
abbrev main_v178 : Ref sig .tc := ⟨.hbm, 274, rfl⟩
abbrev main_v179 : Ref sig .tc := ⟨.hbm, 275, rfl⟩
abbrev main_cst_47 : Ref sig .tc := ⟨.hbm, 276, rfl⟩
abbrev main_v180 : Ref sig .tc := ⟨.hbm, 277, rfl⟩
abbrev main_v181 : Ref sig .tc := ⟨.hbm, 278, rfl⟩
abbrev main_v182 : Ref sig .tc := ⟨.hbm, 279, rfl⟩
abbrev main_cst_48 : Ref sig .tc := ⟨.hbm, 280, rfl⟩
abbrev main_v183 : Ref sig .tc := ⟨.hbm, 281, rfl⟩
abbrev main_cst_49 : Ref sig .tc := ⟨.hbm, 282, rfl⟩
abbrev main_v184 : Ref sig .tc := ⟨.hbm, 283, rfl⟩
abbrev main_v185 : Ref sig .tc := ⟨.hbm, 284, rfl⟩
abbrev main_v186 : Ref sig .tc := ⟨.hbm, 285, rfl⟩
abbrev main_cst_50 : Ref sig .tc := ⟨.hbm, 286, rfl⟩
abbrev main_v187 : Ref sig .tc := ⟨.hbm, 287, rfl⟩
abbrev main_v188 : Ref sig .tc := ⟨.hbm, 288, rfl⟩
abbrev main_v189 : Ref sig .tc := ⟨.hbm, 289, rfl⟩
abbrev main_v190 : Ref sig .tc := ⟨.hbm, 290, rfl⟩
abbrev main_cst_51 : Ref sig .tc := ⟨.hbm, 291, rfl⟩
abbrev main_v191 : Ref sig .tc := ⟨.hbm, 292, rfl⟩
abbrev main_v192 : Ref sig .tc := ⟨.hbm, 293, rfl⟩
abbrev main_v193 : Ref sig .tc := ⟨.hbm, 294, rfl⟩
abbrev main_v194 : Ref sig .tc := ⟨.hbm, 295, rfl⟩
abbrev main_v195 : Ref sig .tc := ⟨.hbm, 296, rfl⟩
abbrev main_v196 : Ref sig .tc := ⟨.hbm, 297, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S500000x64 : S_.BroadcastsInDim S500000x64 (![] : Fin 0 → Fin S500000x64.rank)
  bcast_S_S500000x1 : S_.BroadcastsInDim S500000x1 (![] : Fin 0 → Fin S500000x1.rank)
  bcast_S500000x1_S500000x64_0_1 : S500000x1.BroadcastsInDim S500000x64 (![0, 1] : Fin 2 → Fin S500000x64.rank)
  bcast_S1x64_S20000x64_0_1 : S1x64.BroadcastsInDim S20000x64 (![0, 1] : Fin 2 → Fin S20000x64.rank)
  bcast_S1x64_S500000x64_0_1 : S1x64.BroadcastsInDim S500000x64 (![0, 1] : Fin 2 → Fin S500000x64.rank)
  bcast_S_S100000x64 : S_.BroadcastsInDim S100000x64 (![] : Fin 0 → Fin S100000x64.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S_S20000x64 : S_.BroadcastsInDim S20000x64 (![] : Fin 0 → Fin S20000x64.rank)
  bcast_S_S20000x1 : S_.BroadcastsInDim S20000x1 (![] : Fin 0 → Fin S20000x1.rank)
  bcast_S20000x1_S20000x64_0_1 : S20000x1.BroadcastsInDim S20000x64 (![0, 1] : Fin 2 → Fin S20000x64.rank)
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  dot_S100000x64_S64x64_S100000x64_1_0_0_1_n_n_wf : DotDims.WF S100000x64 S64x64 S100000x64 [1] [0] [0] [1] [] []
  gather_S100000x64_S500000x1_S500000x64_1_0_n_n_0_1_164_wf : GatherDims.WF S100000x64 S500000x1 S500000x64 [1] [0] [] [0] [] 1 ![1, 64]
  scatter_S500000x64_S500000x1_S500000x64_1_0_0_1_wf : ScatterDims.WF S500000x64 S500000x1 S500000x64 [1] [0] [0] 1
  scatter_S500000x1_S500000x1_S500000x1_1_0_0_1_wf : ScatterDims.WF S500000x1 S500000x1 S500000x1 [1] [0] [0] 1
  dot_S20000x64_S64x64_S20000x64_1_0_0_1_n_n_wf : DotDims.WF S20000x64 S64x64 S20000x64 [1] [0] [0] [1] [] []
  gather_S20000x64_S500000x1_S500000x64_1_0_n_n_0_1_164_wf : GatherDims.WF S20000x64 S500000x1 S500000x64 [1] [0] [] [0] [] 1 ![1, 64]
  dot_S500000x128_S128x64_S500000x64_1_0_0_1_n_n_wf : DotDims.WF S500000x128 S128x64 S500000x64 [1] [0] [0] [1] [] []
  gather_S500000x64_S500000x1_S500000x64_1_0_n_n_0_1_164_wf : GatherDims.WF S500000x64 S500000x1 S500000x64 [1] [0] [] [0] [] 1 ![1, 64]
  scatter_S100000x64_S500000x1_S500000x64_1_0_0_1_wf : ScatterDims.WF S100000x64 S500000x1 S500000x64 [1] [0] [0] 1
  scatter_S100000x1_S500000x1_S500000x1_1_0_0_1_wf : ScatterDims.WF S100000x1 S500000x1 S500000x1 [1] [0] [0] 1
  scatter_S20000x64_S500000x1_S500000x64_1_0_0_1_wf : ScatterDims.WF S20000x64 S500000x1 S500000x64 [1] [0] [0] 1
  scatter_S20000x1_S500000x1_S500000x1_1_0_0_1_wf : ScatterDims.WF S20000x1 S500000x1 S500000x1 [1] [0] [0] 1
  dot_S500000x64_S64x64_S500000x64_1_0_0_1_n_n_wf : DotDims.WF S500000x64 S64x64 S500000x64 [1] [0] [0] [1] [] []
  dot_S500000x64_S64x2_S500000x2_1_0_0_1_n_n_wf : DotDims.WF S500000x64 S64x2 S500000x2 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def scatter_S500000x64_S500000x1_S500000x64_1_0_0_1 : ScatterDims S500000x64 S500000x1 S500000x64 where
  updateWindowDims := [1]
  insertedWindowDims := [0]
  scatterDimsToOperandDims := [0]
  indexVectorDim := 1
  wf := scatter_S500000x64_S500000x1_S500000x64_1_0_0_1_wf
def scatter_S500000x1_S500000x1_S500000x1_1_0_0_1 : ScatterDims S500000x1 S500000x1 S500000x1 where
  updateWindowDims := [1]
  insertedWindowDims := [0]
  scatterDimsToOperandDims := [0]
  indexVectorDim := 1
  wf := scatter_S500000x1_S500000x1_S500000x1_1_0_0_1_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def gather_S20000x64_S500000x1_S500000x64_1_0_n_n_0_1_164 : GatherDims S20000x64 S500000x1 S500000x64 where
  offsetDims := [1]
  collapsedSliceDims := [0]
  operandBatchingDims := []
  startIndicesBatchingDims := []
  startIndexMap := [0]
  indexVectorDim := 1
  sliceSizes := ![1, 64]
  wf := gather_S20000x64_S500000x1_S500000x64_1_0_n_n_0_1_164_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def gather_S500000x64_S500000x1_S500000x64_1_0_n_n_0_1_164 : GatherDims S500000x64 S500000x1 S500000x64 where
  offsetDims := [1]
  collapsedSliceDims := [0]
  operandBatchingDims := []
  startIndicesBatchingDims := []
  startIndexMap := [0]
  indexVectorDim := 1
  sliceSizes := ![1, 64]
  wf := gather_S500000x64_S500000x1_S500000x64_1_0_n_n_0_1_164_wf
def scatter_S100000x64_S500000x1_S500000x64_1_0_0_1 : ScatterDims S100000x64 S500000x1 S500000x64 where
  updateWindowDims := [1]
  insertedWindowDims := [0]
  scatterDimsToOperandDims := [0]
  indexVectorDim := 1
  wf := scatter_S100000x64_S500000x1_S500000x64_1_0_0_1_wf
def scatter_S100000x1_S500000x1_S500000x1_1_0_0_1 : ScatterDims S100000x1 S500000x1 S500000x1 where
  updateWindowDims := [1]
  insertedWindowDims := [0]
  scatterDimsToOperandDims := [0]
  indexVectorDim := 1
  wf := scatter_S100000x1_S500000x1_S500000x1_1_0_0_1_wf
def scatter_S20000x64_S500000x1_S500000x64_1_0_0_1 : ScatterDims S20000x64 S500000x1 S500000x64 where
  updateWindowDims := [1]
  insertedWindowDims := [0]
  scatterDimsToOperandDims := [0]
  indexVectorDim := 1
  wf := scatter_S20000x64_S500000x1_S500000x64_1_0_0_1_wf
def scatter_S20000x1_S500000x1_S500000x1_1_0_0_1 : ScatterDims S20000x1 S500000x1 S500000x1 where
  updateWindowDims := [1]
  insertedWindowDims := [0]
  scatterDimsToOperandDims := [0]
  indexVectorDim := 1
  wf := scatter_S20000x1_S500000x1_S500000x1_1_0_0_1_wf
def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf
def dot_S500000x64_S64x2_S500000x2_1_0_0_1_n_n : DotDims S500000x64 S64x2 S500000x2 where
  lhsContracting := [1]
  rhsContracting := [0]
  lhsNonContracting := [0]
  rhsNonContracting := [1]
  lhsBatch := []
  rhsBatch := []
  wf := dot_S500000x64_S64x2_S500000x2_1_0_0_1_n_n_wf

class Facts : Prop extends Facts₀ where

variable [Facts]
-- ==== Proof.KRun.lean ====
/-
  The idealized kernel program's run with its result named: every weakly fair execution from a memory with zero counters
  terminates without a fault, the argument arrays end as launched, and the result array ends at the contents the last
  region's write-backs leave in it (the boundary contents after the fourth region, read at the result buffer).
-/
import proofs.«126305_j61735859913388_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the program's eight segments from the launch, the last thread state read against the final state: the
    result buffer at the last boundary's contents, each argument walked back to the launch memory. -/
theorem run_out : θ_run defs (onTc (τ := τ) (main (F := F))) ⟨m, fun _ => 0, ρ⟩ (fun r => ∀ c : Dev nD,
      r.2.mem ((c.tc : Thread nD τ).loc main_v75) = W8 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v75 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c),
       (h c _ (mem_uc main_arg20 (by decide))).trans (W8_main_arg20 m ρ c),
       (h c _ (mem_uc main_arg21 (by decide))).trans (W8_main_arg21 m ρ c),
       (h c _ (mem_uc main_arg22 (by decide))).trans (W8_main_arg22 m ρ c),
       (h c _ (mem_uc main_arg23 (by decide))).trans (W8_main_arg23 m ρ c),
       (h c _ (mem_uc main_arg24 (by decide))).trans (W8_main_arg24 m ρ c),
       (h c _ (mem_uc main_arg25 (by decide))).trans (W8_main_arg25 m ρ c),
       (h c _ (mem_uc main_arg26 (by decide))).trans (W8_main_arg26 m ρ c),
       (h c _ (mem_uc main_arg27 (by decide))).trans (W8_main_arg27 m ρ c),
       (h c _ (mem_uc main_arg28 (by decide))).trans (W8_main_arg28 m ρ c)⟩)

end Cert.KernelIdeal.KRun

end
-- ==== Proof.LibAfter.lean ====
/-
  A straight line of host operations in single-assignment form, read locally. When operation `k` of the line writes
  exactly the buffer `Ws[k]`, a buffer that no later operation writes holds, after the whole line, what it held
  after the operations up to the last one that could write it: the result of operation `k` is read from the contents
  after the first `k` operations, and an operand no later operation writes is stable.
-/
import Idealize.ShloMosaic.Lib.StableHlo.Run

noncomputable section

namespace Cert.LibAfter

open Idealize.ShloMosaic Idealize.ShloMosaic.StableHlo

variable {τ : Topo} {sig : RefSig} {Val : EltTy → Type}

/-- Operation `k` writes exactly buffer `Ws[k]`. -/
def WritesList (ops : List (HloOp τ sig Val)) (Ws : List (Ref sig .tc)) : Prop :=
  List.Forall₂ (fun op r => op.writes = {Proc.devRef (τ := τ) .tc r}) ops Ws

theorem writesList_nil : WritesList ([] : List (HloOp τ sig Val)) [] := List.Forall₂.nil

theorem writesList_cons {op : HloOp τ sig Val} {r : Ref sig .tc} {ops : List (HloOp τ sig Val)} {Ws : List (Ref sig .tc)}
    (hw : op.writes = {Proc.devRef (τ := τ) .tc r}) (h : WritesList ops Ws) : WritesList (op :: ops) (r :: Ws) :=
  List.Forall₂.cons hw h

/-- Two lines one after the other are their concatenation. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A reference outside the list of written references is written by no operation of the line. -/
theorem not_mem_writes {ops : List (HloOp τ sig Val)} {Ws : List (Ref sig .tc)} (h : WritesList ops Ws)
    {a : Ref sig .tc} (ha : a ∉ Ws) : ∀ op ∈ ops, Proc.devRef (τ := τ) .tc a ∉ op.writes := by
  unfold WritesList at h
  induction h with
  | nil => intro op hop; exact absurd hop List.not_mem_nil
  | cons hw _ ih =>
    intro op hop
    rcases List.mem_cons.1 hop with rfl | hop
    · rw [hw, Finset.mem_singleton]
      intro e
      exact ha (Proc.devRef_injective _ e ▸ List.mem_cons_self)
    · exact ih (fun hm => ha (List.mem_cons_of_mem _ hm)) op hop

/-- A buffer the line does not write keeps its contents. -/
theorem after_keep (ops : List (HloOp τ sig Val)) (Ws : List (Ref sig .tc)) (h : WritesList ops Ws)
    (V : Valuation τ sig Val) (a : Ref sig .tc) (ha : a ∉ Ws) :
    after ops V (Proc.devRef .tc a) = V (Proc.devRef .tc a) :=
  after_of_forall_not_mem ops V (not_mem_writes h ha)

/-- A buffer no operation from the `k`-th on writes holds after the first `k` operations what it holds after all. -/
theorem after_take (ops : List (HloOp τ sig Val)) (Ws : List (Ref sig .tc)) (h : WritesList ops Ws) (k : ℕ)
    (V : Valuation τ sig Val) (a : Ref sig .tc) (ha : a ∉ Ws.drop k) :
    after (ops.take k) V (Proc.devRef .tc a) = after ops V (Proc.devRef .tc a) := by
  have hd : WritesList (ops.drop k) (Ws.drop k) := List.forall₂_drop k h
  have e : ops.take k ++ ops.drop k = ops := List.take_append_drop k ops
  refine Eq.trans ?_ (congrArg (fun l => after l V (Proc.devRef .tc a)) e)
  show _ = after (ops.take k ++ ops.drop k) V (Proc.devRef .tc a)
  rw [after_append]
  exact (after_keep _ _ hd _ a ha).symm

/-- A buffer no operation after the `k`-th writes holds after the line what operation `k` leaves in it, run from the
    contents after the first `k` operations. -/
theorem after_local (ops : List (HloOp τ sig Val)) (Ws : List (Ref sig .tc)) (h : WritesList ops Ws) (k : ℕ)
    (hk : k < ops.length) (V : Valuation τ sig Val) (y : Ref sig .tc) (hy : y ∉ Ws.drop (k + 1)) :
    after ops V (Proc.devRef .tc y) = (ops[k]).result (after (ops.take k) V) (Proc.devRef .tc y) := by
  have hd : WritesList (ops.drop (k + 1)) (Ws.drop (k + 1)) := List.forall₂_drop (k + 1) h
  have e : ops = ops.take k ++ (ops[k] :: ops.drop (k + 1)) := by
    rw [← List.drop_eq_getElem_cons hk, List.take_append_drop]
  refine (congrArg (fun l => after l V (Proc.devRef .tc y)) e).trans ?_
  show after (ops.take k ++ (ops[k] :: ops.drop (k + 1))) V (Proc.devRef .tc y) = _
  rw [after_append, after_cons]
  exact after_keep _ _ hd _ y hy

end Cert.LibAfter

end
-- ==== Proof.LibAfterRead.lean ====
/-
  One operation of a single-assignment line read from the line's final contents: when operation k of the line is a
  given builder's operation, its result buffer holds, after the whole line, the operation's function of what its
  operand buffers hold after the whole line (the operands are written before k and never again, the result never after).
-/
import proofs.«126305_j61735859913388_2_alg».proof.Proof.LibAfter

noncomputable section

namespace Cert.LibAfter

open Idealize.ShloMosaic Idealize.ShloMosaic.StableHlo

variable {τ : Topo} {sig : RefSig} {Val : EltTy → Type}

theorem read_nullary (ops : List (HloOp τ sig Val)) (Ws : List (Ref sig .tc)) (h : WritesList ops Ws) (k : ℕ)
    (hk : k < ops.length) (V : Valuation τ sig Val) (y : Ref sig .tc) (v : y.ty.Contents Val) (hy)
    (hop : ops[k] = nullary y v hy) (hy' : y ∉ Ws.drop (k + 1)) :
    after ops V (Proc.devRef .tc y) = v := by
  rw [after_local ops Ws h k hk V y hy', hop]
  exact nullary_result y v hy _

theorem read_unary (ops : List (HloOp τ sig Val)) (Ws : List (Ref sig .tc)) (h : WritesList ops Ws) (k : ℕ)
    (hk : k < ops.length) (V : Valuation τ sig Val) (x y : Ref sig .tc) (f : x.ty.Contents Val → y.ty.Contents Val) (hx hy)
    (hop : ops[k] = unary x y f hx hy) (hy' : y ∉ Ws.drop (k + 1)) (hx' : x ∉ Ws.drop k) :
    after ops V (Proc.devRef .tc y) = f (after ops V (Proc.devRef .tc x)) := by
  rw [after_local ops Ws h k hk V y hy', hop]
  refine (unary_result x y f hx hy _).trans ?_
  exact congrArg f (after_take ops Ws h k V x hx')

theorem read_binary (ops : List (HloOp τ sig Val)) (Ws : List (Ref sig .tc)) (h : WritesList ops Ws) (k : ℕ)
    (hk : k < ops.length) (V : Valuation τ sig Val) (a b y : Ref sig .tc)
    (f : a.ty.Contents Val → b.ty.Contents Val → y.ty.Contents Val) (ha hb hy)
    (hop : ops[k] = binary a b y f ha hb hy) (hy' : y ∉ Ws.drop (k + 1)) (ha' : a ∉ Ws.drop k) (hb' : b ∉ Ws.drop k) :
    after ops V (Proc.devRef .tc y) = f (after ops V (Proc.devRef .tc a)) (after ops V (Proc.devRef .tc b)) := by
  rw [after_local ops Ws h k hk V y hy', hop]
  refine (binary_result a b y f ha hb hy _).trans ?_
  rw [show after (ops.take k) V (Proc.devRef .tc a) = _ from after_take ops Ws h k V a ha',
    show after (ops.take k) V (Proc.devRef .tc b) = _ from after_take ops Ws h k V b hb']

theorem read_ternary (ops : List (HloOp τ sig Val)) (Ws : List (Ref sig .tc)) (h : WritesList ops Ws) (k : ℕ)
    (hk : k < ops.length) (V : Valuation τ sig Val) (c a b y : Ref sig .tc)
    (f : c.ty.Contents Val → a.ty.Contents Val → b.ty.Contents Val → y.ty.Contents Val) (hc ha hb hy)
    (hop : ops[k] = ternary c a b y f hc ha hb hy) (hy' : y ∉ Ws.drop (k + 1)) (hc' : c ∉ Ws.drop k)
    (ha' : a ∉ Ws.drop k) (hb' : b ∉ Ws.drop k) :
    after ops V (Proc.devRef .tc y)
      = f (after ops V (Proc.devRef .tc c)) (after ops V (Proc.devRef .tc a)) (after ops V (Proc.devRef .tc b)) := by
  rw [after_local ops Ws h k hk V y hy', hop]
  refine (ternary_result c a b y f hc ha hb hy _).trans ?_
  rw [show after (ops.take k) V (Proc.devRef .tc c) = _ from after_take ops Ws h k V c hc',
    show after (ops.take k) V (Proc.devRef .tc a) = _ from after_take ops Ws h k V a ha',
    show after (ops.take k) V (Proc.devRef .tc b) = _ from after_take ops Ws h k V b hb']

theorem read_reshape (ops : List (HloOp τ sig Val)) (Ws : List (Ref sig .tc)) (h : WritesList ops Ws) (k : ℕ)
    (hk : k < ops.length) (V : Valuation τ sig Val) (x y : Ref sig .tc) (he : x.ty.elt = y.ty.elt)
    (hn : x.ty.shape.ShapeCasts y.ty.shape) (hx hy)
    (hop : ops[k] = reshape x y he hn hx hy) (hy' : y ∉ Ws.drop (k + 1)) (hx' : x ∉ Ws.drop k) :
    after ops V (Proc.devRef .tc y) = fun i => he ▸ shapeCast y.ty.shape (after ops V (Proc.devRef .tc x)) hn i := by
  rw [after_local ops Ws h k hk V y hy', hop]
  refine (reshape_result x y he hn hx hy _).trans ?_
  rw [show after (ops.take k) V (Proc.devRef .tc x) = _ from after_take ops Ws h k V x hx']

end Cert.LibAfter

end
-- ==== Proof.KHostRead.lean ====
/-
  The idealized kernel program's four stretches of host operations, each in single-assignment form, read one operation at
  a time from the contents the stretch ends with: an operation's buffer holds its function of what its operand buffers end
  holding, and a buffer the stretch does not write keeps what it held when the stretch began.
-/
import proofs.«126305_j61735859913388_2_alg».proof.Proof.Gen.KernelIdeal.Launch
import proofs.«126305_j61735859913388_2_alg».proof.Proof.LibAfterRead

set_option maxRecDepth 65536

noncomputable section

namespace Cert.KernelIdeal.KHost

open Cert.KernelIdeal Cert.KernelIdeal.Gen Idealize.ShloMosaic Idealize.ShloMosaic.TcCoe Idealize.SL.Sem Idealize.ShloMosaic.StableHlo
open Cert.LibAfter

variable {F : FTy → Type} [FloatOps F]

/-! ## Stretch 0 -/

/-- The buffer each operation of stretch 0 writes, in order. -/
abbrev Ws0 : List (Ref sig .tc) :=
  [ main_v0, main_v1, main_v2 ]

theorem hW0 : WritesList (hostOps0 (F := F)) Ws0 := by
  repeat' (first | exact writesList_nil | refine writesList_cons rfl ?_)

theorem len0 : (hostOps0 (F := F)).length = 3 := rfl
theorem hk0 (k : ℕ) (h : k < 3) : k < (hostOps0 (F := F)).length := lt_of_lt_of_eq h len0.symm

/-- A buffer stretch 0 does not write keeps its contents. -/
theorem keep0 (X : Valuation τ sig (Elt F)) (b : Ref sig .tc) (hb : b ∉ Ws0) :
    after hostOps0 X (Proc.devRef .tc b) = X (Proc.devRef .tc b) := after_keep hostOps0 Ws0 hW0 X b hb

theorem r0_v0 (X : Valuation τ sig (Elt F)) : after hostOps0 X (Proc.devRef .tc main_v0) = ((fun a b => concatenate S128x128 1 [⟨S128x64, a⟩, ⟨S128x64, b⟩] concatenates_S128x64_S128x64_S128x128_d1) : (⟨S128x64, .f32⟩ : BufTy).Contents (Elt F) → (⟨S128x64, .f32⟩ : BufTy).Contents (Elt F) → (⟨S128x128, .f32⟩ : BufTy).Contents (Elt F)) (after hostOps0 X (Proc.devRef .tc main_arg19)) (after hostOps0 X (Proc.devRef .tc main_arg23)) :=
  read_binary hostOps0 Ws0 hW0 0 (hk0 0 (by decide)) X main_arg19 main_arg23 main_v0 ((fun a b => concatenate S128x128 1 [⟨S128x64, a⟩, ⟨S128x64, b⟩] concatenates_S128x64_S128x64_S128x128_d1) : (⟨S128x64, .f32⟩ : BufTy).Contents (Elt F) → (⟨S128x64, .f32⟩ : BufTy).Contents (Elt F) → (⟨S128x128, .f32⟩ : BufTy).Contents (Elt F)) ⟨by decide, rfl⟩ ⟨by decide, rfl⟩ ⟨by decide, rfl⟩ rfl (by decide) (by decide) (by decide)
theorem r0_v1 (X : Valuation τ sig (Elt F)) : after hostOps0 X (Proc.devRef .tc main_v1) = ((fun a b => concatenate S128 0 [⟨S64, a⟩, ⟨S64, b⟩] concatenates_S64_S64_S128_d0) : (⟨S64, .f32⟩ : BufTy).Contents (Elt F) → (⟨S64, .f32⟩ : BufTy).Contents (Elt F) → (⟨S128, .f32⟩ : BufTy).Contents (Elt F)) (after hostOps0 X (Proc.devRef .tc main_arg20)) (after hostOps0 X (Proc.devRef .tc main_arg24)) :=
  read_binary hostOps0 Ws0 hW0 1 (hk0 1 (by decide)) X main_arg20 main_arg24 main_v1 ((fun a b => concatenate S128 0 [⟨S64, a⟩, ⟨S64, b⟩] concatenates_S64_S64_S128_d0) : (⟨S64, .f32⟩ : BufTy).Contents (Elt F) → (⟨S64, .f32⟩ : BufTy).Contents (Elt F) → (⟨S128, .f32⟩ : BufTy).Contents (Elt F)) ⟨by decide, rfl⟩ ⟨by decide, rfl⟩ ⟨by decide, rfl⟩ rfl (by decide) (by decide) (by decide)
theorem r0_v2 (X : Valuation τ sig (Elt F)) : after hostOps0 X (Proc.devRef .tc main_v2) = (shapeCast S1x128 (after hostOps0 X (Proc.devRef .tc main_v1)) shapeCasts_S128_S1x128 : (⟨S1x128, .f32⟩ : BufTy).Contents (Elt F)) :=
  read_reshape hostOps0 Ws0 hW0 2 (hk0 2 (by decide)) X main_v1 main_v2 rfl shapeCasts_S128_S1x128 ⟨by decide, rfl⟩ ⟨by decide, rfl⟩ rfl (by decide) (by decide)

/-! ## Stretch 1 -/

/-- The buffer each operation of stretch 1 writes, in order. -/
abbrev Ws1 : List (Ref sig .tc) :=
  [ main_v4, main_v5, main_c, main_v6, main_v7, main_c_0, main_v8, main_v9, main_v10, main_v11, main_v12, main_v13, main_cst, main_v14, main_v15, main_v16, main_cst_1, main_v17, main_cst_2, main_v18, main_v19, main_v20, main_v21, main_c_3, main_v22, main_v23, main_c_4, main_v24, main_v25, main_v26, main_v27, main_v28, main_v29, main_cst_5, main_v30, main_v31, main_v32, main_cst_6, main_v33, main_cst_7, main_v34, main_v35, main_v36, main_v37, main_v38 ]

theorem hW1 : WritesList (hostOps1 (F := F)) Ws1 := by
  repeat' (first | exact writesList_nil | refine writesList_cons rfl ?_)

theorem len1 : (hostOps1 (F := F)).length = 45 := rfl
theorem hk1 (k : ℕ) (h : k < 45) : k < (hostOps1 (F := F)).length := lt_of_lt_of_eq h len1.symm

/-- A buffer stretch 1 does not write keeps its contents. -/
theorem keep1 (X : Valuation τ sig (Elt F)) (b : Ref sig .tc) (hb : b ∉ Ws1) :
    after hostOps1 X (Proc.devRef .tc b) = X (Proc.devRef .tc b) := after_keep hostOps1 Ws1 hW1 X b hb

theorem r1_v4 (X : Valuation τ sig (Elt F)) : after hostOps1 X (Proc.devRef .tc main_v4) = ((extractStridedSlice S500000x64 ![0, 0] · slices_S500000x128_S500000x64_0_0) : (⟨S500000x128, .bf16⟩ : BufTy).Contents (Elt F) → (⟨S500000x64, .bf16⟩ : BufTy).Contents (Elt F)) (after hostOps1 X (Proc.devRef .tc main_v3)) :=
  read_unary hostOps1 Ws1 hW1 0 (hk1 0 (by decide)) X main_v3 main_v4 ((extractStridedSlice S500000x64 ![0, 0] · slices_S500000x128_S500000x64_0_0) : (⟨S500000x128, .bf16⟩ : BufTy).Contents (Elt F) → (⟨S500000x64, .bf16⟩ : BufTy).Contents (Elt F)) ⟨by decide, rfl⟩ ⟨by decide, rfl⟩ rfl (by decide) (by decide)
theorem r1_v5 (X : Valuation τ sig (Elt F)) : after hostOps1 X (Proc.devRef .tc main_v5) = ((extractStridedSlice S500000x64 ![0, 64] · slices_S500000x128_S500000x64_0_64) : (⟨S500000x128, .bf16⟩ : BufTy).Contents (Elt F) → (⟨S500000x64, .bf16⟩ : BufTy).Contents (Elt F)) (after hostOps1 X (Proc.devRef .tc main_v3)) :=
  read_unary hostOps1 Ws1 hW1 1 (hk1 1 (by decide)) X main_v3 main_v5 ((extractStridedSlice S500000x64 ![0, 64] · slices_S500000x128_S500000x64_0_64) : (⟨S500000x128, .bf16⟩ : BufTy).Contents (Elt F) → (⟨S500000x64, .bf16⟩ : BufTy).Contents (Elt F)) ⟨by decide, rfl⟩ ⟨by decide, rfl⟩ rfl (by decide) (by decide)
theorem r1_c (X : Valuation τ sig (Elt F)) : after hostOps1 X (Proc.devRef .tc main_c) = (constantI S_ 32 0#32) :=
  read_nullary hostOps1 Ws1 hW1 2 (hk1 2 (by decide)) X main_c _ ⟨by decide, rfl⟩ rfl (by decide)
theorem r1_v6 (X : Valuation τ sig (Elt F)) : after hostOps1 X (Proc.devRef .tc main_v6) = (broadcastInDim S500000 ![] bcast_S_S500000 : (⟨S_, .i32⟩ : BufTy).Contents (Elt F) → (⟨S500000, .i32⟩ : BufTy).Contents (Elt F)) (after hostOps1 X (Proc.devRef .tc main_c)) :=
  read_unary hostOps1 Ws1 hW1 3 (hk1 3 (by decide)) X main_c main_v6 (broadcastInDim S500000 ![] bcast_S_S500000 : (⟨S_, .i32⟩ : BufTy).Contents (Elt F) → (⟨S500000, .i32⟩ : BufTy).Contents (Elt F)) ⟨by decide, rfl⟩ ⟨by decide, rfl⟩ rfl (by decide) (by decide)
theorem r1_v7 (X : Valuation τ sig (Elt F)) : after hostOps1 X (Proc.devRef .tc main_v7) = (cmpi .slt : (⟨S500000, .i32⟩ : BufTy).Contents (Elt F) → (⟨S500000, .i32⟩ : BufTy).Contents (Elt F) → (⟨S500000, .i1⟩ : BufTy).Contents (Elt F)) (after hostOps1 X (Proc.devRef .tc main_arg7)) (after hostOps1 X (Proc.devRef .tc main_v6)) :=
  read_binary hostOps1 Ws1 hW1 4 (hk1 4 (by decide)) X main_arg7 main_v6 main_v7 (cmpi .slt : (⟨S500000, .i32⟩ : BufTy).Contents (Elt F) → (⟨S500000, .i32⟩ : BufTy).Contents (Elt F) → (⟨S500000, .i1⟩ : BufTy).Contents (Elt F)) ⟨by decide, rfl⟩ ⟨by decide, rfl⟩ ⟨by decide, rfl⟩ rfl (by decide) (by decide) (by decide)
theorem r1_c_0 (X : Valuation τ sig (Elt F)) : after hostOps1 X (Proc.devRef .tc main_c_0) = (constantI S_ 32 500000#32) :=
  read_nullary hostOps1 Ws1 hW1 5 (hk1 5 (by decide)) X main_c_0 _ ⟨by decide, rfl⟩ rfl (by decide)
theorem r1_v8 (X : Valuation τ sig (Elt F)) : after hostOps1 X (Proc.devRef .tc main_v8) = (broadcastInDim S500000 ![] bcast_S_S500000 : (⟨S_, .i32⟩ : BufTy).Contents (Elt F) → (⟨S500000, .i32⟩ : BufTy).Contents (Elt F)) (after hostOps1 X (Proc.devRef .tc main_c_0)) :=
  read_unary hostOps1 Ws1 hW1 6 (hk1 6 (by decide)) X main_c_0 main_v8 (broadcastInDim S500000 ![] bcast_S_S500000 : (⟨S_, .i32⟩ : BufTy).Contents (Elt F) → (⟨S500000, .i32⟩ : BufTy).Contents (Elt F)) ⟨by decide, rfl⟩ ⟨by decide, rfl⟩ rfl (by decide) (by decide)
theorem r1_v9 (X : Valuation τ sig (Elt F)) : after hostOps1 X (Proc.devRef .tc main_v9) = (addi : (⟨S500000, .i32⟩ : BufTy).Contents (Elt F) → (⟨S500000, .i32⟩ : BufTy).Contents (Elt F) → (⟨S500000, .i32⟩ : BufTy).Contents (Elt F)) (after hostOps1 X (Proc.devRef .tc main_arg7)) (after hostOps1 X (Proc.devRef .tc main_v8)) :=
  read_binary hostOps1 Ws1 hW1 7 (hk1 7 (by decide)) X main_arg7 main_v8 main_v9 (addi : (⟨S500000, .i32⟩ : BufTy).Contents (Elt F) → (⟨S500000, .i32⟩ : BufTy).Contents (Elt F) → (⟨S500000, .i32⟩ : BufTy).Contents (Elt F)) ⟨by decide, rfl⟩ ⟨by decide, rfl⟩ ⟨by decide, rfl⟩ rfl (by decide) (by decide) (by decide)
theorem r1_v10 (X : Valuation τ sig (Elt F)) : after hostOps1 X (Proc.devRef .tc main_v10) = (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) (after hostOps1 X (Proc.devRef .tc main_v7)) (after hostOps1 X (Proc.devRef .tc main_v9)) (after hostOps1 X (Proc.devRef .tc main_arg7)) :=
  read_ternary hostOps1 Ws1 hW1 8 (hk1 8 (by decide)) X main_v7 main_v9 main_arg7 main_v10 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) ⟨by decide, rfl⟩ ⟨by decide, rfl⟩ ⟨by decide, rfl⟩ ⟨by decide, rfl⟩ rfl (by decide) (by decide) (by decide) (by decide)
theorem r1_v11 (X : Valuation τ sig (Elt F)) : after hostOps1 X (Proc.devRef .tc main_v11) = (broadcastInDim S500000x1 ![0] bcast_S500000_S500000x1_0 : (⟨S500000, .i32⟩ : BufTy).Contents (Elt F) → (⟨S500000x1, .i32⟩ : BufTy).Contents (Elt F)) (after hostOps1 X (Proc.devRef .tc main_v10)) :=
  read_unary hostOps1 Ws1 hW1 9 (hk1 9 (by decide)) X main_v10 main_v11 (broadcastInDim S500000x1 ![0] bcast_S500000_S500000x1_0 : (⟨S500000, .i32⟩ : BufTy).Contents (Elt F) → (⟨S500000x1, .i32⟩ : BufTy).Contents (Elt F)) ⟨by decide, rfl⟩ ⟨by decide, rfl⟩ rfl (by decide) (by decide)
theorem r1_v12 (X : Valuation τ sig (Elt F)) : after hostOps1 X (Proc.devRef .tc main_v12) = ((fun x i => Host.gather gather_S500000x64_S500000x1_S500000x64_1_0_n_n_0_1_164 x i) : (⟨S500000x64, .bf16⟩ : BufTy).Contents (Elt F) → (⟨S500000x1, .i32⟩ : BufTy).Contents (Elt F) → (⟨S500000x64, .bf16⟩ : BufTy).Contents (Elt F)) (after hostOps1 X (Proc.devRef .tc main_v4)) (after hostOps1 X (Proc.devRef .tc main_v11)) :=
  read_binary hostOps1 Ws1 hW1 10 (hk1 10 (by decide)) X main_v4 main_v11 main_v12 ((fun x i => Host.gather gather_S500000x64_S500000x1_S500000x64_1_0_n_n_0_1_164 x i) : (⟨S500000x64, .bf16⟩ : BufTy).Contents (Elt F) → (⟨S500000x1, .i32⟩ : BufTy).Contents (Elt F) → (⟨S500000x64, .bf16⟩ : BufTy).Contents (Elt F)) ⟨by decide, rfl⟩ ⟨by decide, rfl⟩ ⟨by decide, rfl⟩ rfl (by decide) (by decide) (by decide)
theorem r1_v13 (X : Valuation τ sig (Elt F)) : after hostOps1 X (Proc.devRef .tc main_v13) = ((extf .f32 · bitsLt_bf16_f32) : (⟨S500000x64, .bf16⟩ : BufTy).Contents (Elt F) → (⟨S500000x64, .f32⟩ : BufTy).Contents (Elt F)) (after hostOps1 X (Proc.devRef .tc main_v12)) :=
  read_unary hostOps1 Ws1 hW1 11 (hk1 11 (by decide)) X main_v12 main_v13 ((extf .f32 · bitsLt_bf16_f32) : (⟨S500000x64, .bf16⟩ : BufTy).Contents (Elt F) → (⟨S500000x64, .f32⟩ : BufTy).Contents (Elt F)) ⟨by decide, rfl⟩ ⟨by decide, rfl⟩ rfl (by decide) (by decide)
theorem r1_cst (X : Valuation τ sig (Elt F)) : after hostOps1 X (Proc.devRef .tc main_cst) = (constant S_ .f32 0x00000000#32) :=
  read_nullary hostOps1 Ws1 hW1 12 (hk1 12 (by decide)) X main_cst _ ⟨by decide, rfl⟩ rfl (by decide)
theorem r1_v14 (X : Valuation τ sig (Elt F)) : after hostOps1 X (Proc.devRef .tc main_v14) = (broadcastInDim S100000x64 ![] bcast_S_S100000x64 : (⟨S_, .f32⟩ : BufTy).Contents (Elt F) → (⟨S100000x64, .f32⟩ : BufTy).Contents (Elt F)) (after hostOps1 X (Proc.devRef .tc main_cst)) :=
  read_unary hostOps1 Ws1 hW1 13 (hk1 13 (by decide)) X main_cst main_v14 (broadcastInDim S100000x64 ![] bcast_S_S100000x64 : (⟨S_, .f32⟩ : BufTy).Contents (Elt F) → (⟨S100000x64, .f32⟩ : BufTy).Contents (Elt F)) ⟨by decide, rfl⟩ ⟨by decide, rfl⟩ rfl (by decide) (by decide)
theorem r1_v15 (X : Valuation τ sig (Elt F)) : after hostOps1 X (Proc.devRef .tc main_v15) = (broadcastInDim S500000x1 ![0] bcast_S500000_S500000x1_0 : (⟨S500000, .i32⟩ : BufTy).Contents (Elt F) → (⟨S500000x1, .i32⟩ : BufTy).Contents (Elt F)) (after hostOps1 X (Proc.devRef .tc main_arg8)) :=
  read_unary hostOps1 Ws1 hW1 14 (hk1 14 (by decide)) X main_arg8 main_v15 (broadcastInDim S500000x1 ![0] bcast_S500000_S500000x1_0 : (⟨S500000, .i32⟩ : BufTy).Contents (Elt F) → (⟨S500000x1, .i32⟩ : BufTy).Contents (Elt F)) ⟨by decide, rfl⟩ ⟨by decide, rfl⟩ rfl (by decide) (by decide)
theorem r1_v16 (X : Valuation τ sig (Elt F)) : after hostOps1 X (Proc.devRef .tc main_v16) = ((fun x i u => Host.scatterAdd scatter_S100000x64_S500000x1_S500000x64_1_0_0_1 x i u) : (⟨S100000x64, .f32⟩ : BufTy).Contents (Elt F) → (⟨S500000x1, .i32⟩ : BufTy).Contents (Elt F) → (⟨S500000x64, .f32⟩ : BufTy).Contents (Elt F) → (⟨S100000x64, .f32⟩ : BufTy).Contents (Elt F)) (after hostOps1 X (Proc.devRef .tc main_v14)) (after hostOps1 X (Proc.devRef .tc main_v15)) (after hostOps1 X (Proc.devRef .tc main_v13)) :=
  read_ternary hostOps1 Ws1 hW1 15 (hk1 15 (by decide)) X main_v14 main_v15 main_v13 main_v16 ((fun x i u => Host.scatterAdd scatter_S100000x64_S500000x1_S500000x64_1_0_0_1 x i u) : (⟨S100000x64, .f32⟩ : BufTy).Contents (Elt F) → (⟨S500000x1, .i32⟩ : BufTy).Contents (Elt F) → (⟨S500000x64, .f32⟩ : BufTy).Contents (Elt F) → (⟨S100000x64, .f32⟩ : BufTy).Contents (Elt F)) ⟨by decide, rfl⟩ ⟨by decide, rfl⟩ ⟨by decide, rfl⟩ ⟨by decide, rfl⟩ rfl (by decide) (by decide) (by decide) (by decide)
theorem r1_cst_1 (X : Valuation τ sig (Elt F)) : after hostOps1 X (Proc.devRef .tc main_cst_1) = (constant S_ .f32 0x3F800000#32) :=
  read_nullary hostOps1 Ws1 hW1 16 (hk1 16 (by decide)) X main_cst_1 _ ⟨by decide, rfl⟩ rfl (by decide)
theorem r1_v17 (X : Valuation τ sig (Elt F)) : after hostOps1 X (Proc.devRef .tc main_v17) = (broadcastInDim S500000 ![] bcast_S_S500000 : (⟨S_, .f32⟩ : BufTy).Contents (Elt F) → (⟨S500000, .f32⟩ : BufTy).Contents (Elt F)) (after hostOps1 X (Proc.devRef .tc main_cst_1)) :=
  read_unary hostOps1 Ws1 hW1 17 (hk1 17 (by decide)) X main_cst_1 main_v17 (broadcastInDim S500000 ![] bcast_S_S500000 : (⟨S_, .f32⟩ : BufTy).Contents (Elt F) → (⟨S500000, .f32⟩ : BufTy).Contents (Elt F)) ⟨by decide, rfl⟩ ⟨by decide, rfl⟩ rfl (by decide) (by decide)
theorem r1_cst_2 (X : Valuation τ sig (Elt F)) : after hostOps1 X (Proc.devRef .tc main_cst_2) = (constant S_ .f32 0x00000000#32) :=
  read_nullary hostOps1 Ws1 hW1 18 (hk1 18 (by decide)) X main_cst_2 _ ⟨by decide, rfl⟩ rfl (by decide)
theorem r1_v18 (X : Valuation τ sig (Elt F)) : after hostOps1 X (Proc.devRef .tc main_v18) = (broadcastInDim S100000 ![] bcast_S_S100000 : (⟨S_, .f32⟩ : BufTy).Contents (Elt F) → (⟨S100000, .f32⟩ : BufTy).Contents (Elt F)) (after hostOps1 X (Proc.devRef .tc main_cst_2)) :=
  read_unary hostOps1 Ws1 hW1 19 (hk1 19 (by decide)) X main_cst_2 main_v18 (broadcastInDim S100000 ![] bcast_S_S100000 : (⟨S_, .f32⟩ : BufTy).Contents (Elt F) → (⟨S100000, .f32⟩ : BufTy).Contents (Elt F)) ⟨by decide, rfl⟩ ⟨by decide, rfl⟩ rfl (by decide) (by decide)
theorem r1_v19 (X : Valuation τ sig (Elt F)) : after hostOps1 X (Proc.devRef .tc main_v19) = (broadcastInDim S500000x1 ![0] bcast_S500000_S500000x1_0 : (⟨S500000, .i32⟩ : BufTy).Contents (Elt F) → (⟨S500000x1, .i32⟩ : BufTy).Contents (Elt F)) (after hostOps1 X (Proc.devRef .tc main_arg8)) :=
  read_unary hostOps1 Ws1 hW1 20 (hk1 20 (by decide)) X main_arg8 main_v19 (broadcastInDim S500000x1 ![0] bcast_S500000_S500000x1_0 : (⟨S500000, .i32⟩ : BufTy).Contents (Elt F) → (⟨S500000x1, .i32⟩ : BufTy).Contents (Elt F)) ⟨by decide, rfl⟩ ⟨by decide, rfl⟩ rfl (by decide) (by decide)
theorem r1_v20 (X : Valuation τ sig (Elt F)) : after hostOps1 X (Proc.devRef .tc main_v20) = ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)) (after hostOps1 X (Proc.devRef .tc main_v18)) (after hostOps1 X (Proc.devRef .tc main_v19)) (after hostOps1 X (Proc.devRef .tc main_v17)) :=
  read_ternary hostOps1 Ws1 hW1 21 (hk1 21 (by decide)) X main_v18 main_v19 main_v17 main_v20 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)) ⟨by decide, rfl⟩ ⟨by decide, rfl⟩ ⟨by decide, rfl⟩ ⟨by decide, rfl⟩ rfl (by decide) (by decide) (by decide) (by decide)
theorem r1_v21 (X : Valuation τ sig (Elt F)) : after hostOps1 X (Proc.devRef .tc main_v21) = (shapeCast S100000x1 (after hostOps1 X (Proc.devRef .tc main_v20)) shapeCasts_S100000_S100000x1 : (⟨S100000x1, .f32⟩ : BufTy).Contents (Elt F)) :=
  read_reshape hostOps1 Ws1 hW1 22 (hk1 22 (by decide)) X main_v20 main_v21 rfl shapeCasts_S100000_S100000x1 ⟨by decide, rfl⟩ ⟨by decide, rfl⟩ rfl (by decide) (by decide)
theorem r1_c_3 (X : Valuation τ sig (Elt F)) : after hostOps1 X (Proc.devRef .tc main_c_3) = (constantI S_ 32 0#32) :=
  read_nullary hostOps1 Ws1 hW1 23 (hk1 23 (by decide)) X main_c_3 _ ⟨by decide, rfl⟩ rfl (by decide)
theorem r1_v22 (X : Valuation τ sig (Elt F)) : after hostOps1 X (Proc.devRef .tc main_v22) = (broadcastInDim S500000 ![] bcast_S_S500000 : (⟨S_, .i32⟩ : BufTy).Contents (Elt F) → (⟨S500000, .i32⟩ : BufTy).Contents (Elt F)) (after hostOps1 X (Proc.devRef .tc main_c_3)) :=
  read_unary hostOps1 Ws1 hW1 24 (hk1 24 (by decide)) X main_c_3 main_v22 (broadcastInDim S500000 ![] bcast_S_S500000 : (⟨S_, .i32⟩ : BufTy).Contents (Elt F) → (⟨S500000, .i32⟩ : BufTy).Contents (Elt F)) ⟨by decide, rfl⟩ ⟨by decide, rfl⟩ rfl (by decide) (by decide)
theorem r1_v23 (X : Valuation τ sig (Elt F)) : after hostOps1 X (Proc.devRef .tc main_v23) = (cmpi .slt : (⟨S500000, .i32⟩ : BufTy).Contents (Elt F) → (⟨S500000, .i32⟩ : BufTy).Contents (Elt F) → (⟨S500000, .i1⟩ : BufTy).Contents (Elt F)) (after hostOps1 X (Proc.devRef .tc main_arg9)) (after hostOps1 X (Proc.devRef .tc main_v22)) :=
  read_binary hostOps1 Ws1 hW1 25 (hk1 25 (by decide)) X main_arg9 main_v22 main_v23 (cmpi .slt : (⟨S500000, .i32⟩ : BufTy).Contents (Elt F) → (⟨S500000, .i32⟩ : BufTy).Contents (Elt F) → (⟨S500000, .i1⟩ : BufTy).Contents (Elt F)) ⟨by decide, rfl⟩ ⟨by decide, rfl⟩ ⟨by decide, rfl⟩ rfl (by decide) (by decide) (by decide)
theorem r1_c_4 (X : Valuation τ sig (Elt F)) : after hostOps1 X (Proc.devRef .tc main_c_4) = (constantI S_ 32 500000#32) :=
  read_nullary hostOps1 Ws1 hW1 26 (hk1 26 (by decide)) X main_c_4 _ ⟨by decide, rfl⟩ rfl (by decide)
theorem r1_v24 (X : Valuation τ sig (Elt F)) : after hostOps1 X (Proc.devRef .tc main_v24) = (broadcastInDim S500000 ![] bcast_S_S500000 : (⟨S_, .i32⟩ : BufTy).Contents (Elt F) → (⟨S500000, .i32⟩ : BufTy).Contents (Elt F)) (after hostOps1 X (Proc.devRef .tc main_c_4)) :=
  read_unary hostOps1 Ws1 hW1 27 (hk1 27 (by decide)) X main_c_4 main_v24 (broadcastInDim S500000 ![] bcast_S_S500000 : (⟨S_, .i32⟩ : BufTy).Contents (Elt F) → (⟨S500000, .i32⟩ : BufTy).Contents (Elt F)) ⟨by decide, rfl⟩ ⟨by decide, rfl⟩ rfl (by decide) (by decide)
theorem r1_v25 (X : Valuation τ sig (Elt F)) : after hostOps1 X (Proc.devRef .tc main_v25) = (addi : (⟨S500000, .i32⟩ : BufTy).Contents (Elt F) → (⟨S500000, .i32⟩ : BufTy).Contents (Elt F) → (⟨S500000, .i32⟩ : BufTy).Contents (Elt F)) (after hostOps1 X (Proc.devRef .tc main_arg9)) (after hostOps1 X (Proc.devRef .tc main_v24)) :=
  read_binary hostOps1 Ws1 hW1 28 (hk1 28 (by decide)) X main_arg9 main_v24 main_v25 (addi : (⟨S500000, .i32⟩ : BufTy).Contents (Elt F) → (⟨S500000, .i32⟩ : BufTy).Contents (Elt F) → (⟨S500000, .i32⟩ : BufTy).Contents (Elt F)) ⟨by decide, rfl⟩ ⟨by decide, rfl⟩ ⟨by decide, rfl⟩ rfl (by decide) (by decide) (by decide)
theorem r1_v26 (X : Valuation τ sig (Elt F)) : after hostOps1 X (Proc.devRef .tc main_v26) = (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) (after hostOps1 X (Proc.devRef .tc main_v23)) (after hostOps1 X (Proc.devRef .tc main_v25)) (after hostOps1 X (Proc.devRef .tc main_arg9)) :=
  read_ternary hostOps1 Ws1 hW1 29 (hk1 29 (by decide)) X main_v23 main_v25 main_arg9 main_v26 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) ⟨by decide, rfl⟩ ⟨by decide, rfl⟩ ⟨by decide, rfl⟩ ⟨by decide, rfl⟩ rfl (by decide) (by decide) (by decide) (by decide)
theorem r1_v27 (X : Valuation τ sig (Elt F)) : after hostOps1 X (Proc.devRef .tc main_v27) = (broadcastInDim S500000x1 ![0] bcast_S500000_S500000x1_0 : (⟨S500000, .i32⟩ : BufTy).Contents (Elt F) → (⟨S500000x1, .i32⟩ : BufTy).Contents (Elt F)) (after hostOps1 X (Proc.devRef .tc main_v26)) :=
  read_unary hostOps1 Ws1 hW1 30 (hk1 30 (by decide)) X main_v26 main_v27 (broadcastInDim S500000x1 ![0] bcast_S500000_S500000x1_0 : (⟨S500000, .i32⟩ : BufTy).Contents (Elt F) → (⟨S500000x1, .i32⟩ : BufTy).Contents (Elt F)) ⟨by decide, rfl⟩ ⟨by decide, rfl⟩ rfl (by decide) (by decide)
theorem r1_v28 (X : Valuation τ sig (Elt F)) : after hostOps1 X (Proc.devRef .tc main_v28) = ((fun x i => Host.gather gather_S500000x64_S500000x1_S500000x64_1_0_n_n_0_1_164 x i) : (⟨S500000x64, .bf16⟩ : BufTy).Contents (Elt F) → (⟨S500000x1, .i32⟩ : BufTy).Contents (Elt F) → (⟨S500000x64, .bf16⟩ : BufTy).Contents (Elt F)) (after hostOps1 X (Proc.devRef .tc main_v5)) (after hostOps1 X (Proc.devRef .tc main_v27)) :=
  read_binary hostOps1 Ws1 hW1 31 (hk1 31 (by decide)) X main_v5 main_v27 main_v28 ((fun x i => Host.gather gather_S500000x64_S500000x1_S500000x64_1_0_n_n_0_1_164 x i) : (⟨S500000x64, .bf16⟩ : BufTy).Contents (Elt F) → (⟨S500000x1, .i32⟩ : BufTy).Contents (Elt F) → (⟨S500000x64, .bf16⟩ : BufTy).Contents (Elt F)) ⟨by decide, rfl⟩ ⟨by decide, rfl⟩ ⟨by decide, rfl⟩ rfl (by decide) (by decide) (by decide)
theorem r1_v29 (X : Valuation τ sig (Elt F)) : after hostOps1 X (Proc.devRef .tc main_v29) = ((extf .f32 · bitsLt_bf16_f32) : (⟨S500000x64, .bf16⟩ : BufTy).Contents (Elt F) → (⟨S500000x64, .f32⟩ : BufTy).Contents (Elt F)) (after hostOps1 X (Proc.devRef .tc main_v28)) :=
  read_unary hostOps1 Ws1 hW1 32 (hk1 32 (by decide)) X main_v28 main_v29 ((extf .f32 · bitsLt_bf16_f32) : (⟨S500000x64, .bf16⟩ : BufTy).Contents (Elt F) → (⟨S500000x64, .f32⟩ : BufTy).Contents (Elt F)) ⟨by decide, rfl⟩ ⟨by decide, rfl⟩ rfl (by decide) (by decide)
theorem r1_cst_5 (X : Valuation τ sig (Elt F)) : after hostOps1 X (Proc.devRef .tc main_cst_5) = (constant S_ .f32 0x00000000#32) :=
  read_nullary hostOps1 Ws1 hW1 33 (hk1 33 (by decide)) X main_cst_5 _ ⟨by decide, rfl⟩ rfl (by decide)
theorem r1_v30 (X : Valuation τ sig (Elt F)) : after hostOps1 X (Proc.devRef .tc main_v30) = (broadcastInDim S20000x64 ![] bcast_S_S20000x64 : (⟨S_, .f32⟩ : BufTy).Contents (Elt F) → (⟨S20000x64, .f32⟩ : BufTy).Contents (Elt F)) (after hostOps1 X (Proc.devRef .tc main_cst_5)) :=
  read_unary hostOps1 Ws1 hW1 34 (hk1 34 (by decide)) X main_cst_5 main_v30 (broadcastInDim S20000x64 ![] bcast_S_S20000x64 : (⟨S_, .f32⟩ : BufTy).Contents (Elt F) → (⟨S20000x64, .f32⟩ : BufTy).Contents (Elt F)) ⟨by decide, rfl⟩ ⟨by decide, rfl⟩ rfl (by decide) (by decide)
theorem r1_v31 (X : Valuation τ sig (Elt F)) : after hostOps1 X (Proc.devRef .tc main_v31) = (broadcastInDim S500000x1 ![0] bcast_S500000_S500000x1_0 : (⟨S500000, .i32⟩ : BufTy).Contents (Elt F) → (⟨S500000x1, .i32⟩ : BufTy).Contents (Elt F)) (after hostOps1 X (Proc.devRef .tc main_arg10)) :=
  read_unary hostOps1 Ws1 hW1 35 (hk1 35 (by decide)) X main_arg10 main_v31 (broadcastInDim S500000x1 ![0] bcast_S500000_S500000x1_0 : (⟨S500000, .i32⟩ : BufTy).Contents (Elt F) → (⟨S500000x1, .i32⟩ : BufTy).Contents (Elt F)) ⟨by decide, rfl⟩ ⟨by decide, rfl⟩ rfl (by decide) (by decide)
theorem r1_v32 (X : Valuation τ sig (Elt F)) : after hostOps1 X (Proc.devRef .tc main_v32) = ((fun x i u => Host.scatterAdd scatter_S20000x64_S500000x1_S500000x64_1_0_0_1 x i u) : (⟨S20000x64, .f32⟩ : BufTy).Contents (Elt F) → (⟨S500000x1, .i32⟩ : BufTy).Contents (Elt F) → (⟨S500000x64, .f32⟩ : BufTy).Contents (Elt F) → (⟨S20000x64, .f32⟩ : BufTy).Contents (Elt F)) (after hostOps1 X (Proc.devRef .tc main_v30)) (after hostOps1 X (Proc.devRef .tc main_v31)) (after hostOps1 X (Proc.devRef .tc main_v29)) :=
  read_ternary hostOps1 Ws1 hW1 36 (hk1 36 (by decide)) X main_v30 main_v31 main_v29 main_v32 ((fun x i u => Host.scatterAdd scatter_S20000x64_S500000x1_S500000x64_1_0_0_1 x i u) : (⟨S20000x64, .f32⟩ : BufTy).Contents (Elt F) → (⟨S500000x1, .i32⟩ : BufTy).Contents (Elt F) → (⟨S500000x64, .f32⟩ : BufTy).Contents (Elt F) → (⟨S20000x64, .f32⟩ : BufTy).Contents (Elt F)) ⟨by decide, rfl⟩ ⟨by decide, rfl⟩ ⟨by decide, rfl⟩ ⟨by decide, rfl⟩ rfl (by decide) (by decide) (by decide) (by decide)
theorem r1_cst_6 (X : Valuation τ sig (Elt F)) : after hostOps1 X (Proc.devRef .tc main_cst_6) = (constant S_ .f32 0x3F800000#32) :=
  read_nullary hostOps1 Ws1 hW1 37 (hk1 37 (by decide)) X main_cst_6 _ ⟨by decide, rfl⟩ rfl (by decide)
theorem r1_v33 (X : Valuation τ sig (Elt F)) : after hostOps1 X (Proc.devRef .tc main_v33) = (broadcastInDim S500000 ![] bcast_S_S500000 : (⟨S_, .f32⟩ : BufTy).Contents (Elt F) → (⟨S500000, .f32⟩ : BufTy).Contents (Elt F)) (after hostOps1 X (Proc.devRef .tc main_cst_6)) :=
  read_unary hostOps1 Ws1 hW1 38 (hk1 38 (by decide)) X main_cst_6 main_v33 (broadcastInDim S500000 ![] bcast_S_S500000 : (⟨S_, .f32⟩ : BufTy).Contents (Elt F) → (⟨S500000, .f32⟩ : BufTy).Contents (Elt F)) ⟨by decide, rfl⟩ ⟨by decide, rfl⟩ rfl (by decide) (by decide)
theorem r1_cst_7 (X : Valuation τ sig (Elt F)) : after hostOps1 X (Proc.devRef .tc main_cst_7) = (constant S_ .f32 0x00000000#32) :=
  read_nullary hostOps1 Ws1 hW1 39 (hk1 39 (by decide)) X main_cst_7 _ ⟨by decide, rfl⟩ rfl (by decide)
theorem r1_v34 (X : Valuation τ sig (Elt F)) : after hostOps1 X (Proc.devRef .tc main_v34) = (broadcastInDim S20000 ![] bcast_S_S20000 : (⟨S_, .f32⟩ : BufTy).Contents (Elt F) → (⟨S20000, .f32⟩ : BufTy).Contents (Elt F)) (after hostOps1 X (Proc.devRef .tc main_cst_7)) :=
  read_unary hostOps1 Ws1 hW1 40 (hk1 40 (by decide)) X main_cst_7 main_v34 (broadcastInDim S20000 ![] bcast_S_S20000 : (⟨S_, .f32⟩ : BufTy).Contents (Elt F) → (⟨S20000, .f32⟩ : BufTy).Contents (Elt F)) ⟨by decide, rfl⟩ ⟨by decide, rfl⟩ rfl (by decide) (by decide)
theorem r1_v35 (X : Valuation τ sig (Elt F)) : after hostOps1 X (Proc.devRef .tc main_v35) = (broadcastInDim S500000x1 ![0] bcast_S500000_S500000x1_0 : (⟨S500000, .i32⟩ : BufTy).Contents (Elt F) → (⟨S500000x1, .i32⟩ : BufTy).Contents (Elt F)) (after hostOps1 X (Proc.devRef .tc main_arg10)) :=
  read_unary hostOps1 Ws1 hW1 41 (hk1 41 (by decide)) X main_arg10 main_v35 (broadcastInDim S500000x1 ![0] bcast_S500000_S500000x1_0 : (⟨S500000, .i32⟩ : BufTy).Contents (Elt F) → (⟨S500000x1, .i32⟩ : BufTy).Contents (Elt F)) ⟨by decide, rfl⟩ ⟨by decide, rfl⟩ rfl (by decide) (by decide)
theorem r1_v36 (X : Valuation τ sig (Elt F)) : after hostOps1 X (Proc.devRef .tc main_v36) = ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)) (after hostOps1 X (Proc.devRef .tc main_v34)) (after hostOps1 X (Proc.devRef .tc main_v35)) (after hostOps1 X (Proc.devRef .tc main_v33)) :=
  read_ternary hostOps1 Ws1 hW1 42 (hk1 42 (by decide)) X main_v34 main_v35 main_v33 main_v36 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)) ⟨by decide, rfl⟩ ⟨by decide, rfl⟩ ⟨by decide, rfl⟩ ⟨by decide, rfl⟩ rfl (by decide) (by decide) (by decide) (by decide)
theorem r1_v37 (X : Valuation τ sig (Elt F)) : after hostOps1 X (Proc.devRef .tc main_v37) = (shapeCast S20000x1 (after hostOps1 X (Proc.devRef .tc main_v36)) shapeCasts_S20000_S20000x1 : (⟨S20000x1, .f32⟩ : BufTy).Contents (Elt F)) :=
  read_reshape hostOps1 Ws1 hW1 43 (hk1 43 (by decide)) X main_v36 main_v37 rfl shapeCasts_S20000_S20000x1 ⟨by decide, rfl⟩ ⟨by decide, rfl⟩ rfl (by decide) (by decide)
theorem r1_v38 (X : Valuation τ sig (Elt F)) : after hostOps1 X (Proc.devRef .tc main_v38) = (shapeCast S1x64 (after hostOps1 X (Proc.devRef .tc main_arg14)) shapeCasts_S64_S1x64 : (⟨S1x64, .f32⟩ : BufTy).Contents (Elt F)) :=
  read_reshape hostOps1 Ws1 hW1 44 (hk1 44 (by decide)) X main_arg14 main_v38 rfl shapeCasts_S64_S1x64 ⟨by decide, rfl⟩ ⟨by decide, rfl⟩ rfl (by decide) (by decide)

/-! ## Stretch 2 -/

/-- The buffer each operation of stretch 2 writes, in order. -/
abbrev Ws2 : List (Ref sig .tc) :=
  [ main_v40 ]

theorem hW2 : WritesList (hostOps2 (F := F)) Ws2 := by
  repeat' (first | exact writesList_nil | refine writesList_cons rfl ?_)

theorem len2 : (hostOps2 (F := F)).length = 1 := rfl
theorem hk2 (k : ℕ) (h : k < 1) : k < (hostOps2 (F := F)).length := lt_of_lt_of_eq h len2.symm

/-- A buffer stretch 2 does not write keeps its contents. -/
theorem keep2 (X : Valuation τ sig (Elt F)) (b : Ref sig .tc) (hb : b ∉ Ws2) :
    after hostOps2 X (Proc.devRef .tc b) = X (Proc.devRef .tc b) := after_keep hostOps2 Ws2 hW2 X b hb

theorem r2_v40 (X : Valuation τ sig (Elt F)) : after hostOps2 X (Proc.devRef .tc main_v40) = (shapeCast S1x64 (after hostOps2 X (Proc.devRef .tc main_arg18)) shapeCasts_S64_S1x64 : (⟨S1x64, .f32⟩ : BufTy).Contents (Elt F)) :=
  read_reshape hostOps2 Ws2 hW2 0 (hk2 0 (by decide)) X main_arg18 main_v40 rfl shapeCasts_S64_S1x64 ⟨by decide, rfl⟩ ⟨by decide, rfl⟩ rfl (by decide) (by decide)

/-! ## Stretch 3 -/

/-- The buffer each operation of stretch 3 writes, in order. -/
abbrev Ws3 : List (Ref sig .tc) :=
  [ main_c_8, main_v42, main_v43, main_c_9, main_v44, main_v45, main_v46, main_v47, main_v48, main_v49, main_cst_10, main_v50, main_v51, main_v52, main_cst_11, main_v53, main_cst_12, main_v54, main_v55, main_v56, main_v57, main_c_13, main_v58, main_v59, main_c_14, main_v60, main_v61, main_v62, main_v63, main_v64, main_v65, main_cst_15, main_v66, main_v67, main_v68, main_cst_16, main_v69, main_cst_17, main_v70, main_v71, main_v72, main_v73, main_v74 ]

theorem hW3 : WritesList (hostOps3 (F := F)) Ws3 := by
  repeat' (first | exact writesList_nil | refine writesList_cons rfl ?_)

theorem len3 : (hostOps3 (F := F)).length = 43 := rfl
theorem hk3 (k : ℕ) (h : k < 43) : k < (hostOps3 (F := F)).length := lt_of_lt_of_eq h len3.symm

/-- A buffer stretch 3 does not write keeps its contents. -/
theorem keep3 (X : Valuation τ sig (Elt F)) (b : Ref sig .tc) (hb : b ∉ Ws3) :
    after hostOps3 X (Proc.devRef .tc b) = X (Proc.devRef .tc b) := after_keep hostOps3 Ws3 hW3 X b hb

theorem r3_c_8 (X : Valuation τ sig (Elt F)) : after hostOps3 X (Proc.devRef .tc main_c_8) = (constantI S_ 32 0#32) :=
  read_nullary hostOps3 Ws3 hW3 0 (hk3 0 (by decide)) X main_c_8 _ ⟨by decide, rfl⟩ rfl (by decide)
theorem r3_v42 (X : Valuation τ sig (Elt F)) : after hostOps3 X (Proc.devRef .tc main_v42) = (broadcastInDim S500000 ![] bcast_S_S500000 : (⟨S_, .i32⟩ : BufTy).Contents (Elt F) → (⟨S500000, .i32⟩ : BufTy).Contents (Elt F)) (after hostOps3 X (Proc.devRef .tc main_c_8)) :=
  read_unary hostOps3 Ws3 hW3 1 (hk3 1 (by decide)) X main_c_8 main_v42 (broadcastInDim S500000 ![] bcast_S_S500000 : (⟨S_, .i32⟩ : BufTy).Contents (Elt F) → (⟨S500000, .i32⟩ : BufTy).Contents (Elt F)) ⟨by decide, rfl⟩ ⟨by decide, rfl⟩ rfl (by decide) (by decide)
theorem r3_v43 (X : Valuation τ sig (Elt F)) : after hostOps3 X (Proc.devRef .tc main_v43) = (cmpi .slt : (⟨S500000, .i32⟩ : BufTy).Contents (Elt F) → (⟨S500000, .i32⟩ : BufTy).Contents (Elt F) → (⟨S500000, .i1⟩ : BufTy).Contents (Elt F)) (after hostOps3 X (Proc.devRef .tc main_arg3)) (after hostOps3 X (Proc.devRef .tc main_v42)) :=
  read_binary hostOps3 Ws3 hW3 2 (hk3 2 (by decide)) X main_arg3 main_v42 main_v43 (cmpi .slt : (⟨S500000, .i32⟩ : BufTy).Contents (Elt F) → (⟨S500000, .i32⟩ : BufTy).Contents (Elt F) → (⟨S500000, .i1⟩ : BufTy).Contents (Elt F)) ⟨by decide, rfl⟩ ⟨by decide, rfl⟩ ⟨by decide, rfl⟩ rfl (by decide) (by decide) (by decide)
theorem r3_c_9 (X : Valuation τ sig (Elt F)) : after hostOps3 X (Proc.devRef .tc main_c_9) = (constantI S_ 32 100000#32) :=
  read_nullary hostOps3 Ws3 hW3 3 (hk3 3 (by decide)) X main_c_9 _ ⟨by decide, rfl⟩ rfl (by decide)
theorem r3_v44 (X : Valuation τ sig (Elt F)) : after hostOps3 X (Proc.devRef .tc main_v44) = (broadcastInDim S500000 ![] bcast_S_S500000 : (⟨S_, .i32⟩ : BufTy).Contents (Elt F) → (⟨S500000, .i32⟩ : BufTy).Contents (Elt F)) (after hostOps3 X (Proc.devRef .tc main_c_9)) :=
  read_unary hostOps3 Ws3 hW3 4 (hk3 4 (by decide)) X main_c_9 main_v44 (broadcastInDim S500000 ![] bcast_S_S500000 : (⟨S_, .i32⟩ : BufTy).Contents (Elt F) → (⟨S500000, .i32⟩ : BufTy).Contents (Elt F)) ⟨by decide, rfl⟩ ⟨by decide, rfl⟩ rfl (by decide) (by decide)
theorem r3_v45 (X : Valuation τ sig (Elt F)) : after hostOps3 X (Proc.devRef .tc main_v45) = (addi : (⟨S500000, .i32⟩ : BufTy).Contents (Elt F) → (⟨S500000, .i32⟩ : BufTy).Contents (Elt F) → (⟨S500000, .i32⟩ : BufTy).Contents (Elt F)) (after hostOps3 X (Proc.devRef .tc main_arg3)) (after hostOps3 X (Proc.devRef .tc main_v44)) :=
  read_binary hostOps3 Ws3 hW3 5 (hk3 5 (by decide)) X main_arg3 main_v44 main_v45 (addi : (⟨S500000, .i32⟩ : BufTy).Contents (Elt F) → (⟨S500000, .i32⟩ : BufTy).Contents (Elt F) → (⟨S500000, .i32⟩ : BufTy).Contents (Elt F)) ⟨by decide, rfl⟩ ⟨by decide, rfl⟩ ⟨by decide, rfl⟩ rfl (by decide) (by decide) (by decide)
theorem r3_v46 (X : Valuation τ sig (Elt F)) : after hostOps3 X (Proc.devRef .tc main_v46) = (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) (after hostOps3 X (Proc.devRef .tc main_v43)) (after hostOps3 X (Proc.devRef .tc main_v45)) (after hostOps3 X (Proc.devRef .tc main_arg3)) :=
  read_ternary hostOps3 Ws3 hW3 6 (hk3 6 (by decide)) X main_v43 main_v45 main_arg3 main_v46 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) ⟨by decide, rfl⟩ ⟨by decide, rfl⟩ ⟨by decide, rfl⟩ ⟨by decide, rfl⟩ rfl (by decide) (by decide) (by decide) (by decide)
theorem r3_v47 (X : Valuation τ sig (Elt F)) : after hostOps3 X (Proc.devRef .tc main_v47) = (broadcastInDim S500000x1 ![0] bcast_S500000_S500000x1_0 : (⟨S500000, .i32⟩ : BufTy).Contents (Elt F) → (⟨S500000x1, .i32⟩ : BufTy).Contents (Elt F)) (after hostOps3 X (Proc.devRef .tc main_v46)) :=
  read_unary hostOps3 Ws3 hW3 7 (hk3 7 (by decide)) X main_v46 main_v47 (broadcastInDim S500000x1 ![0] bcast_S500000_S500000x1_0 : (⟨S500000, .i32⟩ : BufTy).Contents (Elt F) → (⟨S500000x1, .i32⟩ : BufTy).Contents (Elt F)) ⟨by decide, rfl⟩ ⟨by decide, rfl⟩ rfl (by decide) (by decide)
theorem r3_v48 (X : Valuation τ sig (Elt F)) : after hostOps3 X (Proc.devRef .tc main_v48) = ((fun x i => Host.gather gather_S100000x64_S500000x1_S500000x64_1_0_n_n_0_1_164 x i) : (⟨S100000x64, .bf16⟩ : BufTy).Contents (Elt F) → (⟨S500000x1, .i32⟩ : BufTy).Contents (Elt F) → (⟨S500000x64, .bf16⟩ : BufTy).Contents (Elt F)) (after hostOps3 X (Proc.devRef .tc main_v39)) (after hostOps3 X (Proc.devRef .tc main_v47)) :=
  read_binary hostOps3 Ws3 hW3 8 (hk3 8 (by decide)) X main_v39 main_v47 main_v48 ((fun x i => Host.gather gather_S100000x64_S500000x1_S500000x64_1_0_n_n_0_1_164 x i) : (⟨S100000x64, .bf16⟩ : BufTy).Contents (Elt F) → (⟨S500000x1, .i32⟩ : BufTy).Contents (Elt F) → (⟨S500000x64, .bf16⟩ : BufTy).Contents (Elt F)) ⟨by decide, rfl⟩ ⟨by decide, rfl⟩ ⟨by decide, rfl⟩ rfl (by decide) (by decide) (by decide)
theorem r3_v49 (X : Valuation τ sig (Elt F)) : after hostOps3 X (Proc.devRef .tc main_v49) = ((extf .f32 · bitsLt_bf16_f32) : (⟨S500000x64, .bf16⟩ : BufTy).Contents (Elt F) → (⟨S500000x64, .f32⟩ : BufTy).Contents (Elt F)) (after hostOps3 X (Proc.devRef .tc main_v48)) :=
  read_unary hostOps3 Ws3 hW3 9 (hk3 9 (by decide)) X main_v48 main_v49 ((extf .f32 · bitsLt_bf16_f32) : (⟨S500000x64, .bf16⟩ : BufTy).Contents (Elt F) → (⟨S500000x64, .f32⟩ : BufTy).Contents (Elt F)) ⟨by decide, rfl⟩ ⟨by decide, rfl⟩ rfl (by decide) (by decide)
theorem r3_cst_10 (X : Valuation τ sig (Elt F)) : after hostOps3 X (Proc.devRef .tc main_cst_10) = (constant S_ .f32 0x00000000#32) :=
  read_nullary hostOps3 Ws3 hW3 10 (hk3 10 (by decide)) X main_cst_10 _ ⟨by decide, rfl⟩ rfl (by decide)
theorem r3_v50 (X : Valuation τ sig (Elt F)) : after hostOps3 X (Proc.devRef .tc main_v50) = (broadcastInDim S500000x64 ![] bcast_S_S500000x64 : (⟨S_, .f32⟩ : BufTy).Contents (Elt F) → (⟨S500000x64, .f32⟩ : BufTy).Contents (Elt F)) (after hostOps3 X (Proc.devRef .tc main_cst_10)) :=
  read_unary hostOps3 Ws3 hW3 11 (hk3 11 (by decide)) X main_cst_10 main_v50 (broadcastInDim S500000x64 ![] bcast_S_S500000x64 : (⟨S_, .f32⟩ : BufTy).Contents (Elt F) → (⟨S500000x64, .f32⟩ : BufTy).Contents (Elt F)) ⟨by decide, rfl⟩ ⟨by decide, rfl⟩ rfl (by decide) (by decide)
theorem r3_v51 (X : Valuation τ sig (Elt F)) : after hostOps3 X (Proc.devRef .tc main_v51) = (broadcastInDim S500000x1 ![0] bcast_S500000_S500000x1_0 : (⟨S500000, .i32⟩ : BufTy).Contents (Elt F) → (⟨S500000x1, .i32⟩ : BufTy).Contents (Elt F)) (after hostOps3 X (Proc.devRef .tc main_arg4)) :=
  read_unary hostOps3 Ws3 hW3 12 (hk3 12 (by decide)) X main_arg4 main_v51 (broadcastInDim S500000x1 ![0] bcast_S500000_S500000x1_0 : (⟨S500000, .i32⟩ : BufTy).Contents (Elt F) → (⟨S500000x1, .i32⟩ : BufTy).Contents (Elt F)) ⟨by decide, rfl⟩ ⟨by decide, rfl⟩ rfl (by decide) (by decide)
theorem r3_v52 (X : Valuation τ sig (Elt F)) : after hostOps3 X (Proc.devRef .tc main_v52) = ((fun x i u => Host.scatterAdd scatter_S500000x64_S500000x1_S500000x64_1_0_0_1 x i u) : (⟨S500000x64, .f32⟩ : BufTy).Contents (Elt F) → (⟨S500000x1, .i32⟩ : BufTy).Contents (Elt F) → (⟨S500000x64, .f32⟩ : BufTy).Contents (Elt F) → (⟨S500000x64, .f32⟩ : BufTy).Contents (Elt F)) (after hostOps3 X (Proc.devRef .tc main_v50)) (after hostOps3 X (Proc.devRef .tc main_v51)) (after hostOps3 X (Proc.devRef .tc main_v49)) :=
  read_ternary hostOps3 Ws3 hW3 13 (hk3 13 (by decide)) X main_v50 main_v51 main_v49 main_v52 ((fun x i u => Host.scatterAdd scatter_S500000x64_S500000x1_S500000x64_1_0_0_1 x i u) : (⟨S500000x64, .f32⟩ : BufTy).Contents (Elt F) → (⟨S500000x1, .i32⟩ : BufTy).Contents (Elt F) → (⟨S500000x64, .f32⟩ : BufTy).Contents (Elt F) → (⟨S500000x64, .f32⟩ : BufTy).Contents (Elt F)) ⟨by decide, rfl⟩ ⟨by decide, rfl⟩ ⟨by decide, rfl⟩ ⟨by decide, rfl⟩ rfl (by decide) (by decide) (by decide) (by decide)
theorem r3_cst_11 (X : Valuation τ sig (Elt F)) : after hostOps3 X (Proc.devRef .tc main_cst_11) = (constant S_ .f32 0x3F800000#32) :=
  read_nullary hostOps3 Ws3 hW3 14 (hk3 14 (by decide)) X main_cst_11 _ ⟨by decide, rfl⟩ rfl (by decide)
theorem r3_v53 (X : Valuation τ sig (Elt F)) : after hostOps3 X (Proc.devRef .tc main_v53) = (broadcastInDim S500000 ![] bcast_S_S500000 : (⟨S_, .f32⟩ : BufTy).Contents (Elt F) → (⟨S500000, .f32⟩ : BufTy).Contents (Elt F)) (after hostOps3 X (Proc.devRef .tc main_cst_11)) :=
  read_unary hostOps3 Ws3 hW3 15 (hk3 15 (by decide)) X main_cst_11 main_v53 (broadcastInDim S500000 ![] bcast_S_S500000 : (⟨S_, .f32⟩ : BufTy).Contents (Elt F) → (⟨S500000, .f32⟩ : BufTy).Contents (Elt F)) ⟨by decide, rfl⟩ ⟨by decide, rfl⟩ rfl (by decide) (by decide)
theorem r3_cst_12 (X : Valuation τ sig (Elt F)) : after hostOps3 X (Proc.devRef .tc main_cst_12) = (constant S_ .f32 0x00000000#32) :=
  read_nullary hostOps3 Ws3 hW3 16 (hk3 16 (by decide)) X main_cst_12 _ ⟨by decide, rfl⟩ rfl (by decide)
theorem r3_v54 (X : Valuation τ sig (Elt F)) : after hostOps3 X (Proc.devRef .tc main_v54) = (broadcastInDim S500000 ![] bcast_S_S500000 : (⟨S_, .f32⟩ : BufTy).Contents (Elt F) → (⟨S500000, .f32⟩ : BufTy).Contents (Elt F)) (after hostOps3 X (Proc.devRef .tc main_cst_12)) :=
  read_unary hostOps3 Ws3 hW3 17 (hk3 17 (by decide)) X main_cst_12 main_v54 (broadcastInDim S500000 ![] bcast_S_S500000 : (⟨S_, .f32⟩ : BufTy).Contents (Elt F) → (⟨S500000, .f32⟩ : BufTy).Contents (Elt F)) ⟨by decide, rfl⟩ ⟨by decide, rfl⟩ rfl (by decide) (by decide)
theorem r3_v55 (X : Valuation τ sig (Elt F)) : after hostOps3 X (Proc.devRef .tc main_v55) = (broadcastInDim S500000x1 ![0] bcast_S500000_S500000x1_0 : (⟨S500000, .i32⟩ : BufTy).Contents (Elt F) → (⟨S500000x1, .i32⟩ : BufTy).Contents (Elt F)) (after hostOps3 X (Proc.devRef .tc main_arg4)) :=
  read_unary hostOps3 Ws3 hW3 18 (hk3 18 (by decide)) X main_arg4 main_v55 (broadcastInDim S500000x1 ![0] bcast_S500000_S500000x1_0 : (⟨S500000, .i32⟩ : BufTy).Contents (Elt F) → (⟨S500000x1, .i32⟩ : BufTy).Contents (Elt F)) ⟨by decide, rfl⟩ ⟨by decide, rfl⟩ rfl (by decide) (by decide)
theorem r3_v56 (X : Valuation τ sig (Elt F)) : after hostOps3 X (Proc.devRef .tc main_v56) = ((fun x i u => Host.scatterAdd scatter_S500000_S500000x1_S500000_n_0_0_1 x i u) : (⟨S500000, .f32⟩ : BufTy).Contents (Elt F) → (⟨S500000x1, .i32⟩ : BufTy).Contents (Elt F) → (⟨S500000, .f32⟩ : BufTy).Contents (Elt F) → (⟨S500000, .f32⟩ : BufTy).Contents (Elt F)) (after hostOps3 X (Proc.devRef .tc main_v54)) (after hostOps3 X (Proc.devRef .tc main_v55)) (after hostOps3 X (Proc.devRef .tc main_v53)) :=
  read_ternary hostOps3 Ws3 hW3 19 (hk3 19 (by decide)) X main_v54 main_v55 main_v53 main_v56 ((fun x i u => Host.scatterAdd scatter_S500000_S500000x1_S500000_n_0_0_1 x i u) : (⟨S500000, .f32⟩ : BufTy).Contents (Elt F) → (⟨S500000x1, .i32⟩ : BufTy).Contents (Elt F) → (⟨S500000, .f32⟩ : BufTy).Contents (Elt F) → (⟨S500000, .f32⟩ : BufTy).Contents (Elt F)) ⟨by decide, rfl⟩ ⟨by decide, rfl⟩ ⟨by decide, rfl⟩ ⟨by decide, rfl⟩ rfl (by decide) (by decide) (by decide) (by decide)
theorem r3_v57 (X : Valuation τ sig (Elt F)) : after hostOps3 X (Proc.devRef .tc main_v57) = (shapeCast S500000x1 (after hostOps3 X (Proc.devRef .tc main_v56)) shapeCasts_S500000_S500000x1 : (⟨S500000x1, .f32⟩ : BufTy).Contents (Elt F)) :=
  read_reshape hostOps3 Ws3 hW3 20 (hk3 20 (by decide)) X main_v56 main_v57 rfl shapeCasts_S500000_S500000x1 ⟨by decide, rfl⟩ ⟨by decide, rfl⟩ rfl (by decide) (by decide)
theorem r3_c_13 (X : Valuation τ sig (Elt F)) : after hostOps3 X (Proc.devRef .tc main_c_13) = (constantI S_ 32 0#32) :=
  read_nullary hostOps3 Ws3 hW3 21 (hk3 21 (by decide)) X main_c_13 _ ⟨by decide, rfl⟩ rfl (by decide)
theorem r3_v58 (X : Valuation τ sig (Elt F)) : after hostOps3 X (Proc.devRef .tc main_v58) = (broadcastInDim S500000 ![] bcast_S_S500000 : (⟨S_, .i32⟩ : BufTy).Contents (Elt F) → (⟨S500000, .i32⟩ : BufTy).Contents (Elt F)) (after hostOps3 X (Proc.devRef .tc main_c_13)) :=
  read_unary hostOps3 Ws3 hW3 22 (hk3 22 (by decide)) X main_c_13 main_v58 (broadcastInDim S500000 ![] bcast_S_S500000 : (⟨S_, .i32⟩ : BufTy).Contents (Elt F) → (⟨S500000, .i32⟩ : BufTy).Contents (Elt F)) ⟨by decide, rfl⟩ ⟨by decide, rfl⟩ rfl (by decide) (by decide)
theorem r3_v59 (X : Valuation τ sig (Elt F)) : after hostOps3 X (Proc.devRef .tc main_v59) = (cmpi .slt : (⟨S500000, .i32⟩ : BufTy).Contents (Elt F) → (⟨S500000, .i32⟩ : BufTy).Contents (Elt F) → (⟨S500000, .i1⟩ : BufTy).Contents (Elt F)) (after hostOps3 X (Proc.devRef .tc main_arg5)) (after hostOps3 X (Proc.devRef .tc main_v58)) :=
  read_binary hostOps3 Ws3 hW3 23 (hk3 23 (by decide)) X main_arg5 main_v58 main_v59 (cmpi .slt : (⟨S500000, .i32⟩ : BufTy).Contents (Elt F) → (⟨S500000, .i32⟩ : BufTy).Contents (Elt F) → (⟨S500000, .i1⟩ : BufTy).Contents (Elt F)) ⟨by decide, rfl⟩ ⟨by decide, rfl⟩ ⟨by decide, rfl⟩ rfl (by decide) (by decide) (by decide)
theorem r3_c_14 (X : Valuation τ sig (Elt F)) : after hostOps3 X (Proc.devRef .tc main_c_14) = (constantI S_ 32 20000#32) :=
  read_nullary hostOps3 Ws3 hW3 24 (hk3 24 (by decide)) X main_c_14 _ ⟨by decide, rfl⟩ rfl (by decide)
theorem r3_v60 (X : Valuation τ sig (Elt F)) : after hostOps3 X (Proc.devRef .tc main_v60) = (broadcastInDim S500000 ![] bcast_S_S500000 : (⟨S_, .i32⟩ : BufTy).Contents (Elt F) → (⟨S500000, .i32⟩ : BufTy).Contents (Elt F)) (after hostOps3 X (Proc.devRef .tc main_c_14)) :=
  read_unary hostOps3 Ws3 hW3 25 (hk3 25 (by decide)) X main_c_14 main_v60 (broadcastInDim S500000 ![] bcast_S_S500000 : (⟨S_, .i32⟩ : BufTy).Contents (Elt F) → (⟨S500000, .i32⟩ : BufTy).Contents (Elt F)) ⟨by decide, rfl⟩ ⟨by decide, rfl⟩ rfl (by decide) (by decide)
theorem r3_v61 (X : Valuation τ sig (Elt F)) : after hostOps3 X (Proc.devRef .tc main_v61) = (addi : (⟨S500000, .i32⟩ : BufTy).Contents (Elt F) → (⟨S500000, .i32⟩ : BufTy).Contents (Elt F) → (⟨S500000, .i32⟩ : BufTy).Contents (Elt F)) (after hostOps3 X (Proc.devRef .tc main_arg5)) (after hostOps3 X (Proc.devRef .tc main_v60)) :=
  read_binary hostOps3 Ws3 hW3 26 (hk3 26 (by decide)) X main_arg5 main_v60 main_v61 (addi : (⟨S500000, .i32⟩ : BufTy).Contents (Elt F) → (⟨S500000, .i32⟩ : BufTy).Contents (Elt F) → (⟨S500000, .i32⟩ : BufTy).Contents (Elt F)) ⟨by decide, rfl⟩ ⟨by decide, rfl⟩ ⟨by decide, rfl⟩ rfl (by decide) (by decide) (by decide)
theorem r3_v62 (X : Valuation τ sig (Elt F)) : after hostOps3 X (Proc.devRef .tc main_v62) = (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) (after hostOps3 X (Proc.devRef .tc main_v59)) (after hostOps3 X (Proc.devRef .tc main_v61)) (after hostOps3 X (Proc.devRef .tc main_arg5)) :=
  read_ternary hostOps3 Ws3 hW3 27 (hk3 27 (by decide)) X main_v59 main_v61 main_arg5 main_v62 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) ⟨by decide, rfl⟩ ⟨by decide, rfl⟩ ⟨by decide, rfl⟩ ⟨by decide, rfl⟩ rfl (by decide) (by decide) (by decide) (by decide)
theorem r3_v63 (X : Valuation τ sig (Elt F)) : after hostOps3 X (Proc.devRef .tc main_v63) = (broadcastInDim S500000x1 ![0] bcast_S500000_S500000x1_0 : (⟨S500000, .i32⟩ : BufTy).Contents (Elt F) → (⟨S500000x1, .i32⟩ : BufTy).Contents (Elt F)) (after hostOps3 X (Proc.devRef .tc main_v62)) :=
  read_unary hostOps3 Ws3 hW3 28 (hk3 28 (by decide)) X main_v62 main_v63 (broadcastInDim S500000x1 ![0] bcast_S500000_S500000x1_0 : (⟨S500000, .i32⟩ : BufTy).Contents (Elt F) → (⟨S500000x1, .i32⟩ : BufTy).Contents (Elt F)) ⟨by decide, rfl⟩ ⟨by decide, rfl⟩ rfl (by decide) (by decide)
theorem r3_v64 (X : Valuation τ sig (Elt F)) : after hostOps3 X (Proc.devRef .tc main_v64) = ((fun x i => Host.gather gather_S20000x64_S500000x1_S500000x64_1_0_n_n_0_1_164 x i) : (⟨S20000x64, .bf16⟩ : BufTy).Contents (Elt F) → (⟨S500000x1, .i32⟩ : BufTy).Contents (Elt F) → (⟨S500000x64, .bf16⟩ : BufTy).Contents (Elt F)) (after hostOps3 X (Proc.devRef .tc main_v41)) (after hostOps3 X (Proc.devRef .tc main_v63)) :=
  read_binary hostOps3 Ws3 hW3 29 (hk3 29 (by decide)) X main_v41 main_v63 main_v64 ((fun x i => Host.gather gather_S20000x64_S500000x1_S500000x64_1_0_n_n_0_1_164 x i) : (⟨S20000x64, .bf16⟩ : BufTy).Contents (Elt F) → (⟨S500000x1, .i32⟩ : BufTy).Contents (Elt F) → (⟨S500000x64, .bf16⟩ : BufTy).Contents (Elt F)) ⟨by decide, rfl⟩ ⟨by decide, rfl⟩ ⟨by decide, rfl⟩ rfl (by decide) (by decide) (by decide)
theorem r3_v65 (X : Valuation τ sig (Elt F)) : after hostOps3 X (Proc.devRef .tc main_v65) = ((extf .f32 · bitsLt_bf16_f32) : (⟨S500000x64, .bf16⟩ : BufTy).Contents (Elt F) → (⟨S500000x64, .f32⟩ : BufTy).Contents (Elt F)) (after hostOps3 X (Proc.devRef .tc main_v64)) :=
  read_unary hostOps3 Ws3 hW3 30 (hk3 30 (by decide)) X main_v64 main_v65 ((extf .f32 · bitsLt_bf16_f32) : (⟨S500000x64, .bf16⟩ : BufTy).Contents (Elt F) → (⟨S500000x64, .f32⟩ : BufTy).Contents (Elt F)) ⟨by decide, rfl⟩ ⟨by decide, rfl⟩ rfl (by decide) (by decide)
theorem r3_cst_15 (X : Valuation τ sig (Elt F)) : after hostOps3 X (Proc.devRef .tc main_cst_15) = (constant S_ .f32 0x00000000#32) :=
  read_nullary hostOps3 Ws3 hW3 31 (hk3 31 (by decide)) X main_cst_15 _ ⟨by decide, rfl⟩ rfl (by decide)
theorem r3_v66 (X : Valuation τ sig (Elt F)) : after hostOps3 X (Proc.devRef .tc main_v66) = (broadcastInDim S500000x64 ![] bcast_S_S500000x64 : (⟨S_, .f32⟩ : BufTy).Contents (Elt F) → (⟨S500000x64, .f32⟩ : BufTy).Contents (Elt F)) (after hostOps3 X (Proc.devRef .tc main_cst_15)) :=
  read_unary hostOps3 Ws3 hW3 32 (hk3 32 (by decide)) X main_cst_15 main_v66 (broadcastInDim S500000x64 ![] bcast_S_S500000x64 : (⟨S_, .f32⟩ : BufTy).Contents (Elt F) → (⟨S500000x64, .f32⟩ : BufTy).Contents (Elt F)) ⟨by decide, rfl⟩ ⟨by decide, rfl⟩ rfl (by decide) (by decide)
theorem r3_v67 (X : Valuation τ sig (Elt F)) : after hostOps3 X (Proc.devRef .tc main_v67) = (broadcastInDim S500000x1 ![0] bcast_S500000_S500000x1_0 : (⟨S500000, .i32⟩ : BufTy).Contents (Elt F) → (⟨S500000x1, .i32⟩ : BufTy).Contents (Elt F)) (after hostOps3 X (Proc.devRef .tc main_arg6)) :=
  read_unary hostOps3 Ws3 hW3 33 (hk3 33 (by decide)) X main_arg6 main_v67 (broadcastInDim S500000x1 ![0] bcast_S500000_S500000x1_0 : (⟨S500000, .i32⟩ : BufTy).Contents (Elt F) → (⟨S500000x1, .i32⟩ : BufTy).Contents (Elt F)) ⟨by decide, rfl⟩ ⟨by decide, rfl⟩ rfl (by decide) (by decide)
theorem r3_v68 (X : Valuation τ sig (Elt F)) : after hostOps3 X (Proc.devRef .tc main_v68) = ((fun x i u => Host.scatterAdd scatter_S500000x64_S500000x1_S500000x64_1_0_0_1 x i u) : (⟨S500000x64, .f32⟩ : BufTy).Contents (Elt F) → (⟨S500000x1, .i32⟩ : BufTy).Contents (Elt F) → (⟨S500000x64, .f32⟩ : BufTy).Contents (Elt F) → (⟨S500000x64, .f32⟩ : BufTy).Contents (Elt F)) (after hostOps3 X (Proc.devRef .tc main_v66)) (after hostOps3 X (Proc.devRef .tc main_v67)) (after hostOps3 X (Proc.devRef .tc main_v65)) :=
  read_ternary hostOps3 Ws3 hW3 34 (hk3 34 (by decide)) X main_v66 main_v67 main_v65 main_v68 ((fun x i u => Host.scatterAdd scatter_S500000x64_S500000x1_S500000x64_1_0_0_1 x i u) : (⟨S500000x64, .f32⟩ : BufTy).Contents (Elt F) → (⟨S500000x1, .i32⟩ : BufTy).Contents (Elt F) → (⟨S500000x64, .f32⟩ : BufTy).Contents (Elt F) → (⟨S500000x64, .f32⟩ : BufTy).Contents (Elt F)) ⟨by decide, rfl⟩ ⟨by decide, rfl⟩ ⟨by decide, rfl⟩ ⟨by decide, rfl⟩ rfl (by decide) (by decide) (by decide) (by decide)
theorem r3_cst_16 (X : Valuation τ sig (Elt F)) : after hostOps3 X (Proc.devRef .tc main_cst_16) = (constant S_ .f32 0x3F800000#32) :=
  read_nullary hostOps3 Ws3 hW3 35 (hk3 35 (by decide)) X main_cst_16 _ ⟨by decide, rfl⟩ rfl (by decide)
theorem r3_v69 (X : Valuation τ sig (Elt F)) : after hostOps3 X (Proc.devRef .tc main_v69) = (broadcastInDim S500000 ![] bcast_S_S500000 : (⟨S_, .f32⟩ : BufTy).Contents (Elt F) → (⟨S500000, .f32⟩ : BufTy).Contents (Elt F)) (after hostOps3 X (Proc.devRef .tc main_cst_16)) :=
  read_unary hostOps3 Ws3 hW3 36 (hk3 36 (by decide)) X main_cst_16 main_v69 (broadcastInDim S500000 ![] bcast_S_S500000 : (⟨S_, .f32⟩ : BufTy).Contents (Elt F) → (⟨S500000, .f32⟩ : BufTy).Contents (Elt F)) ⟨by decide, rfl⟩ ⟨by decide, rfl⟩ rfl (by decide) (by decide)
theorem r3_cst_17 (X : Valuation τ sig (Elt F)) : after hostOps3 X (Proc.devRef .tc main_cst_17) = (constant S_ .f32 0x00000000#32) :=
  read_nullary hostOps3 Ws3 hW3 37 (hk3 37 (by decide)) X main_cst_17 _ ⟨by decide, rfl⟩ rfl (by decide)
theorem r3_v70 (X : Valuation τ sig (Elt F)) : after hostOps3 X (Proc.devRef .tc main_v70) = (broadcastInDim S500000 ![] bcast_S_S500000 : (⟨S_, .f32⟩ : BufTy).Contents (Elt F) → (⟨S500000, .f32⟩ : BufTy).Contents (Elt F)) (after hostOps3 X (Proc.devRef .tc main_cst_17)) :=
  read_unary hostOps3 Ws3 hW3 38 (hk3 38 (by decide)) X main_cst_17 main_v70 (broadcastInDim S500000 ![] bcast_S_S500000 : (⟨S_, .f32⟩ : BufTy).Contents (Elt F) → (⟨S500000, .f32⟩ : BufTy).Contents (Elt F)) ⟨by decide, rfl⟩ ⟨by decide, rfl⟩ rfl (by decide) (by decide)
theorem r3_v71 (X : Valuation τ sig (Elt F)) : after hostOps3 X (Proc.devRef .tc main_v71) = (broadcastInDim S500000x1 ![0] bcast_S500000_S500000x1_0 : (⟨S500000, .i32⟩ : BufTy).Contents (Elt F) → (⟨S500000x1, .i32⟩ : BufTy).Contents (Elt F)) (after hostOps3 X (Proc.devRef .tc main_arg6)) :=
  read_unary hostOps3 Ws3 hW3 39 (hk3 39 (by decide)) X main_arg6 main_v71 (broadcastInDim S500000x1 ![0] bcast_S500000_S500000x1_0 : (⟨S500000, .i32⟩ : BufTy).Contents (Elt F) → (⟨S500000x1, .i32⟩ : BufTy).Contents (Elt F)) ⟨by decide, rfl⟩ ⟨by decide, rfl⟩ rfl (by decide) (by decide)
theorem r3_v72 (X : Valuation τ sig (Elt F)) : after hostOps3 X (Proc.devRef .tc main_v72) = ((fun x i u => Host.scatterAdd scatter_S500000_S500000x1_S500000_n_0_0_1 x i u) : (⟨S500000, .f32⟩ : BufTy).Contents (Elt F) → (⟨S500000x1, .i32⟩ : BufTy).Contents (Elt F) → (⟨S500000, .f32⟩ : BufTy).Contents (Elt F) → (⟨S500000, .f32⟩ : BufTy).Contents (Elt F)) (after hostOps3 X (Proc.devRef .tc main_v70)) (after hostOps3 X (Proc.devRef .tc main_v71)) (after hostOps3 X (Proc.devRef .tc main_v69)) :=
  read_ternary hostOps3 Ws3 hW3 40 (hk3 40 (by decide)) X main_v70 main_v71 main_v69 main_v72 ((fun x i u => Host.scatterAdd scatter_S500000_S500000x1_S500000_n_0_0_1 x i u) : (⟨S500000, .f32⟩ : BufTy).Contents (Elt F) → (⟨S500000x1, .i32⟩ : BufTy).Contents (Elt F) → (⟨S500000, .f32⟩ : BufTy).Contents (Elt F) → (⟨S500000, .f32⟩ : BufTy).Contents (Elt F)) ⟨by decide, rfl⟩ ⟨by decide, rfl⟩ ⟨by decide, rfl⟩ ⟨by decide, rfl⟩ rfl (by decide) (by decide) (by decide) (by decide)
theorem r3_v73 (X : Valuation τ sig (Elt F)) : after hostOps3 X (Proc.devRef .tc main_v73) = (shapeCast S500000x1 (after hostOps3 X (Proc.devRef .tc main_v72)) shapeCasts_S500000_S500000x1 : (⟨S500000x1, .f32⟩ : BufTy).Contents (Elt F)) :=
  read_reshape hostOps3 Ws3 hW3 41 (hk3 41 (by decide)) X main_v72 main_v73 rfl shapeCasts_S500000_S500000x1 ⟨by decide, rfl⟩ ⟨by decide, rfl⟩ rfl (by decide) (by decide)
theorem r3_v74 (X : Valuation τ sig (Elt F)) : after hostOps3 X (Proc.devRef .tc main_v74) = (shapeCast S1x2 (after hostOps3 X (Proc.devRef .tc main_arg28)) shapeCasts_S2_S1x2 : (⟨S1x2, .f32⟩ : BufTy).Contents (Elt F)) :=
  read_reshape hostOps3 Ws3 hW3 42 (hk3 42 (by decide)) X main_arg28 main_v74 rfl shapeCasts_S2_S1x2 ⟨by decide, rfl⟩ ⟨by decide, rfl⟩ rfl (by decide) (by decide)

end Cert.KernelIdeal.KHost

end
-- ==== Proof.Spec.lean ====
/-
  A two-layer relational graph convolution over three node kinds, written index by index on the extended reals.

  Every stage is one of four arrays-to-array functions: a linear map with bias (a row of x against a column of W, plus the
  bias of that column), a lookup of whole rows by index words, a segment sum (row i of the result adds the update rows
  whose destination word names i), and the mean over a segment (the sum over the segment size, the size floored at one).
  The activation between the layers is the leaky rectifier with the slope word the programs carry.  The float words
  are kept as the patterns the programs print: the same word on both sides is never evaluated.
-/
import Idealize.ShloMosaic.PureOps.Ideal
import Idealize.ShloMosaic.Lib.ValueIdx

noncomputable section

namespace Cert.HG

open Idealize.ShloMosaic Idealize.ShloMosaic.ValueIdx

/-- A matrix of extended reals. -/
abbrev Mat (n k : ℕ) : Type := (⟨2, ![n, k]⟩ : Shape).Idx → EReal
/-- A vector of extended reals. -/
abbrev Col (n : ℕ) : Type := (⟨1, ![n]⟩ : Shape).Idx → EReal
/-- A vector of 32-bit index words. -/
abbrev Words (n : ℕ) : Type := IVec ⟨1, ![n]⟩ 32

/-- The float word for one, as printed. -/
abbrev one : EReal := Ideal.ofBits .f32 0x3F800000#32
/-- The float word for zero, as printed. -/
abbrev zero : EReal := Ideal.ofBits .f32 0x00000000#32
/-- The rectifier's slope word, as printed. -/
abbrev slope : EReal := Ideal.ofBits .f32 0x3C23D70A#32

/-- The leaky rectifier: x where x ≥ 0, slope · x elsewhere. -/
def lrelu (x : EReal) : EReal := Scalar.select (Ideal.cmp .oge x zero) x (slope * x)

/-- The mean of a segment from its sum and its size: the sum over the size floored at one. -/
def meanOf (s cnt : EReal) : EReal := Ideal.div s (max cnt one)

/-- x · W + b at (i, j): the sum over k of x(i, k) · W(k, j), plus b(j). -/
def lin {n K C : ℕ} (x : Mat n K) (W : Mat K C) (b : Col C) : Mat n C :=
  fun i => (∑ k : Fin K, x (ix2 (i 0 : Fin n) k) * W (ix2 k (i 1 : Fin C))) + b (ix1 (i 1 : Fin C))

/-- The mean of every segment: entry (i, k) of the sums over the size of segment i floored at one. -/
def mean {n C : ℕ} (s : Mat n C) (cnt : Col n) : Mat n C :=
  fun i => meanOf (s i) (cnt (ix1 (i 0 : Fin n)))

/-- The leaky rectifier entry by entry. -/
def act {n C : ℕ} (x : Mat n C) : Mat n C := fun i => lrelu (x i)

/-- A one-column matrix read as a vector. -/
def colOf {n : ℕ} (x : Mat n 1) : Col n := fun i => x (ix2 (i 0 : Fin n) (0 : Fin 1))

/-- A one-row matrix read as a vector. -/
def rowOf {C : ℕ} (b : Mat 1 C) : Col C := fun j => b (ix2 (0 : Fin 1) (j 0 : Fin C))

/-- The sum of two matrices entry by entry. -/
def add {n C : ℕ} (x y : Mat n C) : Mat n C := fun i => x i + y i

end Cert.HG

end
-- ==== Proof.LibScatterGather.lean ====
/-
  A host gather of whole rows and an accumulating host scatter of whole rows, read at an index.

  `x[idx]` of a table `x : [N, C]` (or a flat `x : [N]`) at a column `idx : [M, 1]` of index words reads, for update `j`,
  the row named by `idx[j, 0]` read as a signed integer and clamped into `[0, N - 1]`. The accumulating scatter
  `x.at[idx].add(upd)` adds to row `i` every update row `j` whose word, read signed and NOT clamped, is `i`; an update whose
  word names no row is dropped. Both are stated over abstract extents, for the dimension numbers jax prints for them.
-/
import Idealize.ShloMosaic.PureOps.Ideal
import Idealize.ShloMosaic.Lib.ValueIdx

noncomputable section

namespace Cert.LibSG

open Idealize.ShloMosaic Idealize.ShloMosaic.ValueIdx

variable {α : Type}

/-- The dimension numbers of a lookup of single elements of a flat table: operand `[N]`, index words `[M, 1]`, result `[M]`. -/
abbrev flatGatherDims (N M : ℕ) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The dimension numbers of a lookup of whole rows: operand `[N, C]`, index words `[M, 1]`, result `[M, C]`. -/
abbrev rowGatherDims (N M C : ℕ) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The dimension numbers of an accumulating scatter of single elements into a flat table. -/
abbrev flatScatterDims (N M : ℕ) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The dimension numbers of an accumulating scatter of whole rows. -/
abbrev rowScatterDims (N M C : ℕ) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- A flat lookup at `j`: the table at the word `idx[j, 0]`, read signed and clamped into `[0, N - 1]`. -/
theorem gather_flat_apply {N M w : ℕ} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (flatGatherDims N M wf) x idx (ix1 j)
      = x (ix1 ⟨min (idx (ix2 j (0 : Fin 1))).toInt.toNat (N - 1), by omega⟩) := by
  unfold Host.gather
  congr 1
  funext a
  obtain rfl : a = 0 := Subsingleton.elim _ _
  refine Fin.ext ?_
  show (flatGatherDims N M wf).start (ix1 j) idx 0 + (flatGatherDims N M wf).batchCoord (ix1 j) 0
    + (flatGatherDims N M wf).offCoord (ix1 j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N M wf).startIndexMap from List.mem_singleton.mpr rfl)]
  have hsi : (flatGatherDims N M wf).siIdx (ix1 j) ⟨List.idxOf (0 : Fin 1) (flatGatherDims N M wf).startIndexMap,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]
  rfl

/-- A row lookup at `(j, k)`: column `k` of the row named by the word `idx[j, 0]`, read signed and clamped. -/
theorem gather_row_apply {N M C w : ℕ} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M) (k : Fin C) :
    Host.gather (rowGatherDims N M C wf) x idx (ix2 j k)
      = x (ix2 (⟨min (idx (ix2 j (0 : Fin 1))).toInt.toNat (N - 1), by omega⟩ : Fin N) k) := by
  unfold Host.gather
  congr 1
  funext a
  refine Fin.ext ?_
  show (rowGatherDims N M C wf).start (ix2 j k) idx a + (rowGatherDims N M C wf).batchCoord (ix2 j k) a
    + (rowGatherDims N M C wf).offCoord (ix2 j k) a = _
  rw [GatherDims.batchCoord_eq_zero _ _ _ List.not_mem_nil, Nat.add_zero]
  match a with
  | ⟨0, _⟩ =>
    show (rowGatherDims N M C wf).start (ix2 j k) idx (0 : Fin 2) + (rowGatherDims N M C wf).offCoord (ix2 j k) (0 : Fin 2)
      = min (idx (ix2 j (0 : Fin 1))).toInt.toNat (N - 1)
    rw [GatherDims.offCoord_eq_zero _ _ _ (fun h => ((GatherDims.mem_sKept _ _).mp h).1 (List.mem_singleton.mpr rfl)),
      Nat.add_zero]
    unfold GatherDims.start
    rw [dif_pos (show (0 : Fin 2) ∈ (rowGatherDims N M C wf).startIndexMap from List.mem_singleton.mpr rfl)]
    have hsi : (rowGatherDims N M C wf).siIdx (ix2 j k) ⟨List.idxOf (0 : Fin 2) (rowGatherDims N M C wf).startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    rfl
  | ⟨1, _⟩ =>
    have hs : (rowGatherDims N M C wf).start (ix2 j k) idx (1 : Fin 2) = 0 := by
      unfold GatherDims.start
      rw [dif_neg (show (1 : Fin 2) ∉ (rowGatherDims N M C wf).startIndexMap from
        (show (1 : Fin 2) ∉ [(0 : Fin 2)] by decide))]
    have ho : (rowGatherDims N M C wf).offCoord (ix2 j k) (1 : Fin 2) = k.val := by
      unfold GatherDims.offCoord
      rw [dif_pos (show (1 : Fin 2) ∈ (rowGatherDims N M C wf).sKept from
        (GatherDims.mem_sKept _ _).mpr ⟨(show (1 : Fin 2) ∉ [(0 : Fin 2)] by decide), List.not_mem_nil⟩)]
      rfl
    show (rowGatherDims N M C wf).start (ix2 j k) idx (1 : Fin 2) + (rowGatherDims N M C wf).offCoord (ix2 j k) (1 : Fin 2) = k.val
    rw [hs, ho, Nat.zero_add]

/-! ### Where an update row lands -/

section RowLanding
variable {N M C w : ℕ} (wf : ScatterDims.WF ⟨2, ![N, C]⟩ ⟨2, ![M, 1]⟩ ⟨2, ![M, C]⟩ [1] [0] [0] 1)
  (idx : IVec ⟨2, ![M, 1]⟩ w) (j : Fin M) (c : Fin C)

/-- On the row axis the window of update `(j, c)` starts at the word `idx[j, 0]`, read signed. -/
theorem row_start0 : (rowScatterDims N M C wf).start (ix2 j c) idx (0 : Fin 2) = (idx (ix2 j (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 j c)
      ⟨List.idxOf (0 : Fin 2) (rowScatterDims N M C wf).scatterDimsToOperandDims,
        List.idxOf_lt_length_iff.2 (List.mem_singleton.mpr rfl)⟩ = ix2 j (0 : Fin 1) := by
    funext b; refine Fin.ext ?_
    match b with
    | ⟨0, _⟩ => rfl
    | ⟨1, _⟩ => rfl
  rw [hsi]

/-- On the column axis it starts at `0`. -/
theorem row_start1 : (rowScatterDims N M C wf).start (ix2 j c) idx (1 : Fin 2) = 0 := by
  unfold ScatterDims.start
  rw [dif_neg (show (1 : Fin 2) ∉ (rowScatterDims N M C wf).scatterDimsToOperandDims from
    (show (1 : Fin 2) ∉ [(0 : Fin 2)] by decide))]

/-- The row axis is inserted: the window coordinate there is `0`. -/
theorem row_window0 : (rowScatterDims N M C wf).window (ix2 j c) (0 : Fin 2) = 0 := by
  unfold ScatterDims.window
  rw [dif_neg (show (0 : Fin 2) ∉ (rowScatterDims N M C wf).sKept from
    (show (0 : Fin 2) ∉ (List.finRange 2).filter (fun a => decide (a ∉ [(0 : Fin 2)])) by decide))]

/-- On the column axis the window coordinate is the update's column. -/
theorem row_window1 : (rowScatterDims N M C wf).window (ix2 j c) (1 : Fin 2) = c.val := by
  unfold ScatterDims.window
  rw [dif_pos (show (1 : Fin 2) ∈ (rowScatterDims N M C wf).sKept from
    (show (1 : Fin 2) ∈ (List.finRange 2).filter (fun a => decide (a ∉ [(0 : Fin 2)])) by decide))]
  rfl

/-- Update `(j, c)` lands at `(i, k)` exactly when its word, read signed, is `i` and its column is `k`. -/
theorem row_resultIdx?_eq_some_iff (i : Fin N) (k : Fin C) :
    (rowScatterDims N M C wf).resultIdx? (ix2 j c) idx = some (ix2 i k)
      ↔ (idx (ix2 j (0 : Fin 1))).toInt = (i.val : ℤ) ∧ c = k := by
  have s0 := row_start0 wf idx j c
  have s1 := row_start1 wf idx j c
  have w0 := row_window0 wf j c
  have w1 := row_window1 wf j c
  unfold ScatterDims.resultIdx?
  constructor
  · intro h
    split at h
    · rename_i hb
      have h' := Option.some.inj h
      have e0 : ((rowScatterDims N M C wf).start (ix2 j c) idx (0 : Fin 2)
          + ((rowScatterDims N M C wf).window (ix2 j c) (0 : Fin 2) : ℤ)).toNat = i.val :=
        congrArg (fun f => (f (0 : Fin 2)).val) h'
      have e1 : ((rowScatterDims N M C wf).start (ix2 j c) idx (1 : Fin 2)
          + ((rowScatterDims N M C wf).window (ix2 j c) (1 : Fin 2) : ℤ)).toNat = k.val :=
        congrArg (fun f => (f (1 : Fin 2)).val) h'
      have b0 := (hb (0 : Fin 2)).1
      rw [s0, w0] at e0 b0
      rw [s1, w1] at e1
      refine ⟨by omega, Fin.ext (by omega)⟩
    · exact absurd h (by simp)
  · rintro ⟨hw, rfl⟩
    have hi := i.isLt
    have hc := c.isLt
    have hb : ∀ a, 0 ≤ (rowScatterDims N M C wf).start (ix2 j c) idx a + ((rowScatterDims N M C wf).window (ix2 j c) a : ℤ)
        ∧ (rowScatterDims N M C wf).start (ix2 j c) idx a + ((rowScatterDims N M C wf).window (ix2 j c) a : ℤ)
          < ((⟨2, ![N, C]⟩ : Shape).size a : ℤ) := by
      intro a
      match a with
      | ⟨0, _⟩ =>
        show 0 ≤ (rowScatterDims N M C wf).start (ix2 j c) idx (0 : Fin 2) + ((rowScatterDims N M C wf).window (ix2 j c) (0 : Fin 2) : ℤ)
          ∧ (rowScatterDims N M C wf).start (ix2 j c) idx (0 : Fin 2) + ((rowScatterDims N M C wf).window (ix2 j c) (0 : Fin 2) : ℤ) < (N : ℤ)
        rw [s0, w0]; omega
      | ⟨1, _⟩ =>
        show 0 ≤ (rowScatterDims N M C wf).start (ix2 j c) idx (1 : Fin 2) + ((rowScatterDims N M C wf).window (ix2 j c) (1 : Fin 2) : ℤ)
          ∧ (rowScatterDims N M C wf).start (ix2 j c) idx (1 : Fin 2) + ((rowScatterDims N M C wf).window (ix2 j c) (1 : Fin 2) : ℤ) < (C : ℤ)
        rw [s1, w1]; omega
    rw [dif_pos hb]
    congr 1
    funext a
    refine Fin.ext ?_
    match a with
    | ⟨0, _⟩ =>
      show ((rowScatterDims N M C wf).start (ix2 j c) idx (0 : Fin 2)
        + ((rowScatterDims N M C wf).window (ix2 j c) (0 : Fin 2) : ℤ)).toNat = i.val
      rw [s0, w0]; omega
    | ⟨1, _⟩ =>
      show ((rowScatterDims N M C wf).start (ix2 j c) idx (1 : Fin 2)
        + ((rowScatterDims N M C wf).window (ix2 j c) (1 : Fin 2) : ℤ)).toNat = c.val
      rw [s1, w1]; omega

end RowLanding

/-! ### Where a single update lands -/

section FlatLanding
variable {N M w : ℕ} (wf : ScatterDims.WF ⟨1, ![N]⟩ ⟨2, ![M, 1]⟩ ⟨1, ![M]⟩ [] [0] [0] 1)
  (idx : IVec ⟨2, ![M, 1]⟩ w) (j : Fin M)

/-- The window of update `j` starts at the word `idx[j, 0]`, read signed. -/
theorem flat_start0 : (flatScatterDims N M wf).start (ix1 j) idx (0 : Fin 1) = (idx (ix2 j (0 : Fin 1))).toInt := by
  unfold ScatterDims.start
  rw [dif_pos (show (0 : Fin 1) ∈ (flatScatterDims N M wf).scatterDimsToOperandDims from List.mem_singleton.mpr rfl)]
  have hsi : (flatScatterDims N M wf).siIdx (ix1 j)
      ⟨List.idxOf (0 : Fin 1) (flatScatterDims N M wf).scatterDimsToOperandDims,
        List.idxOf_lt_length_iff.2 (List.mem_singleton.mpr rfl)⟩ = ix2 j (0 : Fin 1) := by
    funext b; refine Fin.ext ?_
    match b with
    | ⟨0, _⟩ => rfl
    | ⟨1, _⟩ => rfl
  rw [hsi]

/-- The one operand axis is inserted: the window coordinate there is `0`. -/
theorem flat_window0 : (flatScatterDims N M wf).window (ix1 j) (0 : Fin 1) = 0 := by
  unfold ScatterDims.window
  rw [dif_neg (show (0 : Fin 1) ∉ (flatScatterDims N M wf).sKept from
    (show (0 : Fin 1) ∉ (List.finRange 1).filter (fun a => decide (a ∉ [(0 : Fin 1)])) by decide))]

/-- Update `j` lands at `i` exactly when its word, read signed, is `i`. -/
theorem flat_resultIdx?_eq_some_iff (i : Fin N) :
    (flatScatterDims N M wf).resultIdx? (ix1 j) idx = some (ix1 i) ↔ (idx (ix2 j (0 : Fin 1))).toInt = (i.val : ℤ) := by
  have s0 := flat_start0 wf idx j
  have w0 := flat_window0 wf j
  unfold ScatterDims.resultIdx?
  constructor
  · intro h
    split at h
    · rename_i hb
      have h' := Option.some.inj h
      have e0 : ((flatScatterDims N M wf).start (ix1 j) idx (0 : Fin 1)
          + ((flatScatterDims N M wf).window (ix1 j) (0 : Fin 1) : ℤ)).toNat = i.val :=
        congrArg (fun f => (f (0 : Fin 1)).val) h'
      have b0 := (hb (0 : Fin 1)).1
      rw [s0, w0] at e0 b0
      omega
    · exact absurd h (by simp)
  · intro hw
    have hi := i.isLt
    have hb : ∀ a, 0 ≤ (flatScatterDims N M wf).start (ix1 j) idx a + ((flatScatterDims N M wf).window (ix1 j) a : ℤ)
        ∧ (flatScatterDims N M wf).start (ix1 j) idx a + ((flatScatterDims N M wf).window (ix1 j) a : ℤ)
          < ((⟨1, ![N]⟩ : Shape).size a : ℤ) := by
      intro a
      match a with
      | ⟨0, _⟩ =>
        show 0 ≤ (flatScatterDims N M wf).start (ix1 j) idx (0 : Fin 1) + ((flatScatterDims N M wf).window (ix1 j) (0 : Fin 1) : ℤ)
          ∧ (flatScatterDims N M wf).start (ix1 j) idx (0 : Fin 1) + ((flatScatterDims N M wf).window (ix1 j) (0 : Fin 1) : ℤ) < (N : ℤ)
        rw [s0, w0]; omega
    rw [dif_pos hb]
    congr 1
    funext a
    refine Fin.ext ?_
    match a with
    | ⟨0, _⟩ =>
      show ((flatScatterDims N M wf).start (ix1 j) idx (0 : Fin 1)
        + ((flatScatterDims N M wf).window (ix1 j) (0 : Fin 1) : ℤ)).toNat = i.val
      rw [s0, w0]; omega

end FlatLanding

/-- The accumulating flat scatter at `i`: the element there plus the updates whose word, read signed, is `i`. -/
theorem scatterAdd_flat_apply {N M w : ℕ}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal) (i : Fin N) :
    Ideal.hostScatterAdd (flatScatterDims N M wf) x idx upd (ix1 i)
      = x (ix1 i) + ∑ j ∈ Finset.univ.filter (fun j : Fin M => (idx (ix2 j (0 : Fin 1))).toInt = (i.val : ℤ)), upd (ix1 j) := by
  unfold Ideal.hostScatterAdd
  congr 1
  refine Finset.sum_nbij' (fun y => (y 0 : Fin M)) (fun a => ix1 a) ?_ ?_ ?_ ?_ ?_
  · intro y hy
    obtain ⟨a, rfl⟩ : ∃ a, y = ix1 a := ⟨y 0, eq_ix1 y⟩
    show a ∈ Finset.univ.filter (fun j : Fin M => (idx (ix2 j (0 : Fin 1))).toInt = (i.val : ℤ))
    rw [Finset.mem_filter] at hy ⊢
    exact ⟨Finset.mem_univ _, (flat_resultIdx?_eq_some_iff wf idx a i).mp hy.2⟩
  · intro a ha
    rw [Finset.mem_filter] at ha ⊢
    exact ⟨Finset.mem_univ _, (flat_resultIdx?_eq_some_iff wf idx a i).mpr ha.2⟩
  · intro y _
    exact (eq_ix1 y).symm
  · intro a _
    rfl
  · intro y _
    exact congrArg upd (eq_ix1 y)

/-- The accumulating row scatter at `(i, k)`: the element there plus column `k` of the update rows whose word, read
    signed, is `i`. -/
theorem scatterAdd_row_apply {N M C w : ℕ}
    (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (k : Fin C) :
    Ideal.hostScatterAdd (rowScatterDims N M C wf) x idx upd (ix2 i k)
      = x (ix2 i k) + ∑ j ∈ Finset.univ.filter (fun j : Fin M => (idx (ix2 j (0 : Fin 1))).toInt = (i.val : ℤ)), upd (ix2 j k) := by
  unfold Ideal.hostScatterAdd
  congr 1
  refine Finset.sum_nbij' (fun y => (y 0 : Fin M)) (fun a => ix2 a k) ?_ ?_ ?_ ?_ ?_
  · intro y hy
    obtain ⟨a, b, rfl⟩ : ∃ a b, y = ix2 a b := ⟨y 0, y 1, eq_ix2 y⟩
    show a ∈ Finset.univ.filter (fun j : Fin M => (idx (ix2 j (0 : Fin 1))).toInt = (i.val : ℤ))
    rw [Finset.mem_filter] at hy ⊢
    exact ⟨Finset.mem_univ _, ((row_resultIdx?_eq_some_iff wf idx a b i k).mp hy.2).1⟩
  · intro a ha
    rw [Finset.mem_filter] at ha ⊢
    exact ⟨Finset.mem_univ _, (row_resultIdx?_eq_some_iff wf idx a k i k).mpr ⟨ha.2, rfl⟩⟩
  · intro y hy
    obtain ⟨a, b, rfl⟩ : ∃ a b, y = ix2 a b := ⟨y 0, y 1, eq_ix2 y⟩
    rw [Finset.mem_filter] at hy
    obtain ⟨_, rfl⟩ := (row_resultIdx?_eq_some_iff wf idx a b i k).mp hy.2
    rfl
  · intro a _
    rfl
  · intro y hy
    obtain ⟨a, b, rfl⟩ : ∃ a b, y = ix2 a b := ⟨y 0, y 1, eq_ix2 y⟩
    rw [Finset.mem_filter] at hy
    obtain ⟨_, rfl⟩ := (row_resultIdx?_eq_some_iff wf idx a b i k).mp hy.2
    rfl

/-! ### The same two readings for the program's spelling of the scatter at the ideal instance -/

/-- The program's accumulating flat scatter, at the ideal instance, read at `i`. -/
theorem host_scatterAdd_flat_apply {N M w : ℕ} {φ : FTy}
    (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ) (i : Fin N) :
    Host.scatterAdd (F := Ideal) (flatScatterDims N M wf) x idx upd (ix1 i)
      = x (ix1 i) + ∑ j ∈ Finset.univ.filter (fun j : Fin M => (idx (ix2 j (0 : Fin 1))).toInt = (i.val : ℤ)), upd (ix1 j) :=
  scatterAdd_flat_apply wf x idx upd i

/-- The program's accumulating row scatter, at the ideal instance, read at `(i, k)`. -/
theorem host_scatterAdd_row_apply {N M C w : ℕ} {φ : FTy}
    (wf : ScatterDims.WF ⟨2, ![N, C]⟩ ⟨2, ![M, 1]⟩ ⟨2, ![M, C]⟩ [1] [0] [0] 1)
    (x : FVec Ideal ⟨2, ![N, C]⟩ φ) (idx : IVec ⟨2, ![M, 1]⟩ w) (upd : FVec Ideal ⟨2, ![M, C]⟩ φ)
    (i : Fin N) (k : Fin C) :
    Host.scatterAdd (F := Ideal) (rowScatterDims N M C wf) x idx upd (ix2 i k)
      = x (ix2 i k) + ∑ j ∈ Finset.univ.filter (fun j : Fin M => (idx (ix2 j (0 : Fin 1))).toInt = (i.val : ℤ)), upd (ix2 j k) :=
  scatterAdd_row_apply wf x idx upd i k

end Cert.LibSG

end
-- ==== Proof.Stages.lean ====
/-
  The irregular stages of the graph convolution, read at an index: a lookup of whole rows by index words (a negative word
  wraps once by the table's extent, then the row is clamped into the table), the segment sum of update rows by destination
  word, and the segment sizes, obtained either as a flat accumulation of ones or as a one-column accumulation of ones.
  Each host operation that realises a stage is equal to the stage's index-by-index function once its operands are
  known at an index.
-/
import proofs.«126305_j61735859913388_2_alg».proof.Proof.Spec
import proofs.«126305_j61735859913388_2_alg».proof.Proof.LibScatterGather
import Idealize.ShloMosaic.PureOps.Ideal.Laws
import Idealize.ShloMosaic.Lib.ValueIdx

noncomputable section

namespace Cert.HG

open Idealize.ShloMosaic Idealize.ShloMosaic.ValueIdx Cert.LibSG

/-- An index word made non-negative the way the programs do it: a word below zero (read signed) has the extent added. -/
def wrap (N : BitVec 32) (w : BitVec 32) : BitVec 32 := Scalar.select (IntOp.cmpi .slt w 0#32) (IntOp.addi w N) w

/-- The row a wrapped word names, clamped into a table of N rows. -/
def rowIx (N : ℕ) (hN : 0 < N) (Nw : BitVec 32) (w : BitVec 32) : Fin N :=
  ⟨min (wrap Nw w).toInt.toNat (N - 1), by omega⟩

/-- The lookup: row j of the result is the table's row named by word j. -/
def take {N M C : ℕ} (hN : 0 < N) (Nw : BitVec 32) (x : Mat N C) (src : Words M) : Mat M C :=
  fun i => x (ix2 (rowIx N hN Nw (src (ix1 (i 0 : Fin M)))) (i 1 : Fin C))

/-- The segment sum: entry (i, k) adds, to the zero word, column k of the update rows whose destination word is i. -/
def segSum {N M C : ℕ} (u : Mat M C) (dst : Words M) : Mat N C :=
  fun i => zero + ∑ j ∈ Finset.univ.filter (fun j : Fin M => (dst (ix1 j)).toInt = (((i 0 : Fin N)).val : ℤ)), u (ix2 j (i 1 : Fin C))

/-- The segment sizes: entry i adds, to the zero word, the word one per update whose destination word is i. -/
def segCnt {N M : ℕ} (dst : Words M) : Col N :=
  fun i => zero + ∑ _j ∈ Finset.univ.filter (fun j : Fin M => (dst (ix1 j)).toInt = (((i 0 : Fin N)).val : ℤ)), one

/-- A row lookup whose index column holds the wrapped words is the lookup stage. -/
theorem gather_eq_take {N M C : ℕ} (hN : 0 < N) (Nw : BitVec 32)
    (wf : GatherDims.WF ⟨2, ![N, C]⟩ ⟨2, ![M, 1]⟩ ⟨2, ![M, C]⟩ [1] [0] [] [0] [] 1 ![1, C])
    (x : Mat N C) (ia : IVec ⟨2, ![M, 1]⟩ 32) (src : Words M)
    (hia : ∀ j : Fin M, ia (ix2 j (0 : Fin 1)) = wrap Nw (src (ix1 j))) :
    Host.gather (rowGatherDims N M C wf) x ia = take hN Nw x src := by
  funext i
  obtain ⟨j, k, rfl⟩ : ∃ (j : Fin M) (k : Fin C), i = ix2 j k := ⟨i 0, i 1, eq_ix2 i⟩
  rw [gather_row_apply hN wf x ia j k]
  refine congrArg x (congrArg (fun r : Fin N => ix2 r k) (Fin.ext ?_))
  show min (ia (ix2 j (0 : Fin 1))).toInt.toNat (N - 1) = min (wrap Nw (src (ix1 j))).toInt.toNat (N - 1)
  rw [hia j]

/-- An accumulating row scatter into zeros whose index column holds the destination words is the segment sum. -/
theorem scatter_eq_segSum {N M C : ℕ}
    (wf : ScatterDims.WF ⟨2, ![N, C]⟩ ⟨2, ![M, 1]⟩ ⟨2, ![M, C]⟩ [1] [0] [0] 1)
    (z : Mat N C) (da : IVec ⟨2, ![M, 1]⟩ 32) (u : Mat M C) (dst : Words M)
    (hz : ∀ i, z i = zero) (hda : ∀ j : Fin M, da (ix2 j (0 : Fin 1)) = dst (ix1 j)) :
    Host.scatterAdd (F := Ideal) (φ := .f32) (rowScatterDims N M C wf) z da u = segSum u dst := by
  funext i
  obtain ⟨r, k, rfl⟩ : ∃ (r : Fin N) (k : Fin C), i = ix2 r k := ⟨i 0, i 1, eq_ix2 i⟩
  rw [host_scatterAdd_row_apply wf z da u r k, hz]
  unfold segSum
  simp only [hda]
  rfl

/-- A flat accumulating scatter of ones into zeros is the segment sizes. -/
theorem scatter_eq_segCnt_flat {N M : ℕ}
    (wf : ScatterDims.WF ⟨1, ![N]⟩ ⟨2, ![M, 1]⟩ ⟨1, ![M]⟩ [] [0] [0] 1)
    (z : Col N) (da : IVec ⟨2, ![M, 1]⟩ 32) (o : Col M) (dst : Words M)
    (hz : ∀ i, z i = zero) (hda : ∀ j : Fin M, da (ix2 j (0 : Fin 1)) = dst (ix1 j)) (ho : ∀ j, o j = one) :
    Host.scatterAdd (F := Ideal) (φ := .f32) (flatScatterDims N M wf) z da o = segCnt dst := by
  funext i
  obtain ⟨r, rfl⟩ : ∃ r : Fin N, i = ix1 r := ⟨i 0, eq_ix1 i⟩
  rw [host_scatterAdd_flat_apply wf z da o r, hz]
  unfold segCnt
  simp only [hda, ho]
  rfl

/-- A one-column accumulating scatter of ones into zeros, read as a vector, is the segment sizes. -/
theorem scatter_eq_segCnt_col {N M : ℕ}
    (wf : ScatterDims.WF ⟨2, ![N, 1]⟩ ⟨2, ![M, 1]⟩ ⟨2, ![M, 1]⟩ [1] [0] [0] 1)
    (z : Mat N 1) (da : IVec ⟨2, ![M, 1]⟩ 32) (o : Mat M 1) (dst : Words M)
    (hz : ∀ i, z i = zero) (hda : ∀ j : Fin M, da (ix2 j (0 : Fin 1)) = dst (ix1 j)) (ho : ∀ j, o j = one) :
    colOf (Host.scatterAdd (F := Ideal) (φ := .f32) (rowScatterDims N M 1 wf) z da o) = segCnt dst := by
  funext i
  obtain ⟨r, rfl⟩ : ∃ r : Fin N, i = ix1 r := ⟨i 0, eq_ix1 i⟩
  unfold colOf
  show Host.scatterAdd (F := Ideal) (φ := .f32) (rowScatterDims N M 1 wf) z da o (ix2 r (0 : Fin 1)) = _
  rw [host_scatterAdd_row_apply wf z da o r (0 : Fin 1), hz]
  unfold segCnt
  simp only [hda, ho]
  rfl

/-- The zero word is the additive zero. -/
theorem zero_add' (x : EReal) : zero + x = x := by
  unfold zero
  rw [Ideal.ofBits_zero_f32, zero_add]

end Cert.HG

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.Patterns.lean ====
/-
  The programs' spellings of the stages, each equal to the stage's index-by-index function: a product with a broadcast
  bias is the linear map; a quotient by the broadcast floored size is the segment mean; the select between a value and its
  slope multiple is the leaky rectifier; a lookup through the wrapped, broadcast index words is the row lookup; an
  accumulating scatter into broadcast zeros is the segment sum, and of broadcast ones the segment sizes; a column slice
  of a product with two weight blocks side by side is the product with one block.
-/
import proofs.«126305_j61735859913388_2_alg».proof.Proof.Stages
import proofs.«126305_j61735859913388_2_alg».proof.Proof.LibColumnLayout
import Idealize.ShloMosaic.Lib.Pipeline.Value
import Idealize.ShloMosaic.Lib.ValueLayout

noncomputable section

namespace Cert.HG

open Idealize.ShloMosaic Idealize.ShloMosaic.ValueIdx Cert.LibSG

/-- The scalar shape. -/
abbrev S0 : Shape := ⟨0, ![]⟩

/-! ## Broadcasts read at an index -/

theorem bcast_scalar_apply {α : Type} {t : Shape} (h : S0.BroadcastsInDim t ![]) (x : S0.Idx → α) (j : t.Idx) :
    broadcastInDim t ![] h x j = x ix0 :=
  broadcastInDim_apply ![] h x j ix0 (fun a => a.elim0)

theorem bcast_words_col {α : Type} {M : ℕ} (h1 : (⟨1, ![M]⟩ : Shape).BroadcastsInDim ⟨2, ![M, 1]⟩ ![0])
    (v : (⟨1, ![M]⟩ : Shape).Idx → α) (j : Fin M) :
    broadcastInDim ⟨2, ![M, 1]⟩ ![0] h1 v (ix2 j (0 : Fin 1)) = v (ix1 j) :=
  broadcastInDim_apply ![0] h1 v _ (ix1 j) (fun a => by
    match a with
    | ⟨0, _⟩ =>
      show j.val = if M = 1 then 0 else j.val
      split
      · have := j.isLt; omega
      · rfl)

theorem bcast_col_mat {α : Type} {n C : ℕ} (h2 : (⟨2, ![n, 1]⟩ : Shape).BroadcastsInDim ⟨2, ![n, C]⟩ ![0, 1])
    (v : (⟨2, ![n, 1]⟩ : Shape).Idx → α) (r : Fin n) (k : Fin C) :
    broadcastInDim ⟨2, ![n, C]⟩ ![0, 1] h2 v (ix2 r k) = v (ix2 r (0 : Fin 1)) :=
  broadcastInDim_apply ![0, 1] h2 v _ (ix2 r (0 : Fin 1)) (fun a => by
    match a with
    | ⟨0, _⟩ =>
      show r.val = if n = 1 then 0 else r.val
      split
      · have := r.isLt; omega
      · rfl
    | ⟨1, _⟩ => rfl)

theorem bcast_row_mat {α : Type} {n C : ℕ} (h2 : (⟨2, ![1, C]⟩ : Shape).BroadcastsInDim ⟨2, ![n, C]⟩ ![0, 1])
    (v : (⟨2, ![1, C]⟩ : Shape).Idx → α) (r : Fin n) (k : Fin C) :
    broadcastInDim ⟨2, ![n, C]⟩ ![0, 1] h2 v (ix2 r k) = v (ix2 (0 : Fin 1) k) :=
  broadcastInDim_apply ![0, 1] h2 v _ (ix2 (0 : Fin 1) k) (fun a => by
    match a with
    | ⟨0, _⟩ => rfl
    | ⟨1, _⟩ =>
      show k.val = if C = 1 then 0 else k.val
      split
      · have := k.isLt; omega
      · rfl)

theorem bcast_vec_row {α : Type} {C : ℕ} (h1 : (⟨1, ![C]⟩ : Shape).BroadcastsInDim ⟨2, ![1, C]⟩ ![1])
    (v : (⟨1, ![C]⟩ : Shape).Idx → α) (k : Fin C) :
    broadcastInDim ⟨2, ![1, C]⟩ ![1] h1 v (ix2 (0 : Fin 1) k) = v (ix1 k) :=
  broadcastInDim_apply ![1] h1 v _ (ix1 k) (fun a => by
    match a with
    | ⟨0, _⟩ =>
      show k.val = if C = 1 then 0 else k.val
      split
      · have := k.isLt; omega
      · rfl)

/-! ## Pointwise spellings -/

theorem addf_eq_add {n C : ℕ} (x y : Mat n C) : addf (F := Ideal) (φ := .f32) x y = add x y := rfl

theorem extf_eq {s : Shape} (x : FVec Ideal s .bf16) (h : FTy.bf16.bits < FTy.f32.bits) : extf (F := Ideal) .f32 x h = x := rfl

theorem zero_bcast_add {n C : ℕ} (h : S0.BroadcastsInDim ⟨2, ![n, C]⟩ ![]) (x : Mat n C) :
    addf (F := Ideal) (φ := .f32) (broadcastInDim ⟨2, ![n, C]⟩ ![] h (constant (F := Ideal) S0 .f32 0x00000000#32)) x = x := by
  funext i
  exact zero_add' (x i)

theorem select_eq_act {n C : ℕ} (h h' : S0.BroadcastsInDim ⟨2, ![n, C]⟩ ![]) (x : Mat n C) :
    select (cmpf (F := Ideal) (φ := .f32) .oge x (broadcastInDim ⟨2, ![n, C]⟩ ![] h (constant (F := Ideal) S0 .f32 0x00000000#32))) x
        (mulf (F := Ideal) (φ := .f32) (broadcastInDim ⟨2, ![n, C]⟩ ![] h' (constant (F := Ideal) S0 .f32 0x3C23D70A#32)) x)
      = act x := rfl

theorem div_max_eq_mean {n C : ℕ} (h1 : S0.BroadcastsInDim ⟨2, ![n, 1]⟩ ![])
    (h2 : (⟨2, ![n, 1]⟩ : Shape).BroadcastsInDim ⟨2, ![n, C]⟩ ![0, 1]) (s : Mat n C) (cnt : Mat n 1) :
    Host.divf (F := Ideal) (φ := .f32) s (broadcastInDim ⟨2, ![n, C]⟩ ![0, 1] h2
        (maximumf (F := Ideal) (φ := .f32) cnt (broadcastInDim ⟨2, ![n, 1]⟩ ![] h1 (constant (F := Ideal) S0 .f32 0x3F800000#32))))
      = mean s (colOf cnt) := by
  funext i
  obtain ⟨r, k, rfl⟩ : ∃ (r : Fin n) (k : Fin C), i = ix2 r k := ⟨i 0, i 1, eq_ix2 i⟩
  show Ideal.div (s (ix2 r k)) (broadcastInDim ⟨2, ![n, C]⟩ ![0, 1] h2
      (maximumf (F := Ideal) (φ := .f32) cnt (broadcastInDim ⟨2, ![n, 1]⟩ ![] h1 (constant (F := Ideal) S0 .f32 0x3F800000#32))) (ix2 r k)) = _
  rw [bcast_col_mat h2 _ r k]
  rfl

/-! ## Layout spellings -/

theorem colOf_shapeCast {N : ℕ} (x : Col N) (h : (⟨1, ![N]⟩ : Shape).ShapeCasts ⟨2, ![N, 1]⟩) :
    colOf (shapeCast ⟨2, ![N, 1]⟩ x h) = x := by
  funext i
  obtain ⟨r, rfl⟩ : ∃ r : Fin N, i = ix1 r := ⟨i 0, eq_ix1 i⟩
  exact PhysLoss.shapeCast_a_a1_apply x h r (0 : Fin 1)

theorem rowOf_shapeCast {C : ℕ} (b : Col C) (h : (⟨1, ![C]⟩ : Shape).ShapeCasts ⟨2, ![1, C]⟩) :
    rowOf (shapeCast ⟨2, ![1, C]⟩ b h) = b := by
  funext i
  obtain ⟨k, rfl⟩ : ∃ k : Fin C, i = ix1 k := ⟨i 0, eq_ix1 i⟩
  show shapeCast ⟨2, ![1, C]⟩ b h (ix2 (0 : Fin 1) k) = b (ix1 k)
  refine shapeCast_apply b h _ _ ?_
  rw [Shape.rowMajor_val_two, Shape.rowMajor_val_one]
  show k.val = 0 * C + k.val
  omega

/-! ## The linear map -/

/-- What a plain rows-times-columns contraction's dimension numbers say at an index: one contracted axis of extent K, the
    left operand read at (row, k), the right operand at (k, column). -/
structure PlainDot {n K C : ℕ} (d : DotDims ⟨2, ![n, K]⟩ ⟨2, ![K, C]⟩ ⟨2, ![n, C]⟩) : Prop where
  rank : d.contr.rank = 1
  size : d.contr.size ⟨0, by omega⟩ = K
  lhs : ∀ (j : (⟨2, ![n, C]⟩ : Shape).Idx) (k : Fin K), d.lhsIdx j ((contrEquiv1 d K rank size).symm k) = ix2 (j 0 : Fin n) k
  rhs : ∀ (j : (⟨2, ![n, C]⟩ : Shape).Idx) (k : Fin K), d.rhsIdx j ((contrEquiv1 d K rank size).symm k) = ix2 k (j 1 : Fin C)

theorem dot_bias_eq_lin {n K C : ℕ} (d : DotDims ⟨2, ![n, K]⟩ ⟨2, ![K, C]⟩ ⟨2, ![n, C]⟩) (hd : PlainDot d)
    (h1 : (⟨1, ![C]⟩ : Shape).BroadcastsInDim ⟨2, ![1, C]⟩ ![1])
    (h2 : (⟨2, ![1, C]⟩ : Shape).BroadcastsInDim ⟨2, ![n, C]⟩ ![0, 1])
    (x : Mat n K) (W : Mat K C) (b : Col C) :
    addf (F := Ideal) (φ := .f32) (Host.dotGeneral (F := Ideal) (φ₁ := .f32) (φ₂ := .f32) d none x W)
        (broadcastInDim ⟨2, ![n, C]⟩ ![0, 1] h2 (broadcastInDim ⟨2, ![1, C]⟩ ![1] h1 b))
      = lin x W b := by
  funext i
  obtain ⟨r, c, rfl⟩ : ∃ (r : Fin n) (c : Fin C), i = ix2 r c := ⟨i 0, i 1, eq_ix2 i⟩
  show FloatOps.dotGeneral (F := Ideal) d none _ x W (ix2 r c)
      + broadcastInDim ⟨2, ![n, C]⟩ ![0, 1] h2 (broadcastInDim ⟨2, ![1, C]⟩ ![1] h1 b) (ix2 r c) = _
  rw [Ideal.dotGeneral_apply, bcast_row_mat h2 _ r c, bcast_vec_row h1 b c,
    ← Equiv.sum_comp (contrEquiv1 d K hd.rank hd.size).symm]
  simp only [hd.lhs, hd.rhs]
  rfl

/-- A column slice of a product with two weight blocks side by side and the two biases end to end is the product with
    the block and the bias the slice selects: the left block. -/
theorem slice_lin_concat_left {n K C : ℕ}
    (hcW : Shape.Concatenates [(⟨2, ![K, C]⟩ : Shape), ⟨2, ![K, C]⟩] ⟨2, ![K, C + C]⟩ 1)
    (hcb : Shape.Concatenates [(⟨1, ![C]⟩ : Shape), ⟨1, ![C]⟩] ⟨1, ![C + C]⟩ 0)
    (hr : (⟨1, ![C + C]⟩ : Shape).ShapeCasts ⟨2, ![1, C + C]⟩)
    (hs : (⟨2, ![n, C + C]⟩ : Shape).Slices ![0, 0] ⟨2, ![n, C]⟩)
    (x : Mat n K) (Wa Wb : Mat K C) (ba bb : Col C) :
    extractStridedSlice ⟨2, ![n, C]⟩ ![0, 0]
        (lin x (concatenate ⟨2, ![K, C + C]⟩ 1 [⟨⟨2, ![K, C]⟩, Wa⟩, ⟨⟨2, ![K, C]⟩, Wb⟩] hcW)
          (rowOf (shapeCast ⟨2, ![1, C + C]⟩ (concatenate ⟨1, ![C + C]⟩ 0 [⟨⟨1, ![C]⟩, ba⟩, ⟨⟨1, ![C]⟩, bb⟩] hcb) hr))) hs
      = lin x Wa ba := by
  funext i
  obtain ⟨r, c, rfl⟩ : ∃ (r : Fin n) (c : Fin C), i = ix2 r c := ⟨i 0, i 1, eq_ix2 i⟩
  have hc : c.val < C + C := by have := c.isLt; omega
  rw [extractStridedSlice_apply ![0, 0] _ hs (ix2 r c) (ix2 r (⟨c.val, hc⟩ : Fin (C + C))) (fun a => by
    match a with
    | ⟨0, _⟩ => show r.val = 0 + r.val; omega
    | ⟨1, _⟩ => show c.val = 0 + c.val; omega)]
  show (∑ k : Fin K, x (ix2 r k) * concatenate ⟨2, ![K, C + C]⟩ 1 [⟨⟨2, ![K, C]⟩, Wa⟩, ⟨⟨2, ![K, C]⟩, Wb⟩] hcW (ix2 k (⟨c.val, hc⟩ : Fin (C + C))))
      + shapeCast ⟨2, ![1, C + C]⟩ (concatenate ⟨1, ![C + C]⟩ 0 [⟨⟨1, ![C]⟩, ba⟩, ⟨⟨1, ![C]⟩, bb⟩] hcb) hr (ix2 (0 : Fin 1) (⟨c.val, hc⟩ : Fin (C + C)))
    = (∑ k : Fin K, x (ix2 r k) * Wa (ix2 k c)) + ba (ix1 c)
  congr 1
  · refine Finset.sum_congr rfl fun k _ => ?_
    rw [concatenate_pair_apply_left (1 : Fin 2) Wa Wb hcW (ix2 k (⟨c.val, hc⟩ : Fin (C + C))) rfl (ix2 k c) (fun b => by
      match b with
      | ⟨0, _⟩ => rfl
      | ⟨1, _⟩ => rfl)]
  · rw [shapeCast_apply _ hr (ix2 (0 : Fin 1) (⟨c.val, hc⟩ : Fin (C + C))) (ix1 (⟨c.val, hc⟩ : Fin (C + C))) (by
      rw [Shape.rowMajor_val_two, Shape.rowMajor_val_one]
      show c.val = 0 * (C + C) + c.val
      omega)]
    rw [concatenate_pair_apply_left (0 : Fin 1) ba bb hcb (ix1 (⟨c.val, hc⟩ : Fin (C + C))) rfl (ix1 c) (fun b => by
      match b with
      | ⟨0, _⟩ => rfl)]

/-- The same for the right block. -/
theorem slice_lin_concat_right {n K C : ℕ}
    (hcW : Shape.Concatenates [(⟨2, ![K, C]⟩ : Shape), ⟨2, ![K, C]⟩] ⟨2, ![K, C + C]⟩ 1)
    (hcb : Shape.Concatenates [(⟨1, ![C]⟩ : Shape), ⟨1, ![C]⟩] ⟨1, ![C + C]⟩ 0)
    (hr : (⟨1, ![C + C]⟩ : Shape).ShapeCasts ⟨2, ![1, C + C]⟩)
    (hs : (⟨2, ![n, C + C]⟩ : Shape).Slices ![0, C] ⟨2, ![n, C]⟩)
    (x : Mat n K) (Wa Wb : Mat K C) (ba bb : Col C) :
    extractStridedSlice ⟨2, ![n, C]⟩ ![0, C]
        (lin x (concatenate ⟨2, ![K, C + C]⟩ 1 [⟨⟨2, ![K, C]⟩, Wa⟩, ⟨⟨2, ![K, C]⟩, Wb⟩] hcW)
          (rowOf (shapeCast ⟨2, ![1, C + C]⟩ (concatenate ⟨1, ![C + C]⟩ 0 [⟨⟨1, ![C]⟩, ba⟩, ⟨⟨1, ![C]⟩, bb⟩] hcb) hr))) hs
      = lin x Wb bb := by
  funext i
  obtain ⟨r, c, rfl⟩ : ∃ (r : Fin n) (c : Fin C), i = ix2 r c := ⟨i 0, i 1, eq_ix2 i⟩
  have hc : C + c.val < C + C := by have := c.isLt; omega
  rw [extractStridedSlice_apply ![0, C] _ hs (ix2 r c) (ix2 r (⟨C + c.val, hc⟩ : Fin (C + C))) (fun a => by
    match a with
    | ⟨0, _⟩ => show r.val = 0 + r.val; omega
    | ⟨1, _⟩ => rfl)]
  show (∑ k : Fin K, x (ix2 r k) * concatenate ⟨2, ![K, C + C]⟩ 1 [⟨⟨2, ![K, C]⟩, Wa⟩, ⟨⟨2, ![K, C]⟩, Wb⟩] hcW (ix2 k (⟨C + c.val, hc⟩ : Fin (C + C))))
      + shapeCast ⟨2, ![1, C + C]⟩ (concatenate ⟨1, ![C + C]⟩ 0 [⟨⟨1, ![C]⟩, ba⟩, ⟨⟨1, ![C]⟩, bb⟩] hcb) hr (ix2 (0 : Fin 1) (⟨C + c.val, hc⟩ : Fin (C + C)))
    = (∑ k : Fin K, x (ix2 r k) * Wb (ix2 k c)) + bb (ix1 c)
  congr 1
  · refine Finset.sum_congr rfl fun k _ => ?_
    rw [concatenate_pair_apply_right (1 : Fin 2) Wa Wb hcW (ix2 k (⟨C + c.val, hc⟩ : Fin (C + C))) rfl rfl (ix2 k c)
      (fun b hb => by
        match b with
        | ⟨0, _⟩ => rfl
        | ⟨1, _⟩ => exact absurd rfl hb)
      (by show c.val + C = C + c.val; omega)]
  · rw [shapeCast_apply _ hr (ix2 (0 : Fin 1) (⟨C + c.val, hc⟩ : Fin (C + C))) (ix1 (⟨C + c.val, hc⟩ : Fin (C + C))) (by
      rw [Shape.rowMajor_val_two, Shape.rowMajor_val_one]
      show C + c.val = 0 * (C + C) + (C + c.val)
      omega)]
    rw [concatenate_pair_apply_right (0 : Fin 1) ba bb hcb (ix1 (⟨C + c.val, hc⟩ : Fin (C + C))) rfl rfl (ix1 c)
      (fun b hb => by
        match b with
        | ⟨0, _⟩ => exact absurd rfl hb)
      (by show c.val + C = C + c.val; omega)]

/-! ## The irregular stages -/

theorem gather_wrapped_eq_take {N M C : ℕ} (hN : 0 < N) (Nw : BitVec 32)
    (d : GatherDims ⟨2, ![N, C]⟩ ⟨2, ![M, 1]⟩ ⟨2, ![M, C]⟩)
    (wf : GatherDims.WF ⟨2, ![N, C]⟩ ⟨2, ![M, 1]⟩ ⟨2, ![M, C]⟩ [1] [0] [] [0] [] 1 ![1, C]) (hd : d = rowGatherDims N M C wf)
    (h0 : S0.BroadcastsInDim ⟨1, ![M]⟩ ![]) (h1 : (⟨1, ![M]⟩ : Shape).BroadcastsInDim ⟨2, ![M, 1]⟩ ![0])
    (x : Mat N C) (src : Words M) :
    Host.gather d x (broadcastInDim ⟨2, ![M, 1]⟩ ![0] h1
        (select (cmpi .slt src (broadcastInDim ⟨1, ![M]⟩ ![] h0 (constantI S0 32 0#32)))
          (addi src (broadcastInDim ⟨1, ![M]⟩ ![] h0 (constantI S0 32 Nw))) src))
      = take hN Nw x src := by
  subst hd
  refine gather_eq_take hN Nw wf x _ src (fun j => ?_)
  rw [bcast_words_col h1 _ j]
  rfl

theorem scatter_zero_eq_segSum {N M C : ℕ}
    (d : ScatterDims ⟨2, ![N, C]⟩ ⟨2, ![M, 1]⟩ ⟨2, ![M, C]⟩)
    (wf : ScatterDims.WF ⟨2, ![N, C]⟩ ⟨2, ![M, 1]⟩ ⟨2, ![M, C]⟩ [1] [0] [0] 1) (hd : d = rowScatterDims N M C wf)
    (hz : S0.BroadcastsInDim ⟨2, ![N, C]⟩ ![]) (h1 : (⟨1, ![M]⟩ : Shape).BroadcastsInDim ⟨2, ![M, 1]⟩ ![0])
    (u : Mat M C) (dst : Words M) :
    Host.scatterAdd (F := Ideal) (φ := .f32) d (broadcastInDim ⟨2, ![N, C]⟩ ![] hz (constant (F := Ideal) S0 .f32 0x00000000#32))
        (broadcastInDim ⟨2, ![M, 1]⟩ ![0] h1 dst) u
      = segSum u dst := by
  subst hd
  exact scatter_eq_segSum wf _ _ u dst (fun _ => rfl) (fun j => bcast_words_col h1 dst j)

theorem scatter_ones_col_eq_segCnt {N M : ℕ}
    (d : ScatterDims ⟨2, ![N, 1]⟩ ⟨2, ![M, 1]⟩ ⟨2, ![M, 1]⟩)
    (wf : ScatterDims.WF ⟨2, ![N, 1]⟩ ⟨2, ![M, 1]⟩ ⟨2, ![M, 1]⟩ [1] [0] [0] 1) (hd : d = rowScatterDims N M 1 wf)
    (hz : S0.BroadcastsInDim ⟨2, ![N, 1]⟩ ![]) (ho : S0.BroadcastsInDim ⟨2, ![M, 1]⟩ ![])
    (h1 : (⟨1, ![M]⟩ : Shape).BroadcastsInDim ⟨2, ![M, 1]⟩ ![0]) (dst : Words M) :
    colOf (Host.scatterAdd (F := Ideal) (φ := .f32) d (broadcastInDim ⟨2, ![N, 1]⟩ ![] hz (constant (F := Ideal) S0 .f32 0x00000000#32))
        (broadcastInDim ⟨2, ![M, 1]⟩ ![0] h1 dst) (broadcastInDim ⟨2, ![M, 1]⟩ ![] ho (constant (F := Ideal) S0 .f32 0x3F800000#32)))
      = segCnt dst := by
  subst hd
  exact scatter_eq_segCnt_col wf _ _ _ dst (fun _ => rfl) (fun j => bcast_words_col h1 dst j) (fun _ => rfl)

theorem scatter_ones_flat_eq_segCnt {N M : ℕ}
    (d : ScatterDims ⟨1, ![N]⟩ ⟨2, ![M, 1]⟩ ⟨1, ![M]⟩)
    (wf : ScatterDims.WF ⟨1, ![N]⟩ ⟨2, ![M, 1]⟩ ⟨1, ![M]⟩ [] [0] [0] 1) (hd : d = flatScatterDims N M wf)
    (hz : S0.BroadcastsInDim ⟨1, ![N]⟩ ![]) (ho : S0.BroadcastsInDim ⟨1, ![M]⟩ ![])
    (h1 : (⟨1, ![M]⟩ : Shape).BroadcastsInDim ⟨2, ![M, 1]⟩ ![0]) (dst : Words M) :
    Host.scatterAdd (F := Ideal) (φ := .f32) d (broadcastInDim ⟨1, ![N]⟩ ![] hz (constant (F := Ideal) S0 .f32 0x00000000#32))
        (broadcastInDim ⟨2, ![M, 1]⟩ ![0] h1 dst) (broadcastInDim ⟨1, ![M]⟩ ![] ho (constant (F := Ideal) S0 .f32 0x3F800000#32))
      = segCnt dst := by
  subst hd
  exact scatter_eq_segCnt_flat wf _ _ _ dst (fun _ => rfl) (fun j => bcast_words_col h1 dst j) (fun _ => rfl)

end Cert.HG

end
-- ==== Proof.KSpecA1.lean ====
/-
  The kernel program's second stretch of host operations, read at the level of the specification from ANY contents it
  starts with.

  The stretch cuts the first region's wide product into its two halves and, for each of the two first-layer relations,
  looks rows of one half up by the relation's source words (a word below zero first has the table's extent added), sums
  the looked-up rows by the destination words into a zero array, and counts the destinations by summing ones the same
  way; it also sets the first hidden layer's bias as a row.  Each result is one stage function of the specification applied
  to the contents of the buffers the stretch reads.
-/
import proofs.«126305_j61735859913388_2_alg».proof.Proof.KHostRead
import proofs.«126305_j61735859913388_2_alg».proof.Proof.Patterns

noncomputable section

namespace Cert.KernelIdeal.KSpecA1

open Cert.KernelIdeal Cert.KernelIdeal.Gen Cert.KernelIdeal.KHost
open Idealize.ShloMosaic Idealize.ShloMosaic.TcCoe Idealize.ShloMosaic.StableHlo Idealize.ShloMosaic.ValueIdx
open Cert.HG Cert.LibSG

section Stretch1
variable (X : Valuation τ sig (Elt Ideal))

/-- The first relation's sums: rows of the left half of the wide product, looked up by the source words, summed by the
    destination words. -/
theorem s1_v16 :
    (after hostOps1 X (Proc.devRef .tc main_v16) : Mat 100000 64)
      = segSum (take (N := 500000) (by decide) 500000#32
            (extractStridedSlice S500000x64 ![0, 0] (X (Proc.devRef .tc main_v3) : Mat 500000 128) slices_S500000x128_S500000x64_0_0)
            (X (Proc.devRef .tc main_arg7)))
          (X (Proc.devRef .tc main_arg8)) := by
  have e1 := r1_v16 X; have e2 := r1_v14 X; have e3 := r1_cst X; have e4 := r1_v15 X
  have e5 := r1_v13 X; have e6 := r1_v12 X; have e7 := r1_v11 X; have e8 := r1_v10 X
  have e9 := r1_v9 X; have e10 := r1_v8 X; have e11 := r1_c_0 X; have e12 := r1_v7 X
  have e13 := r1_v6 X; have e14 := r1_c X; have e15 := r1_v4 X
  have k3 := keep1 X main_v3 (by decide); have ks := keep1 X main_arg7 (by decide); have kd := keep1 X main_arg8 (by decide)
  generalize after hostOps1 X = Y at *
  rw [e1, e2, e3, e4, e5, e6, e7, e8, e9, e10, e11, e12, e13, e14, e15, k3, ks, kd]
  dsimp only
  rw [gather_wrapped_eq_take (N := 500000) (M := 500000) (C := 64) (by decide) 500000#32
      gather_S500000x64_S500000x1_S500000x64_1_0_n_n_0_1_164 gather_S500000x64_S500000x1_S500000x64_1_0_n_n_0_1_164_wf rfl
      bcast_S_S500000 bcast_S500000_S500000x1_0, extf_eq]
  exact scatter_zero_eq_segSum scatter_S100000x64_S500000x1_S500000x64_1_0_0_1 scatter_S100000x64_S500000x1_S500000x64_1_0_0_1_wf rfl bcast_S_S100000x64 bcast_S500000_S500000x1_0 _ _

/-- The first relation's segment sizes, as a column: one per update whose destination word names the segment. -/
theorem s1_v21 :
    colOf (after hostOps1 X (Proc.devRef .tc main_v21) : Mat 100000 1) = segCnt (X (Proc.devRef .tc main_arg8)) := by
  have e1 := r1_v21 X; have e2 := r1_v20 X; have e3 := r1_v18 X; have e4 := r1_cst_2 X
  have e5 := r1_v19 X; have e6 := r1_v17 X; have e7 := r1_cst_1 X
  have kd := keep1 X main_arg8 (by decide)
  generalize after hostOps1 X = Y at *
  rw [e1, e2, e3, e4, e5, e6, e7, kd]
  dsimp only
  rw [colOf_shapeCast]
  exact scatter_ones_flat_eq_segCnt scatter_S100000_S500000x1_S500000_n_0_0_1 scatter_S100000_S500000x1_S500000_n_0_0_1_wf rfl bcast_S_S100000 bcast_S_S500000 bcast_S500000_S500000x1_0 _

/-- The second relation's sums: rows of the right half of the wide product, looked up by the source words, summed by the
    destination words. -/
theorem s1_v32 :
    (after hostOps1 X (Proc.devRef .tc main_v32) : Mat 20000 64)
      = segSum (take (N := 500000) (by decide) 500000#32
            (extractStridedSlice S500000x64 ![0, 64] (X (Proc.devRef .tc main_v3) : Mat 500000 128) slices_S500000x128_S500000x64_0_64)
            (X (Proc.devRef .tc main_arg9)))
          (X (Proc.devRef .tc main_arg10)) := by
  have e1 := r1_v32 X; have e2 := r1_v30 X; have e3 := r1_cst_5 X; have e4 := r1_v31 X
  have e5 := r1_v29 X; have e6 := r1_v28 X; have e7 := r1_v27 X; have e8 := r1_v26 X
  have e9 := r1_v25 X; have e10 := r1_v24 X; have e11 := r1_c_4 X; have e12 := r1_v23 X
  have e13 := r1_v22 X; have e14 := r1_c_3 X; have e15 := r1_v5 X
  have k3 := keep1 X main_v3 (by decide); have ks := keep1 X main_arg9 (by decide); have kd := keep1 X main_arg10 (by decide)
  generalize after hostOps1 X = Y at *
  rw [e1, e2, e3, e4, e5, e6, e7, e8, e9, e10, e11, e12, e13, e14, e15, k3, ks, kd]
  dsimp only
  rw [gather_wrapped_eq_take (N := 500000) (M := 500000) (C := 64) (by decide) 500000#32
      gather_S500000x64_S500000x1_S500000x64_1_0_n_n_0_1_164 gather_S500000x64_S500000x1_S500000x64_1_0_n_n_0_1_164_wf rfl
      bcast_S_S500000 bcast_S500000_S500000x1_0, extf_eq]
  exact scatter_zero_eq_segSum scatter_S20000x64_S500000x1_S500000x64_1_0_0_1 scatter_S20000x64_S500000x1_S500000x64_1_0_0_1_wf rfl bcast_S_S20000x64 bcast_S500000_S500000x1_0 _ _

/-- The second relation's segment sizes, as a column. -/
theorem s1_v37 :
    colOf (after hostOps1 X (Proc.devRef .tc main_v37) : Mat 20000 1) = segCnt (X (Proc.devRef .tc main_arg10)) := by
  have e1 := r1_v37 X; have e2 := r1_v36 X; have e3 := r1_v34 X; have e4 := r1_cst_7 X
  have e5 := r1_v35 X; have e6 := r1_v33 X; have e7 := r1_cst_6 X
  have kd := keep1 X main_arg10 (by decide)
  generalize after hostOps1 X = Y at *
  rw [e1, e2, e3, e4, e5, e6, e7, kd]
  dsimp only
  rw [colOf_shapeCast]
  exact scatter_ones_flat_eq_segCnt scatter_S20000_S500000x1_S500000_n_0_0_1 scatter_S20000_S500000x1_S500000_n_0_0_1_wf rfl bcast_S_S20000 bcast_S_S500000 bcast_S500000_S500000x1_0 _

/-- The first hidden layer's bias, as a row, read back as the vector it was cast from. -/
theorem s1_v38 :
    rowOf (after hostOps1 X (Proc.devRef .tc main_v38) : Mat 1 64) = X (Proc.devRef .tc main_arg14) := by
  have e1 := r1_v38 X
  have k := keep1 X main_arg14 (by decide)
  generalize after hostOps1 X = Y at *
  rw [e1, k]
  exact rowOf_shapeCast _ _

end Stretch1

end Cert.KernelIdeal.KSpecA1

end
-- ==== Proof.KReg0.lean ====
/-
  Region 0 of the kernel program, read as one array.  The region walks the 500000 feature rows in 125 blocks of
  4000 rows.  At each block it multiplies the block by the 128×128 weight matrix into a zero accumulator, adds the
  one bias row to every row, and stores the result as the same block of the output.  Every format change is the
  identity on extended reals, so entry (r, j) of the output is the sum over k of features(r, k) · weights(k, j)
  plus bias(0, j): the linear map of the shared specification.

  The steps: the block product read at an index as a plain sum over the contracted coordinate; the stored payload
  read at an index; each input block as rows of its array (block t is rows 4000·t … 4000·t + 3999, the weights and
  the bias row are whole); what a point writes back as a block of the one whole-array function; every row r lies in
  the block of point r / 4000; so the array after the region is that function.
-/
import proofs.«126305_j61735859913388_2_alg».proof.Proof.Gen.KernelIdeal.Frame
import proofs.«126305_j61735859913388_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KReg0

open Cert.KernelIdeal Cert.KernelIdeal.Gen Idealize.ShloMosaic Idealize.ShloMosaic.TcCoe Idealize.SL.Sem
open Idealize.ShloMosaic.ValueIdx
open Idealize.ShloMosaic.Pipeline (Dat)

/-- The product of a 4000×128 block by the 128×128 weights into the zero accumulator, read at (p, q): the sum over
    the contracted coordinate k of block(p, k) · weights(k, q). -/
theorem matmul_block_apply (A : FVec Ideal S4000x128 .bf16) (B : FVec Ideal S128x128 .bf16) (p : Fin 4000) (q : Fin 128) :
    matmul dot_S4000x128_S128x128_S4000x128_1_0_0_1_n_n none A B (constant (F := Ideal) S4000x128 .f32 0x00000000#32) (ix2 p q)
      = ∑ k : Fin 128, A (ix2 p k) * B (ix2 k q) := by
  show FloatOps.matmul _ none A B _ (ix2 p q) = _
  rw [Ideal.matmul_constant_zero_apply,
    ← Equiv.sum_comp (contrEquiv1 dot_S4000x128_S128x128_S4000x128_1_0_0_1_n_n 128 rfl rfl).symm]
  refine Finset.sum_congr rfl fun k _ => ?_
  have ck := contrEquiv1_symm_val dot_S4000x128_S128x128_S4000x128_1_0_0_1_n_n 128 rfl rfl k
  have l2 : dot_S4000x128_S128x128_S4000x128_1_0_0_1_n_n.lhsIdx (ix2 p q) ((contrEquiv1 _ 128 rfl rfl).symm k) = ix2 p k := by
    funext ax; apply Fin.ext
    match ax with
    | ⟨0, _⟩ => simp [DotDims.lhsIdx, dot_S4000x128_S128x128_S4000x128_1_0_0_1_n_n]; rfl
    | ⟨1, _⟩ => simp [DotDims.lhsIdx, dot_S4000x128_S128x128_S4000x128_1_0_0_1_n_n]; exact ck
  have r2 : dot_S4000x128_S128x128_S4000x128_1_0_0_1_n_n.rhsIdx (ix2 p q) ((contrEquiv1 _ 128 rfl rfl).symm k) = ix2 k q := by
    funext ax; apply Fin.ext
    match ax with
    | ⟨0, _⟩ => simp [DotDims.rhsIdx, dot_S4000x128_S128x128_S4000x128_1_0_0_1_n_n]; exact ck
    | ⟨1, _⟩ => simp [DotDims.rhsIdx, dot_S4000x128_S128x128_S4000x128_1_0_0_1_n_n]; rfl
  rw [l2, r2]

/-- The body's payload read at (p, q): every format change is the identity on extended reals and both shape casts
    are to the same shape, so what is stored is the sum over k of block(p, k) · weights(k, q) plus the one bias row
    at q. -/
theorem pay_apply (x0 : Vec Ideal S4000x128 .f32) (x1 : Vec Ideal S128x128 .f32) (x2 : Vec Ideal S1x128 .f32)
    (p : Fin 4000) (q : Fin 128) :
    k0_pay1 (F := Ideal) x0 x1 x2 (ix2 p q)
      = (∑ k : Fin 128, x0 (ix2 p k) * x1 (ix2 k q)) + x2 (ix2 (0 : Fin 1) q) := by
  unfold k0_pay1
  refine (truncf_apply (φ := .f32) (ψ := .bf16) _ bitsLt_bf16_f32 _).trans ?_
  refine (addf_apply (φ := .f32) _ _ _).trans ?_
  refine congrArg₂ (· + ·) ?_ ?_
  · refine (matmul_block_apply _ _ p q).trans ?_
    refine Finset.sum_congr rfl fun k _ => ?_
    rw [shapeCast_self]
    rfl
  · refine (broadcastTo_1b_ab_apply _ _ p q).trans ?_
    rw [shapeCast_self]

/-! ## The blocks -/

theorem offsets_zero : (![0, 0] : Fin 2 → Nat) = fun _ => 0 := funext fun a => by fin_cases a <;> rfl

/-- The printed index maps over the 125 grid points: the feature rows and the output rows move together, block t
    at point t; the weights and the bias row are one block each, at index 0. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The feature block at point t is rows 4000·t … 4000·t + 3999 of the feature array. -/
theorem iblk_feat (c : Dev nD) (t : Fin cfg0.N) (p : Fin 4000) (k : Fin 128) (r : Fin 500000)
    (hr : r.val = 4000 * t.val + p.val) :
    (iblk0 V c 0 t : Vec Ideal S4000x128 .f32) (ix2 p k) = (V c main_arg0 : S500000x128.Idx → EReal) (ix2 r k) := by
  obtain ⟨e00, e01, -⟩ := block_index t
  unfold iblk0
  rw [View.read_apply]
  show V c main_arg0 _ = V c main_arg0 _
  congr 1
  funext a
  apply Fin.ext
  match a with
  | ⟨0, _⟩ => show win0_0.index t 0 * 4000 + 1 * p.val = r.val; rw [e00, hr]; omega
  | ⟨1, _⟩ => show win0_0.index t 1 * 128 + 1 * k.val = k.val; rw [e01]; omega

/-- The weight block at every point is the whole weight array. -/
theorem iblk_wt (c : Dev nD) (t : Fin cfg0.N) (k : Fin 128) (q : Fin 128) :
    (iblk0 V c 1 t : Vec Ideal S128x128 .f32) (ix2 k q) = (V c main_v0 : S128x128.Idx → EReal) (ix2 k q) := by
  obtain ⟨-, -, e10, e11, -⟩ := block_index t
  unfold iblk0
  rw [View.read_apply]
  show V c main_v0 _ = V c main_v0 _
  congr 1
  funext a
  apply Fin.ext
  match a with
  | ⟨0, _⟩ => show win0_1.index t 0 * 128 + 1 * k.val = k.val; rw [e10]; omega
  | ⟨1, _⟩ => show win0_1.index t 1 * 128 + 1 * q.val = q.val; rw [e11]; omega

/-- The bias block at every point is the whole one-row bias array. -/
theorem iblk_bias (c : Dev nD) (t : Fin cfg0.N) (q : Fin 128) :
    (iblk0 V c 2 t : Vec Ideal S1x128 .f32) (ix2 (0 : Fin 1) q) = (V c main_v2 : S1x128.Idx → EReal) (ix2 (0 : Fin 1) q) := by
  obtain ⟨-, -, -, -, e20, e21, -⟩ := block_index t
  unfold iblk0
  rw [View.read_apply]
  show V c main_v2 _ = V c main_v2 _
  congr 1
  funext a
  apply Fin.ext
  match a with
  | ⟨0, _⟩ => show win0_2.index t 0 * 1 + 1 * (0 : Fin 1).val = (0 : Fin 1).val; rw [e20]; rfl
  | ⟨1, _⟩ => show win0_2.index t 1 * 128 + 1 * q.val = q.val; rw [e21]; omega

/-! ## What a point writes back, and the array -/

/-- x · W + b read at an index whose coordinates are (r, q). -/
theorem lin_at (X : Cert.HG.Mat 500000 128) (W : Cert.HG.Mat 128 128) (B : Cert.HG.Mat 1 128) (i : S500000x128.Idx)
    (r : Fin 500000) (q : Fin 128) (h0 : (i 0).val = r.val) (h1 : (i 1).val = q.val) :
    Cert.HG.lin X W (Cert.HG.rowOf B) i = (∑ k : Fin 128, X (ix2 r k) * W (ix2 k q)) + B (ix2 (0 : Fin 1) q) := by
  have e : i = ix2 r q := funext fun a => Fin.ext (by
    match a with
    | ⟨0, _⟩ => exact h0
    | ⟨1, _⟩ => exact h1)
  subst e
  rfl

/-- The payload read at a block index whose coordinates are (p, q). -/
theorem pay_at (x0 : Vec Ideal S4000x128 .f32) (x1 : Vec Ideal S128x128 .f32) (x2 : Vec Ideal S1x128 .f32)
    (j : S4000x128.Idx) (p : Fin 4000) (q : Fin 128) (h0 : (j 0).val = p.val) (h1 : (j 1).val = q.val) :
    k0_pay1 (F := Ideal) x0 x1 x2 j = (∑ k : Fin 128, x0 (ix2 p k) * x1 (ix2 k q)) + x2 (ix2 (0 : Fin 1) q) := by
  have e : j = ix2 p q := funext fun a => Fin.ext (by
    match a with
    | ⟨0, _⟩ => exact h0
    | ⟨1, _⟩ => exact h1)
  subst e
  exact pay_apply x0 x1 x2 p q

/-- The whole array region 0 leaves: features · weights + bias row, entry by entry. -/
abbrev linOut (c : Dev nD) : S500000x128.Idx → EReal :=
  Cert.HG.lin (n := 500000) (K := 128) (C := 128) (V c main_arg0) (V c main_v0) (Cert.HG.rowOf (V c main_v2))

/-- What point t writes back is block t — rows 4000·t … 4000·t + 3999 — of that array. -/
theorem writeback_eq_block (c : Dev nD) (t : Fin cfg0.N) :
    (dat0 (F := Ideal) V c).flushed 3 t = ((cfg0.win 3).blk t).view.read (Elt Ideal) (linOut V c) := by
  show (cfg0.win 3).cut (grid0.coords t) ((dat0 V c).after 3 t) = _
  rw [after0_3]
  unfold out0_3
  rw [View.canon_unit_zero offsets_zero]
  simp only [View.ld_unit_zero (S := S4000x128) offsets_zero, View.ld_unit_zero (S := S128x128) offsets_zero, View.ld_unit_zero (S := S1x128) offsets_zero]
  funext y
  have hy0 : (y 0).val < 4000 := (y 0).isLt
  have hy1 : (y 1).val < 128 := (y 1).isLt
  have ht : t.val < 125 := lt_of_lt_of_eq t.isLt N_0
  obtain ⟨-, -, -, -, -, -, e30, e31⟩ := block_index t
  refine (pay_at (iblk0 V c 0 t) (iblk0 V c 1 t) (iblk0 V c 2 t) ((cfg0.win 3).xinj (grid0.coords t) y)
    ⟨(y 0).val, hy0⟩ ⟨(y 1).val, hy1⟩ rfl rfl).trans ?_
  rw [View.read_apply]
  refine Eq.trans ?_ (lin_at (V c main_arg0) (V c main_v0) (V c main_v2) (((cfg0.win 3).blk t).view.emb y)
    ⟨4000 * t.val + (y 0).val, by omega⟩ ⟨(y 1).val, hy1⟩ ?_ ?_).symm
  · refine congrArg₂ (· + ·) (Finset.sum_congr rfl fun k _ => congrArg₂ (· * ·) ?_ ?_) ?_
    · exact iblk_feat V c t _ k _ rfl
    · exact iblk_wt V c t k _
    · exact iblk_bias V c t _
  · show win0_3.index t 0 * 4000 + 1 * (y 0).val = 4000 * t.val + (y 0).val
    rw [e30]; omega
  · show win0_3.index t 1 * 128 + 1 * (y 1).val = (y 1).val
    rw [e31]; omega

/-- An index of the array is in point t's block iff each coordinate is in the block's range on its axis. -/
theorem mem_outBlock_iff (t : Fin cfg0.N) (i : S500000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v3).slice (win0_3.rect t)).set ↔ _
  rw [View.set_slice_whole, Rect.mem_set_unit]
  exact Iff.rfl

/-- Every row r of the array lies in the block of point r / 4000. -/
theorem row_in_block (i : S500000x128.Idx) :
    ∃ t : Fin cfg0.N, (cfg0.win 3).flush t = true ∧ i ∈ ((cfg0.win 3).blk t).view.set := by
  have hi0 : (i 0).val < 500000 := (i 0).isLt
  have hi1 : (i 1).val < 128 := (i 1).isLt
  have hN : cfg0.N = 125 := N_0
  let t : Fin cfg0.N := ⟨(i 0).val / 4000, by rw [hN]; omega⟩
  have htv : t.val = (i 0).val / 4000 := rfl
  obtain ⟨-, -, -, -, -, -, e30, e31⟩ := block_index t
  refine ⟨t, flush0_3 t, ?_⟩
  rw [mem_outBlock_iff]
  intro a
  match a with
  | ⟨0, _⟩ => show win0_3.index t 0 * 4000 ≤ (i 0).val ∧ (i 0).val < win0_3.index t 0 * 4000 + 4000; rw [e30, htv]; omega
  | ⟨1, _⟩ => show win0_3.index t 1 * 128 ≤ (i 1).val ∧ (i 1).val < win0_3.index t 1 * 128 + 128; rw [e31]; omega

/-- REGION 0's output array: entry (r, j) is the sum over k of features(r, k) · weights(k, j), plus bias(0, j). -/
theorem final0 (c : Dev nD) :
    (dat0 (F := Ideal) V c).arrAt 3 cfg0.N
      = Cert.HG.lin (n := 500000) (K := 128) (C := 128) (V c main_arg0) (V c main_v0) (Cert.HG.rowOf (V c main_v2)) :=
  (dat0 (F := Ideal) V c).arrAt_eq_of_cover 3 (linOut V c) (fun t _ => writeback_eq_block V c t) row_in_block

end Cert.KernelIdeal.KReg0

end
-- ==== Proof.KRegPay.lean ====
/-
  The body of the second layer's kernel, read at one entry of its block.

  The body takes a block of 4000 rows of segment sums s, the 4000 segment sizes cnt as a column, the whole 64 x 64
  weight W and the one-row bias b.  Entry (p, q) of what it stores is

      sum over k of lrelu (s(p, k) / max (cnt(p, 0), one)) * W(k, q)  +  b(0, q):

  the mean of the segment (the size floored at one, laid along the row), the leaky rectifier entry by entry, the
  product against W accumulated from the zero word, and the bias row laid along every row.  On the extended reals
  the two format changes are the identity.
-/
import proofs.«126305_j61735859913388_2_alg».proof.Proof.Gen.KernelIdeal.Skeleton
import proofs.«126305_j61735859913388_2_alg».proof.Proof.Spec
import proofs.«126305_j61735859913388_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KRegPay

open Cert.KernelIdeal Cert.KernelIdeal.Gen
open Idealize.ShloMosaic Idealize.ShloMosaic.ValueIdx
open scoped BigOperators

/-- The kernel's product contracts the left operand's columns against the right operand's rows. -/
abbrev D : DotDims S4000x64 S64x64 S4000x64 := dot_S4000x64_S64x64_S4000x64_1_0_0_1_n_n

/-- The contraction index of the product is its one coordinate, below 64. -/
abbrev ce : D.contr.Idx ≃ Fin 64 := contrEquiv1 D 64 rfl rfl

/-- At output entry (p, q) and contraction coordinate k the left operand is read at (p, k). -/
theorem lhsIdx_eq (p : Fin 4000) (q : Fin 64) (k : Fin 64) : D.lhsIdx (ix2 p q) (ce.symm k) = ix2 p k := by
  funext a; apply Fin.ext
  match a with
  | ⟨0, _⟩ => rfl
  | ⟨1, _⟩ =>
    exact (DotDims.lhsIdx_val_of_single D (cl := (1 : Fin 2)) rfl (ix2 p q) (ce.symm k)).trans
      (contrEquiv1_symm_val D 64 rfl rfl k)

/-- At output entry (p, q) and contraction coordinate k the right operand is read at (k, q). -/
theorem rhsIdx_eq (p : Fin 4000) (q : Fin 64) (k : Fin 64) : D.rhsIdx (ix2 p q) (ce.symm k) = ix2 k q := by
  funext a; apply Fin.ext
  match a with
  | ⟨0, _⟩ =>
    exact (DotDims.rhsIdx_val_of_single D (cr := (0 : Fin 2)) rfl (ix2 p q) (ce.symm k)).trans
      (contrEquiv1_symm_val D 64 rfl rfl k)
  | ⟨1, _⟩ => rfl

/-- Entry (p, q) of what the first of the two kernels stores, from its four loaded blocks: the rectified mean of row p
    against column q of the weight, plus the bias at q. -/
theorem pay1_apply (x0 : Vec Ideal S4000x64 .f32) (x1 : Vec Ideal S4000x1 .f32) (x2 : Vec Ideal S64x64 .f32)
    (x3 : Vec Ideal S1x64 .f32) (p : Fin 4000) (q : Fin 64) :
    (k1_pay1 (F := Ideal) x0 x1 x2 x3) (ix2 p q)
      = (∑ k : Fin 64, Cert.HG.lrelu (Cert.HG.meanOf (x0 (ix2 p k)) (x1 (ix2 p (0 : Fin 1)))) * x2 (ix2 k q))
        + x3 (ix2 (0 : Fin 1) q) := by
  unfold k1_pay1
  simp only [shapeCast_self]
  rw [truncf_apply, addf_apply, broadcastTo_1b_ab_apply]
  refine congrArg (· + x3 (ix2 (0 : Fin 1) q)) ?_
  refine (Ideal.matmul_constant_zero_apply D none _ _ (ix2 p q)).trans ?_
  rw [← Equiv.sum_comp ce.symm]
  refine Finset.sum_congr rfl fun k _ => ?_
  rw [lhsIdx_eq, rhsIdx_eq]
  rw [truncf_apply, truncf_apply, select_apply, cmpf_apply, mulf_apply, divf_apply, broadcast_apply, broadcast_apply,
    PhysLoss.broadcastTo_a1_ab_apply, maximumf_apply, broadcast_apply]
  rfl

/-- The second kernel has the same body: the same entry. -/
theorem pay2_apply (x0 : Vec Ideal S4000x64 .f32) (x1 : Vec Ideal S4000x1 .f32) (x2 : Vec Ideal S64x64 .f32)
    (x3 : Vec Ideal S1x64 .f32) (p : Fin 4000) (q : Fin 64) :
    (k2_pay1 (F := Ideal) x0 x1 x2 x3) (ix2 p q)
      = (∑ k : Fin 64, Cert.HG.lrelu (Cert.HG.meanOf (x0 (ix2 p k)) (x1 (ix2 p (0 : Fin 1)))) * x2 (ix2 k q))
        + x3 (ix2 (0 : Fin 1) q) := by
  unfold k2_pay1
  simp only [shapeCast_self]
  rw [truncf_apply, addf_apply, broadcastTo_1b_ab_apply]
  refine congrArg (· + x3 (ix2 (0 : Fin 1) q)) ?_
  refine (Ideal.matmul_constant_zero_apply D none _ _ (ix2 p q)).trans ?_
  rw [← Equiv.sum_comp ce.symm]
  refine Finset.sum_congr rfl fun k _ => ?_
  rw [lhsIdx_eq, rhsIdx_eq]
  rw [truncf_apply, truncf_apply, select_apply, cmpf_apply, mulf_apply, divf_apply, broadcast_apply, broadcast_apply,
    PhysLoss.broadcastTo_a1_ab_apply, maximumf_apply, broadcast_apply]
  rfl

/-- The layer as one function of whole arrays: the segment sums s, the sizes cnt as a column, the weight W, the bias b
    as a row. -/
abbrev layer {n : ℕ} (s : Cert.HG.Mat n 64) (cnt : Cert.HG.Mat n 1) (W : Cert.HG.Mat 64 64) (b : Cert.HG.Mat 1 64) :
    Cert.HG.Mat n 64 :=
  Cert.HG.lin (Cert.HG.act (Cert.HG.mean s (Cert.HG.colOf cnt))) W (Cert.HG.rowOf b)

/-- Entry (r, q) of the layer, spelt out. -/
theorem layer_apply {n : ℕ} (s : Cert.HG.Mat n 64) (cnt : Cert.HG.Mat n 1) (W : Cert.HG.Mat 64 64) (b : Cert.HG.Mat 1 64)
    (r : Fin n) (q : Fin 64) :
    layer s cnt W b (ix2 r q)
      = (∑ k : Fin 64, Cert.HG.lrelu (Cert.HG.meanOf (s (ix2 r k)) (cnt (ix2 r (0 : Fin 1)))) * W (ix2 k q))
        + b (ix2 (0 : Fin 1) q) := rfl

/-- A stored entry is the layer's entry: when the loaded blocks hold row r of the sums and of the sizes at their row p,
    and the whole weight and bias, entry (p, q) of what the first kernel stores is entry (r, q) of the layer. -/
theorem pay1_eq_layer {n : ℕ} (s : Cert.HG.Mat n 64) (cnt : Cert.HG.Mat n 1) (W : Cert.HG.Mat 64 64) (b : Cert.HG.Mat 1 64)
    (x0 : Vec Ideal S4000x64 .f32) (x1 : Vec Ideal S4000x1 .f32) (x2 : Vec Ideal S64x64 .f32) (x3 : Vec Ideal S1x64 .f32)
    (p : Fin 4000) (q : Fin 64) (r : Fin n)
    (h0 : ∀ k : Fin 64, x0 (ix2 p k) = s (ix2 r k)) (h1 : x1 (ix2 p (0 : Fin 1)) = cnt (ix2 r (0 : Fin 1)))
    (h2 : x2 = W) (h3 : x3 = b) :
    (k1_pay1 (F := Ideal) x0 x1 x2 x3) (ix2 p q) = layer s cnt W b (ix2 r q) := by
  rw [pay1_apply, layer_apply, h1, h2, h3]
  exact congrArg (· + b (ix2 (0 : Fin 1) q)) (Finset.sum_congr rfl fun k _ => by rw [h0 k])

/-- The same for the second kernel. -/
theorem pay2_eq_layer {n : ℕ} (s : Cert.HG.Mat n 64) (cnt : Cert.HG.Mat n 1) (W : Cert.HG.Mat 64 64) (b : Cert.HG.Mat 1 64)
    (x0 : Vec Ideal S4000x64 .f32) (x1 : Vec Ideal S4000x1 .f32) (x2 : Vec Ideal S64x64 .f32) (x3 : Vec Ideal S1x64 .f32)
    (p : Fin 4000) (q : Fin 64) (r : Fin n)
    (h0 : ∀ k : Fin 64, x0 (ix2 p k) = s (ix2 r k)) (h1 : x1 (ix2 p (0 : Fin 1)) = cnt (ix2 r (0 : Fin 1)))
    (h2 : x2 = W) (h3 : x3 = b) :
    (k2_pay1 (F := Ideal) x0 x1 x2 x3) (ix2 p q) = layer s cnt W b (ix2 r q) := by
  rw [pay2_apply, layer_apply, h1, h2, h3]
  exact congrArg (· + b (ix2 (0 : Fin 1) q)) (Finset.sum_congr rfl fun k _ => by rw [h0 k])

end Cert.KernelIdeal.KRegPay

end
-- ==== Proof.KReg1.lean ====
/-
  The whole-array value of the first of the two second-layer kernels.

  The kernel walks 25 blocks of 4000 rows.  At block t it reads rows 4000 t .. 4000 t + 3999 of the segment sums and of
  the segment sizes, the whole weight and the whole bias row, and writes back rows 4000 t .. 4000 t + 3999 of the result.
  Entry (p, q) of what it writes is entry (4000 t + p, q) of the layer as a function of the whole arrays, and row r of the
  100000 rows lies in block r / 4000: so the result array ends holding the layer of the arrays the kernel was entered with.
-/
import proofs.«126305_j61735859913388_2_alg».proof.Proof.Gen.KernelIdeal.Frame
import proofs.«126305_j61735859913388_2_alg».proof.Proof.Spec
import proofs.«126305_j61735859913388_2_alg».proof.Proof.KRegPay
import Idealize.ShloMosaic.Lib.ValueIdx
import Idealize.ShloMosaic.Lib.Pipeline.Value

set_option maxRecDepth 16384

noncomputable section

namespace Cert.KernelIdeal.KReg1

open Cert.KernelIdeal Cert.KernelIdeal.Gen Cert.KernelIdeal.KRegPay
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The zero offsets of the body's whole-buffer loads and store, spelt as the constant function. -/
theorem hz : (![0, 0] : Fin 2 → Nat) = fun _ => 0 := funext fun a => by fin_cases a <;> rfl

/-- The block indices the printed index maps give at point t: the two row-blocked inputs and the output are at block row t,
    the weight and the bias at their one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The layer of the arrays as the kernel finds them. -/
abbrev result (c : Dev nD) : Cert.HG.Mat 100000 64 :=
  layer (n := 100000) (V c main_v16) (V c main_v21) (V c main_arg13) (V c main_v38)

/-- WHAT POINT t WRITES BACK is block t of the layer of the whole arrays: the row-blocked inputs' blocks hold rows
    4000 t + p of their arrays at their row p, the weight's and the bias's blocks are their arrays. -/
theorem flushed_eq (c : Dev nD) (t : Fin cfg1.N) :
    (dat1 (F := Ideal) V c).flushed 4 t = ((cfg1.win 4).blk t).view.read (Elt Ideal) (result V c) := by
  show (cfg1.win 4).cut (grid1.coords t) ((dat1 V c).after 4 t) = _
  rw [after1_4]
  unfold out1_4
  rw [View.canon_unit_zero hz]
  simp only [View.ld_unit_zero (S := S4000x64) hz, View.ld_unit_zero (S := S4000x1) hz, View.ld_unit_zero (S := S64x64) hz,
    View.ld_unit_zero (S := S1x64) hz]
  funext y
  obtain ⟨e00, e01, e10, e11, e20, e21, e30, e31, e40, e41⟩ := idx_facts t
  have hN : cfg1.N = 25 := N_1
  have ht : t.val < 25 := by have := t.isLt; omega
  obtain ⟨p, q, rfl⟩ : ∃ (p : Fin 4000) (q : Fin 64), y = ix2 p q := ⟨y 0, y 1, eq_ix2 (n0 := 4000) (n1 := 64) y⟩
  show k1_pay1 (iblk1 V c 0 t) (iblk1 V c 1 t) (iblk1 V c 2 t) (iblk1 V c 3 t) (ix2 p q)
    = result V c (((cfg1.win 4).blk t).view.emb (ix2 p q))
  have hr : t.val * 4000 + p.val < 100000 := by have := p.isLt; omega
  have hemb : ((cfg1.win 4).blk t).view.emb (ix2 p q) = ix2 (⟨t.val * 4000 + p.val, hr⟩ : Fin 100000) q := by
    funext a; apply Fin.ext
    match a with
    | ⟨0, _⟩ => show win1_4.index t (0 : Fin 2) * 4000 + 1 * p.val = t.val * 4000 + p.val; omega
    | ⟨1, _⟩ => show win1_4.index t (1 : Fin 2) * 64 + 1 * q.val = q.val; omega
  rw [hemb]
  refine pay1_eq_layer (n := 100000) (V c main_v16) (V c main_v21) (V c main_arg13) (V c main_v38)
    (iblk1 V c 0 t) (iblk1 V c 1 t) (iblk1 V c 2 t) (iblk1 V c 3 t) p q ⟨t.val * 4000 + p.val, hr⟩ (fun k => ?_) ?_ ?_ ?_
  · show V c main_v16 (((cfg1.win 0).blk t).view.emb (ix2 p k)) = V c main_v16 (ix2 (⟨t.val * 4000 + p.val, hr⟩ : Fin 100000) k)
    refine congrArg (V c main_v16) ?_
    funext a; apply Fin.ext
    match a with
    | ⟨0, _⟩ => show win1_0.index t (0 : Fin 2) * 4000 + 1 * p.val = t.val * 4000 + p.val; omega
    | ⟨1, _⟩ => show win1_0.index t (1 : Fin 2) * 64 + 1 * k.val = k.val; omega
  · show V c main_v21 (((cfg1.win 1).blk t).view.emb (ix2 p (0 : Fin 1))) = V c main_v21 (ix2 (⟨t.val * 4000 + p.val, hr⟩ : Fin 100000) (0 : Fin 1))
    refine congrArg (V c main_v21) ?_
    funext a; apply Fin.ext
    match a with
    | ⟨0, _⟩ => show win1_1.index t (0 : Fin 2) * 4000 + 1 * p.val = t.val * 4000 + p.val; omega
    | ⟨1, _⟩ => show win1_1.index t (1 : Fin 2) * 1 + 1 * 0 = 0; omega
  · funext z
    show V c main_arg13 (((cfg1.win 2).blk t).view.emb z) = V c main_arg13 z
    refine congrArg (V c main_arg13) ?_
    funext a; apply Fin.ext
    match a with
    | ⟨0, _⟩ => show win1_2.index t (0 : Fin 2) * 64 + 1 * (z 0).val = (z 0).val; omega
    | ⟨1, _⟩ => show win1_2.index t (1 : Fin 2) * 64 + 1 * (z 1).val = (z 1).val; omega
  · funext z
    show V c main_v38 (((cfg1.win 3).blk t).view.emb z) = V c main_v38 z
    refine congrArg (V c main_v38) ?_
    funext a; apply Fin.ext
    match a with
    | ⟨0, _⟩ => show win1_3.index t (0 : Fin 2) * 1 + 1 * (z 0).val = (z 0).val; omega
    | ⟨1, _⟩ => show win1_3.index t (1 : Fin 2) * 64 + 1 * (z 1).val = (z 1).val; omega

/-- An index of the result array is in point t's block iff each coordinate is in the block's range on its axis. -/
theorem mem_blk (t : Fin cfg1.N) (i : S100000x64.Idx) :
    i ∈ ((cfg1.win 4).blk t).view.set ↔ ∀ a : Fin 2, win1_4.index t a * S4000x64.size a ≤ (i a).val
      ∧ (i a).val < win1_4.index t a * S4000x64.size a + S4000x64.size a := by
  show i ∈ ((View.whole main_v39).slice (win1_4.rect t)).set ↔ _
  rw [View.set_slice_whole, Rect.mem_set_unit]
  exact Iff.rfl

/-- Row r of the result lies in the block of point r / 4000, and every point writes its block back. -/
theorem cover (i : S100000x64.Idx) :
    ∃ t : Fin cfg1.N, (cfg1.win 4).flush t = true ∧ i ∈ ((cfg1.win 4).blk t).view.set := by
  have hN : cfg1.N = 25 := N_1
  have hi0 : (i 0).val < 100000 := (i 0).isLt
  have hi1 : (i 1).val < 64 := (i 1).isLt
  obtain ⟨t, ht⟩ : ∃ t : Fin cfg1.N, t.val = (i 0).val / 4000 := ⟨⟨(i 0).val / 4000, by omega⟩, rfl⟩
  obtain ⟨-, -, -, -, -, -, -, -, e40, e41⟩ := idx_facts t
  refine ⟨t, flush1_4 t, ?_⟩
  rw [mem_blk]
  intro a
  match a with
  | ⟨0, _⟩ =>
    show win1_4.index t (0 : Fin 2) * 4000 ≤ (i 0).val ∧ (i 0).val < win1_4.index t (0 : Fin 2) * 4000 + 4000
    omega
  | ⟨1, _⟩ =>
    show win1_4.index t (1 : Fin 2) * 64 ≤ (i 1).val ∧ (i 1).val < win1_4.index t (1 : Fin 2) * 64 + 64
    omega

/-- THE RESULT ARRAY after the kernel's 25 points: the layer of the arrays the kernel was entered with — entry (r, j) is
    the sum over k of lrelu (s(r, k) / max (cnt(r, 0), one)) * W(k, j), plus b(0, j). -/
theorem final1 (c : Dev nD) :
    (dat1 (F := Ideal) V c).arrAt 4 cfg1.N
      = Cert.HG.lin (n := 100000) (K := 64) (C := 64)
          (Cert.HG.act (Cert.HG.mean (V c main_v16) (Cert.HG.colOf (V c main_v21)))) (V c main_arg13) (Cert.HG.rowOf (V c main_v38)) :=
  (dat1 (F := Ideal) V c).arrAt_eq_of_cover 4 (result V c) (fun t _ => flushed_eq V c t) cover

end Cert.KernelIdeal.KReg1

end
-- ==== Proof.Model.lean ====
/-
  The network both programs compute, as one function of the argument arrays: each relation looks rows up by source word,
  sums them by destination word and divides by the segment size; the first layer feeds the second through the leaky
  rectifier; the two relations into the target nodes are added and mapped by the last linear map.
-/
import proofs.«126305_j61735859913388_2_alg».proof.Proof.Stages

noncomputable section

namespace Cert.HG

open Idealize.ShloMosaic Idealize.ShloMosaic.ValueIdx

/-- One relation's aggregation: rows of h looked up by source word, summed by destination word, averaged per segment. -/
def relMean {Ns Nd M C : ℕ} (hNs : 0 < Ns) (Nsw : BitVec 32) (h : Mat Ns C) (src dst : Words M) : Mat Nd C :=
  mean (segSum (take hNs Nsw h src) dst) (segCnt dst)

/-- The hidden state one relation of the first layer hands to the second: the rectified aggregation mapped linearly. -/
def hidden {Nd M : ℕ} (feat : Mat 500000 128) (W0 : Mat 128 64) (b0 : Col 64) (src dst : Words M)
    (W1 : Mat 64 64) (b1 : Col 64) : Mat Nd 64 :=
  lin (act (relMean (Ns := 500000) (Nd := Nd) (by decide) 500000#32 (lin feat W0 b0) src dst)) W1 b1

/-- The result: the two second-layer aggregations into the target nodes, added, under the last linear map. -/
def model (a0 : Mat 500000 128) (a3 a4 a5 a6 a7 a8 a9 a10 : Words 500000)
    (a13 : Mat 64 64) (a14 : Col 64) (a17 : Mat 64 64) (a18 : Col 64)
    (a19 : Mat 128 64) (a20 : Col 64) (a23 : Mat 128 64) (a24 : Col 64) (a27 : Mat 64 2) (a28 : Col 2) : Mat 500000 2 :=
  lin (add
      (relMean (Ns := 100000) (Nd := 500000) (by decide) 100000#32 (hidden (Nd := 100000) a0 a19 a20 a7 a8 a13 a14) a3 a4)
      (relMean (Ns := 20000) (Nd := 500000) (by decide) 20000#32 (hidden (Nd := 20000) a0 a23 a24 a9 a10 a17 a18) a5 a6))
    a27 a28

end Cert.HG

end
-- ==== Proof.KSpecA.lean ====
/-
  The kernel program from its launch to the first hidden state, at the level of the specification.

  The program's first stretch of host operations sets the two first-layer weights side by side and the two biases end to
  end; its first region multiplies the features into that wide weight; the second stretch cuts the product into its two
  halves — each half is the features under one weight and one bias —, looks rows of each half up by source word, sums
  them by destination word and counts the destinations; the second region averages, rectifies and maps the first
  relation's sums.  Each step is read off the buffer contents at the boundary after it, as a function of the launch
  contents of the argument buffers.
-/
import proofs.«126305_j61735859913388_2_alg».proof.Proof.Gen.KernelIdeal.Frame
import proofs.«126305_j61735859913388_2_alg».proof.Proof.KHostRead
import proofs.«126305_j61735859913388_2_alg».proof.Proof.KSpecA1
import proofs.«126305_j61735859913388_2_alg».proof.Proof.KReg0
import proofs.«126305_j61735859913388_2_alg».proof.Proof.KReg1
import proofs.«126305_j61735859913388_2_alg».proof.Proof.Patterns
import proofs.«126305_j61735859913388_2_alg».proof.Proof.Model

noncomputable section

namespace Cert.KernelIdeal.KSpecA

open Cert.KernelIdeal Cert.KernelIdeal.Gen Cert.KernelIdeal.KHost Cert.KernelIdeal.KSpecA1
open Idealize.ShloMosaic Idealize.ShloMosaic.TcCoe Idealize.ShloMosaic.StableHlo Idealize.ShloMosaic.ValueIdx
open Cert.HG Cert.LibSG

/-! ## Two congruences over literal shapes -/

/-- The linear map of equal operands. -/
theorem lin_congr {n K C : ℕ} {x x' : Mat n K} {W W' : Mat K C} {b b' : Mat 1 C}
    (hx : x = x') (hW : W = W') (hb : b = b') : lin x W (rowOf b) = lin x' W' (rowOf b') := by
  subst hx hW hb; rfl

/-- A region's layer — the mean of the sums over the sizes, rectified, under a linear map — of one relation's sums and
    sizes over the features under a first-layer weight and bias is that relation's hidden state. -/
theorem hidden_of {Nd M : ℕ} (feat : Mat 500000 128) (W0 : Mat 128 64) (b0 : Col 64) (src dst : Words M)
    (W1 : Mat 64 64) (b1 : Col 64) {s : Mat Nd 64} {cnt : Mat Nd 1} {w : Mat 64 64} {b : Mat 1 64}
    (hs : s = segSum (take (N := 500000) (by decide) 500000#32 (lin feat W0 b0) src) dst)
    (hc : colOf cnt = segCnt dst) (hw : w = W1) (hb : rowOf b = b1) :
    lin (act (mean s (colOf cnt))) w (rowOf b) = hidden (Nd := Nd) feat W0 b0 src dst W1 b1 := by
  subst hs hw; rw [hc, hb]; rfl

/-! ## From the launch to the second region's exit -/

section Chain
variable (m : (ℓ : Loc nD τ sig) → Buf (Elt Ideal) ℓ) (ρ : Dev nD → PrngReg) (c : Dev nD)

/-- A buffer the first stretch does not write holds its launch contents when the first region is entered. -/
theorem w1_keep (b : Ref sig .tc) (hb : b ∉ Ws0) :
    W1 m ρ c (Proc.devRef .tc b) = m ((c : Thread nD τ).loc b) := keep0 (W0 m ρ c) b hb

/-- The wide weight: the two first-layer weights side by side. -/
theorem w1_v0 :
    W1 m ρ c (Proc.devRef .tc main_v0)
      = concatenate S128x128 1 [⟨S128x64, (m ((c : Thread nD τ).loc main_arg19))⟩, ⟨S128x64, (m ((c : Thread nD τ).loc main_arg23))⟩] concatenates_S128x64_S128x64_S128x128_d1 := by
  refine (r0_v0 (W0 m ρ c)).trans ?_
  rw [keep0 (W0 m ρ c) main_arg19 (by decide), keep0 (W0 m ρ c) main_arg23 (by decide)]

/-- The wide bias, as a row: the two first-layer biases end to end. -/
theorem w1_v2 :
    W1 m ρ c (Proc.devRef .tc main_v2)
      = shapeCast S1x128 (concatenate S128 0 [⟨S64, (m ((c : Thread nD τ).loc main_arg20))⟩, ⟨S64, (m ((c : Thread nD τ).loc main_arg24))⟩] concatenates_S64_S64_S128_d0) shapeCasts_S128_S1x128 := by
  refine (r0_v2 (W0 m ρ c)).trans ?_
  rw [r0_v1 (W0 m ρ c), keep0 (W0 m ρ c) main_arg20 (by decide), keep0 (W0 m ρ c) main_arg24 (by decide)]

/-- The first region's result: the features under the wide weight and the wide bias. -/
theorem v3_eq :
    (W2 m ρ c (Proc.devRef .tc main_v3) : Mat 500000 128)
      = lin (n := 500000) (K := 128) (C := 128) (m ((c : Thread nD τ).loc main_arg0))
          (concatenate S128x128 1 [⟨S128x64, (m ((c : Thread nD τ).loc main_arg19))⟩, ⟨S128x64, (m ((c : Thread nD τ).loc main_arg23))⟩] concatenates_S128x64_S128x64_S128x128_d1)
          (rowOf (shapeCast S1x128 (concatenate S128 0 [⟨S64, (m ((c : Thread nD τ).loc main_arg20))⟩, ⟨S64, (m ((c : Thread nD τ).loc main_arg24))⟩] concatenates_S64_S64_S128_d0) shapeCasts_S128_S1x128)) :=
  (W2_arr m ρ c 3).trans ((KReg0.final0 (V1 m ρ) c).trans
    (lin_congr (w1_keep m ρ c main_arg0 (by decide)) (w1_v0 m ρ c) (w1_v2 m ρ c)))

/-- A buffer that is no array of the first region and that the first stretch does not write holds its launch contents at
    the first region's exit. -/
theorem w2_keep (b : Ref sig .tc) (h0 : ∀ w, Pipeline.arrRef spec0 w ≠ b) (hb : b ∉ Ws0) :
    W2 m ρ c (Proc.devRef .tc b) = m ((c : Thread nD τ).loc b) :=
  (W2_of_ne m ρ c b h0).trans (w1_keep m ρ c b hb)

/-- The left half of the first region's result is the features under the first relation's weight and bias. -/
theorem w3_v4 :
    extractStridedSlice S500000x64 ![0, 0] (W2 m ρ c (Proc.devRef .tc main_v3) : Mat 500000 128) slices_S500000x128_S500000x64_0_0
      = lin (n := 500000) (K := 128) (C := 64) (m ((c : Thread nD τ).loc main_arg0)) (m ((c : Thread nD τ).loc main_arg19)) (m ((c : Thread nD τ).loc main_arg20)) := by
  rw [v3_eq m ρ c]
  exact slice_lin_concat_left (n := 500000) (K := 128) (C := 64) concatenates_S128x64_S128x64_S128x128_d1
    concatenates_S64_S64_S128_d0 shapeCasts_S128_S1x128 slices_S500000x128_S500000x64_0_0 _ _ _ _ _

/-- The right half is the features under the second relation's weight and bias. -/
theorem w3_v5 :
    extractStridedSlice S500000x64 ![0, 64] (W2 m ρ c (Proc.devRef .tc main_v3) : Mat 500000 128) slices_S500000x128_S500000x64_0_64
      = lin (n := 500000) (K := 128) (C := 64) (m ((c : Thread nD τ).loc main_arg0)) (m ((c : Thread nD τ).loc main_arg23)) (m ((c : Thread nD τ).loc main_arg24)) := by
  rw [v3_eq m ρ c]
  exact slice_lin_concat_right (n := 500000) (K := 128) (C := 64) concatenates_S128x64_S128x64_S128x128_d1
    concatenates_S64_S64_S128_d0 shapeCasts_S128_S1x128 slices_S500000x128_S500000x64_0_64 _ _ _ _ _

/-- The first relation's sums when the second region is entered. -/
theorem v16_eq :
    (W3 m ρ c (Proc.devRef .tc main_v16) : Mat 100000 64)
      = segSum (take (N := 500000) (by decide) 500000#32 (lin (n := 500000) (K := 128) (C := 64) (m ((c : Thread nD τ).loc main_arg0)) (m ((c : Thread nD τ).loc main_arg19)) (m ((c : Thread nD τ).loc main_arg20))) (m ((c : Thread nD τ).loc main_arg7))) (m ((c : Thread nD τ).loc main_arg8)) := by
  refine (s1_v16 (W2 m ρ c)).trans ?_
  rw [w3_v4 m ρ c, w2_keep m ρ c main_arg7 (by decide) (by decide), w2_keep m ρ c main_arg8 (by decide) (by decide)]

/-- The first relation's segment sizes when the second region is entered. -/
theorem v21_eq :
    colOf (W3 m ρ c (Proc.devRef .tc main_v21) : Mat 100000 1) = segCnt (m ((c : Thread nD τ).loc main_arg8)) := by
  refine (s1_v21 (W2 m ρ c)).trans ?_
  rw [w2_keep m ρ c main_arg8 (by decide) (by decide)]

/-- The second relation's sums when the second region is entered. -/
theorem v32_eq :
    (W3 m ρ c (Proc.devRef .tc main_v32) : Mat 20000 64)
      = segSum (take (N := 500000) (by decide) 500000#32 (lin (n := 500000) (K := 128) (C := 64) (m ((c : Thread nD τ).loc main_arg0)) (m ((c : Thread nD τ).loc main_arg23)) (m ((c : Thread nD τ).loc main_arg24))) (m ((c : Thread nD τ).loc main_arg9))) (m ((c : Thread nD τ).loc main_arg10)) := by
  refine (s1_v32 (W2 m ρ c)).trans ?_
  rw [w3_v5 m ρ c, w2_keep m ρ c main_arg9 (by decide) (by decide), w2_keep m ρ c main_arg10 (by decide) (by decide)]

/-- The second relation's segment sizes when the second region is entered. -/
theorem v37_eq :
    colOf (W3 m ρ c (Proc.devRef .tc main_v37) : Mat 20000 1) = segCnt (m ((c : Thread nD τ).loc main_arg10)) := by
  refine (s1_v37 (W2 m ρ c)).trans ?_
  rw [w2_keep m ρ c main_arg10 (by decide) (by decide)]

/-- The first hidden layer's bias when the second region is entered. -/
theorem v38_eq :
    rowOf (W3 m ρ c (Proc.devRef .tc main_v38) : Mat 1 64) = (m ((c : Thread nD τ).loc main_arg14)) := by
  refine (s1_v38 (W2 m ρ c)).trans ?_
  rw [w2_keep m ρ c main_arg14 (by decide) (by decide)]

/-- The first hidden layer's weight when the second region is entered. -/
theorem arg13_eq : W3 m ρ c (Proc.devRef .tc main_arg13) = (m ((c : Thread nD τ).loc main_arg13)) :=
  (keep1 (W2 m ρ c) main_arg13 (by decide)).trans (w2_keep m ρ c main_arg13 (by decide) (by decide))

/-- The second region's result: the hidden state the first relation hands to the second layer. -/
theorem v39_eq :
    W4 m ρ c (Proc.devRef .tc main_v39)
      = hidden (Nd := 100000) (m ((c : Thread nD τ).loc main_arg0)) (m ((c : Thread nD τ).loc main_arg19)) (m ((c : Thread nD τ).loc main_arg20)) (m ((c : Thread nD τ).loc main_arg7)) (m ((c : Thread nD τ).loc main_arg8)) (m ((c : Thread nD τ).loc main_arg13)) (m ((c : Thread nD τ).loc main_arg14)) :=
  (W4_arr m ρ c 4).trans ((KReg1.final1 (V3 m ρ) c).trans
    (hidden_of _ _ _ _ _ _ _ (v16_eq m ρ c) (v21_eq m ρ c) (arg13_eq m ρ c) (v38_eq m ρ c)))

end Chain

end Cert.KernelIdeal.KSpecA

end
-- ==== Proof.KReg2.lean ====
/-
  The whole-array value of the second of the two second-layer kernels.

  The kernel walks 5 blocks of 4000 rows.  At block t it reads rows 4000 t .. 4000 t + 3999 of the segment sums and of
  the segment sizes, the whole weight and the whole bias row, and writes back rows 4000 t .. 4000 t + 3999 of the result.
  Entry (p, q) of what it writes is entry (4000 t + p, q) of the layer as a function of the whole arrays, and row r of the
  20000 rows lies in block r / 4000: so the result array ends holding the layer of the arrays the kernel was entered with.
-/
import proofs.«126305_j61735859913388_2_alg».proof.Proof.Gen.KernelIdeal.Frame
import proofs.«126305_j61735859913388_2_alg».proof.Proof.Spec
import proofs.«126305_j61735859913388_2_alg».proof.Proof.KRegPay
import Idealize.ShloMosaic.Lib.ValueIdx
import Idealize.ShloMosaic.Lib.Pipeline.Value

set_option maxRecDepth 16384

noncomputable section

namespace Cert.KernelIdeal.KReg2

open Cert.KernelIdeal Cert.KernelIdeal.Gen Cert.KernelIdeal.KRegPay
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The zero offsets of the body's whole-buffer loads and store, spelt as the constant function. -/
theorem hz : (![0, 0] : Fin 2 → Nat) = fun _ => 0 := funext fun a => by fin_cases a <;> rfl

/-- The block indices the printed index maps give at point t: the two row-blocked inputs and the output are at block row t,
    the weight and the bias at their one block. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The layer of the arrays as the kernel finds them. -/
abbrev result (c : Dev nD) : Cert.HG.Mat 20000 64 :=
  layer (n := 20000) (V c main_v32) (V c main_v37) (V c main_arg17) (V c main_v40)

/-- WHAT POINT t WRITES BACK is block t of the layer of the whole arrays: the row-blocked inputs' blocks hold rows
    4000 t + p of their arrays at their row p, the weight's and the bias's blocks are their arrays. -/
theorem flushed_eq (c : Dev nD) (t : Fin cfg2.N) :
    (dat2 (F := Ideal) V c).flushed 4 t = ((cfg2.win 4).blk t).view.read (Elt Ideal) (result V c) := by
  show (cfg2.win 4).cut (grid2.coords t) ((dat2 V c).after 4 t) = _
  rw [after2_4]
  unfold out2_4
  rw [View.canon_unit_zero hz]
  simp only [View.ld_unit_zero (S := S4000x64) hz, View.ld_unit_zero (S := S4000x1) hz, View.ld_unit_zero (S := S64x64) hz,
    View.ld_unit_zero (S := S1x64) hz]
  funext y
  obtain ⟨e00, e01, e10, e11, e20, e21, e30, e31, e40, e41⟩ := idx_facts t
  have hN : cfg2.N = 5 := N_2
  have ht : t.val < 5 := by have := t.isLt; omega
  obtain ⟨p, q, rfl⟩ : ∃ (p : Fin 4000) (q : Fin 64), y = ix2 p q := ⟨y 0, y 1, eq_ix2 (n0 := 4000) (n1 := 64) y⟩
  show k2_pay1 (iblk2 V c 0 t) (iblk2 V c 1 t) (iblk2 V c 2 t) (iblk2 V c 3 t) (ix2 p q)
    = result V c (((cfg2.win 4).blk t).view.emb (ix2 p q))
  have hr : t.val * 4000 + p.val < 20000 := by have := p.isLt; omega
  have hemb : ((cfg2.win 4).blk t).view.emb (ix2 p q) = ix2 (⟨t.val * 4000 + p.val, hr⟩ : Fin 20000) q := by
    funext a; apply Fin.ext
    match a with
    | ⟨0, _⟩ => show win2_4.index t (0 : Fin 2) * 4000 + 1 * p.val = t.val * 4000 + p.val; omega
    | ⟨1, _⟩ => show win2_4.index t (1 : Fin 2) * 64 + 1 * q.val = q.val; omega
  rw [hemb]
  refine pay2_eq_layer (n := 20000) (V c main_v32) (V c main_v37) (V c main_arg17) (V c main_v40)
    (iblk2 V c 0 t) (iblk2 V c 1 t) (iblk2 V c 2 t) (iblk2 V c 3 t) p q ⟨t.val * 4000 + p.val, hr⟩ (fun k => ?_) ?_ ?_ ?_
  · show V c main_v32 (((cfg2.win 0).blk t).view.emb (ix2 p k)) = V c main_v32 (ix2 (⟨t.val * 4000 + p.val, hr⟩ : Fin 20000) k)
    refine congrArg (V c main_v32) ?_
    funext a; apply Fin.ext
    match a with
    | ⟨0, _⟩ => show win2_0.index t (0 : Fin 2) * 4000 + 1 * p.val = t.val * 4000 + p.val; omega
    | ⟨1, _⟩ => show win2_0.index t (1 : Fin 2) * 64 + 1 * k.val = k.val; omega
  · show V c main_v37 (((cfg2.win 1).blk t).view.emb (ix2 p (0 : Fin 1))) = V c main_v37 (ix2 (⟨t.val * 4000 + p.val, hr⟩ : Fin 20000) (0 : Fin 1))
    refine congrArg (V c main_v37) ?_
    funext a; apply Fin.ext
    match a with
    | ⟨0, _⟩ => show win2_1.index t (0 : Fin 2) * 4000 + 1 * p.val = t.val * 4000 + p.val; omega
    | ⟨1, _⟩ => show win2_1.index t (1 : Fin 2) * 1 + 1 * 0 = 0; omega
  · funext z
    show V c main_arg17 (((cfg2.win 2).blk t).view.emb z) = V c main_arg17 z
    refine congrArg (V c main_arg17) ?_
    funext a; apply Fin.ext
    match a with
    | ⟨0, _⟩ => show win2_2.index t (0 : Fin 2) * 64 + 1 * (z 0).val = (z 0).val; omega
    | ⟨1, _⟩ => show win2_2.index t (1 : Fin 2) * 64 + 1 * (z 1).val = (z 1).val; omega
  · funext z
    show V c main_v40 (((cfg2.win 3).blk t).view.emb z) = V c main_v40 z
    refine congrArg (V c main_v40) ?_
    funext a; apply Fin.ext
    match a with
    | ⟨0, _⟩ => show win2_3.index t (0 : Fin 2) * 1 + 1 * (z 0).val = (z 0).val; omega
    | ⟨1, _⟩ => show win2_3.index t (1 : Fin 2) * 64 + 1 * (z 1).val = (z 1).val; omega

/-- An index of the result array is in point t's block iff each coordinate is in the block's range on its axis. -/
theorem mem_blk (t : Fin cfg2.N) (i : S20000x64.Idx) :
    i ∈ ((cfg2.win 4).blk t).view.set ↔ ∀ a : Fin 2, win2_4.index t a * S4000x64.size a ≤ (i a).val
      ∧ (i a).val < win2_4.index t a * S4000x64.size a + S4000x64.size a := by
  show i ∈ ((View.whole main_v41).slice (win2_4.rect t)).set ↔ _
  rw [View.set_slice_whole, Rect.mem_set_unit]
  exact Iff.rfl

/-- Row r of the result lies in the block of point r / 4000, and every point writes its block back. -/
theorem cover (i : S20000x64.Idx) :
    ∃ t : Fin cfg2.N, (cfg2.win 4).flush t = true ∧ i ∈ ((cfg2.win 4).blk t).view.set := by
  have hN : cfg2.N = 5 := N_2
  have hi0 : (i 0).val < 20000 := (i 0).isLt
  have hi1 : (i 1).val < 64 := (i 1).isLt
  obtain ⟨t, ht⟩ : ∃ t : Fin cfg2.N, t.val = (i 0).val / 4000 := ⟨⟨(i 0).val / 4000, by omega⟩, rfl⟩
  obtain ⟨-, -, -, -, -, -, -, -, e40, e41⟩ := idx_facts t
  refine ⟨t, flush2_4 t, ?_⟩
  rw [mem_blk]
  intro a
  match a with
  | ⟨0, _⟩ =>
    show win2_4.index t (0 : Fin 2) * 4000 ≤ (i 0).val ∧ (i 0).val < win2_4.index t (0 : Fin 2) * 4000 + 4000
    omega
  | ⟨1, _⟩ =>
    show win2_4.index t (1 : Fin 2) * 64 ≤ (i 1).val ∧ (i 1).val < win2_4.index t (1 : Fin 2) * 64 + 64
    omega

/-- THE RESULT ARRAY after the kernel's 5 points: the layer of the arrays the kernel was entered with — entry (r, j) is
    the sum over k of lrelu (s(r, k) / max (cnt(r, 0), one)) * W(k, j), plus b(0, j). -/
theorem final2 (c : Dev nD) :
    (dat2 (F := Ideal) V c).arrAt 4 cfg2.N
      = Cert.HG.lin (n := 20000) (K := 64) (C := 64)
          (Cert.HG.act (Cert.HG.mean (V c main_v32) (Cert.HG.colOf (V c main_v37)))) (V c main_arg17) (Cert.HG.rowOf (V c main_v40)) :=
  (dat2 (F := Ideal) V c).arrAt_eq_of_cover 4 (result V c) (fun t _ => flushed_eq V c t) cover

end Cert.KernelIdeal.KReg2

end
-- ==== Proof.KReg3.lean ====
/-
  The tail region of the kernel program as one function of the arrays it finds.

  The tail reads four row-blocked arrays — two segment sums sc, sm of shape [500000, 64] and their segment sizes
  cc, cm of shape [500000, 1] — and two whole arrays, a weight Wf [64, 2] and a bias bf [1, 2].  At grid point t it
  takes rows 2000·t … 2000·t + 1999 of the four blocked arrays, divides each sum row by its size floored at one,
  adds the two means, multiplies the [2000, 64] result into Wf and adds the bias row.  Entry (r, j) of the output
  is therefore  Σ_k (sc(r,k) / max(cc(r,0), one) + sm(r,k) / max(cm(r,0), one)) · Wf(k,j) + bf(0,j),
  which depends on row r of the blocked arrays only; the 250 blocks tile the 500000 rows, so the array after the
  region is that function of the entry contents at every index.
-/
import proofs.«126305_j61735859913388_2_alg».proof.Proof.Gen.KernelIdeal.Frame
import proofs.«126305_j61735859913388_2_alg».proof.Proof.Spec
import proofs.«126305_j61735859913388_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KReg3

open Cert.KernelIdeal Cert.KernelIdeal.Gen Idealize.ShloMosaic Idealize.ShloMosaic.ValueIdx
open Idealize.ShloMosaic.TcCoe Idealize.SL.Sem
open Idealize.ShloMosaic.Pipeline (Dat)

/-- The tail's result at row `p`, column `q` of a block, from the block's six operands. -/
theorem pay_apply (x0 : Vec Ideal S2000x64 .f32) (x1 : Vec Ideal S2000x1 .f32) (x2 : Vec Ideal S2000x64 .f32)
    (x3 : Vec Ideal S2000x1 .f32) (x4 : Vec Ideal S64x2 .f32) (x5 : Vec Ideal S1x2 .f32) (p : Fin 2000) (q : Fin 2) :
    k3_pay1 x0 x1 x2 x3 x4 x5 (ix2 p q)
      = (∑ k : Fin 64, (Cert.HG.meanOf (x0 (ix2 p k)) (x1 (ix2 p (0 : Fin 1)))
            + Cert.HG.meanOf (x2 (ix2 p k)) (x3 (ix2 p (0 : Fin 1)))) * x4 (ix2 k q))
        + x5 (ix2 (0 : Fin 1) q) := by
  unfold k3_pay1
  simp only [shapeCast_self]
  rw [addf_apply, broadcastTo_1b_ab_apply]
  simp only [Ideal.matmul_constant_zero_apply]
  rw [← Equiv.sum_comp (contrEquiv1 dot_S2000x64_S64x2_S2000x2_1_0_0_1_n_n 64 rfl rfl).symm]
  refine congrArg (· + x5 (ix2 (0 : Fin 1) q)) (Finset.sum_congr rfl fun k _ => ?_)
  have hl : dot_S2000x64_S64x2_S2000x2_1_0_0_1_n_n.lhsIdx (ix2 p q)
      ((contrEquiv1 dot_S2000x64_S64x2_S2000x2_1_0_0_1_n_n 64 rfl rfl).symm k) = ix2 p k := by
    funext a; apply Fin.ext
    match a with
    | ⟨0, _⟩ => rfl
    | ⟨1, _⟩ =>
      exact (DotDims.lhsIdx_val_of_single dot_S2000x64_S64x2_S2000x2_1_0_0_1_n_n rfl _ _).trans
        (contrEquiv1_symm_val dot_S2000x64_S64x2_S2000x2_1_0_0_1_n_n 64 rfl rfl k)
  have hr : dot_S2000x64_S64x2_S2000x2_1_0_0_1_n_n.rhsIdx (ix2 p q)
      ((contrEquiv1 dot_S2000x64_S64x2_S2000x2_1_0_0_1_n_n 64 rfl rfl).symm k) = ix2 k q := by
    funext a; apply Fin.ext
    match a with
    | ⟨0, _⟩ =>
      exact (DotDims.rhsIdx_val_of_single dot_S2000x64_S64x2_S2000x2_1_0_0_1_n_n rfl _ _).trans
        (contrEquiv1_symm_val dot_S2000x64_S64x2_S2000x2_1_0_0_1_n_n 64 rfl rfl k)
    | ⟨1, _⟩ => rfl
  rw [hl, hr]
  simp only [truncf_apply, addf_apply, divf_apply, maximumf_apply, broadcast_apply, PhysLoss.broadcastTo_a1_ab_apply]
  rfl

/-- The tail's array as one function of the six arrays it reads: the two means added, times the weight, plus the bias row. -/
abbrev tailOf (sc : Cert.HG.Mat 500000 64) (cc : Cert.HG.Mat 500000 1) (sm : Cert.HG.Mat 500000 64)
    (cm : Cert.HG.Mat 500000 1) (Wf : Cert.HG.Mat 64 2) (bf : Cert.HG.Mat 1 2) : Cert.HG.Mat 500000 2 :=
  Cert.HG.lin (Cert.HG.add (Cert.HG.mean sc (Cert.HG.colOf cc)) (Cert.HG.mean sm (Cert.HG.colOf cm))) Wf (Cert.HG.rowOf bf)

/-- Entry `(r, j)` of it: the sum over `k` of the two means of row `r` at `k` times `Wf(k, j)`, plus `bf(0, j)`. -/
theorem tailOf_apply (sc : Cert.HG.Mat 500000 64) (cc : Cert.HG.Mat 500000 1) (sm : Cert.HG.Mat 500000 64)
    (cm : Cert.HG.Mat 500000 1) (Wf : Cert.HG.Mat 64 2) (bf : Cert.HG.Mat 1 2) (r : Fin 500000) (j : Fin 2) :
    tailOf sc cc sm cm Wf bf (ix2 r j)
      = (∑ k : Fin 64, (Cert.HG.meanOf (sc (ix2 r k)) (cc (ix2 r (0 : Fin 1)))
            + Cert.HG.meanOf (sm (ix2 r k)) (cm (ix2 r (0 : Fin 1)))) * Wf (ix2 k j))
        + bf (ix2 (0 : Fin 1) j) := rfl

/-- A block whose operands are rows `2000·t …` of the blocked arrays, and the weight and bias whole, computes rows
    `2000·t …` of `tailOf`: entry `(p, q)` of the block is entry `(2000·t + p, q)` of the array. -/
theorem block_eq (sc : Cert.HG.Mat 500000 64) (cc : Cert.HG.Mat 500000 1) (sm : Cert.HG.Mat 500000 64)
    (cm : Cert.HG.Mat 500000 1) (Wf : Cert.HG.Mat 64 2) (bf : Cert.HG.Mat 1 2)
    (x0 : Vec Ideal S2000x64 .f32) (x1 : Vec Ideal S2000x1 .f32) (x2 : Vec Ideal S2000x64 .f32)
    (x3 : Vec Ideal S2000x1 .f32) (x4 : Vec Ideal S64x2 .f32) (x5 : Vec Ideal S1x2 .f32)
    (p : Fin 2000) (q : Fin 2) (r : Fin 500000)
    (h0 : ∀ k : Fin 64, x0 (ix2 p k) = sc (ix2 r k)) (h1 : x1 (ix2 p (0 : Fin 1)) = cc (ix2 r (0 : Fin 1)))
    (h2 : ∀ k : Fin 64, x2 (ix2 p k) = sm (ix2 r k)) (h3 : x3 (ix2 p (0 : Fin 1)) = cm (ix2 r (0 : Fin 1)))
    (h4 : x4 = Wf) (h5 : x5 = bf) :
    k3_pay1 x0 x1 x2 x3 x4 x5 (ix2 p q) = tailOf sc cc sm cm Wf bf (ix2 r q) := by
  rw [pay_apply, tailOf_apply, h1, h3, h4, h5]
  exact congrArg (· + bf (ix2 (0 : Fin 1) q)) (Finset.sum_congr rfl fun k _ => by rw [h0 k, h2 k])

theorem hz : (![0, 0] : Fin 2 → Nat) = fun _ => 0 := funext fun a => by fin_cases a <;> rfl

/-- The windows' index maps at each of the 250 grid points: the four blocked inputs and the output sit at block row `t`,
    block column 0; the weight and the bias at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The same at any element of the block and of the array: when the operands are the blocked arrays' rows `2000·t …`
    (each operand element `y'` is the array element `y'` moved down `2000·t` rows) and the weight and bias whole, block
    element `y` is the array's element `i`, `y` moved down `2000·t` rows. -/
theorem block_at (sc : Cert.HG.Mat 500000 64) (cc : Cert.HG.Mat 500000 1) (sm : Cert.HG.Mat 500000 64)
    (cm : Cert.HG.Mat 500000 1) (Wf : Cert.HG.Mat 64 2) (bf : Cert.HG.Mat 1 2)
    (x0 : Vec Ideal S2000x64 .f32) (x1 : Vec Ideal S2000x1 .f32) (x2 : Vec Ideal S2000x64 .f32)
    (x3 : Vec Ideal S2000x1 .f32) (x4 : Vec Ideal S64x2 .f32) (x5 : Vec Ideal S1x2 .f32)
    (t : ℕ) (y : S2000x2.Idx) (i : S500000x2.Idx)
    (hi0 : (i 0).val = 2000 * t + (y 0).val) (hi1 : (i 1).val = (y 1).val)
    (h0 : ∀ (y' : S2000x64.Idx) (i' : S500000x64.Idx), (i' 0).val = 2000 * t + (y' 0).val → (i' 1).val = (y' 1).val → x0 y' = sc i')
    (h1 : ∀ (y' : S2000x1.Idx) (i' : S500000x1.Idx), (i' 0).val = 2000 * t + (y' 0).val → (i' 1).val = (y' 1).val → x1 y' = cc i')
    (h2 : ∀ (y' : S2000x64.Idx) (i' : S500000x64.Idx), (i' 0).val = 2000 * t + (y' 0).val → (i' 1).val = (y' 1).val → x2 y' = sm i')
    (h3 : ∀ (y' : S2000x1.Idx) (i' : S500000x1.Idx), (i' 0).val = 2000 * t + (y' 0).val → (i' 1).val = (y' 1).val → x3 y' = cm i')
    (h4 : x4 = Wf) (h5 : x5 = bf) :
    k3_pay1 x0 x1 x2 x3 x4 x5 y = tailOf sc cc sm cm Wf bf i := by
  obtain ⟨p, q, rfl⟩ : ∃ (p : Fin 2000) (q : Fin 2), y = ix2 p q := ⟨y 0, y 1, eq_ix2 y⟩
  obtain ⟨r, j, rfl⟩ : ∃ (r : Fin 500000) (j : Fin 2), i = ix2 r j := ⟨i 0, i 1, eq_ix2 i⟩
  have hr : r.val = 2000 * t + p.val := hi0
  obtain rfl : j = q := Fin.ext hi1
  exact block_eq sc cc sm cm Wf bf x0 x1 x2 x3 x4 x5 p j r
    (fun k => h0 (ix2 p k) (ix2 r k) hr rfl) (h1 (ix2 p (0 : Fin 1)) (ix2 r (0 : Fin 1)) hr rfl)
    (fun k => h2 (ix2 p k) (ix2 r k) hr rfl) (h3 (ix2 p (0 : Fin 1)) (ix2 r (0 : Fin 1)) hr rfl) h4 h5

section Region
variable (V : (c : Dev nD) → (b : Ref sig .tc) → Buf (Elt Ideal) ((c : Thread nD τ).loc b))

/-- Block `t` of the first sums array is its rows `2000·t …`: element `y` of the block is element `i` of the array
    when `i` is `y` moved down `2000·t` rows. -/
theorem read0 (c : Dev nD) (t : Fin cfg3.N) (y : S2000x64.Idx) (i : S500000x64.Idx)
    (h0 : (i 0).val = 2000 * t.val + (y 0).val) (h1 : (i 1).val = (y 1).val) :
    (iblk3 V c 0 t : Vec Ideal S2000x64 .f32) y = (V c main_v52 : S500000x64.Idx → EReal) i := by
  show V c main_v52 (((cfg3.win 0).blk t).view.emb y) = V c main_v52 i
  refine congrArg (V c main_v52) (funext fun a => Fin.ext ?_)
  obtain ⟨e0, e1, -⟩ := idx_facts t
  match a with
  | ⟨0, _⟩ => show win3_0.index t (0 : Fin 2) * 2000 + 1 * (y 0).val = (i 0).val; omega
  | ⟨1, _⟩ => show win3_0.index t (1 : Fin 2) * 64 + 1 * (y 1).val = (i 1).val; omega

/-- Block `t` of the first sizes column is its rows `2000·t …`. -/
theorem read1 (c : Dev nD) (t : Fin cfg3.N) (y : S2000x1.Idx) (i : S500000x1.Idx)
    (h0 : (i 0).val = 2000 * t.val + (y 0).val) (h1 : (i 1).val = (y 1).val) :
    (iblk3 V c 1 t : Vec Ideal S2000x1 .f32) y = (V c main_v57 : S500000x1.Idx → EReal) i := by
  show V c main_v57 (((cfg3.win 1).blk t).view.emb y) = V c main_v57 i
  refine congrArg (V c main_v57) (funext fun a => Fin.ext ?_)
  obtain ⟨-, -, e0, e1, -⟩ := idx_facts t
  match a with
  | ⟨0, _⟩ => show win3_1.index t (0 : Fin 2) * 2000 + 1 * (y 0).val = (i 0).val; omega
  | ⟨1, _⟩ => show win3_1.index t (1 : Fin 2) * 1 + 1 * (y 1).val = (i 1).val; omega

/-- Block `t` of the second sums array is its rows `2000·t …`. -/
theorem read2 (c : Dev nD) (t : Fin cfg3.N) (y : S2000x64.Idx) (i : S500000x64.Idx)
    (h0 : (i 0).val = 2000 * t.val + (y 0).val) (h1 : (i 1).val = (y 1).val) :
    (iblk3 V c 2 t : Vec Ideal S2000x64 .f32) y = (V c main_v68 : S500000x64.Idx → EReal) i := by
  show V c main_v68 (((cfg3.win 2).blk t).view.emb y) = V c main_v68 i
  refine congrArg (V c main_v68) (funext fun a => Fin.ext ?_)
  obtain ⟨-, -, -, -, e0, e1, -⟩ := idx_facts t
  match a with
  | ⟨0, _⟩ => show win3_2.index t (0 : Fin 2) * 2000 + 1 * (y 0).val = (i 0).val; omega
  | ⟨1, _⟩ => show win3_2.index t (1 : Fin 2) * 64 + 1 * (y 1).val = (i 1).val; omega

/-- Block `t` of the second sizes column is its rows `2000·t …`. -/
theorem read3 (c : Dev nD) (t : Fin cfg3.N) (y : S2000x1.Idx) (i : S500000x1.Idx)
    (h0 : (i 0).val = 2000 * t.val + (y 0).val) (h1 : (i 1).val = (y 1).val) :
    (iblk3 V c 3 t : Vec Ideal S2000x1 .f32) y = (V c main_v73 : S500000x1.Idx → EReal) i := by
  show V c main_v73 (((cfg3.win 3).blk t).view.emb y) = V c main_v73 i
  refine congrArg (V c main_v73) (funext fun a => Fin.ext ?_)
  obtain ⟨-, -, -, -, -, -, e0, e1, -⟩ := idx_facts t
  match a with
  | ⟨0, _⟩ => show win3_3.index t (0 : Fin 2) * 2000 + 1 * (y 0).val = (i 0).val; omega
  | ⟨1, _⟩ => show win3_3.index t (1 : Fin 2) * 1 + 1 * (y 1).val = (i 1).val; omega

/-- The weight's window is the whole array at every point. -/
theorem read4 (c : Dev nD) (t : Fin cfg3.N) :
    (iblk3 V c 4 t : Vec Ideal S64x2 .f32) = (V c main_arg27 : S64x2.Idx → EReal) := by
  funext y
  show V c main_arg27 (((cfg3.win 4).blk t).view.emb y) = V c main_arg27 y
  refine congrArg (V c main_arg27) (funext fun a => Fin.ext ?_)
  obtain ⟨-, -, -, -, -, -, -, -, e0, e1, -⟩ := idx_facts t
  match a with
  | ⟨0, _⟩ => show win3_4.index t (0 : Fin 2) * 64 + 1 * (y 0).val = (y 0).val; omega
  | ⟨1, _⟩ => show win3_4.index t (1 : Fin 2) * 2 + 1 * (y 1).val = (y 1).val; omega

/-- The bias's window is the whole array at every point. -/
theorem read5 (c : Dev nD) (t : Fin cfg3.N) :
    (iblk3 V c 5 t : Vec Ideal S1x2 .f32) = (V c main_v74 : S1x2.Idx → EReal) := by
  funext y
  show V c main_v74 (((cfg3.win 5).blk t).view.emb y) = V c main_v74 y
  refine congrArg (V c main_v74) (funext fun a => Fin.ext ?_)
  obtain ⟨-, -, -, -, -, -, -, -, -, -, e0, e1, -⟩ := idx_facts t
  match a with
  | ⟨0, _⟩ => show win3_5.index t (0 : Fin 2) * 1 + 1 * (y 0).val = (y 0).val; omega
  | ⟨1, _⟩ => show win3_5.index t (1 : Fin 2) * 2 + 1 * (y 1).val = (y 1).val; omega

end Region

section Array
variable (V : (c : Dev nD) → (b : Ref sig .tc) → Buf (Elt Ideal) ((c : Thread nD τ).loc b))

/-- What grid point `t` writes back is block `t` of `tailOf` of the arrays as the region finds them. -/
theorem flushed_eq (c : Dev nD) (t : Fin cfg3.N) :
    (dat3 (F := Ideal) V c).flushed 6 t
      = ((cfg3.win 6).blk t).view.read (Elt Ideal)
          (tailOf (V c main_v52) (V c main_v57) (V c main_v68) (V c main_v73) (V c main_arg27) (V c main_v74)) := by
  show (cfg3.win 6).cut (grid3.coords t) ((dat3 V c).after 6 t) = _
  rw [after3_6]
  unfold out3_6
  rw [View.canon_unit_zero hz]
  simp only [View.ld_unit_zero (S := S2000x64) hz, View.ld_unit_zero (S := S2000x1) hz,
    View.ld_unit_zero (S := S64x2) hz, View.ld_unit_zero (S := S1x2) hz]
  funext y
  obtain ⟨-, -, -, -, -, -, -, -, -, -, -, -, e0, e1⟩ := idx_facts t
  show k3_pay1 (iblk3 V c 0 t) (iblk3 V c 1 t) (iblk3 V c 2 t) (iblk3 V c 3 t) (iblk3 V c 4 t) (iblk3 V c 5 t)
        ((cfg3.win 6).xinj (grid3.coords t) y)
      = tailOf (V c main_v52) (V c main_v57) (V c main_v68) (V c main_v73) (V c main_arg27) (V c main_v74)
        (((cfg3.win 6).blk t).view.emb y)
  exact block_at (V c main_v52) (V c main_v57) (V c main_v68) (V c main_v73) (V c main_arg27) (V c main_v74)
    (iblk3 V c 0 t) (iblk3 V c 1 t) (iblk3 V c 2 t) (iblk3 V c 3 t) (iblk3 V c 4 t) (iblk3 V c 5 t)
    t.val ((cfg3.win 6).xinj (grid3.coords t) y) (((cfg3.win 6).blk t).view.emb y)
    (by show win3_6.index t (0 : Fin 2) * 2000 + 1 * (y 0).val = 2000 * t.val + (y 0).val; omega)
    (by show win3_6.index t (1 : Fin 2) * 2 + 1 * (y 1).val = (y 1).val; omega)
    (read0 V c t) (read1 V c t) (read2 V c t) (read3 V c t) (read4 V c t) (read5 V c t)

/-- An index of the output array is in point `t`'s block iff each coordinate is in the block's range on its axis. -/
theorem mem_blk (t : Fin cfg3.N) (i : S500000x2.Idx) :
    i ∈ ((cfg3.win 6).blk t).view.set ↔ ∀ a : Fin 2, win3_6.index t a * S2000x2.size a ≤ (i a).val
      ∧ (i a).val < win3_6.index t a * S2000x2.size a + S2000x2.size a := by
  show i ∈ ((View.whole main_v75).slice (win3_6.rect t)).set ↔ _
  rw [View.set_slice_whole, Rect.mem_set_unit]
  exact Iff.rfl

/-- The 250 blocks of 2000 rows tile the 500000 rows: row `r` is in the block of point `r / 2000`. -/
theorem cover (i : S500000x2.Idx) :
    ∃ t : Fin cfg3.N, (cfg3.win 6).flush t = true ∧ i ∈ ((cfg3.win 6).blk t).view.set := by
  have hi0 : (i 0).val < 500000 := (i 0).isLt
  have hi1 : (i 1).val < 2 := (i 1).isLt
  have hN : cfg3.N = 250 := N_3
  have hlt : (i 0).val / 2000 < cfg3.N := by rw [hN]; omega
  obtain ⟨-, -, -, -, -, -, -, -, -, -, -, -, e0, e1⟩ := idx_facts ⟨(i 0).val / 2000, hlt⟩
  have e0' : win3_6.index ⟨(i 0).val / 2000, hlt⟩ (0 : Fin 2) = (i 0).val / 2000 := e0
  refine ⟨⟨(i 0).val / 2000, hlt⟩, flush3_6 _, ?_⟩
  rw [mem_blk]
  intro a
  match a with
  | ⟨0, _⟩ =>
    show win3_6.index ⟨(i 0).val / 2000, hlt⟩ (0 : Fin 2) * 2000 ≤ (i 0).val
      ∧ (i 0).val < win3_6.index ⟨(i 0).val / 2000, hlt⟩ (0 : Fin 2) * 2000 + 2000
    omega
  | ⟨1, _⟩ =>
    show win3_6.index ⟨(i 0).val / 2000, hlt⟩ (1 : Fin 2) * 2 ≤ (i 1).val
      ∧ (i 1).val < win3_6.index ⟨(i 0).val / 2000, hlt⟩ (1 : Fin 2) * 2 + 2
    omega

/-- The output array after the region: the linear map of the two means added, at every index. -/
theorem final3 (c : Dev nD) :
    (dat3 (F := Ideal) V c).arrAt 6 cfg3.N
      = Cert.HG.lin (Cert.HG.add (Cert.HG.mean (V c main_v52) (Cert.HG.colOf (V c main_v57)))
            (Cert.HG.mean (V c main_v68) (Cert.HG.colOf (V c main_v73))))
          (V c main_arg27) (Cert.HG.rowOf (V c main_v74)) :=
  (dat3 (F := Ideal) V c).arrAt_eq_of_cover 6
    (tailOf (V c main_v52) (V c main_v57) (V c main_v68) (V c main_v73) (V c main_arg27) (V c main_v74))
    (fun t _ => flushed_eq V c t) cover

end Array

end Cert.KernelIdeal.KReg3

end
-- ==== Proof.KSpecB3.lean ====
/-
  The fourth stretch of host operations of the kernel program, read relation by relation at the level of the
  specification, from any contents the stretch starts with: the rows of a hidden state looked up by source word, those
  rows summed by destination word, the segment sizes counted, and the last bias laid out as a row.  Each chain of
  operations is one stage of the network: the wrapped, broadcast index words under the lookup are the row lookup; the
  accumulating scatter into broadcast zeros is the segment sum, and of broadcast ones the segment sizes.
-/
import proofs.«126305_j61735859913388_2_alg».proof.Proof.KHostRead
import proofs.«126305_j61735859913388_2_alg».proof.Proof.Patterns

set_option maxRecDepth 16384

noncomputable section

namespace Cert.KernelIdeal.KSpecB3

open Cert.KernelIdeal Cert.KernelIdeal.Gen Cert.KernelIdeal.KHost
open Idealize.ShloMosaic Idealize.ShloMosaic.TcCoe Idealize.ShloMosaic.StableHlo Idealize.ShloMosaic.ValueIdx
open Cert.HG Cert.LibSG

section Stretch3
variable (X : Valuation τ sig (Elt Ideal))

/-- The lookup of the first hidden state's rows by the first relation's source words. -/
theorem s3_v48 (H : Mat 100000 64) (src : Words 500000)
    (hH : after hostOps3 X (Proc.devRef .tc main_v39) = H) (hs : after hostOps3 X (Proc.devRef .tc main_arg3) = src) :
    (after hostOps3 X (Proc.devRef .tc main_v48) : Mat 500000 64) = take (N := 100000) (by decide) 100000#32 H src := by
  rw [r3_v48 X, r3_v47 X, r3_v46 X, r3_v43 X, r3_v42 X, r3_c_8 X, r3_v45 X, r3_v44 X, r3_c_9 X, hH, hs]
  exact gather_wrapped_eq_take (N := 100000) (M := 500000) (C := 64) (by decide) 100000#32
    gather_S100000x64_S500000x1_S500000x64_1_0_n_n_0_1_164 gather_S100000x64_S500000x1_S500000x64_1_0_n_n_0_1_164_wf rfl
    bcast_S_S500000 bcast_S500000_S500000x1_0 H src

/-- The looked-up rows widened: the same rows. -/
theorem s3_v49 : (after hostOps3 X (Proc.devRef .tc main_v49) : Mat 500000 64) = after hostOps3 X (Proc.devRef .tc main_v48) :=
  (r3_v49 X).trans (extf_eq (s := S500000x64) (after hostOps3 X (Proc.devRef .tc main_v48)) bitsLt_bf16_f32)

/-- The looked-up rows summed by the first relation's destination words. -/
theorem s3_v52 (u : Mat 500000 64) (dst : Words 500000)
    (hu : after hostOps3 X (Proc.devRef .tc main_v49) = u) (hd : after hostOps3 X (Proc.devRef .tc main_arg4) = dst) :
    (after hostOps3 X (Proc.devRef .tc main_v52) : Mat 500000 64) = segSum (N := 500000) u dst := by
  rw [r3_v52 X, r3_v50 X, r3_cst_10 X, r3_v51 X, hu, hd]
  exact scatter_zero_eq_segSum (N := 500000) (M := 500000) (C := 64)
    scatter_S500000x64_S500000x1_S500000x64_1_0_0_1 scatter_S500000x64_S500000x1_S500000x64_1_0_0_1_wf rfl
    bcast_S_S500000x64 bcast_S500000_S500000x1_0 u dst

/-- The first relation's segment sizes, laid out as a column. -/
theorem s3_v57 (dst : Words 500000) (hd : after hostOps3 X (Proc.devRef .tc main_arg4) = dst) :
    colOf (after hostOps3 X (Proc.devRef .tc main_v57) : Mat 500000 1) = segCnt (N := 500000) dst := by
  rw [r3_v57 X, colOf_shapeCast, r3_v56 X, r3_v54 X, r3_cst_12 X, r3_v55 X, r3_v53 X, r3_cst_11 X, hd]
  exact scatter_ones_flat_eq_segCnt (N := 500000) (M := 500000)
    scatter_S500000_S500000x1_S500000_n_0_0_1 scatter_S500000_S500000x1_S500000_n_0_0_1_wf rfl
    bcast_S_S500000 bcast_S_S500000 bcast_S500000_S500000x1_0 dst

/-- The lookup of the second hidden state's rows by the second relation's source words. -/
theorem s3_v64 (H : Mat 20000 64) (src : Words 500000)
    (hH : after hostOps3 X (Proc.devRef .tc main_v41) = H) (hs : after hostOps3 X (Proc.devRef .tc main_arg5) = src) :
    (after hostOps3 X (Proc.devRef .tc main_v64) : Mat 500000 64) = take (N := 20000) (by decide) 20000#32 H src := by
  rw [r3_v64 X, r3_v63 X, r3_v62 X, r3_v59 X, r3_v58 X, r3_c_13 X, r3_v61 X, r3_v60 X, r3_c_14 X, hH, hs]
  exact gather_wrapped_eq_take (N := 20000) (M := 500000) (C := 64) (by decide) 20000#32
    gather_S20000x64_S500000x1_S500000x64_1_0_n_n_0_1_164 gather_S20000x64_S500000x1_S500000x64_1_0_n_n_0_1_164_wf rfl
    bcast_S_S500000 bcast_S500000_S500000x1_0 H src

/-- Those rows widened: the same rows. -/
theorem s3_v65 : (after hostOps3 X (Proc.devRef .tc main_v65) : Mat 500000 64) = after hostOps3 X (Proc.devRef .tc main_v64) :=
  (r3_v65 X).trans (extf_eq (s := S500000x64) (after hostOps3 X (Proc.devRef .tc main_v64)) bitsLt_bf16_f32)

/-- Those rows summed by the second relation's destination words. -/
theorem s3_v68 (u : Mat 500000 64) (dst : Words 500000)
    (hu : after hostOps3 X (Proc.devRef .tc main_v65) = u) (hd : after hostOps3 X (Proc.devRef .tc main_arg6) = dst) :
    (after hostOps3 X (Proc.devRef .tc main_v68) : Mat 500000 64) = segSum (N := 500000) u dst := by
  rw [r3_v68 X, r3_v66 X, r3_cst_15 X, r3_v67 X, hu, hd]
  exact scatter_zero_eq_segSum (N := 500000) (M := 500000) (C := 64)
    scatter_S500000x64_S500000x1_S500000x64_1_0_0_1 scatter_S500000x64_S500000x1_S500000x64_1_0_0_1_wf rfl
    bcast_S_S500000x64 bcast_S500000_S500000x1_0 u dst

/-- The second relation's segment sizes, laid out as a column. -/
theorem s3_v73 (dst : Words 500000) (hd : after hostOps3 X (Proc.devRef .tc main_arg6) = dst) :
    colOf (after hostOps3 X (Proc.devRef .tc main_v73) : Mat 500000 1) = segCnt (N := 500000) dst := by
  rw [r3_v73 X, colOf_shapeCast, r3_v72 X, r3_v70 X, r3_cst_17 X, r3_v71 X, r3_v69 X, r3_cst_16 X, hd]
  exact scatter_ones_flat_eq_segCnt (N := 500000) (M := 500000)
    scatter_S500000_S500000x1_S500000_n_0_0_1 scatter_S500000_S500000x1_S500000_n_0_0_1_wf rfl
    bcast_S_S500000 bcast_S_S500000 bcast_S500000_S500000x1_0 dst

/-- The last bias, laid out as a row. -/
theorem s3_v74 (b : Col 2) (hb : after hostOps3 X (Proc.devRef .tc main_arg28) = b) :
    rowOf (after hostOps3 X (Proc.devRef .tc main_v74) : Mat 1 2) = b := by
  rw [r3_v74 X, rowOf_shapeCast, hb]

end Stretch3

end Cert.KernelIdeal.KSpecB3

end
-- ==== Proof.KSpecB.lean ====
/-
  The second half of the kernel program, at the level of the specification: from the contents the second region leaves to
  the result array.

  The third stretch lays the second hidden map's bias out as a row.  The third region then computes the hidden state of the
  second relation's source nodes from that relation's segment sums and sizes.  The fourth stretch looks the two hidden
  states up by the source words of the two relations into the target nodes, sums the rows by destination word and counts
  each segment.  The fourth region averages, adds the two relations and applies the last linear map: the network's result.
  A buffer that no operation writes and no region holds as an output keeps its contents from boundary to boundary, so the
  three facts the first half ends with, and the launch contents of the arguments, are still there where they are read.
-/
import proofs.«126305_j61735859913388_2_alg».proof.Proof.Gen.KernelIdeal.Frame
import proofs.«126305_j61735859913388_2_alg».proof.Proof.KHostRead
import proofs.«126305_j61735859913388_2_alg».proof.Proof.KReg2
import proofs.«126305_j61735859913388_2_alg».proof.Proof.KReg3
import proofs.«126305_j61735859913388_2_alg».proof.Proof.Patterns
import proofs.«126305_j61735859913388_2_alg».proof.Proof.Model
import proofs.«126305_j61735859913388_2_alg».proof.Proof.KSpecB3

set_option maxRecDepth 16384

noncomputable section

namespace Cert.KernelIdeal.KSpecB

open Cert.KernelIdeal Cert.KernelIdeal.Gen Cert.KernelIdeal.KHost Cert.KernelIdeal.KSpecB3
open Idealize.ShloMosaic Idealize.ShloMosaic.TcCoe Idealize.ShloMosaic.StableHlo Idealize.ShloMosaic.ValueIdx
open Cert.HG Cert.LibSG

variable (m : (ℓ : Loc nD τ sig) → Buf (Elt Ideal) ℓ) (ρ : Dev nD → PrngReg) (c : Dev nD)

set_option quotPrecheck false

local notation "a0" => (m ((c : Thread nD τ).loc main_arg0) : Mat 500000 128)
local notation "a3" => (m ((c : Thread nD τ).loc main_arg3) : Words 500000)
local notation "a4" => (m ((c : Thread nD τ).loc main_arg4) : Words 500000)
local notation "a5" => (m ((c : Thread nD τ).loc main_arg5) : Words 500000)
local notation "a6" => (m ((c : Thread nD τ).loc main_arg6) : Words 500000)
local notation "a7" => (m ((c : Thread nD τ).loc main_arg7) : Words 500000)
local notation "a8" => (m ((c : Thread nD τ).loc main_arg8) : Words 500000)
local notation "a9" => (m ((c : Thread nD τ).loc main_arg9) : Words 500000)
local notation "a10" => (m ((c : Thread nD τ).loc main_arg10) : Words 500000)
local notation "a13" => (m ((c : Thread nD τ).loc main_arg13) : Mat 64 64)
local notation "a14" => (m ((c : Thread nD τ).loc main_arg14) : Col 64)
local notation "a17" => (m ((c : Thread nD τ).loc main_arg17) : Mat 64 64)
local notation "a18" => (m ((c : Thread nD τ).loc main_arg18) : Col 64)
local notation "a19" => (m ((c : Thread nD τ).loc main_arg19) : Mat 128 64)
local notation "a20" => (m ((c : Thread nD τ).loc main_arg20) : Col 64)
local notation "a23" => (m ((c : Thread nD τ).loc main_arg23) : Mat 128 64)
local notation "a24" => (m ((c : Thread nD τ).loc main_arg24) : Col 64)
local notation "a27" => (m ((c : Thread nD τ).loc main_arg27) : Mat 64 2)
local notation "a28" => (m ((c : Thread nD τ).loc main_arg28) : Col 2)

/-! ## Buffers that are carried unchanged -/

/-- A buffer that the first three stretches do not write and the first two regions do not hold as an array is, where the
    third region is entered, as launched. -/
theorem W5_launch (b : Ref sig .tc) (h0 : b ∉ Ws0) (h1 : b ∉ Ws1) (h2 : b ∉ Ws2)
    (n0 : ∀ w, Pipeline.arrRef spec0 w ≠ b) (n1 : ∀ w, Pipeline.arrRef spec1 w ≠ b) :
    W5 m ρ c (Proc.devRef .tc b) = m ((c : Thread nD τ).loc b) :=
  (keep2 (W4 m ρ c) b h2).trans <| (W4_of_ne m ρ c b n1).trans <| (keep1 (W2 m ρ c) b h1).trans <|
    (W2_of_ne m ρ c b n0).trans <| (keep0 (W0 m ρ c) b h0).trans rfl

/-- A buffer that no stretch writes and the first three regions do not hold as an array is, where the fourth region is
    entered, as launched. -/
theorem W7_launch (b : Ref sig .tc) (h0 : b ∉ Ws0) (h1 : b ∉ Ws1) (h2 : b ∉ Ws2) (h3 : b ∉ Ws3)
    (n0 : ∀ w, Pipeline.arrRef spec0 w ≠ b) (n1 : ∀ w, Pipeline.arrRef spec1 w ≠ b) (n2 : ∀ w, Pipeline.arrRef spec2 w ≠ b) :
    W7 m ρ c (Proc.devRef .tc b) = m ((c : Thread nD τ).loc b) :=
  (keep3 (W6 m ρ c) b h3).trans <| (W6_of_ne m ρ c b n2).trans <| W5_launch m ρ c b h0 h1 h2 n0 n1

theorem W5_arg17 : W5 m ρ c (Proc.devRef .tc main_arg17) = m ((c : Thread nD τ).loc main_arg17) :=
  W5_launch m ρ c main_arg17 (by decide) (by decide) (by decide) (by decide) (by decide)
theorem W5_arg18 : W5 m ρ c (Proc.devRef .tc main_arg18) = m ((c : Thread nD τ).loc main_arg18) :=
  W5_launch m ρ c main_arg18 (by decide) (by decide) (by decide) (by decide) (by decide)
theorem W7_arg3 : W7 m ρ c (Proc.devRef .tc main_arg3) = m ((c : Thread nD τ).loc main_arg3) :=
  W7_launch m ρ c main_arg3 (by decide) (by decide) (by decide) (by decide) (by decide) (by decide) (by decide)
theorem W7_arg4 : W7 m ρ c (Proc.devRef .tc main_arg4) = m ((c : Thread nD τ).loc main_arg4) :=
  W7_launch m ρ c main_arg4 (by decide) (by decide) (by decide) (by decide) (by decide) (by decide) (by decide)
theorem W7_arg5 : W7 m ρ c (Proc.devRef .tc main_arg5) = m ((c : Thread nD τ).loc main_arg5) :=
  W7_launch m ρ c main_arg5 (by decide) (by decide) (by decide) (by decide) (by decide) (by decide) (by decide)
theorem W7_arg6 : W7 m ρ c (Proc.devRef .tc main_arg6) = m ((c : Thread nD τ).loc main_arg6) :=
  W7_launch m ρ c main_arg6 (by decide) (by decide) (by decide) (by decide) (by decide) (by decide) (by decide)
theorem W7_arg27 : W7 m ρ c (Proc.devRef .tc main_arg27) = m ((c : Thread nD τ).loc main_arg27) :=
  W7_launch m ρ c main_arg27 (by decide) (by decide) (by decide) (by decide) (by decide) (by decide) (by decide)
theorem W7_arg28 : W7 m ρ c (Proc.devRef .tc main_arg28) = m ((c : Thread nD τ).loc main_arg28) :=
  W7_launch m ρ c main_arg28 (by decide) (by decide) (by decide) (by decide) (by decide) (by decide) (by decide)

/-- The second relation's segment sums pass the second region and the third stretch unchanged. -/
theorem W5_v32 : W5 m ρ c (Proc.devRef .tc main_v32) = W3 m ρ c (Proc.devRef .tc main_v32) :=
  (keep2 (W4 m ρ c) main_v32 (by decide)).trans (W4_of_ne m ρ c main_v32 (by decide))
/-- So do its segment sizes. -/
theorem W5_v37 : W5 m ρ c (Proc.devRef .tc main_v37) = W3 m ρ c (Proc.devRef .tc main_v37) :=
  (keep2 (W4 m ρ c) main_v37 (by decide)).trans (W4_of_ne m ρ c main_v37 (by decide))
/-- The first hidden state passes the third stretch, the third region and the fourth stretch unchanged. -/
theorem W7_v39 : W7 m ρ c (Proc.devRef .tc main_v39) = W4 m ρ c (Proc.devRef .tc main_v39) :=
  (keep3 (W6 m ρ c) main_v39 (by decide)).trans <| (W6_of_ne m ρ c main_v39 (by decide)).trans
    (keep2 (W4 m ρ c) main_v39 (by decide))
/-- The second hidden state passes the fourth stretch unchanged. -/
theorem W7_v41 : W7 m ρ c (Proc.devRef .tc main_v41) = W6 m ρ c (Proc.devRef .tc main_v41) :=
  keep3 (W6 m ρ c) main_v41 (by decide)

/-! ## The third stretch and the third region -/

/-- The third stretch lays the bias of the second hidden map out as a row. -/
theorem W5_v40_row : rowOf (W5 m ρ c (Proc.devRef .tc main_v40) : Mat 1 64) = a18 :=
  (congrArg (rowOf (C := 64)) (r2_v40 (F := Ideal) (W4 m ρ c))).trans
    ((rowOf_shapeCast _ shapeCasts_S64_S1x64).trans (W5_arg18 m ρ c))

/-- THE THIRD REGION leaves the hidden state of the second relation's source nodes. -/
theorem v41_eq
    (hA32 : W3 m ρ c (Proc.devRef .tc main_v32)
      = segSum (N := 20000) (take (N := 500000) (by decide) 500000#32 (lin a0 a23 a24) a9) a10)
    (hA37 : colOf (W3 m ρ c (Proc.devRef .tc main_v37) : Mat 20000 1) = segCnt a10) :
    W6 m ρ c (Proc.devRef .tc main_v41) = Cert.HG.hidden (Nd := 20000) a0 a23 a24 a9 a10 a17 a18 := by
  refine (W6_arr m ρ c 4).trans ?_
  refine (KReg2.final2 (V5 m ρ) c).trans ?_
  show lin (act (mean (W5 m ρ c (Proc.devRef .tc main_v32)) (colOf (W5 m ρ c (Proc.devRef .tc main_v37)))))
      (W5 m ρ c (Proc.devRef .tc main_arg17)) (rowOf (W5 m ρ c (Proc.devRef .tc main_v40))) = _
  rw [W5_v32, hA32, W5_v37, hA37, W5_arg17, W5_v40_row]
  rfl

/-! ## The fourth region -/

/-- THE RESULT ARRAY is the network's result, given what the first half of the program leaves: the first hidden state in
    the second region's result array, and the second relation's segment sums and sizes where the second region is entered. -/
theorem out_eq
    (hA39 : W4 m ρ c (Proc.devRef .tc main_v39) = Cert.HG.hidden (Nd := 100000) a0 a19 a20 a7 a8 a13 a14)
    (hA32 : W3 m ρ c (Proc.devRef .tc main_v32)
      = segSum (N := 20000) (take (N := 500000) (by decide) 500000#32 (lin a0 a23 a24) a9) a10)
    (hA37 : colOf (W3 m ρ c (Proc.devRef .tc main_v37) : Mat 20000 1) = segCnt a10) :
    W8 m ρ c (Proc.devRef .tc main_v75)
      = Cert.HG.model a0 a3 a4 a5 a6 a7 a8 a9 a10 a13 a14 a17 a18 a19 a20 a23 a24 a27 a28 := by
  have h39 := (W7_v39 m ρ c).trans hA39
  have h41 := (W7_v41 m ρ c).trans (v41_eq m ρ c hA32 hA37)
  have h48 := s3_v48 (W6 m ρ c) _ _ h39 (W7_arg3 m ρ c)
  have h49 := (s3_v49 (W6 m ρ c)).trans h48
  have h52 := s3_v52 (W6 m ρ c) _ _ h49 (W7_arg4 m ρ c)
  have h57 := s3_v57 (W6 m ρ c) _ (W7_arg4 m ρ c)
  have h64 := s3_v64 (W6 m ρ c) _ _ h41 (W7_arg5 m ρ c)
  have h65 := (s3_v65 (W6 m ρ c)).trans h64
  have h68 := s3_v68 (W6 m ρ c) _ _ h65 (W7_arg6 m ρ c)
  have h73 := s3_v73 (W6 m ρ c) _ (W7_arg6 m ρ c)
  have h74 := s3_v74 (W6 m ρ c) _ (W7_arg28 m ρ c)
  refine (W8_arr m ρ c 6).trans ?_
  refine (KReg3.final3 (V7 m ρ) c).trans ?_
  show lin (add (mean (after hostOps3 (W6 m ρ c) (Proc.devRef .tc main_v52)) (colOf (after hostOps3 (W6 m ρ c) (Proc.devRef .tc main_v57))))
        (mean (after hostOps3 (W6 m ρ c) (Proc.devRef .tc main_v68)) (colOf (after hostOps3 (W6 m ρ c) (Proc.devRef .tc main_v73)))))
      (W7 m ρ c (Proc.devRef .tc main_arg27)) (rowOf (after hostOps3 (W6 m ρ c) (Proc.devRef .tc main_v74))) = _
  rw [h52, h57, h68, h73, h74, W7_arg27]
  rfl

end Cert.KernelIdeal.KSpecB

end
-- ==== Proof.KSpec.lean ====
/-
  The idealized kernel program's result array as the network function of the argument arrays: the first two regions and
  the stretches before them give the first layer's hidden state of one relation and the aggregation of the other; the
  last two regions and their stretches finish from there.
-/
import proofs.«126305_j61735859913388_2_alg».proof.Proof.KSpecA
import proofs.«126305_j61735859913388_2_alg».proof.Proof.KSpecB

noncomputable section

namespace Cert.KernelIdeal.KSpec

open Cert.KernelIdeal Cert.KernelIdeal.Gen Idealize.ShloMosaic Idealize.ShloMosaic.TcCoe Idealize.SL.Sem

/-- The contents of the result buffer after the last region. -/
theorem out_eq (m : (ℓ : Loc nD τ sig) → Buf (Elt Ideal) ℓ) (ρ : Dev nD → PrngReg) (c : Dev nD) :
    W8 m ρ c (Proc.devRef .tc main_v75)
      = Cert.HG.model (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg17)) (m ((c : Thread nD τ).loc main_arg18)) (m ((c : Thread nD τ).loc main_arg19)) (m ((c : Thread nD τ).loc main_arg20)) (m ((c : Thread nD τ).loc main_arg23)) (m ((c : Thread nD τ).loc main_arg24)) (m ((c : Thread nD τ).loc main_arg27)) (m ((c : Thread nD τ).loc main_arg28)) :=
  Cert.KernelIdeal.KSpecB.out_eq m ρ c (Cert.KernelIdeal.KSpecA.v39_eq m ρ c) (Cert.KernelIdeal.KSpecA.v32_eq m ρ c)
    (Cert.KernelIdeal.KSpecA.v37_eq m ρ c)

end Cert.KernelIdeal.KSpec

end
-- ==== Proof.RefOps.lean ====
/-
  The reference program's @main as one list of its 269 host operations, in program order: the three calls of the
  leaky rectifier are written out at their call sites over the calls' own buffers, and the select each of them
  makes through a further call likewise.  Sequencing the list is @main.  The line is in single-assignment form: the
  buffer each operation writes is listed beside it.
-/
import proofs.«126305_j61735859913388_2_alg».proof.Proof.Gen.ReferenceIdeal
import proofs.«126305_j61735859913388_2_alg».proof.Proof.LibAfter
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in order. -/
abbrev ops : List (HloOp τ sig (Elt F)) :=
  [ StableHlo.binary main_arg1 main_arg11 main_v0 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg12 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S100000x64 ![0, 1] bcast_S1x64_S100000x64_0_1 : (⟨S1x64, .f32⟩ : BufTy).Contents (Elt F) → (⟨S100000x64, .f32⟩ : BufTy).Contents (Elt F)),
    StableHlo.binary main_v0 main_v2 main_v3 (addf : (⟨S100000x64, .f32⟩ : BufTy).Contents (Elt F) → (⟨S100000x64, .f32⟩ : BufTy).Contents (Elt F) → (⟨S100000x64, .f32⟩ : BufTy).Contents (Elt F)),
    StableHlo.nullary main_c (constantI S_ 32 0#32),
    StableHlo.unary main_c main_v4 (broadcastInDim S500000 ![] bcast_S_S500000 : (⟨S_, .i32⟩ : BufTy).Contents (Elt F) → (⟨S500000, .i32⟩ : BufTy).Contents (Elt F)),
    StableHlo.binary main_arg3 main_v4 main_v5 (cmpi .slt : (⟨S500000, .i32⟩ : BufTy).Contents (Elt F) → (⟨S500000, .i32⟩ : BufTy).Contents (Elt F) → (⟨S500000, .i1⟩ : BufTy).Contents (Elt F)),
    StableHlo.nullary main_c_0 (constantI S_ 32 100000#32),
    StableHlo.unary main_c_0 main_v6 (broadcastInDim S500000 ![] bcast_S_S500000 : (⟨S_, .i32⟩ : BufTy).Contents (Elt F) → (⟨S500000, .i32⟩ : BufTy).Contents (Elt F)),
    StableHlo.binary main_arg3 main_v6 main_v7 (addi : (⟨S500000, .i32⟩ : BufTy).Contents (Elt F) → (⟨S500000, .i32⟩ : BufTy).Contents (Elt F) → (⟨S500000, .i32⟩ : BufTy).Contents (Elt F)),
    StableHlo.ternary main_v5 main_v7 main_arg3 main_v8 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v8 main_v9 (broadcastInDim S500000x1 ![0] bcast_S500000_S500000x1_0 : (⟨S500000, .i32⟩ : BufTy).Contents (Elt F) → (⟨S500000x1, .i32⟩ : BufTy).Contents (Elt F)),
    StableHlo.binary main_v3 main_v9 main_v10 ((fun x i => Host.gather gather_S100000x64_S500000x1_S500000x64_1_0_n_n_0_1_164 x i) : (⟨S100000x64, .f32⟩ : BufTy).Contents (Elt F) → (⟨S500000x1, .i32⟩ : BufTy).Contents (Elt F) → (⟨S500000x64, .f32⟩ : BufTy).Contents (Elt F)),
    StableHlo.nullary main_cst (constant S_ .f32 0x00000000#32),
    StableHlo.unary main_cst main_v11 (broadcastInDim S500000x64 ![] bcast_S_S500000x64 : (⟨S_, .f32⟩ : BufTy).Contents (Elt F) → (⟨S500000x64, .f32⟩ : BufTy).Contents (Elt F)),
    StableHlo.unary main_arg4 main_v12 (broadcastInDim S500000x1 ![0] bcast_S500000_S500000x1_0 : (⟨S500000, .i32⟩ : BufTy).Contents (Elt F) → (⟨S500000x1, .i32⟩ : BufTy).Contents (Elt F)),
    StableHlo.ternary main_v11 main_v12 main_v10 main_v13 ((fun x i u => Host.scatterAdd scatter_S500000x64_S500000x1_S500000x64_1_0_0_1 x i u) : (⟨S500000x64, .f32⟩ : BufTy).Contents (Elt F) → (⟨S500000x1, .i32⟩ : BufTy).Contents (Elt F) → (⟨S500000x64, .f32⟩ : BufTy).Contents (Elt F) → (⟨S500000x64, .f32⟩ : BufTy).Contents (Elt F)),
    StableHlo.nullary main_cst_1 (constant S_ .f32 0x3F800000#32),
    StableHlo.unary main_cst_1 main_v14 (broadcastInDim S500000x1 ![] bcast_S_S500000x1 : (⟨S_, .f32⟩ : BufTy).Contents (Elt F) → (⟨S500000x1, .f32⟩ : BufTy).Contents (Elt F)),
    StableHlo.nullary main_cst_2 (constant S_ .f32 0x00000000#32),
    StableHlo.unary main_cst_2 main_v15 (broadcastInDim S500000x1 ![] bcast_S_S500000x1 : (⟨S_, .f32⟩ : BufTy).Contents (Elt F) → (⟨S500000x1, .f32⟩ : BufTy).Contents (Elt F)),
    StableHlo.unary main_arg4 main_v16 (broadcastInDim S500000x1 ![0] bcast_S500000_S500000x1_0 : (⟨S500000, .i32⟩ : BufTy).Contents (Elt F) → (⟨S500000x1, .i32⟩ : BufTy).Contents (Elt F)),
    StableHlo.ternary main_v15 main_v16 main_v14 main_v17 ((fun x i u => Host.scatterAdd scatter_S500000x1_S500000x1_S500000x1_1_0_0_1 x i u) : (⟨S500000x1, .f32⟩ : BufTy).Contents (Elt F) → (⟨S500000x1, .i32⟩ : BufTy).Contents (Elt F) → (⟨S500000x1, .f32⟩ : BufTy).Contents (Elt F) → (⟨S500000x1, .f32⟩ : BufTy).Contents (Elt F)),
    StableHlo.nullary main_cst_3 (constant S_ .f32 0x3F800000#32),
    StableHlo.unary main_cst_3 main_v18 (broadcastInDim S500000x1 ![] bcast_S_S500000x1 : (⟨S_, .f32⟩ : BufTy).Contents (Elt F) → (⟨S500000x1, .f32⟩ : BufTy).Contents (Elt F)),
    StableHlo.binary main_v17 main_v18 main_v19 (maximumf : (⟨S500000x1, .f32⟩ : BufTy).Contents (Elt F) → (⟨S500000x1, .f32⟩ : BufTy).Contents (Elt F) → (⟨S500000x1, .f32⟩ : BufTy).Contents (Elt F)),
    StableHlo.unary main_v19 main_v20 (broadcastInDim S500000x64 ![0, 1] bcast_S500000x1_S500000x64_0_1 : (⟨S500000x1, .f32⟩ : BufTy).Contents (Elt F) → (⟨S500000x64, .f32⟩ : BufTy).Contents (Elt F)),
    StableHlo.binary main_v13 main_v20 main_v21 (Host.divf : (⟨S500000x64, .f32⟩ : BufTy).Contents (Elt F) → (⟨S500000x64, .f32⟩ : BufTy).Contents (Elt F) → (⟨S500000x64, .f32⟩ : BufTy).Contents (Elt F)),
    StableHlo.nullary main_cst_4 (constant S_ .f32 0x00000000#32),
    StableHlo.unary main_cst_4 main_v22 (broadcastInDim S500000x64 ![] bcast_S_S500000x64 : (⟨S_, .f32⟩ : BufTy).Contents (Elt F) → (⟨S500000x64, .f32⟩ : BufTy).Contents (Elt F)),
    StableHlo.binary main_v22 main_v21 main_v23 (addf : (⟨S500000x64, .f32⟩ : BufTy).Contents (Elt F) → (⟨S500000x64, .f32⟩ : BufTy).Contents (Elt F) → (⟨S500000x64, .f32⟩ : BufTy).Contents (Elt F)),
    StableHlo.binary main_arg2 main_arg15 main_v24 ((fun l r => Host.dotGeneral dot_S20000x64_S64x64_S20000x64_1_0_0_1_n_n none l r) : (⟨S20000x64, .f32⟩ : BufTy).Contents (Elt F) → (⟨S64x64, .f32⟩ : BufTy).Contents (Elt F) → (⟨S20000x64, .f32⟩ : BufTy).Contents (Elt F)),
    StableHlo.unary main_arg16 main_v25 (broadcastInDim S1x64 ![1] bcast_S64_S1x64_1 : (⟨S64, .f32⟩ : BufTy).Contents (Elt F) → (⟨S1x64, .f32⟩ : BufTy).Contents (Elt F)),
    StableHlo.unary main_v25 main_v26 (broadcastInDim S20000x64 ![0, 1] bcast_S1x64_S20000x64_0_1 : (⟨S1x64, .f32⟩ : BufTy).Contents (Elt F) → (⟨S20000x64, .f32⟩ : BufTy).Contents (Elt F)),
    StableHlo.binary main_v24 main_v26 main_v27 (addf : (⟨S20000x64, .f32⟩ : BufTy).Contents (Elt F) → (⟨S20000x64, .f32⟩ : BufTy).Contents (Elt F) → (⟨S20000x64, .f32⟩ : BufTy).Contents (Elt F)),
    StableHlo.nullary main_c_5 (constantI S_ 32 0#32),
    StableHlo.unary main_c_5 main_v28 (broadcastInDim S500000 ![] bcast_S_S500000 : (⟨S_, .i32⟩ : BufTy).Contents (Elt F) → (⟨S500000, .i32⟩ : BufTy).Contents (Elt F)),
    StableHlo.binary main_arg5 main_v28 main_v29 (cmpi .slt : (⟨S500000, .i32⟩ : BufTy).Contents (Elt F) → (⟨S500000, .i32⟩ : BufTy).Contents (Elt F) → (⟨S500000, .i1⟩ : BufTy).Contents (Elt F)),
    StableHlo.nullary main_c_6 (constantI S_ 32 20000#32),
    StableHlo.unary main_c_6 main_v30 (broadcastInDim S500000 ![] bcast_S_S500000 : (⟨S_, .i32⟩ : BufTy).Contents (Elt F) → (⟨S500000, .i32⟩ : BufTy).Contents (Elt F)),
    StableHlo.binary main_arg5 main_v30 main_v31 (addi : (⟨S500000, .i32⟩ : BufTy).Contents (Elt F) → (⟨S500000, .i32⟩ : BufTy).Contents (Elt F) → (⟨S500000, .i32⟩ : BufTy).Contents (Elt F)),
    StableHlo.ternary main_v29 main_v31 main_arg5 main_v32 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v32 main_v33 (broadcastInDim S500000x1 ![0] bcast_S500000_S500000x1_0 : (⟨S500000, .i32⟩ : BufTy).Contents (Elt F) → (⟨S500000x1, .i32⟩ : BufTy).Contents (Elt F)),
    StableHlo.binary main_v27 main_v33 main_v34 ((fun x i => Host.gather gather_S20000x64_S500000x1_S500000x64_1_0_n_n_0_1_164 x i) : (⟨S20000x64, .f32⟩ : BufTy).Contents (Elt F) → (⟨S500000x1, .i32⟩ : BufTy).Contents (Elt F) → (⟨S500000x64, .f32⟩ : BufTy).Contents (Elt F)),
    StableHlo.nullary main_cst_7 (constant S_ .f32 0x00000000#32),
    StableHlo.unary main_cst_7 main_v35 (broadcastInDim S500000x64 ![] bcast_S_S500000x64 : (⟨S_, .f32⟩ : BufTy).Contents (Elt F) → (⟨S500000x64, .f32⟩ : BufTy).Contents (Elt F)),
    StableHlo.unary main_arg6 main_v36 (broadcastInDim S500000x1 ![0] bcast_S500000_S500000x1_0 : (⟨S500000, .i32⟩ : BufTy).Contents (Elt F) → (⟨S500000x1, .i32⟩ : BufTy).Contents (Elt F)),
    StableHlo.ternary main_v35 main_v36 main_v34 main_v37 ((fun x i u => Host.scatterAdd scatter_S500000x64_S500000x1_S500000x64_1_0_0_1 x i u) : (⟨S500000x64, .f32⟩ : BufTy).Contents (Elt F) → (⟨S500000x1, .i32⟩ : BufTy).Contents (Elt F) → (⟨S500000x64, .f32⟩ : BufTy).Contents (Elt F) → (⟨S500000x64, .f32⟩ : BufTy).Contents (Elt F)),
    StableHlo.nullary main_cst_8 (constant S_ .f32 0x3F800000#32),
    StableHlo.unary main_cst_8 main_v38 (broadcastInDim S500000x1 ![] bcast_S_S500000x1 : (⟨S_, .f32⟩ : BufTy).Contents (Elt F) → (⟨S500000x1, .f32⟩ : BufTy).Contents (Elt F)),
    StableHlo.nullary main_cst_9 (constant S_ .f32 0x00000000#32),
    StableHlo.unary main_cst_9 main_v39 (broadcastInDim S500000x1 ![] bcast_S_S500000x1 : (⟨S_, .f32⟩ : BufTy).Contents (Elt F) → (⟨S500000x1, .f32⟩ : BufTy).Contents (Elt F)),
    StableHlo.unary main_arg6 main_v40 (broadcastInDim S500000x1 ![0] bcast_S500000_S500000x1_0 : (⟨S500000, .i32⟩ : BufTy).Contents (Elt F) → (⟨S500000x1, .i32⟩ : BufTy).Contents (Elt F)),
    StableHlo.ternary main_v39 main_v40 main_v38 main_v41 ((fun x i u => Host.scatterAdd scatter_S500000x1_S500000x1_S500000x1_1_0_0_1 x i u) : (⟨S500000x1, .f32⟩ : BufTy).Contents (Elt F) → (⟨S500000x1, .i32⟩ : BufTy).Contents (Elt F) → (⟨S500000x1, .f32⟩ : BufTy).Contents (Elt F) → (⟨S500000x1, .f32⟩ : BufTy).Contents (Elt F)),
    StableHlo.nullary main_cst_10 (constant S_ .f32 0x3F800000#32),
    StableHlo.unary main_cst_10 main_v42 (broadcastInDim S500000x1 ![] bcast_S_S500000x1 : (⟨S_, .f32⟩ : BufTy).Contents (Elt F) → (⟨S500000x1, .f32⟩ : BufTy).Contents (Elt F)),
    StableHlo.binary main_v41 main_v42 main_v43 (maximumf : (⟨S500000x1, .f32⟩ : BufTy).Contents (Elt F) → (⟨S500000x1, .f32⟩ : BufTy).Contents (Elt F) → (⟨S500000x1, .f32⟩ : BufTy).Contents (Elt F)),
    StableHlo.unary main_v43 main_v44 (broadcastInDim S500000x64 ![0, 1] bcast_S500000x1_S500000x64_0_1 : (⟨S500000x1, .f32⟩ : BufTy).Contents (Elt F) → (⟨S500000x64, .f32⟩ : BufTy).Contents (Elt F)),
    StableHlo.binary main_v37 main_v44 main_v45 (Host.divf : (⟨S500000x64, .f32⟩ : BufTy).Contents (Elt F) → (⟨S500000x64, .f32⟩ : BufTy).Contents (Elt F) → (⟨S500000x64, .f32⟩ : BufTy).Contents (Elt F)),
    StableHlo.binary main_v23 main_v45 main_v46 (addf : (⟨S500000x64, .f32⟩ : BufTy).Contents (Elt F) → (⟨S500000x64, .f32⟩ : BufTy).Contents (Elt F) → (⟨S500000x64, .f32⟩ : BufTy).Contents (Elt F)),
    StableHlo.binary main_arg0 main_arg19 main_v47 ((fun l r => Host.dotGeneral dot_S500000x128_S128x64_S500000x64_1_0_0_1_n_n none l r) : (⟨S500000x128, .f32⟩ : BufTy).Contents (Elt F) → (⟨S128x64, .f32⟩ : BufTy).Contents (Elt F) → (⟨S500000x64, .f32⟩ : BufTy).Contents (Elt F)),
    StableHlo.unary main_arg20 main_v48 (broadcastInDim S1x64 ![1] bcast_S64_S1x64_1 : (⟨S64, .f32⟩ : BufTy).Contents (Elt F) → (⟨S1x64, .f32⟩ : BufTy).Contents (Elt F)),
    StableHlo.unary main_v48 main_v49 (broadcastInDim S500000x64 ![0, 1] bcast_S1x64_S500000x64_0_1 : (⟨S1x64, .f32⟩ : BufTy).Contents (Elt F) → (⟨S500000x64, .f32⟩ : BufTy).Contents (Elt F)),
    StableHlo.binary main_v47 main_v49 main_v50 (addf : (⟨S500000x64, .f32⟩ : BufTy).Contents (Elt F) → (⟨S500000x64, .f32⟩ : BufTy).Contents (Elt F) → (⟨S500000x64, .f32⟩ : BufTy).Contents (Elt F)),
    StableHlo.nullary main_c_11 (constantI S_ 32 0#32),
    StableHlo.unary main_c_11 main_v51 (broadcastInDim S500000 ![] bcast_S_S500000 : (⟨S_, .i32⟩ : BufTy).Contents (Elt F) → (⟨S500000, .i32⟩ : BufTy).Contents (Elt F)),
    StableHlo.binary main_arg7 main_v51 main_v52 (cmpi .slt : (⟨S500000, .i32⟩ : BufTy).Contents (Elt F) → (⟨S500000, .i32⟩ : BufTy).Contents (Elt F) → (⟨S500000, .i1⟩ : BufTy).Contents (Elt F)),
    StableHlo.nullary main_c_12 (constantI S_ 32 500000#32),
    StableHlo.unary main_c_12 main_v53 (broadcastInDim S500000 ![] bcast_S_S500000 : (⟨S_, .i32⟩ : BufTy).Contents (Elt F) → (⟨S500000, .i32⟩ : BufTy).Contents (Elt F)),
    StableHlo.binary main_arg7 main_v53 main_v54 (addi : (⟨S500000, .i32⟩ : BufTy).Contents (Elt F) → (⟨S500000, .i32⟩ : BufTy).Contents (Elt F) → (⟨S500000, .i32⟩ : BufTy).Contents (Elt F)),
    StableHlo.ternary main_v52 main_v54 main_arg7 main_v55 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v55 main_v56 (broadcastInDim S500000x1 ![0] bcast_S500000_S500000x1_0 : (⟨S500000, .i32⟩ : BufTy).Contents (Elt F) → (⟨S500000x1, .i32⟩ : BufTy).Contents (Elt F)),
    StableHlo.binary main_v50 main_v56 main_v57 ((fun x i => Host.gather gather_S500000x64_S500000x1_S500000x64_1_0_n_n_0_1_164 x i) : (⟨S500000x64, .f32⟩ : BufTy).Contents (Elt F) → (⟨S500000x1, .i32⟩ : BufTy).Contents (Elt F) → (⟨S500000x64, .f32⟩ : BufTy).Contents (Elt F)),
    StableHlo.nullary main_cst_13 (constant S_ .f32 0x00000000#32),
    StableHlo.unary main_cst_13 main_v58 (broadcastInDim S100000x64 ![] bcast_S_S100000x64 : (⟨S_, .f32⟩ : BufTy).Contents (Elt F) → (⟨S100000x64, .f32⟩ : BufTy).Contents (Elt F)),
    StableHlo.unary main_arg8 main_v59 (broadcastInDim S500000x1 ![0] bcast_S500000_S500000x1_0 : (⟨S500000, .i32⟩ : BufTy).Contents (Elt F) → (⟨S500000x1, .i32⟩ : BufTy).Contents (Elt F)),
    StableHlo.ternary main_v58 main_v59 main_v57 main_v60 ((fun x i u => Host.scatterAdd scatter_S100000x64_S500000x1_S500000x64_1_0_0_1 x i u) : (⟨S100000x64, .f32⟩ : BufTy).Contents (Elt F) → (⟨S500000x1, .i32⟩ : BufTy).Contents (Elt F) → (⟨S500000x64, .f32⟩ : BufTy).Contents (Elt F) → (⟨S100000x64, .f32⟩ : BufTy).Contents (Elt F)),
    StableHlo.nullary main_cst_14 (constant S_ .f32 0x3F800000#32),
    StableHlo.unary main_cst_14 main_v61 (broadcastInDim S500000x1 ![] bcast_S_S500000x1 : (⟨S_, .f32⟩ : BufTy).Contents (Elt F) → (⟨S500000x1, .f32⟩ : BufTy).Contents (Elt F)),
    StableHlo.nullary main_cst_15 (constant S_ .f32 0x00000000#32),
    StableHlo.unary main_cst_15 main_v62 (broadcastInDim S100000x1 ![] bcast_S_S100000x1 : (⟨S_, .f32⟩ : BufTy).Contents (Elt F) → (⟨S100000x1, .f32⟩ : BufTy).Contents (Elt F)),
    StableHlo.unary main_arg8 main_v63 (broadcastInDim S500000x1 ![0] bcast_S500000_S500000x1_0 : (⟨S500000, .i32⟩ : BufTy).Contents (Elt F) → (⟨S500000x1, .i32⟩ : BufTy).Contents (Elt F)),
    StableHlo.ternary main_v62 main_v63 main_v61 main_v64 ((fun x i u => Host.scatterAdd scatter_S100000x1_S500000x1_S500000x1_1_0_0_1 x i u) : (⟨S100000x1, .f32⟩ : BufTy).Contents (Elt F) → (⟨S500000x1, .i32⟩ : BufTy).Contents (Elt F) → (⟨S500000x1, .f32⟩ : BufTy).Contents (Elt F) → (⟨S100000x1, .f32⟩ : BufTy).Contents (Elt F)),
    StableHlo.nullary main_cst_16 (constant S_ .f32 0x3F800000#32),
    StableHlo.unary main_cst_16 main_v65 (broadcastInDim S100000x1 ![] bcast_S_S100000x1 : (⟨S_, .f32⟩ : BufTy).Contents (Elt F) → (⟨S100000x1, .f32⟩ : BufTy).Contents (Elt F)),
    StableHlo.binary main_v64 main_v65 main_v66 (maximumf : (⟨S100000x1, .f32⟩ : BufTy).Contents (Elt F) → (⟨S100000x1, .f32⟩ : BufTy).Contents (Elt F) → (⟨S100000x1, .f32⟩ : BufTy).Contents (Elt F)),
    StableHlo.unary main_v66 main_v67 (broadcastInDim S100000x64 ![0, 1] bcast_S100000x1_S100000x64_0_1 : (⟨S100000x1, .f32⟩ : BufTy).Contents (Elt F) → (⟨S100000x64, .f32⟩ : BufTy).Contents (Elt F)),
    StableHlo.binary main_v60 main_v67 main_v68 (Host.divf : (⟨S100000x64, .f32⟩ : BufTy).Contents (Elt F) → (⟨S100000x64, .f32⟩ : BufTy).Contents (Elt F) → (⟨S100000x64, .f32⟩ : BufTy).Contents (Elt F)),
    StableHlo.nullary main_cst_17 (constant S_ .f32 0x00000000#32),
    StableHlo.unary main_cst_17 main_v69 (broadcastInDim S100000x64 ![] bcast_S_S100000x64 : (⟨S_, .f32⟩ : BufTy).Contents (Elt F) → (⟨S100000x64, .f32⟩ : BufTy).Contents (Elt F)),
    StableHlo.binary main_v69 main_v68 main_v70 (addf : (⟨S100000x64, .f32⟩ : BufTy).Contents (Elt F) → (⟨S100000x64, .f32⟩ : BufTy).Contents (Elt F) → (⟨S100000x64, .f32⟩ : BufTy).Contents (Elt F)),
    StableHlo.binary main_arg0 main_arg23 main_v71 ((fun l r => Host.dotGeneral dot_S500000x128_S128x64_S500000x64_1_0_0_1_n_n none l r) : (⟨S500000x128, .f32⟩ : BufTy).Contents (Elt F) → (⟨S128x64, .f32⟩ : BufTy).Contents (Elt F) → (⟨S500000x64, .f32⟩ : BufTy).Contents (Elt F)),
    StableHlo.unary main_arg24 main_v72 (broadcastInDim S1x64 ![1] bcast_S64_S1x64_1 : (⟨S64, .f32⟩ : BufTy).Contents (Elt F) → (⟨S1x64, .f32⟩ : BufTy).Contents (Elt F)),
    StableHlo.unary main_v72 main_v73 (broadcastInDim S500000x64 ![0, 1] bcast_S1x64_S500000x64_0_1 : (⟨S1x64, .f32⟩ : BufTy).Contents (Elt F) → (⟨S500000x64, .f32⟩ : BufTy).Contents (Elt F)),
    StableHlo.binary main_v71 main_v73 main_v74 (addf : (⟨S500000x64, .f32⟩ : BufTy).Contents (Elt F) → (⟨S500000x64, .f32⟩ : BufTy).Contents (Elt F) → (⟨S500000x64, .f32⟩ : BufTy).Contents (Elt F)),
    StableHlo.nullary main_c_18 (constantI S_ 32 0#32),
    StableHlo.unary main_c_18 main_v75 (broadcastInDim S500000 ![] bcast_S_S500000 : (⟨S_, .i32⟩ : BufTy).Contents (Elt F) → (⟨S500000, .i32⟩ : BufTy).Contents (Elt F)),
    StableHlo.binary main_arg9 main_v75 main_v76 (cmpi .slt : (⟨S500000, .i32⟩ : BufTy).Contents (Elt F) → (⟨S500000, .i32⟩ : BufTy).Contents (Elt F) → (⟨S500000, .i1⟩ : BufTy).Contents (Elt F)),
    StableHlo.nullary main_c_19 (constantI S_ 32 500000#32),
    StableHlo.unary main_c_19 main_v77 (broadcastInDim S500000 ![] bcast_S_S500000 : (⟨S_, .i32⟩ : BufTy).Contents (Elt F) → (⟨S500000, .i32⟩ : BufTy).Contents (Elt F)),
    StableHlo.binary main_arg9 main_v77 main_v78 (addi : (⟨S500000, .i32⟩ : BufTy).Contents (Elt F) → (⟨S500000, .i32⟩ : BufTy).Contents (Elt F) → (⟨S500000, .i32⟩ : BufTy).Contents (Elt F)),
    StableHlo.ternary main_v76 main_v78 main_arg9 main_v79 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v79 main_v80 (broadcastInDim S500000x1 ![0] bcast_S500000_S500000x1_0 : (⟨S500000, .i32⟩ : BufTy).Contents (Elt F) → (⟨S500000x1, .i32⟩ : BufTy).Contents (Elt F)),
    StableHlo.binary main_v74 main_v80 main_v81 ((fun x i => Host.gather gather_S500000x64_S500000x1_S500000x64_1_0_n_n_0_1_164 x i) : (⟨S500000x64, .f32⟩ : BufTy).Contents (Elt F) → (⟨S500000x1, .i32⟩ : BufTy).Contents (Elt F) → (⟨S500000x64, .f32⟩ : BufTy).Contents (Elt F)),
    StableHlo.nullary main_cst_20 (constant S_ .f32 0x00000000#32),
    StableHlo.unary main_cst_20 main_v82 (broadcastInDim S20000x64 ![] bcast_S_S20000x64 : (⟨S_, .f32⟩ : BufTy).Contents (Elt F) → (⟨S20000x64, .f32⟩ : BufTy).Contents (Elt F)),
    StableHlo.unary main_arg10 main_v83 (broadcastInDim S500000x1 ![0] bcast_S500000_S500000x1_0 : (⟨S500000, .i32⟩ : BufTy).Contents (Elt F) → (⟨S500000x1, .i32⟩ : BufTy).Contents (Elt F)),
    StableHlo.ternary main_v82 main_v83 main_v81 main_v84 ((fun x i u => Host.scatterAdd scatter_S20000x64_S500000x1_S500000x64_1_0_0_1 x i u) : (⟨S20000x64, .f32⟩ : BufTy).Contents (Elt F) → (⟨S500000x1, .i32⟩ : BufTy).Contents (Elt F) → (⟨S500000x64, .f32⟩ : BufTy).Contents (Elt F) → (⟨S20000x64, .f32⟩ : BufTy).Contents (Elt F)),
    StableHlo.nullary main_cst_21 (constant S_ .f32 0x3F800000#32),
    StableHlo.unary main_cst_21 main_v85 (broadcastInDim S500000x1 ![] bcast_S_S500000x1 : (⟨S_, .f32⟩ : BufTy).Contents (Elt F) → (⟨S500000x1, .f32⟩ : BufTy).Contents (Elt F)),
    StableHlo.nullary main_cst_22 (constant S_ .f32 0x00000000#32),
    StableHlo.unary main_cst_22 main_v86 (broadcastInDim S20000x1 ![] bcast_S_S20000x1 : (⟨S_, .f32⟩ : BufTy).Contents (Elt F) → (⟨S20000x1, .f32⟩ : BufTy).Contents (Elt F)),
    StableHlo.unary main_arg10 main_v87 (broadcastInDim S500000x1 ![0] bcast_S500000_S500000x1_0 : (⟨S500000, .i32⟩ : BufTy).Contents (Elt F) → (⟨S500000x1, .i32⟩ : BufTy).Contents (Elt F)),
    StableHlo.ternary main_v86 main_v87 main_v85 main_v88 ((fun x i u => Host.scatterAdd scatter_S20000x1_S500000x1_S500000x1_1_0_0_1 x i u) : (⟨S20000x1, .f32⟩ : BufTy).Contents (Elt F) → (⟨S500000x1, .i32⟩ : BufTy).Contents (Elt F) → (⟨S500000x1, .f32⟩ : BufTy).Contents (Elt F) → (⟨S20000x1, .f32⟩ : BufTy).Contents (Elt F)),
    StableHlo.nullary main_cst_23 (constant S_ .f32 0x3F800000#32),
    StableHlo.unary main_cst_23 main_v89 (broadcastInDim S20000x1 ![] bcast_S_S20000x1 : (⟨S_, .f32⟩ : BufTy).Contents (Elt F) → (⟨S20000x1, .f32⟩ : BufTy).Contents (Elt F)),
    StableHlo.binary main_v88 main_v89 main_v90 (maximumf : (⟨S20000x1, .f32⟩ : BufTy).Contents (Elt F) → (⟨S20000x1, .f32⟩ : BufTy).Contents (Elt F) → (⟨S20000x1, .f32⟩ : BufTy).Contents (Elt F)),
    StableHlo.unary main_v90 main_v91 (broadcastInDim S20000x64 ![0, 1] bcast_S20000x1_S20000x64_0_1 : (⟨S20000x1, .f32⟩ : BufTy).Contents (Elt F) → (⟨S20000x64, .f32⟩ : BufTy).Contents (Elt F)),
    StableHlo.binary main_v84 main_v91 main_v92 (Host.divf : (⟨S20000x64, .f32⟩ : BufTy).Contents (Elt F) → (⟨S20000x64, .f32⟩ : BufTy).Contents (Elt F) → (⟨S20000x64, .f32⟩ : BufTy).Contents (Elt F)),
    StableHlo.nullary main_cst_24 (constant S_ .f32 0x00000000#32),
    StableHlo.unary main_cst_24 main_v93 (broadcastInDim S20000x64 ![] bcast_S_S20000x64 : (⟨S_, .f32⟩ : BufTy).Contents (Elt F) → (⟨S20000x64, .f32⟩ : BufTy).Contents (Elt F)),
    StableHlo.binary main_v93 main_v92 main_v94 (addf : (⟨S20000x64, .f32⟩ : BufTy).Contents (Elt F) → (⟨S20000x64, .f32⟩ : BufTy).Contents (Elt F) → (⟨S20000x64, .f32⟩ : BufTy).Contents (Elt F)),
    StableHlo.TRef.nullary main_call0.cst (constant S_ .f32 0x00000000#32),
    StableHlo.TRef.unary main_call0.cst main_call0.v0 (broadcastInDim S500000x64 ![] bcast_S_S500000x64),
    StableHlo.TRef.binary (.of main_v46) main_call0.v0 main_call0.v1 (cmpf .oge),
    StableHlo.TRef.nullary main_call0.cst_0 (constant S_ .f32 0x3C23D70A#32),
    StableHlo.TRef.unary main_call0.cst_0 main_call0.v2 (broadcastInDim S500000x64 ![] bcast_S_S500000x64),
    StableHlo.TRef.binary main_call0.v2 (.of main_v46) main_call0.v3 mulf,
    StableHlo.TRef.ternary main_call0.v1 (.of main_v46) main_call0.v3 main_call0.call0.v0 select,
    StableHlo.TRef.nullary main_call1.cst (constant S_ .f32 0x00000000#32),
    StableHlo.TRef.unary main_call1.cst main_call1.v0 (broadcastInDim S100000x64 ![] bcast_S_S100000x64),
    StableHlo.TRef.binary (.of main_v70) main_call1.v0 main_call1.v1 (cmpf .oge),
    StableHlo.TRef.nullary main_call1.cst_0 (constant S_ .f32 0x3C23D70A#32),
    StableHlo.TRef.unary main_call1.cst_0 main_call1.v2 (broadcastInDim S100000x64 ![] bcast_S_S100000x64),
    StableHlo.TRef.binary main_call1.v2 (.of main_v70) main_call1.v3 mulf,
    StableHlo.TRef.ternary main_call1.v1 (.of main_v70) main_call1.v3 main_call1.call0.v0 select,
    StableHlo.TRef.nullary main_call2.cst (constant S_ .f32 0x00000000#32),
    StableHlo.TRef.unary main_call2.cst main_call2.v0 (broadcastInDim S20000x64 ![] bcast_S_S20000x64),
    StableHlo.TRef.binary (.of main_v94) main_call2.v0 main_call2.v1 (cmpf .oge),
    StableHlo.TRef.nullary main_call2.cst_0 (constant S_ .f32 0x3C23D70A#32),
    StableHlo.TRef.unary main_call2.cst_0 main_call2.v2 (broadcastInDim S20000x64 ![] bcast_S_S20000x64),
    StableHlo.TRef.binary main_call2.v2 (.of main_v94) main_call2.v3 mulf,
    StableHlo.TRef.ternary main_call2.v1 (.of main_v94) main_call2.v3 main_call2.call0.v0 select,
    StableHlo.binary main_v96 main_arg13 main_v98 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg14 main_v99 (broadcastInDim S1x64 ![1] bcast_S64_S1x64_1 : (⟨S64, .f32⟩ : BufTy).Contents (Elt F) → (⟨S1x64, .f32⟩ : BufTy).Contents (Elt F)),
    StableHlo.unary main_v99 main_v100 (broadcastInDim S100000x64 ![0, 1] bcast_S1x64_S100000x64_0_1 : (⟨S1x64, .f32⟩ : BufTy).Contents (Elt F) → (⟨S100000x64, .f32⟩ : BufTy).Contents (Elt F)),
    StableHlo.binary main_v98 main_v100 main_v101 (addf : (⟨S100000x64, .f32⟩ : BufTy).Contents (Elt F) → (⟨S100000x64, .f32⟩ : BufTy).Contents (Elt F) → (⟨S100000x64, .f32⟩ : BufTy).Contents (Elt F)),
    StableHlo.nullary main_c_25 (constantI S_ 32 0#32),
    StableHlo.unary main_c_25 main_v102 (broadcastInDim S500000 ![] bcast_S_S500000 : (⟨S_, .i32⟩ : BufTy).Contents (Elt F) → (⟨S500000, .i32⟩ : BufTy).Contents (Elt F)),
    StableHlo.binary main_arg3 main_v102 main_v103 (cmpi .slt : (⟨S500000, .i32⟩ : BufTy).Contents (Elt F) → (⟨S500000, .i32⟩ : BufTy).Contents (Elt F) → (⟨S500000, .i1⟩ : BufTy).Contents (Elt F)),
    StableHlo.nullary main_c_26 (constantI S_ 32 100000#32),
    StableHlo.unary main_c_26 main_v104 (broadcastInDim S500000 ![] bcast_S_S500000 : (⟨S_, .i32⟩ : BufTy).Contents (Elt F) → (⟨S500000, .i32⟩ : BufTy).Contents (Elt F)),
    StableHlo.binary main_arg3 main_v104 main_v105 (addi : (⟨S500000, .i32⟩ : BufTy).Contents (Elt F) → (⟨S500000, .i32⟩ : BufTy).Contents (Elt F) → (⟨S500000, .i32⟩ : BufTy).Contents (Elt F)),
    StableHlo.ternary main_v103 main_v105 main_arg3 main_v106 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v106 main_v107 (broadcastInDim S500000x1 ![0] bcast_S500000_S500000x1_0 : (⟨S500000, .i32⟩ : BufTy).Contents (Elt F) → (⟨S500000x1, .i32⟩ : BufTy).Contents (Elt F)),
    StableHlo.binary main_v101 main_v107 main_v108 ((fun x i => Host.gather gather_S100000x64_S500000x1_S500000x64_1_0_n_n_0_1_164 x i) : (⟨S100000x64, .f32⟩ : BufTy).Contents (Elt F) → (⟨S500000x1, .i32⟩ : BufTy).Contents (Elt F) → (⟨S500000x64, .f32⟩ : BufTy).Contents (Elt F)),
    StableHlo.nullary main_cst_27 (constant S_ .f32 0x00000000#32),
    StableHlo.unary main_cst_27 main_v109 (broadcastInDim S500000x64 ![] bcast_S_S500000x64 : (⟨S_, .f32⟩ : BufTy).Contents (Elt F) → (⟨S500000x64, .f32⟩ : BufTy).Contents (Elt F)),
    StableHlo.unary main_arg4 main_v110 (broadcastInDim S500000x1 ![0] bcast_S500000_S500000x1_0 : (⟨S500000, .i32⟩ : BufTy).Contents (Elt F) → (⟨S500000x1, .i32⟩ : BufTy).Contents (Elt F)),
    StableHlo.ternary main_v109 main_v110 main_v108 main_v111 ((fun x i u => Host.scatterAdd scatter_S500000x64_S500000x1_S500000x64_1_0_0_1 x i u) : (⟨S500000x64, .f32⟩ : BufTy).Contents (Elt F) → (⟨S500000x1, .i32⟩ : BufTy).Contents (Elt F) → (⟨S500000x64, .f32⟩ : BufTy).Contents (Elt F) → (⟨S500000x64, .f32⟩ : BufTy).Contents (Elt F)),
    StableHlo.nullary main_cst_28 (constant S_ .f32 0x3F800000#32),
    StableHlo.unary main_cst_28 main_v112 (broadcastInDim S500000x1 ![] bcast_S_S500000x1 : (⟨S_, .f32⟩ : BufTy).Contents (Elt F) → (⟨S500000x1, .f32⟩ : BufTy).Contents (Elt F)),
    StableHlo.nullary main_cst_29 (constant S_ .f32 0x00000000#32),
    StableHlo.unary main_cst_29 main_v113 (broadcastInDim S500000x1 ![] bcast_S_S500000x1 : (⟨S_, .f32⟩ : BufTy).Contents (Elt F) → (⟨S500000x1, .f32⟩ : BufTy).Contents (Elt F)),
    StableHlo.unary main_arg4 main_v114 (broadcastInDim S500000x1 ![0] bcast_S500000_S500000x1_0 : (⟨S500000, .i32⟩ : BufTy).Contents (Elt F) → (⟨S500000x1, .i32⟩ : BufTy).Contents (Elt F)),
    StableHlo.ternary main_v113 main_v114 main_v112 main_v115 ((fun x i u => Host.scatterAdd scatter_S500000x1_S500000x1_S500000x1_1_0_0_1 x i u) : (⟨S500000x1, .f32⟩ : BufTy).Contents (Elt F) → (⟨S500000x1, .i32⟩ : BufTy).Contents (Elt F) → (⟨S500000x1, .f32⟩ : BufTy).Contents (Elt F) → (⟨S500000x1, .f32⟩ : BufTy).Contents (Elt F)),
    StableHlo.nullary main_cst_30 (constant S_ .f32 0x3F800000#32),
    StableHlo.unary main_cst_30 main_v116 (broadcastInDim S500000x1 ![] bcast_S_S500000x1 : (⟨S_, .f32⟩ : BufTy).Contents (Elt F) → (⟨S500000x1, .f32⟩ : BufTy).Contents (Elt F)),
    StableHlo.binary main_v115 main_v116 main_v117 (maximumf : (⟨S500000x1, .f32⟩ : BufTy).Contents (Elt F) → (⟨S500000x1, .f32⟩ : BufTy).Contents (Elt F) → (⟨S500000x1, .f32⟩ : BufTy).Contents (Elt F)),
    StableHlo.unary main_v117 main_v118 (broadcastInDim S500000x64 ![0, 1] bcast_S500000x1_S500000x64_0_1 : (⟨S500000x1, .f32⟩ : BufTy).Contents (Elt F) → (⟨S500000x64, .f32⟩ : BufTy).Contents (Elt F)),
    StableHlo.binary main_v111 main_v118 main_v119 (Host.divf : (⟨S500000x64, .f32⟩ : BufTy).Contents (Elt F) → (⟨S500000x64, .f32⟩ : BufTy).Contents (Elt F) → (⟨S500000x64, .f32⟩ : BufTy).Contents (Elt F)),
    StableHlo.nullary main_cst_31 (constant S_ .f32 0x00000000#32),
    StableHlo.unary main_cst_31 main_v120 (broadcastInDim S500000x64 ![] bcast_S_S500000x64 : (⟨S_, .f32⟩ : BufTy).Contents (Elt F) → (⟨S500000x64, .f32⟩ : BufTy).Contents (Elt F)),
    StableHlo.binary main_v120 main_v119 main_v121 (addf : (⟨S500000x64, .f32⟩ : BufTy).Contents (Elt F) → (⟨S500000x64, .f32⟩ : BufTy).Contents (Elt F) → (⟨S500000x64, .f32⟩ : BufTy).Contents (Elt F)),
    StableHlo.binary main_v97 main_arg17 main_v122 ((fun l r => Host.dotGeneral dot_S20000x64_S64x64_S20000x64_1_0_0_1_n_n none l r) : (⟨S20000x64, .f32⟩ : BufTy).Contents (Elt F) → (⟨S64x64, .f32⟩ : BufTy).Contents (Elt F) → (⟨S20000x64, .f32⟩ : BufTy).Contents (Elt F)),
    StableHlo.unary main_arg18 main_v123 (broadcastInDim S1x64 ![1] bcast_S64_S1x64_1 : (⟨S64, .f32⟩ : BufTy).Contents (Elt F) → (⟨S1x64, .f32⟩ : BufTy).Contents (Elt F)),
    StableHlo.unary main_v123 main_v124 (broadcastInDim S20000x64 ![0, 1] bcast_S1x64_S20000x64_0_1 : (⟨S1x64, .f32⟩ : BufTy).Contents (Elt F) → (⟨S20000x64, .f32⟩ : BufTy).Contents (Elt F)),
    StableHlo.binary main_v122 main_v124 main_v125 (addf : (⟨S20000x64, .f32⟩ : BufTy).Contents (Elt F) → (⟨S20000x64, .f32⟩ : BufTy).Contents (Elt F) → (⟨S20000x64, .f32⟩ : BufTy).Contents (Elt F)),
    StableHlo.nullary main_c_32 (constantI S_ 32 0#32),
    StableHlo.unary main_c_32 main_v126 (broadcastInDim S500000 ![] bcast_S_S500000 : (⟨S_, .i32⟩ : BufTy).Contents (Elt F) → (⟨S500000, .i32⟩ : BufTy).Contents (Elt F)),
    StableHlo.binary main_arg5 main_v126 main_v127 (cmpi .slt : (⟨S500000, .i32⟩ : BufTy).Contents (Elt F) → (⟨S500000, .i32⟩ : BufTy).Contents (Elt F) → (⟨S500000, .i1⟩ : BufTy).Contents (Elt F)),
    StableHlo.nullary main_c_33 (constantI S_ 32 20000#32),
    StableHlo.unary main_c_33 main_v128 (broadcastInDim S500000 ![] bcast_S_S500000 : (⟨S_, .i32⟩ : BufTy).Contents (Elt F) → (⟨S500000, .i32⟩ : BufTy).Contents (Elt F)),
    StableHlo.binary main_arg5 main_v128 main_v129 (addi : (⟨S500000, .i32⟩ : BufTy).Contents (Elt F) → (⟨S500000, .i32⟩ : BufTy).Contents (Elt F) → (⟨S500000, .i32⟩ : BufTy).Contents (Elt F)),
    StableHlo.ternary main_v127 main_v129 main_arg5 main_v130 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v130 main_v131 (broadcastInDim S500000x1 ![0] bcast_S500000_S500000x1_0 : (⟨S500000, .i32⟩ : BufTy).Contents (Elt F) → (⟨S500000x1, .i32⟩ : BufTy).Contents (Elt F)),
    StableHlo.binary main_v125 main_v131 main_v132 ((fun x i => Host.gather gather_S20000x64_S500000x1_S500000x64_1_0_n_n_0_1_164 x i) : (⟨S20000x64, .f32⟩ : BufTy).Contents (Elt F) → (⟨S500000x1, .i32⟩ : BufTy).Contents (Elt F) → (⟨S500000x64, .f32⟩ : BufTy).Contents (Elt F)),
    StableHlo.nullary main_cst_34 (constant S_ .f32 0x00000000#32),
    StableHlo.unary main_cst_34 main_v133 (broadcastInDim S500000x64 ![] bcast_S_S500000x64 : (⟨S_, .f32⟩ : BufTy).Contents (Elt F) → (⟨S500000x64, .f32⟩ : BufTy).Contents (Elt F)),
    StableHlo.unary main_arg6 main_v134 (broadcastInDim S500000x1 ![0] bcast_S500000_S500000x1_0 : (⟨S500000, .i32⟩ : BufTy).Contents (Elt F) → (⟨S500000x1, .i32⟩ : BufTy).Contents (Elt F)),
    StableHlo.ternary main_v133 main_v134 main_v132 main_v135 ((fun x i u => Host.scatterAdd scatter_S500000x64_S500000x1_S500000x64_1_0_0_1 x i u) : (⟨S500000x64, .f32⟩ : BufTy).Contents (Elt F) → (⟨S500000x1, .i32⟩ : BufTy).Contents (Elt F) → (⟨S500000x64, .f32⟩ : BufTy).Contents (Elt F) → (⟨S500000x64, .f32⟩ : BufTy).Contents (Elt F)),
    StableHlo.nullary main_cst_35 (constant S_ .f32 0x3F800000#32),
    StableHlo.unary main_cst_35 main_v136 (broadcastInDim S500000x1 ![] bcast_S_S500000x1 : (⟨S_, .f32⟩ : BufTy).Contents (Elt F) → (⟨S500000x1, .f32⟩ : BufTy).Contents (Elt F)),
    StableHlo.nullary main_cst_36 (constant S_ .f32 0x00000000#32),
    StableHlo.unary main_cst_36 main_v137 (broadcastInDim S500000x1 ![] bcast_S_S500000x1 : (⟨S_, .f32⟩ : BufTy).Contents (Elt F) → (⟨S500000x1, .f32⟩ : BufTy).Contents (Elt F)),
    StableHlo.unary main_arg6 main_v138 (broadcastInDim S500000x1 ![0] bcast_S500000_S500000x1_0 : (⟨S500000, .i32⟩ : BufTy).Contents (Elt F) → (⟨S500000x1, .i32⟩ : BufTy).Contents (Elt F)),
    StableHlo.ternary main_v137 main_v138 main_v136 main_v139 ((fun x i u => Host.scatterAdd scatter_S500000x1_S500000x1_S500000x1_1_0_0_1 x i u) : (⟨S500000x1, .f32⟩ : BufTy).Contents (Elt F) → (⟨S500000x1, .i32⟩ : BufTy).Contents (Elt F) → (⟨S500000x1, .f32⟩ : BufTy).Contents (Elt F) → (⟨S500000x1, .f32⟩ : BufTy).Contents (Elt F)),
    StableHlo.nullary main_cst_37 (constant S_ .f32 0x3F800000#32),
    StableHlo.unary main_cst_37 main_v140 (broadcastInDim S500000x1 ![] bcast_S_S500000x1 : (⟨S_, .f32⟩ : BufTy).Contents (Elt F) → (⟨S500000x1, .f32⟩ : BufTy).Contents (Elt F)),
    StableHlo.binary main_v139 main_v140 main_v141 (maximumf : (⟨S500000x1, .f32⟩ : BufTy).Contents (Elt F) → (⟨S500000x1, .f32⟩ : BufTy).Contents (Elt F) → (⟨S500000x1, .f32⟩ : BufTy).Contents (Elt F)),
    StableHlo.unary main_v141 main_v142 (broadcastInDim S500000x64 ![0, 1] bcast_S500000x1_S500000x64_0_1 : (⟨S500000x1, .f32⟩ : BufTy).Contents (Elt F) → (⟨S500000x64, .f32⟩ : BufTy).Contents (Elt F)),
    StableHlo.binary main_v135 main_v142 main_v143 (Host.divf : (⟨S500000x64, .f32⟩ : BufTy).Contents (Elt F) → (⟨S500000x64, .f32⟩ : BufTy).Contents (Elt F) → (⟨S500000x64, .f32⟩ : BufTy).Contents (Elt F)),
    StableHlo.binary main_v121 main_v143 main_v144 (addf : (⟨S500000x64, .f32⟩ : BufTy).Contents (Elt F) → (⟨S500000x64, .f32⟩ : BufTy).Contents (Elt F) → (⟨S500000x64, .f32⟩ : BufTy).Contents (Elt F)),
    StableHlo.binary main_v95 main_arg21 main_v145 ((fun l r => Host.dotGeneral dot_S500000x64_S64x64_S500000x64_1_0_0_1_n_n none l r) : (⟨S500000x64, .f32⟩ : BufTy).Contents (Elt F) → (⟨S64x64, .f32⟩ : BufTy).Contents (Elt F) → (⟨S500000x64, .f32⟩ : BufTy).Contents (Elt F)),
    StableHlo.unary main_arg22 main_v146 (broadcastInDim S1x64 ![1] bcast_S64_S1x64_1 : (⟨S64, .f32⟩ : BufTy).Contents (Elt F) → (⟨S1x64, .f32⟩ : BufTy).Contents (Elt F)),
    StableHlo.unary main_v146 main_v147 (broadcastInDim S500000x64 ![0, 1] bcast_S1x64_S500000x64_0_1 : (⟨S1x64, .f32⟩ : BufTy).Contents (Elt F) → (⟨S500000x64, .f32⟩ : BufTy).Contents (Elt F)),
    StableHlo.binary main_v145 main_v147 main_v148 (addf : (⟨S500000x64, .f32⟩ : BufTy).Contents (Elt F) → (⟨S500000x64, .f32⟩ : BufTy).Contents (Elt F) → (⟨S500000x64, .f32⟩ : BufTy).Contents (Elt F)),
    StableHlo.nullary main_c_38 (constantI S_ 32 0#32),
    StableHlo.unary main_c_38 main_v149 (broadcastInDim S500000 ![] bcast_S_S500000 : (⟨S_, .i32⟩ : BufTy).Contents (Elt F) → (⟨S500000, .i32⟩ : BufTy).Contents (Elt F)),
    StableHlo.binary main_arg7 main_v149 main_v150 (cmpi .slt : (⟨S500000, .i32⟩ : BufTy).Contents (Elt F) → (⟨S500000, .i32⟩ : BufTy).Contents (Elt F) → (⟨S500000, .i1⟩ : BufTy).Contents (Elt F)),
    StableHlo.nullary main_c_39 (constantI S_ 32 500000#32),
    StableHlo.unary main_c_39 main_v151 (broadcastInDim S500000 ![] bcast_S_S500000 : (⟨S_, .i32⟩ : BufTy).Contents (Elt F) → (⟨S500000, .i32⟩ : BufTy).Contents (Elt F)),
    StableHlo.binary main_arg7 main_v151 main_v152 (addi : (⟨S500000, .i32⟩ : BufTy).Contents (Elt F) → (⟨S500000, .i32⟩ : BufTy).Contents (Elt F) → (⟨S500000, .i32⟩ : BufTy).Contents (Elt F)),
    StableHlo.ternary main_v150 main_v152 main_arg7 main_v153 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v153 main_v154 (broadcastInDim S500000x1 ![0] bcast_S500000_S500000x1_0 : (⟨S500000, .i32⟩ : BufTy).Contents (Elt F) → (⟨S500000x1, .i32⟩ : BufTy).Contents (Elt F)),
    StableHlo.binary main_v148 main_v154 main_v155 ((fun x i => Host.gather gather_S500000x64_S500000x1_S500000x64_1_0_n_n_0_1_164 x i) : (⟨S500000x64, .f32⟩ : BufTy).Contents (Elt F) → (⟨S500000x1, .i32⟩ : BufTy).Contents (Elt F) → (⟨S500000x64, .f32⟩ : BufTy).Contents (Elt F)),
    StableHlo.nullary main_cst_40 (constant S_ .f32 0x00000000#32),
    StableHlo.unary main_cst_40 main_v156 (broadcastInDim S100000x64 ![] bcast_S_S100000x64 : (⟨S_, .f32⟩ : BufTy).Contents (Elt F) → (⟨S100000x64, .f32⟩ : BufTy).Contents (Elt F)),
    StableHlo.unary main_arg8 main_v157 (broadcastInDim S500000x1 ![0] bcast_S500000_S500000x1_0 : (⟨S500000, .i32⟩ : BufTy).Contents (Elt F) → (⟨S500000x1, .i32⟩ : BufTy).Contents (Elt F)),
    StableHlo.ternary main_v156 main_v157 main_v155 main_v158 ((fun x i u => Host.scatterAdd scatter_S100000x64_S500000x1_S500000x64_1_0_0_1 x i u) : (⟨S100000x64, .f32⟩ : BufTy).Contents (Elt F) → (⟨S500000x1, .i32⟩ : BufTy).Contents (Elt F) → (⟨S500000x64, .f32⟩ : BufTy).Contents (Elt F) → (⟨S100000x64, .f32⟩ : BufTy).Contents (Elt F)),
    StableHlo.nullary main_cst_41 (constant S_ .f32 0x3F800000#32),
    StableHlo.unary main_cst_41 main_v159 (broadcastInDim S500000x1 ![] bcast_S_S500000x1 : (⟨S_, .f32⟩ : BufTy).Contents (Elt F) → (⟨S500000x1, .f32⟩ : BufTy).Contents (Elt F)),
    StableHlo.nullary main_cst_42 (constant S_ .f32 0x00000000#32),
    StableHlo.unary main_cst_42 main_v160 (broadcastInDim S100000x1 ![] bcast_S_S100000x1 : (⟨S_, .f32⟩ : BufTy).Contents (Elt F) → (⟨S100000x1, .f32⟩ : BufTy).Contents (Elt F)),
    StableHlo.unary main_arg8 main_v161 (broadcastInDim S500000x1 ![0] bcast_S500000_S500000x1_0 : (⟨S500000, .i32⟩ : BufTy).Contents (Elt F) → (⟨S500000x1, .i32⟩ : BufTy).Contents (Elt F)),
    StableHlo.ternary main_v160 main_v161 main_v159 main_v162 ((fun x i u => Host.scatterAdd scatter_S100000x1_S500000x1_S500000x1_1_0_0_1 x i u) : (⟨S100000x1, .f32⟩ : BufTy).Contents (Elt F) → (⟨S500000x1, .i32⟩ : BufTy).Contents (Elt F) → (⟨S500000x1, .f32⟩ : BufTy).Contents (Elt F) → (⟨S100000x1, .f32⟩ : BufTy).Contents (Elt F)),
    StableHlo.nullary main_cst_43 (constant S_ .f32 0x3F800000#32),
    StableHlo.unary main_cst_43 main_v163 (broadcastInDim S100000x1 ![] bcast_S_S100000x1 : (⟨S_, .f32⟩ : BufTy).Contents (Elt F) → (⟨S100000x1, .f32⟩ : BufTy).Contents (Elt F)),
    StableHlo.binary main_v162 main_v163 main_v164 (maximumf : (⟨S100000x1, .f32⟩ : BufTy).Contents (Elt F) → (⟨S100000x1, .f32⟩ : BufTy).Contents (Elt F) → (⟨S100000x1, .f32⟩ : BufTy).Contents (Elt F)),
    StableHlo.unary main_v164 main_v165 (broadcastInDim S100000x64 ![0, 1] bcast_S100000x1_S100000x64_0_1 : (⟨S100000x1, .f32⟩ : BufTy).Contents (Elt F) → (⟨S100000x64, .f32⟩ : BufTy).Contents (Elt F)),
    StableHlo.binary main_v158 main_v165 main_v166 (Host.divf : (⟨S100000x64, .f32⟩ : BufTy).Contents (Elt F) → (⟨S100000x64, .f32⟩ : BufTy).Contents (Elt F) → (⟨S100000x64, .f32⟩ : BufTy).Contents (Elt F)),
    StableHlo.nullary main_cst_44 (constant S_ .f32 0x00000000#32),
    StableHlo.unary main_cst_44 main_v167 (broadcastInDim S100000x64 ![] bcast_S_S100000x64 : (⟨S_, .f32⟩ : BufTy).Contents (Elt F) → (⟨S100000x64, .f32⟩ : BufTy).Contents (Elt F)),
    StableHlo.binary main_v167 main_v166 main_v168 (addf : (⟨S100000x64, .f32⟩ : BufTy).Contents (Elt F) → (⟨S100000x64, .f32⟩ : BufTy).Contents (Elt F) → (⟨S100000x64, .f32⟩ : BufTy).Contents (Elt F)),
    StableHlo.binary main_v95 main_arg25 main_v169 ((fun l r => Host.dotGeneral dot_S500000x64_S64x64_S500000x64_1_0_0_1_n_n none l r) : (⟨S500000x64, .f32⟩ : BufTy).Contents (Elt F) → (⟨S64x64, .f32⟩ : BufTy).Contents (Elt F) → (⟨S500000x64, .f32⟩ : BufTy).Contents (Elt F)),
    StableHlo.unary main_arg26 main_v170 (broadcastInDim S1x64 ![1] bcast_S64_S1x64_1 : (⟨S64, .f32⟩ : BufTy).Contents (Elt F) → (⟨S1x64, .f32⟩ : BufTy).Contents (Elt F)),
    StableHlo.unary main_v170 main_v171 (broadcastInDim S500000x64 ![0, 1] bcast_S1x64_S500000x64_0_1 : (⟨S1x64, .f32⟩ : BufTy).Contents (Elt F) → (⟨S500000x64, .f32⟩ : BufTy).Contents (Elt F)),
    StableHlo.binary main_v169 main_v171 main_v172 (addf : (⟨S500000x64, .f32⟩ : BufTy).Contents (Elt F) → (⟨S500000x64, .f32⟩ : BufTy).Contents (Elt F) → (⟨S500000x64, .f32⟩ : BufTy).Contents (Elt F)),
    StableHlo.nullary main_c_45 (constantI S_ 32 0#32),
    StableHlo.unary main_c_45 main_v173 (broadcastInDim S500000 ![] bcast_S_S500000 : (⟨S_, .i32⟩ : BufTy).Contents (Elt F) → (⟨S500000, .i32⟩ : BufTy).Contents (Elt F)),
    StableHlo.binary main_arg9 main_v173 main_v174 (cmpi .slt : (⟨S500000, .i32⟩ : BufTy).Contents (Elt F) → (⟨S500000, .i32⟩ : BufTy).Contents (Elt F) → (⟨S500000, .i1⟩ : BufTy).Contents (Elt F)),
    StableHlo.nullary main_c_46 (constantI S_ 32 500000#32),
    StableHlo.unary main_c_46 main_v175 (broadcastInDim S500000 ![] bcast_S_S500000 : (⟨S_, .i32⟩ : BufTy).Contents (Elt F) → (⟨S500000, .i32⟩ : BufTy).Contents (Elt F)),
    StableHlo.binary main_arg9 main_v175 main_v176 (addi : (⟨S500000, .i32⟩ : BufTy).Contents (Elt F) → (⟨S500000, .i32⟩ : BufTy).Contents (Elt F) → (⟨S500000, .i32⟩ : BufTy).Contents (Elt F)),
    StableHlo.ternary main_v174 main_v176 main_arg9 main_v177 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v177 main_v178 (broadcastInDim S500000x1 ![0] bcast_S500000_S500000x1_0 : (⟨S500000, .i32⟩ : BufTy).Contents (Elt F) → (⟨S500000x1, .i32⟩ : BufTy).Contents (Elt F)),
    StableHlo.binary main_v172 main_v178 main_v179 ((fun x i => Host.gather gather_S500000x64_S500000x1_S500000x64_1_0_n_n_0_1_164 x i) : (⟨S500000x64, .f32⟩ : BufTy).Contents (Elt F) → (⟨S500000x1, .i32⟩ : BufTy).Contents (Elt F) → (⟨S500000x64, .f32⟩ : BufTy).Contents (Elt F)),
    StableHlo.nullary main_cst_47 (constant S_ .f32 0x00000000#32),
    StableHlo.unary main_cst_47 main_v180 (broadcastInDim S20000x64 ![] bcast_S_S20000x64 : (⟨S_, .f32⟩ : BufTy).Contents (Elt F) → (⟨S20000x64, .f32⟩ : BufTy).Contents (Elt F)),
    StableHlo.unary main_arg10 main_v181 (broadcastInDim S500000x1 ![0] bcast_S500000_S500000x1_0 : (⟨S500000, .i32⟩ : BufTy).Contents (Elt F) → (⟨S500000x1, .i32⟩ : BufTy).Contents (Elt F)),
    StableHlo.ternary main_v180 main_v181 main_v179 main_v182 ((fun x i u => Host.scatterAdd scatter_S20000x64_S500000x1_S500000x64_1_0_0_1 x i u) : (⟨S20000x64, .f32⟩ : BufTy).Contents (Elt F) → (⟨S500000x1, .i32⟩ : BufTy).Contents (Elt F) → (⟨S500000x64, .f32⟩ : BufTy).Contents (Elt F) → (⟨S20000x64, .f32⟩ : BufTy).Contents (Elt F)),
    StableHlo.nullary main_cst_48 (constant S_ .f32 0x3F800000#32),
    StableHlo.unary main_cst_48 main_v183 (broadcastInDim S500000x1 ![] bcast_S_S500000x1 : (⟨S_, .f32⟩ : BufTy).Contents (Elt F) → (⟨S500000x1, .f32⟩ : BufTy).Contents (Elt F)),
    StableHlo.nullary main_cst_49 (constant S_ .f32 0x00000000#32),
    StableHlo.unary main_cst_49 main_v184 (broadcastInDim S20000x1 ![] bcast_S_S20000x1 : (⟨S_, .f32⟩ : BufTy).Contents (Elt F) → (⟨S20000x1, .f32⟩ : BufTy).Contents (Elt F)),
    StableHlo.unary main_arg10 main_v185 (broadcastInDim S500000x1 ![0] bcast_S500000_S500000x1_0 : (⟨S500000, .i32⟩ : BufTy).Contents (Elt F) → (⟨S500000x1, .i32⟩ : BufTy).Contents (Elt F)),
    StableHlo.ternary main_v184 main_v185 main_v183 main_v186 ((fun x i u => Host.scatterAdd scatter_S20000x1_S500000x1_S500000x1_1_0_0_1 x i u) : (⟨S20000x1, .f32⟩ : BufTy).Contents (Elt F) → (⟨S500000x1, .i32⟩ : BufTy).Contents (Elt F) → (⟨S500000x1, .f32⟩ : BufTy).Contents (Elt F) → (⟨S20000x1, .f32⟩ : BufTy).Contents (Elt F)),
    StableHlo.nullary main_cst_50 (constant S_ .f32 0x3F800000#32),
    StableHlo.unary main_cst_50 main_v187 (broadcastInDim S20000x1 ![] bcast_S_S20000x1 : (⟨S_, .f32⟩ : BufTy).Contents (Elt F) → (⟨S20000x1, .f32⟩ : BufTy).Contents (Elt F)),
    StableHlo.binary main_v186 main_v187 main_v188 (maximumf : (⟨S20000x1, .f32⟩ : BufTy).Contents (Elt F) → (⟨S20000x1, .f32⟩ : BufTy).Contents (Elt F) → (⟨S20000x1, .f32⟩ : BufTy).Contents (Elt F)),
    StableHlo.unary main_v188 main_v189 (broadcastInDim S20000x64 ![0, 1] bcast_S20000x1_S20000x64_0_1 : (⟨S20000x1, .f32⟩ : BufTy).Contents (Elt F) → (⟨S20000x64, .f32⟩ : BufTy).Contents (Elt F)),
    StableHlo.binary main_v182 main_v189 main_v190 (Host.divf : (⟨S20000x64, .f32⟩ : BufTy).Contents (Elt F) → (⟨S20000x64, .f32⟩ : BufTy).Contents (Elt F) → (⟨S20000x64, .f32⟩ : BufTy).Contents (Elt F)),
    StableHlo.nullary main_cst_51 (constant S_ .f32 0x00000000#32),
    StableHlo.unary main_cst_51 main_v191 (broadcastInDim S20000x64 ![] bcast_S_S20000x64 : (⟨S_, .f32⟩ : BufTy).Contents (Elt F) → (⟨S20000x64, .f32⟩ : BufTy).Contents (Elt F)),
    StableHlo.binary main_v191 main_v190 main_v192 (addf : (⟨S20000x64, .f32⟩ : BufTy).Contents (Elt F) → (⟨S20000x64, .f32⟩ : BufTy).Contents (Elt F) → (⟨S20000x64, .f32⟩ : BufTy).Contents (Elt F)),
    StableHlo.binary main_v144 main_arg27 main_v193 ((fun l r => Host.dotGeneral dot_S500000x64_S64x2_S500000x2_1_0_0_1_n_n none l r) : (⟨S500000x64, .f32⟩ : BufTy).Contents (Elt F) → (⟨S64x2, .f32⟩ : BufTy).Contents (Elt F) → (⟨S500000x2, .f32⟩ : BufTy).Contents (Elt F)),
    StableHlo.unary main_arg28 main_v194 (broadcastInDim S1x2 ![1] bcast_S2_S1x2_1 : (⟨S2, .f32⟩ : BufTy).Contents (Elt F) → (⟨S1x2, .f32⟩ : BufTy).Contents (Elt F)),
    StableHlo.unary main_v194 main_v195 (broadcastInDim S500000x2 ![0, 1] bcast_S1x2_S500000x2_0_1 : (⟨S1x2, .f32⟩ : BufTy).Contents (Elt F) → (⟨S500000x2, .f32⟩ : BufTy).Contents (Elt F)),
    StableHlo.binary main_v193 main_v195 main_v196 (addf : (⟨S500000x2, .f32⟩ : BufTy).Contents (Elt F) → (⟨S500000x2, .f32⟩ : BufTy).Contents (Elt F) → (⟨S500000x2, .f32⟩ : BufTy).Contents (Elt F)) ]

/-- The buffer each operation writes, in order. -/
abbrev Ws : List (Ref sig .tc) :=
  [ main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_cst_4, main_v22, main_v23, main_v24, main_v25, main_v26, main_v27, main_c_5, main_v28, main_v29, main_c_6, main_v30, main_v31, main_v32, main_v33, main_v34, main_cst_7, main_v35, main_v36, main_v37, main_cst_8, main_v38, main_cst_9, main_v39, main_v40, main_v41, main_cst_10, main_v42, main_v43, main_v44, main_v45, main_v46, main_v47, main_v48, main_v49, main_v50, main_c_11, main_v51, main_v52, main_c_12, main_v53, main_v54, main_v55, main_v56, main_v57, main_cst_13, main_v58, main_v59, main_v60, main_cst_14, main_v61, main_cst_15, main_v62, main_v63, main_v64, main_cst_16, main_v65, main_v66, main_v67, main_v68, main_cst_17, main_v69, main_v70, main_v71, main_v72, main_v73, main_v74, main_c_18, main_v75, main_v76, main_c_19, main_v77, main_v78, main_v79, main_v80, main_v81, main_cst_20, main_v82, main_v83, main_v84, main_cst_21, main_v85, main_cst_22, main_v86, main_v87, main_v88, main_cst_23, main_v89, main_v90, main_v91, main_v92, main_cst_24, main_v93, main_v94, main_call0_cst, main_call0_v0, main_call0_v1, main_call0_cst_0, main_call0_v2, main_call0_v3, main_v95, main_call1_cst, main_call1_v0, main_call1_v1, main_call1_cst_0, main_call1_v2, main_call1_v3, main_v96, main_call2_cst, main_call2_v0, main_call2_v1, main_call2_cst_0, main_call2_v2, main_call2_v3, main_v97, main_v98, main_v99, main_v100, main_v101, main_c_25, main_v102, main_v103, main_c_26, main_v104, main_v105, main_v106, main_v107, main_v108, main_cst_27, main_v109, main_v110, main_v111, main_cst_28, main_v112, main_cst_29, main_v113, main_v114, main_v115, main_cst_30, main_v116, main_v117, main_v118, main_v119, main_cst_31, main_v120, main_v121, main_v122, main_v123, main_v124, main_v125, main_c_32, main_v126, main_v127, main_c_33, main_v128, main_v129, main_v130, main_v131, main_v132, main_cst_34, main_v133, main_v134, main_v135, main_cst_35, main_v136, main_cst_36, main_v137, main_v138, main_v139, main_cst_37, main_v140, main_v141, main_v142, main_v143, main_v144, main_v145, main_v146, main_v147, main_v148, main_c_38, main_v149, main_v150, main_c_39, main_v151, main_v152, main_v153, main_v154, main_v155, main_cst_40, main_v156, main_v157, main_v158, main_cst_41, main_v159, main_cst_42, main_v160, main_v161, main_v162, main_cst_43, main_v163, main_v164, main_v165, main_v166, main_cst_44, main_v167, main_v168, main_v169, main_v170, main_v171, main_v172, main_c_45, main_v173, main_v174, main_c_46, main_v175, main_v176, main_v177, main_v178, main_v179, main_cst_47, main_v180, main_v181, main_v182, main_cst_48, main_v183, main_cst_49, main_v184, main_v185, main_v186, main_cst_50, main_v187, main_v188, main_v189, main_v190, main_cst_51, main_v191, main_v192, main_v193, main_v194, main_v195, main_v196 ]

set_option maxRecDepth 65536 in
/-- Operation k writes exactly buffer k of the list. -/
theorem hW : Cert.LibAfter.WritesList (ops (F := F)) Ws := by
  repeat' (first | exact Cert.LibAfter.writesList_nil | refine Cert.LibAfter.writesList_cons rfl ?_)

set_option maxRecDepth 65536 in
set_option maxHeartbeats 4000000 in
/-- @main is that straight line: the windows of @main and the called functions unfolded at their calls, both sides are
    one chain of host steps once the sequencing is reassociated. -/
theorem main_eq (c : Dev nD) : main (F := F) c = seq ops := by
  simp only [main, main_part0, main_part1, main_part2, main_part3, main_part4, fn_leaky_relu.body, fn_leaky_relu_0.body,
    fn_leaky_relu_2.body, fn_where.body, fn_where_1.body, fn_where_3.body, seq, bind_assoc, pure_bind]

end Cert.ReferenceIdeal.RefRun

end
-- ==== Proof.RefRead.lean ====
/-
  The reference program's run, and its line of operations read one operation at a time: every weakly fair execution ends
  with each buffer at the line's fold over the launch contents; an argument buffer is written by no operation; and each
  operation the result depends on leaves in its buffer its own function of what its operand buffers end holding.
-/
import proofs.«126305_j61735859913388_2_alg».proof.Proof.RefOps
import proofs.«126305_j61735859913388_2_alg».proof.Proof.LibAfterRead

set_option maxRecDepth 65536

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.LibAfter

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., nullary_bufs_sub .., unary_bufs_sub .., binary_bufs_sub .., binary_bufs_sub .., unary_bufs_sub .., unary_bufs_sub .., binary_bufs_sub ..⟩

/-- No operation allocates a buffer. -/
theorem ops_fresh : (ops : List (HloOp τ sig (Elt F))).Forall fun op => op.fresh = ∅ := by
  simp only [List.Forall]; repeat' constructor

/-- From any memory with zero counters every weakly fair execution of @main terminates, and every final state has each
    buffer at the line's fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ op h => (List.forall_iff_forall_mem.mp ops_fresh) op h)

theorem ops_len : (ops (F := F)).length = 269 := rfl
theorem hk (k : ℕ) (h : k < 269) : k < (ops (F := F)).length := lt_of_lt_of_eq h ops_len.symm

/-! ## The arguments are written by no operation -/

theorem k_arg0 (V : Valuation τ sig (Elt F)) : after ops V (Proc.devRef .tc main_arg0) = V (Proc.devRef .tc main_arg0) :=
  after_keep ops Ws hW V main_arg0 (by decide)
theorem k_arg1 (V : Valuation τ sig (Elt F)) : after ops V (Proc.devRef .tc main_arg1) = V (Proc.devRef .tc main_arg1) :=
  after_keep ops Ws hW V main_arg1 (by decide)
theorem k_arg2 (V : Valuation τ sig (Elt F)) : after ops V (Proc.devRef .tc main_arg2) = V (Proc.devRef .tc main_arg2) :=
  after_keep ops Ws hW V main_arg2 (by decide)
theorem k_arg3 (V : Valuation τ sig (Elt F)) : after ops V (Proc.devRef .tc main_arg3) = V (Proc.devRef .tc main_arg3) :=
  after_keep ops Ws hW V main_arg3 (by decide)
theorem k_arg4 (V : Valuation τ sig (Elt F)) : after ops V (Proc.devRef .tc main_arg4) = V (Proc.devRef .tc main_arg4) :=
  after_keep ops Ws hW V main_arg4 (by decide)
theorem k_arg5 (V : Valuation τ sig (Elt F)) : after ops V (Proc.devRef .tc main_arg5) = V (Proc.devRef .tc main_arg5) :=
  after_keep ops Ws hW V main_arg5 (by decide)
theorem k_arg6 (V : Valuation τ sig (Elt F)) : after ops V (Proc.devRef .tc main_arg6) = V (Proc.devRef .tc main_arg6) :=
  after_keep ops Ws hW V main_arg6 (by decide)
theorem k_arg7 (V : Valuation τ sig (Elt F)) : after ops V (Proc.devRef .tc main_arg7) = V (Proc.devRef .tc main_arg7) :=
  after_keep ops Ws hW V main_arg7 (by decide)
theorem k_arg8 (V : Valuation τ sig (Elt F)) : after ops V (Proc.devRef .tc main_arg8) = V (Proc.devRef .tc main_arg8) :=
  after_keep ops Ws hW V main_arg8 (by decide)
theorem k_arg9 (V : Valuation τ sig (Elt F)) : after ops V (Proc.devRef .tc main_arg9) = V (Proc.devRef .tc main_arg9) :=
  after_keep ops Ws hW V main_arg9 (by decide)
theorem k_arg10 (V : Valuation τ sig (Elt F)) : after ops V (Proc.devRef .tc main_arg10) = V (Proc.devRef .tc main_arg10) :=
  after_keep ops Ws hW V main_arg10 (by decide)
theorem k_arg11 (V : Valuation τ sig (Elt F)) : after ops V (Proc.devRef .tc main_arg11) = V (Proc.devRef .tc main_arg11) :=
  after_keep ops Ws hW V main_arg11 (by decide)
theorem k_arg12 (V : Valuation τ sig (Elt F)) : after ops V (Proc.devRef .tc main_arg12) = V (Proc.devRef .tc main_arg12) :=
  after_keep ops Ws hW V main_arg12 (by decide)
theorem k_arg13 (V : Valuation τ sig (Elt F)) : after ops V (Proc.devRef .tc main_arg13) = V (Proc.devRef .tc main_arg13) :=
  after_keep ops Ws hW V main_arg13 (by decide)
theorem k_arg14 (V : Valuation τ sig (Elt F)) : after ops V (Proc.devRef .tc main_arg14) = V (Proc.devRef .tc main_arg14) :=
  after_keep ops Ws hW V main_arg14 (by decide)
theorem k_arg15 (V : Valuation τ sig (Elt F)) : after ops V (Proc.devRef .tc main_arg15) = V (Proc.devRef .tc main_arg15) :=
  after_keep ops Ws hW V main_arg15 (by decide)
theorem k_arg16 (V : Valuation τ sig (Elt F)) : after ops V (Proc.devRef .tc main_arg16) = V (Proc.devRef .tc main_arg16) :=
  after_keep ops Ws hW V main_arg16 (by decide)
theorem k_arg17 (V : Valuation τ sig (Elt F)) : after ops V (Proc.devRef .tc main_arg17) = V (Proc.devRef .tc main_arg17) :=
  after_keep ops Ws hW V main_arg17 (by decide)
theorem k_arg18 (V : Valuation τ sig (Elt F)) : after ops V (Proc.devRef .tc main_arg18) = V (Proc.devRef .tc main_arg18) :=
  after_keep ops Ws hW V main_arg18 (by decide)
theorem k_arg19 (V : Valuation τ sig (Elt F)) : after ops V (Proc.devRef .tc main_arg19) = V (Proc.devRef .tc main_arg19) :=
  after_keep ops Ws hW V main_arg19 (by decide)
theorem k_arg20 (V : Valuation τ sig (Elt F)) : after ops V (Proc.devRef .tc main_arg20) = V (Proc.devRef .tc main_arg20) :=
  after_keep ops Ws hW V main_arg20 (by decide)
theorem k_arg21 (V : Valuation τ sig (Elt F)) : after ops V (Proc.devRef .tc main_arg21) = V (Proc.devRef .tc main_arg21) :=
  after_keep ops Ws hW V main_arg21 (by decide)
theorem k_arg22 (V : Valuation τ sig (Elt F)) : after ops V (Proc.devRef .tc main_arg22) = V (Proc.devRef .tc main_arg22) :=
  after_keep ops Ws hW V main_arg22 (by decide)
theorem k_arg23 (V : Valuation τ sig (Elt F)) : after ops V (Proc.devRef .tc main_arg23) = V (Proc.devRef .tc main_arg23) :=
  after_keep ops Ws hW V main_arg23 (by decide)
theorem k_arg24 (V : Valuation τ sig (Elt F)) : after ops V (Proc.devRef .tc main_arg24) = V (Proc.devRef .tc main_arg24) :=
  after_keep ops Ws hW V main_arg24 (by decide)
theorem k_arg25 (V : Valuation τ sig (Elt F)) : after ops V (Proc.devRef .tc main_arg25) = V (Proc.devRef .tc main_arg25) :=
  after_keep ops Ws hW V main_arg25 (by decide)
theorem k_arg26 (V : Valuation τ sig (Elt F)) : after ops V (Proc.devRef .tc main_arg26) = V (Proc.devRef .tc main_arg26) :=
  after_keep ops Ws hW V main_arg26 (by decide)
theorem k_arg27 (V : Valuation τ sig (Elt F)) : after ops V (Proc.devRef .tc main_arg27) = V (Proc.devRef .tc main_arg27) :=
  after_keep ops Ws hW V main_arg27 (by decide)
theorem k_arg28 (V : Valuation τ sig (Elt F)) : after ops V (Proc.devRef .tc main_arg28) = V (Proc.devRef .tc main_arg28) :=
  after_keep ops Ws hW V main_arg28 (by decide)

/-! ## The operations the result depends on, one at a time -/

theorem r_v47 (V : Valuation τ sig (Elt F)) : after ops V (Proc.devRef .tc main_v47) = ((fun l r => Host.dotGeneral dot_S500000x128_S128x64_S500000x64_1_0_0_1_n_n none l r) : (⟨S500000x128, .f32⟩ : BufTy).Contents (Elt F) → (⟨S128x64, .f32⟩ : BufTy).Contents (Elt F) → (⟨S500000x64, .f32⟩ : BufTy).Contents (Elt F)) (after ops V (Proc.devRef .tc main_arg0)) (after ops V (Proc.devRef .tc main_arg19)) :=
  read_binary ops Ws hW 60 (hk 60 (by decide)) V main_arg0 main_arg19 main_v47 _ ⟨by decide, rfl⟩ ⟨by decide, rfl⟩ ⟨by decide, rfl⟩ rfl (by decide) (by decide) (by decide)
theorem r_v48 (V : Valuation τ sig (Elt F)) : after ops V (Proc.devRef .tc main_v48) = (broadcastInDim S1x64 ![1] bcast_S64_S1x64_1 : (⟨S64, .f32⟩ : BufTy).Contents (Elt F) → (⟨S1x64, .f32⟩ : BufTy).Contents (Elt F)) (after ops V (Proc.devRef .tc main_arg20)) :=
  read_unary ops Ws hW 61 (hk 61 (by decide)) V main_arg20 main_v48 _ ⟨by decide, rfl⟩ ⟨by decide, rfl⟩ rfl (by decide) (by decide)
theorem r_v49 (V : Valuation τ sig (Elt F)) : after ops V (Proc.devRef .tc main_v49) = (broadcastInDim S500000x64 ![0, 1] bcast_S1x64_S500000x64_0_1 : (⟨S1x64, .f32⟩ : BufTy).Contents (Elt F) → (⟨S500000x64, .f32⟩ : BufTy).Contents (Elt F)) (after ops V (Proc.devRef .tc main_v48)) :=
  read_unary ops Ws hW 62 (hk 62 (by decide)) V main_v48 main_v49 _ ⟨by decide, rfl⟩ ⟨by decide, rfl⟩ rfl (by decide) (by decide)
theorem r_v50 (V : Valuation τ sig (Elt F)) : after ops V (Proc.devRef .tc main_v50) = (addf : (⟨S500000x64, .f32⟩ : BufTy).Contents (Elt F) → (⟨S500000x64, .f32⟩ : BufTy).Contents (Elt F) → (⟨S500000x64, .f32⟩ : BufTy).Contents (Elt F)) (after ops V (Proc.devRef .tc main_v47)) (after ops V (Proc.devRef .tc main_v49)) :=
  read_binary ops Ws hW 63 (hk 63 (by decide)) V main_v47 main_v49 main_v50 _ ⟨by decide, rfl⟩ ⟨by decide, rfl⟩ ⟨by decide, rfl⟩ rfl (by decide) (by decide) (by decide)
theorem r_c_11 (V : Valuation τ sig (Elt F)) : after ops V (Proc.devRef .tc main_c_11) = (constantI S_ 32 0#32) :=
  read_nullary ops Ws hW 64 (hk 64 (by decide)) V main_c_11 _ ⟨by decide, rfl⟩ rfl (by decide)
theorem r_v51 (V : Valuation τ sig (Elt F)) : after ops V (Proc.devRef .tc main_v51) = (broadcastInDim S500000 ![] bcast_S_S500000 : (⟨S_, .i32⟩ : BufTy).Contents (Elt F) → (⟨S500000, .i32⟩ : BufTy).Contents (Elt F)) (after ops V (Proc.devRef .tc main_c_11)) :=
  read_unary ops Ws hW 65 (hk 65 (by decide)) V main_c_11 main_v51 _ ⟨by decide, rfl⟩ ⟨by decide, rfl⟩ rfl (by decide) (by decide)
theorem r_v52 (V : Valuation τ sig (Elt F)) : after ops V (Proc.devRef .tc main_v52) = (cmpi .slt : (⟨S500000, .i32⟩ : BufTy).Contents (Elt F) → (⟨S500000, .i32⟩ : BufTy).Contents (Elt F) → (⟨S500000, .i1⟩ : BufTy).Contents (Elt F)) (after ops V (Proc.devRef .tc main_arg7)) (after ops V (Proc.devRef .tc main_v51)) :=
  read_binary ops Ws hW 66 (hk 66 (by decide)) V main_arg7 main_v51 main_v52 _ ⟨by decide, rfl⟩ ⟨by decide, rfl⟩ ⟨by decide, rfl⟩ rfl (by decide) (by decide) (by decide)
theorem r_c_12 (V : Valuation τ sig (Elt F)) : after ops V (Proc.devRef .tc main_c_12) = (constantI S_ 32 500000#32) :=
  read_nullary ops Ws hW 67 (hk 67 (by decide)) V main_c_12 _ ⟨by decide, rfl⟩ rfl (by decide)
theorem r_v53 (V : Valuation τ sig (Elt F)) : after ops V (Proc.devRef .tc main_v53) = (broadcastInDim S500000 ![] bcast_S_S500000 : (⟨S_, .i32⟩ : BufTy).Contents (Elt F) → (⟨S500000, .i32⟩ : BufTy).Contents (Elt F)) (after ops V (Proc.devRef .tc main_c_12)) :=
  read_unary ops Ws hW 68 (hk 68 (by decide)) V main_c_12 main_v53 _ ⟨by decide, rfl⟩ ⟨by decide, rfl⟩ rfl (by decide) (by decide)
theorem r_v54 (V : Valuation τ sig (Elt F)) : after ops V (Proc.devRef .tc main_v54) = (addi : (⟨S500000, .i32⟩ : BufTy).Contents (Elt F) → (⟨S500000, .i32⟩ : BufTy).Contents (Elt F) → (⟨S500000, .i32⟩ : BufTy).Contents (Elt F)) (after ops V (Proc.devRef .tc main_arg7)) (after ops V (Proc.devRef .tc main_v53)) :=
  read_binary ops Ws hW 69 (hk 69 (by decide)) V main_arg7 main_v53 main_v54 _ ⟨by decide, rfl⟩ ⟨by decide, rfl⟩ ⟨by decide, rfl⟩ rfl (by decide) (by decide) (by decide)
theorem r_v55 (V : Valuation τ sig (Elt F)) : after ops V (Proc.devRef .tc main_v55) = (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) (after ops V (Proc.devRef .tc main_v52)) (after ops V (Proc.devRef .tc main_v54)) (after ops V (Proc.devRef .tc main_arg7)) :=
  read_ternary ops Ws hW 70 (hk 70 (by decide)) V main_v52 main_v54 main_arg7 main_v55 _ ⟨by decide, rfl⟩ ⟨by decide, rfl⟩ ⟨by decide, rfl⟩ ⟨by decide, rfl⟩ rfl (by decide) (by decide) (by decide) (by decide)
theorem r_v56 (V : Valuation τ sig (Elt F)) : after ops V (Proc.devRef .tc main_v56) = (broadcastInDim S500000x1 ![0] bcast_S500000_S500000x1_0 : (⟨S500000, .i32⟩ : BufTy).Contents (Elt F) → (⟨S500000x1, .i32⟩ : BufTy).Contents (Elt F)) (after ops V (Proc.devRef .tc main_v55)) :=
  read_unary ops Ws hW 71 (hk 71 (by decide)) V main_v55 main_v56 _ ⟨by decide, rfl⟩ ⟨by decide, rfl⟩ rfl (by decide) (by decide)
theorem r_v57 (V : Valuation τ sig (Elt F)) : after ops V (Proc.devRef .tc main_v57) = ((fun x i => Host.gather gather_S500000x64_S500000x1_S500000x64_1_0_n_n_0_1_164 x i) : (⟨S500000x64, .f32⟩ : BufTy).Contents (Elt F) → (⟨S500000x1, .i32⟩ : BufTy).Contents (Elt F) → (⟨S500000x64, .f32⟩ : BufTy).Contents (Elt F)) (after ops V (Proc.devRef .tc main_v50)) (after ops V (Proc.devRef .tc main_v56)) :=
  read_binary ops Ws hW 72 (hk 72 (by decide)) V main_v50 main_v56 main_v57 _ ⟨by decide, rfl⟩ ⟨by decide, rfl⟩ ⟨by decide, rfl⟩ rfl (by decide) (by decide) (by decide)
theorem r_cst_13 (V : Valuation τ sig (Elt F)) : after ops V (Proc.devRef .tc main_cst_13) = (constant S_ .f32 0x00000000#32) :=
  read_nullary ops Ws hW 73 (hk 73 (by decide)) V main_cst_13 _ ⟨by decide, rfl⟩ rfl (by decide)
theorem r_v58 (V : Valuation τ sig (Elt F)) : after ops V (Proc.devRef .tc main_v58) = (broadcastInDim S100000x64 ![] bcast_S_S100000x64 : (⟨S_, .f32⟩ : BufTy).Contents (Elt F) → (⟨S100000x64, .f32⟩ : BufTy).Contents (Elt F)) (after ops V (Proc.devRef .tc main_cst_13)) :=
  read_unary ops Ws hW 74 (hk 74 (by decide)) V main_cst_13 main_v58 _ ⟨by decide, rfl⟩ ⟨by decide, rfl⟩ rfl (by decide) (by decide)
theorem r_v59 (V : Valuation τ sig (Elt F)) : after ops V (Proc.devRef .tc main_v59) = (broadcastInDim S500000x1 ![0] bcast_S500000_S500000x1_0 : (⟨S500000, .i32⟩ : BufTy).Contents (Elt F) → (⟨S500000x1, .i32⟩ : BufTy).Contents (Elt F)) (after ops V (Proc.devRef .tc main_arg8)) :=
  read_unary ops Ws hW 75 (hk 75 (by decide)) V main_arg8 main_v59 _ ⟨by decide, rfl⟩ ⟨by decide, rfl⟩ rfl (by decide) (by decide)
theorem r_v60 (V : Valuation τ sig (Elt F)) : after ops V (Proc.devRef .tc main_v60) = ((fun x i u => Host.scatterAdd scatter_S100000x64_S500000x1_S500000x64_1_0_0_1 x i u) : (⟨S100000x64, .f32⟩ : BufTy).Contents (Elt F) → (⟨S500000x1, .i32⟩ : BufTy).Contents (Elt F) → (⟨S500000x64, .f32⟩ : BufTy).Contents (Elt F) → (⟨S100000x64, .f32⟩ : BufTy).Contents (Elt F)) (after ops V (Proc.devRef .tc main_v58)) (after ops V (Proc.devRef .tc main_v59)) (after ops V (Proc.devRef .tc main_v57)) :=
  read_ternary ops Ws hW 76 (hk 76 (by decide)) V main_v58 main_v59 main_v57 main_v60 _ ⟨by decide, rfl⟩ ⟨by decide, rfl⟩ ⟨by decide, rfl⟩ ⟨by decide, rfl⟩ rfl (by decide) (by decide) (by decide) (by decide)
theorem r_cst_14 (V : Valuation τ sig (Elt F)) : after ops V (Proc.devRef .tc main_cst_14) = (constant S_ .f32 0x3F800000#32) :=
  read_nullary ops Ws hW 77 (hk 77 (by decide)) V main_cst_14 _ ⟨by decide, rfl⟩ rfl (by decide)
theorem r_v61 (V : Valuation τ sig (Elt F)) : after ops V (Proc.devRef .tc main_v61) = (broadcastInDim S500000x1 ![] bcast_S_S500000x1 : (⟨S_, .f32⟩ : BufTy).Contents (Elt F) → (⟨S500000x1, .f32⟩ : BufTy).Contents (Elt F)) (after ops V (Proc.devRef .tc main_cst_14)) :=
  read_unary ops Ws hW 78 (hk 78 (by decide)) V main_cst_14 main_v61 _ ⟨by decide, rfl⟩ ⟨by decide, rfl⟩ rfl (by decide) (by decide)
theorem r_cst_15 (V : Valuation τ sig (Elt F)) : after ops V (Proc.devRef .tc main_cst_15) = (constant S_ .f32 0x00000000#32) :=
  read_nullary ops Ws hW 79 (hk 79 (by decide)) V main_cst_15 _ ⟨by decide, rfl⟩ rfl (by decide)
theorem r_v62 (V : Valuation τ sig (Elt F)) : after ops V (Proc.devRef .tc main_v62) = (broadcastInDim S100000x1 ![] bcast_S_S100000x1 : (⟨S_, .f32⟩ : BufTy).Contents (Elt F) → (⟨S100000x1, .f32⟩ : BufTy).Contents (Elt F)) (after ops V (Proc.devRef .tc main_cst_15)) :=
  read_unary ops Ws hW 80 (hk 80 (by decide)) V main_cst_15 main_v62 _ ⟨by decide, rfl⟩ ⟨by decide, rfl⟩ rfl (by decide) (by decide)
theorem r_v63 (V : Valuation τ sig (Elt F)) : after ops V (Proc.devRef .tc main_v63) = (broadcastInDim S500000x1 ![0] bcast_S500000_S500000x1_0 : (⟨S500000, .i32⟩ : BufTy).Contents (Elt F) → (⟨S500000x1, .i32⟩ : BufTy).Contents (Elt F)) (after ops V (Proc.devRef .tc main_arg8)) :=
  read_unary ops Ws hW 81 (hk 81 (by decide)) V main_arg8 main_v63 _ ⟨by decide, rfl⟩ ⟨by decide, rfl⟩ rfl (by decide) (by decide)
theorem r_v64 (V : Valuation τ sig (Elt F)) : after ops V (Proc.devRef .tc main_v64) = ((fun x i u => Host.scatterAdd scatter_S100000x1_S500000x1_S500000x1_1_0_0_1 x i u) : (⟨S100000x1, .f32⟩ : BufTy).Contents (Elt F) → (⟨S500000x1, .i32⟩ : BufTy).Contents (Elt F) → (⟨S500000x1, .f32⟩ : BufTy).Contents (Elt F) → (⟨S100000x1, .f32⟩ : BufTy).Contents (Elt F)) (after ops V (Proc.devRef .tc main_v62)) (after ops V (Proc.devRef .tc main_v63)) (after ops V (Proc.devRef .tc main_v61)) :=
  read_ternary ops Ws hW 82 (hk 82 (by decide)) V main_v62 main_v63 main_v61 main_v64 _ ⟨by decide, rfl⟩ ⟨by decide, rfl⟩ ⟨by decide, rfl⟩ ⟨by decide, rfl⟩ rfl (by decide) (by decide) (by decide) (by decide)
theorem r_cst_16 (V : Valuation τ sig (Elt F)) : after ops V (Proc.devRef .tc main_cst_16) = (constant S_ .f32 0x3F800000#32) :=
  read_nullary ops Ws hW 83 (hk 83 (by decide)) V main_cst_16 _ ⟨by decide, rfl⟩ rfl (by decide)
theorem r_v65 (V : Valuation τ sig (Elt F)) : after ops V (Proc.devRef .tc main_v65) = (broadcastInDim S100000x1 ![] bcast_S_S100000x1 : (⟨S_, .f32⟩ : BufTy).Contents (Elt F) → (⟨S100000x1, .f32⟩ : BufTy).Contents (Elt F)) (after ops V (Proc.devRef .tc main_cst_16)) :=
  read_unary ops Ws hW 84 (hk 84 (by decide)) V main_cst_16 main_v65 _ ⟨by decide, rfl⟩ ⟨by decide, rfl⟩ rfl (by decide) (by decide)
theorem r_v66 (V : Valuation τ sig (Elt F)) : after ops V (Proc.devRef .tc main_v66) = (maximumf : (⟨S100000x1, .f32⟩ : BufTy).Contents (Elt F) → (⟨S100000x1, .f32⟩ : BufTy).Contents (Elt F) → (⟨S100000x1, .f32⟩ : BufTy).Contents (Elt F)) (after ops V (Proc.devRef .tc main_v64)) (after ops V (Proc.devRef .tc main_v65)) :=
  read_binary ops Ws hW 85 (hk 85 (by decide)) V main_v64 main_v65 main_v66 _ ⟨by decide, rfl⟩ ⟨by decide, rfl⟩ ⟨by decide, rfl⟩ rfl (by decide) (by decide) (by decide)
theorem r_v67 (V : Valuation τ sig (Elt F)) : after ops V (Proc.devRef .tc main_v67) = (broadcastInDim S100000x64 ![0, 1] bcast_S100000x1_S100000x64_0_1 : (⟨S100000x1, .f32⟩ : BufTy).Contents (Elt F) → (⟨S100000x64, .f32⟩ : BufTy).Contents (Elt F)) (after ops V (Proc.devRef .tc main_v66)) :=
  read_unary ops Ws hW 86 (hk 86 (by decide)) V main_v66 main_v67 _ ⟨by decide, rfl⟩ ⟨by decide, rfl⟩ rfl (by decide) (by decide)
theorem r_v68 (V : Valuation τ sig (Elt F)) : after ops V (Proc.devRef .tc main_v68) = (Host.divf : (⟨S100000x64, .f32⟩ : BufTy).Contents (Elt F) → (⟨S100000x64, .f32⟩ : BufTy).Contents (Elt F) → (⟨S100000x64, .f32⟩ : BufTy).Contents (Elt F)) (after ops V (Proc.devRef .tc main_v60)) (after ops V (Proc.devRef .tc main_v67)) :=
  read_binary ops Ws hW 87 (hk 87 (by decide)) V main_v60 main_v67 main_v68 _ ⟨by decide, rfl⟩ ⟨by decide, rfl⟩ ⟨by decide, rfl⟩ rfl (by decide) (by decide) (by decide)
theorem r_cst_17 (V : Valuation τ sig (Elt F)) : after ops V (Proc.devRef .tc main_cst_17) = (constant S_ .f32 0x00000000#32) :=
  read_nullary ops Ws hW 88 (hk 88 (by decide)) V main_cst_17 _ ⟨by decide, rfl⟩ rfl (by decide)
theorem r_v69 (V : Valuation τ sig (Elt F)) : after ops V (Proc.devRef .tc main_v69) = (broadcastInDim S100000x64 ![] bcast_S_S100000x64 : (⟨S_, .f32⟩ : BufTy).Contents (Elt F) → (⟨S100000x64, .f32⟩ : BufTy).Contents (Elt F)) (after ops V (Proc.devRef .tc main_cst_17)) :=
  read_unary ops Ws hW 89 (hk 89 (by decide)) V main_cst_17 main_v69 _ ⟨by decide, rfl⟩ ⟨by decide, rfl⟩ rfl (by decide) (by decide)
theorem r_v70 (V : Valuation τ sig (Elt F)) : after ops V (Proc.devRef .tc main_v70) = (addf : (⟨S100000x64, .f32⟩ : BufTy).Contents (Elt F) → (⟨S100000x64, .f32⟩ : BufTy).Contents (Elt F) → (⟨S100000x64, .f32⟩ : BufTy).Contents (Elt F)) (after ops V (Proc.devRef .tc main_v69)) (after ops V (Proc.devRef .tc main_v68)) :=
  read_binary ops Ws hW 90 (hk 90 (by decide)) V main_v69 main_v68 main_v70 _ ⟨by decide, rfl⟩ ⟨by decide, rfl⟩ ⟨by decide, rfl⟩ rfl (by decide) (by decide) (by decide)
theorem r_v71 (V : Valuation τ sig (Elt F)) : after ops V (Proc.devRef .tc main_v71) = ((fun l r => Host.dotGeneral dot_S500000x128_S128x64_S500000x64_1_0_0_1_n_n none l r) : (⟨S500000x128, .f32⟩ : BufTy).Contents (Elt F) → (⟨S128x64, .f32⟩ : BufTy).Contents (Elt F) → (⟨S500000x64, .f32⟩ : BufTy).Contents (Elt F)) (after ops V (Proc.devRef .tc main_arg0)) (after ops V (Proc.devRef .tc main_arg23)) :=
  read_binary ops Ws hW 91 (hk 91 (by decide)) V main_arg0 main_arg23 main_v71 _ ⟨by decide, rfl⟩ ⟨by decide, rfl⟩ ⟨by decide, rfl⟩ rfl (by decide) (by decide) (by decide)
theorem r_v72 (V : Valuation τ sig (Elt F)) : after ops V (Proc.devRef .tc main_v72) = (broadcastInDim S1x64 ![1] bcast_S64_S1x64_1 : (⟨S64, .f32⟩ : BufTy).Contents (Elt F) → (⟨S1x64, .f32⟩ : BufTy).Contents (Elt F)) (after ops V (Proc.devRef .tc main_arg24)) :=
  read_unary ops Ws hW 92 (hk 92 (by decide)) V main_arg24 main_v72 _ ⟨by decide, rfl⟩ ⟨by decide, rfl⟩ rfl (by decide) (by decide)
theorem r_v73 (V : Valuation τ sig (Elt F)) : after ops V (Proc.devRef .tc main_v73) = (broadcastInDim S500000x64 ![0, 1] bcast_S1x64_S500000x64_0_1 : (⟨S1x64, .f32⟩ : BufTy).Contents (Elt F) → (⟨S500000x64, .f32⟩ : BufTy).Contents (Elt F)) (after ops V (Proc.devRef .tc main_v72)) :=
  read_unary ops Ws hW 93 (hk 93 (by decide)) V main_v72 main_v73 _ ⟨by decide, rfl⟩ ⟨by decide, rfl⟩ rfl (by decide) (by decide)
theorem r_v74 (V : Valuation τ sig (Elt F)) : after ops V (Proc.devRef .tc main_v74) = (addf : (⟨S500000x64, .f32⟩ : BufTy).Contents (Elt F) → (⟨S500000x64, .f32⟩ : BufTy).Contents (Elt F) → (⟨S500000x64, .f32⟩ : BufTy).Contents (Elt F)) (after ops V (Proc.devRef .tc main_v71)) (after ops V (Proc.devRef .tc main_v73)) :=
  read_binary ops Ws hW 94 (hk 94 (by decide)) V main_v71 main_v73 main_v74 _ ⟨by decide, rfl⟩ ⟨by decide, rfl⟩ ⟨by decide, rfl⟩ rfl (by decide) (by decide) (by decide)
theorem r_c_18 (V : Valuation τ sig (Elt F)) : after ops V (Proc.devRef .tc main_c_18) = (constantI S_ 32 0#32) :=
  read_nullary ops Ws hW 95 (hk 95 (by decide)) V main_c_18 _ ⟨by decide, rfl⟩ rfl (by decide)
theorem r_v75 (V : Valuation τ sig (Elt F)) : after ops V (Proc.devRef .tc main_v75) = (broadcastInDim S500000 ![] bcast_S_S500000 : (⟨S_, .i32⟩ : BufTy).Contents (Elt F) → (⟨S500000, .i32⟩ : BufTy).Contents (Elt F)) (after ops V (Proc.devRef .tc main_c_18)) :=
  read_unary ops Ws hW 96 (hk 96 (by decide)) V main_c_18 main_v75 _ ⟨by decide, rfl⟩ ⟨by decide, rfl⟩ rfl (by decide) (by decide)
theorem r_v76 (V : Valuation τ sig (Elt F)) : after ops V (Proc.devRef .tc main_v76) = (cmpi .slt : (⟨S500000, .i32⟩ : BufTy).Contents (Elt F) → (⟨S500000, .i32⟩ : BufTy).Contents (Elt F) → (⟨S500000, .i1⟩ : BufTy).Contents (Elt F)) (after ops V (Proc.devRef .tc main_arg9)) (after ops V (Proc.devRef .tc main_v75)) :=
  read_binary ops Ws hW 97 (hk 97 (by decide)) V main_arg9 main_v75 main_v76 _ ⟨by decide, rfl⟩ ⟨by decide, rfl⟩ ⟨by decide, rfl⟩ rfl (by decide) (by decide) (by decide)
theorem r_c_19 (V : Valuation τ sig (Elt F)) : after ops V (Proc.devRef .tc main_c_19) = (constantI S_ 32 500000#32) :=
  read_nullary ops Ws hW 98 (hk 98 (by decide)) V main_c_19 _ ⟨by decide, rfl⟩ rfl (by decide)
theorem r_v77 (V : Valuation τ sig (Elt F)) : after ops V (Proc.devRef .tc main_v77) = (broadcastInDim S500000 ![] bcast_S_S500000 : (⟨S_, .i32⟩ : BufTy).Contents (Elt F) → (⟨S500000, .i32⟩ : BufTy).Contents (Elt F)) (after ops V (Proc.devRef .tc main_c_19)) :=
  read_unary ops Ws hW 99 (hk 99 (by decide)) V main_c_19 main_v77 _ ⟨by decide, rfl⟩ ⟨by decide, rfl⟩ rfl (by decide) (by decide)
theorem r_v78 (V : Valuation τ sig (Elt F)) : after ops V (Proc.devRef .tc main_v78) = (addi : (⟨S500000, .i32⟩ : BufTy).Contents (Elt F) → (⟨S500000, .i32⟩ : BufTy).Contents (Elt F) → (⟨S500000, .i32⟩ : BufTy).Contents (Elt F)) (after ops V (Proc.devRef .tc main_arg9)) (after ops V (Proc.devRef .tc main_v77)) :=
  read_binary ops Ws hW 100 (hk 100 (by decide)) V main_arg9 main_v77 main_v78 _ ⟨by decide, rfl⟩ ⟨by decide, rfl⟩ ⟨by decide, rfl⟩ rfl (by decide) (by decide) (by decide)
theorem r_v79 (V : Valuation τ sig (Elt F)) : after ops V (Proc.devRef .tc main_v79) = (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) (after ops V (Proc.devRef .tc main_v76)) (after ops V (Proc.devRef .tc main_v78)) (after ops V (Proc.devRef .tc main_arg9)) :=
  read_ternary ops Ws hW 101 (hk 101 (by decide)) V main_v76 main_v78 main_arg9 main_v79 _ ⟨by decide, rfl⟩ ⟨by decide, rfl⟩ ⟨by decide, rfl⟩ ⟨by decide, rfl⟩ rfl (by decide) (by decide) (by decide) (by decide)
theorem r_v80 (V : Valuation τ sig (Elt F)) : after ops V (Proc.devRef .tc main_v80) = (broadcastInDim S500000x1 ![0] bcast_S500000_S500000x1_0 : (⟨S500000, .i32⟩ : BufTy).Contents (Elt F) → (⟨S500000x1, .i32⟩ : BufTy).Contents (Elt F)) (after ops V (Proc.devRef .tc main_v79)) :=
  read_unary ops Ws hW 102 (hk 102 (by decide)) V main_v79 main_v80 _ ⟨by decide, rfl⟩ ⟨by decide, rfl⟩ rfl (by decide) (by decide)
theorem r_v81 (V : Valuation τ sig (Elt F)) : after ops V (Proc.devRef .tc main_v81) = ((fun x i => Host.gather gather_S500000x64_S500000x1_S500000x64_1_0_n_n_0_1_164 x i) : (⟨S500000x64, .f32⟩ : BufTy).Contents (Elt F) → (⟨S500000x1, .i32⟩ : BufTy).Contents (Elt F) → (⟨S500000x64, .f32⟩ : BufTy).Contents (Elt F)) (after ops V (Proc.devRef .tc main_v74)) (after ops V (Proc.devRef .tc main_v80)) :=
  read_binary ops Ws hW 103 (hk 103 (by decide)) V main_v74 main_v80 main_v81 _ ⟨by decide, rfl⟩ ⟨by decide, rfl⟩ ⟨by decide, rfl⟩ rfl (by decide) (by decide) (by decide)
theorem r_cst_20 (V : Valuation τ sig (Elt F)) : after ops V (Proc.devRef .tc main_cst_20) = (constant S_ .f32 0x00000000#32) :=
  read_nullary ops Ws hW 104 (hk 104 (by decide)) V main_cst_20 _ ⟨by decide, rfl⟩ rfl (by decide)
theorem r_v82 (V : Valuation τ sig (Elt F)) : after ops V (Proc.devRef .tc main_v82) = (broadcastInDim S20000x64 ![] bcast_S_S20000x64 : (⟨S_, .f32⟩ : BufTy).Contents (Elt F) → (⟨S20000x64, .f32⟩ : BufTy).Contents (Elt F)) (after ops V (Proc.devRef .tc main_cst_20)) :=
  read_unary ops Ws hW 105 (hk 105 (by decide)) V main_cst_20 main_v82 _ ⟨by decide, rfl⟩ ⟨by decide, rfl⟩ rfl (by decide) (by decide)
theorem r_v83 (V : Valuation τ sig (Elt F)) : after ops V (Proc.devRef .tc main_v83) = (broadcastInDim S500000x1 ![0] bcast_S500000_S500000x1_0 : (⟨S500000, .i32⟩ : BufTy).Contents (Elt F) → (⟨S500000x1, .i32⟩ : BufTy).Contents (Elt F)) (after ops V (Proc.devRef .tc main_arg10)) :=
  read_unary ops Ws hW 106 (hk 106 (by decide)) V main_arg10 main_v83 _ ⟨by decide, rfl⟩ ⟨by decide, rfl⟩ rfl (by decide) (by decide)
theorem r_v84 (V : Valuation τ sig (Elt F)) : after ops V (Proc.devRef .tc main_v84) = ((fun x i u => Host.scatterAdd scatter_S20000x64_S500000x1_S500000x64_1_0_0_1 x i u) : (⟨S20000x64, .f32⟩ : BufTy).Contents (Elt F) → (⟨S500000x1, .i32⟩ : BufTy).Contents (Elt F) → (⟨S500000x64, .f32⟩ : BufTy).Contents (Elt F) → (⟨S20000x64, .f32⟩ : BufTy).Contents (Elt F)) (after ops V (Proc.devRef .tc main_v82)) (after ops V (Proc.devRef .tc main_v83)) (after ops V (Proc.devRef .tc main_v81)) :=
  read_ternary ops Ws hW 107 (hk 107 (by decide)) V main_v82 main_v83 main_v81 main_v84 _ ⟨by decide, rfl⟩ ⟨by decide, rfl⟩ ⟨by decide, rfl⟩ ⟨by decide, rfl⟩ rfl (by decide) (by decide) (by decide) (by decide)
theorem r_cst_21 (V : Valuation τ sig (Elt F)) : after ops V (Proc.devRef .tc main_cst_21) = (constant S_ .f32 0x3F800000#32) :=
  read_nullary ops Ws hW 108 (hk 108 (by decide)) V main_cst_21 _ ⟨by decide, rfl⟩ rfl (by decide)
theorem r_v85 (V : Valuation τ sig (Elt F)) : after ops V (Proc.devRef .tc main_v85) = (broadcastInDim S500000x1 ![] bcast_S_S500000x1 : (⟨S_, .f32⟩ : BufTy).Contents (Elt F) → (⟨S500000x1, .f32⟩ : BufTy).Contents (Elt F)) (after ops V (Proc.devRef .tc main_cst_21)) :=
  read_unary ops Ws hW 109 (hk 109 (by decide)) V main_cst_21 main_v85 _ ⟨by decide, rfl⟩ ⟨by decide, rfl⟩ rfl (by decide) (by decide)
theorem r_cst_22 (V : Valuation τ sig (Elt F)) : after ops V (Proc.devRef .tc main_cst_22) = (constant S_ .f32 0x00000000#32) :=
  read_nullary ops Ws hW 110 (hk 110 (by decide)) V main_cst_22 _ ⟨by decide, rfl⟩ rfl (by decide)
theorem r_v86 (V : Valuation τ sig (Elt F)) : after ops V (Proc.devRef .tc main_v86) = (broadcastInDim S20000x1 ![] bcast_S_S20000x1 : (⟨S_, .f32⟩ : BufTy).Contents (Elt F) → (⟨S20000x1, .f32⟩ : BufTy).Contents (Elt F)) (after ops V (Proc.devRef .tc main_cst_22)) :=
  read_unary ops Ws hW 111 (hk 111 (by decide)) V main_cst_22 main_v86 _ ⟨by decide, rfl⟩ ⟨by decide, rfl⟩ rfl (by decide) (by decide)
theorem r_v87 (V : Valuation τ sig (Elt F)) : after ops V (Proc.devRef .tc main_v87) = (broadcastInDim S500000x1 ![0] bcast_S500000_S500000x1_0 : (⟨S500000, .i32⟩ : BufTy).Contents (Elt F) → (⟨S500000x1, .i32⟩ : BufTy).Contents (Elt F)) (after ops V (Proc.devRef .tc main_arg10)) :=
  read_unary ops Ws hW 112 (hk 112 (by decide)) V main_arg10 main_v87 _ ⟨by decide, rfl⟩ ⟨by decide, rfl⟩ rfl (by decide) (by decide)
theorem r_v88 (V : Valuation τ sig (Elt F)) : after ops V (Proc.devRef .tc main_v88) = ((fun x i u => Host.scatterAdd scatter_S20000x1_S500000x1_S500000x1_1_0_0_1 x i u) : (⟨S20000x1, .f32⟩ : BufTy).Contents (Elt F) → (⟨S500000x1, .i32⟩ : BufTy).Contents (Elt F) → (⟨S500000x1, .f32⟩ : BufTy).Contents (Elt F) → (⟨S20000x1, .f32⟩ : BufTy).Contents (Elt F)) (after ops V (Proc.devRef .tc main_v86)) (after ops V (Proc.devRef .tc main_v87)) (after ops V (Proc.devRef .tc main_v85)) :=
  read_ternary ops Ws hW 113 (hk 113 (by decide)) V main_v86 main_v87 main_v85 main_v88 _ ⟨by decide, rfl⟩ ⟨by decide, rfl⟩ ⟨by decide, rfl⟩ ⟨by decide, rfl⟩ rfl (by decide) (by decide) (by decide) (by decide)
theorem r_cst_23 (V : Valuation τ sig (Elt F)) : after ops V (Proc.devRef .tc main_cst_23) = (constant S_ .f32 0x3F800000#32) :=
  read_nullary ops Ws hW 114 (hk 114 (by decide)) V main_cst_23 _ ⟨by decide, rfl⟩ rfl (by decide)
theorem r_v89 (V : Valuation τ sig (Elt F)) : after ops V (Proc.devRef .tc main_v89) = (broadcastInDim S20000x1 ![] bcast_S_S20000x1 : (⟨S_, .f32⟩ : BufTy).Contents (Elt F) → (⟨S20000x1, .f32⟩ : BufTy).Contents (Elt F)) (after ops V (Proc.devRef .tc main_cst_23)) :=
  read_unary ops Ws hW 115 (hk 115 (by decide)) V main_cst_23 main_v89 _ ⟨by decide, rfl⟩ ⟨by decide, rfl⟩ rfl (by decide) (by decide)
theorem r_v90 (V : Valuation τ sig (Elt F)) : after ops V (Proc.devRef .tc main_v90) = (maximumf : (⟨S20000x1, .f32⟩ : BufTy).Contents (Elt F) → (⟨S20000x1, .f32⟩ : BufTy).Contents (Elt F) → (⟨S20000x1, .f32⟩ : BufTy).Contents (Elt F)) (after ops V (Proc.devRef .tc main_v88)) (after ops V (Proc.devRef .tc main_v89)) :=
  read_binary ops Ws hW 116 (hk 116 (by decide)) V main_v88 main_v89 main_v90 _ ⟨by decide, rfl⟩ ⟨by decide, rfl⟩ ⟨by decide, rfl⟩ rfl (by decide) (by decide) (by decide)
theorem r_v91 (V : Valuation τ sig (Elt F)) : after ops V (Proc.devRef .tc main_v91) = (broadcastInDim S20000x64 ![0, 1] bcast_S20000x1_S20000x64_0_1 : (⟨S20000x1, .f32⟩ : BufTy).Contents (Elt F) → (⟨S20000x64, .f32⟩ : BufTy).Contents (Elt F)) (after ops V (Proc.devRef .tc main_v90)) :=
  read_unary ops Ws hW 117 (hk 117 (by decide)) V main_v90 main_v91 _ ⟨by decide, rfl⟩ ⟨by decide, rfl⟩ rfl (by decide) (by decide)
theorem r_v92 (V : Valuation τ sig (Elt F)) : after ops V (Proc.devRef .tc main_v92) = (Host.divf : (⟨S20000x64, .f32⟩ : BufTy).Contents (Elt F) → (⟨S20000x64, .f32⟩ : BufTy).Contents (Elt F) → (⟨S20000x64, .f32⟩ : BufTy).Contents (Elt F)) (after ops V (Proc.devRef .tc main_v84)) (after ops V (Proc.devRef .tc main_v91)) :=
  read_binary ops Ws hW 118 (hk 118 (by decide)) V main_v84 main_v91 main_v92 _ ⟨by decide, rfl⟩ ⟨by decide, rfl⟩ ⟨by decide, rfl⟩ rfl (by decide) (by decide) (by decide)
theorem r_cst_24 (V : Valuation τ sig (Elt F)) : after ops V (Proc.devRef .tc main_cst_24) = (constant S_ .f32 0x00000000#32) :=
  read_nullary ops Ws hW 119 (hk 119 (by decide)) V main_cst_24 _ ⟨by decide, rfl⟩ rfl (by decide)
theorem r_v93 (V : Valuation τ sig (Elt F)) : after ops V (Proc.devRef .tc main_v93) = (broadcastInDim S20000x64 ![] bcast_S_S20000x64 : (⟨S_, .f32⟩ : BufTy).Contents (Elt F) → (⟨S20000x64, .f32⟩ : BufTy).Contents (Elt F)) (after ops V (Proc.devRef .tc main_cst_24)) :=
  read_unary ops Ws hW 120 (hk 120 (by decide)) V main_cst_24 main_v93 _ ⟨by decide, rfl⟩ ⟨by decide, rfl⟩ rfl (by decide) (by decide)
theorem r_v94 (V : Valuation τ sig (Elt F)) : after ops V (Proc.devRef .tc main_v94) = (addf : (⟨S20000x64, .f32⟩ : BufTy).Contents (Elt F) → (⟨S20000x64, .f32⟩ : BufTy).Contents (Elt F) → (⟨S20000x64, .f32⟩ : BufTy).Contents (Elt F)) (after ops V (Proc.devRef .tc main_v93)) (after ops V (Proc.devRef .tc main_v92)) :=
  read_binary ops Ws hW 121 (hk 121 (by decide)) V main_v93 main_v92 main_v94 _ ⟨by decide, rfl⟩ ⟨by decide, rfl⟩ ⟨by decide, rfl⟩ rfl (by decide) (by decide) (by decide)
theorem r_call1_cst (V : Valuation τ sig (Elt F)) : after ops V (Proc.devRef .tc main_call1_cst) = (constant S_ .f32 0x00000000#32 : (⟨S_, .f32⟩ : BufTy).Contents (Elt F)) :=
  read_nullary ops Ws hW 129 (hk 129 (by decide)) V main_call1_cst _ ⟨by decide, rfl⟩ rfl (by decide)
theorem r_call1_v0 (V : Valuation τ sig (Elt F)) : after ops V (Proc.devRef .tc main_call1_v0) = (broadcastInDim S100000x64 ![] bcast_S_S100000x64 : (⟨S_, .f32⟩ : BufTy).Contents (Elt F) → (⟨S100000x64, .f32⟩ : BufTy).Contents (Elt F)) (after ops V (Proc.devRef .tc main_call1_cst)) :=
  read_unary ops Ws hW 130 (hk 130 (by decide)) V main_call1_cst main_call1_v0 _ ⟨by decide, rfl⟩ ⟨by decide, rfl⟩ rfl (by decide) (by decide)
theorem r_call1_v1 (V : Valuation τ sig (Elt F)) : after ops V (Proc.devRef .tc main_call1_v1) = (cmpf .oge : (⟨S100000x64, .f32⟩ : BufTy).Contents (Elt F) → (⟨S100000x64, .f32⟩ : BufTy).Contents (Elt F) → (⟨S100000x64, .i1⟩ : BufTy).Contents (Elt F)) (after ops V (Proc.devRef .tc main_v70)) (after ops V (Proc.devRef .tc main_call1_v0)) :=
  read_binary ops Ws hW 131 (hk 131 (by decide)) V main_v70 main_call1_v0 main_call1_v1 _ ⟨by decide, rfl⟩ ⟨by decide, rfl⟩ ⟨by decide, rfl⟩ rfl (by decide) (by decide) (by decide)
theorem r_call1_cst_0 (V : Valuation τ sig (Elt F)) : after ops V (Proc.devRef .tc main_call1_cst_0) = (constant S_ .f32 0x3C23D70A#32 : (⟨S_, .f32⟩ : BufTy).Contents (Elt F)) :=
  read_nullary ops Ws hW 132 (hk 132 (by decide)) V main_call1_cst_0 _ ⟨by decide, rfl⟩ rfl (by decide)
theorem r_call1_v2 (V : Valuation τ sig (Elt F)) : after ops V (Proc.devRef .tc main_call1_v2) = (broadcastInDim S100000x64 ![] bcast_S_S100000x64 : (⟨S_, .f32⟩ : BufTy).Contents (Elt F) → (⟨S100000x64, .f32⟩ : BufTy).Contents (Elt F)) (after ops V (Proc.devRef .tc main_call1_cst_0)) :=
  read_unary ops Ws hW 133 (hk 133 (by decide)) V main_call1_cst_0 main_call1_v2 _ ⟨by decide, rfl⟩ ⟨by decide, rfl⟩ rfl (by decide) (by decide)
theorem r_call1_v3 (V : Valuation τ sig (Elt F)) : after ops V (Proc.devRef .tc main_call1_v3) = (mulf : (⟨S100000x64, .f32⟩ : BufTy).Contents (Elt F) → (⟨S100000x64, .f32⟩ : BufTy).Contents (Elt F) → (⟨S100000x64, .f32⟩ : BufTy).Contents (Elt F)) (after ops V (Proc.devRef .tc main_call1_v2)) (after ops V (Proc.devRef .tc main_v70)) :=
  read_binary ops Ws hW 134 (hk 134 (by decide)) V main_call1_v2 main_v70 main_call1_v3 _ ⟨by decide, rfl⟩ ⟨by decide, rfl⟩ ⟨by decide, rfl⟩ rfl (by decide) (by decide) (by decide)
theorem r_v96 (V : Valuation τ sig (Elt F)) : after ops V (Proc.devRef .tc main_v96) = (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)) (after ops V (Proc.devRef .tc main_call1_v1)) (after ops V (Proc.devRef .tc main_v70)) (after ops V (Proc.devRef .tc main_call1_v3)) :=
  read_ternary ops Ws hW 135 (hk 135 (by decide)) V main_call1_v1 main_v70 main_call1_v3 main_v96 _ ⟨by decide, rfl⟩ ⟨by decide, rfl⟩ ⟨by decide, rfl⟩ ⟨by decide, rfl⟩ rfl (by decide) (by decide) (by decide) (by decide)
theorem r_call2_cst (V : Valuation τ sig (Elt F)) : after ops V (Proc.devRef .tc main_call2_cst) = (constant S_ .f32 0x00000000#32 : (⟨S_, .f32⟩ : BufTy).Contents (Elt F)) :=
  read_nullary ops Ws hW 136 (hk 136 (by decide)) V main_call2_cst _ ⟨by decide, rfl⟩ rfl (by decide)
theorem r_call2_v0 (V : Valuation τ sig (Elt F)) : after ops V (Proc.devRef .tc main_call2_v0) = (broadcastInDim S20000x64 ![] bcast_S_S20000x64 : (⟨S_, .f32⟩ : BufTy).Contents (Elt F) → (⟨S20000x64, .f32⟩ : BufTy).Contents (Elt F)) (after ops V (Proc.devRef .tc main_call2_cst)) :=
  read_unary ops Ws hW 137 (hk 137 (by decide)) V main_call2_cst main_call2_v0 _ ⟨by decide, rfl⟩ ⟨by decide, rfl⟩ rfl (by decide) (by decide)
theorem r_call2_v1 (V : Valuation τ sig (Elt F)) : after ops V (Proc.devRef .tc main_call2_v1) = (cmpf .oge : (⟨S20000x64, .f32⟩ : BufTy).Contents (Elt F) → (⟨S20000x64, .f32⟩ : BufTy).Contents (Elt F) → (⟨S20000x64, .i1⟩ : BufTy).Contents (Elt F)) (after ops V (Proc.devRef .tc main_v94)) (after ops V (Proc.devRef .tc main_call2_v0)) :=
  read_binary ops Ws hW 138 (hk 138 (by decide)) V main_v94 main_call2_v0 main_call2_v1 _ ⟨by decide, rfl⟩ ⟨by decide, rfl⟩ ⟨by decide, rfl⟩ rfl (by decide) (by decide) (by decide)
theorem r_call2_cst_0 (V : Valuation τ sig (Elt F)) : after ops V (Proc.devRef .tc main_call2_cst_0) = (constant S_ .f32 0x3C23D70A#32 : (⟨S_, .f32⟩ : BufTy).Contents (Elt F)) :=
  read_nullary ops Ws hW 139 (hk 139 (by decide)) V main_call2_cst_0 _ ⟨by decide, rfl⟩ rfl (by decide)
theorem r_call2_v2 (V : Valuation τ sig (Elt F)) : after ops V (Proc.devRef .tc main_call2_v2) = (broadcastInDim S20000x64 ![] bcast_S_S20000x64 : (⟨S_, .f32⟩ : BufTy).Contents (Elt F) → (⟨S20000x64, .f32⟩ : BufTy).Contents (Elt F)) (after ops V (Proc.devRef .tc main_call2_cst_0)) :=
  read_unary ops Ws hW 140 (hk 140 (by decide)) V main_call2_cst_0 main_call2_v2 _ ⟨by decide, rfl⟩ ⟨by decide, rfl⟩ rfl (by decide) (by decide)
theorem r_call2_v3 (V : Valuation τ sig (Elt F)) : after ops V (Proc.devRef .tc main_call2_v3) = (mulf : (⟨S20000x64, .f32⟩ : BufTy).Contents (Elt F) → (⟨S20000x64, .f32⟩ : BufTy).Contents (Elt F) → (⟨S20000x64, .f32⟩ : BufTy).Contents (Elt F)) (after ops V (Proc.devRef .tc main_call2_v2)) (after ops V (Proc.devRef .tc main_v94)) :=
  read_binary ops Ws hW 141 (hk 141 (by decide)) V main_call2_v2 main_v94 main_call2_v3 _ ⟨by decide, rfl⟩ ⟨by decide, rfl⟩ ⟨by decide, rfl⟩ rfl (by decide) (by decide) (by decide)
theorem r_v97 (V : Valuation τ sig (Elt F)) : after ops V (Proc.devRef .tc main_v97) = (select : (⟨S20000x64, .i1⟩ : BufTy).Contents (Elt F) → (⟨S20000x64, .f32⟩ : BufTy).Contents (Elt F) → (⟨S20000x64, .f32⟩ : BufTy).Contents (Elt F) → (⟨S20000x64, .f32⟩ : BufTy).Contents (Elt F)) (after ops V (Proc.devRef .tc main_call2_v1)) (after ops V (Proc.devRef .tc main_v94)) (after ops V (Proc.devRef .tc main_call2_v3)) :=
  read_ternary ops Ws hW 142 (hk 142 (by decide)) V main_call2_v1 main_v94 main_call2_v3 main_v97 _ ⟨by decide, rfl⟩ ⟨by decide, rfl⟩ ⟨by decide, rfl⟩ ⟨by decide, rfl⟩ rfl (by decide) (by decide) (by decide) (by decide)
theorem r_v98 (V : Valuation τ sig (Elt F)) : after ops V (Proc.devRef .tc main_v98) = ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) (after ops V (Proc.devRef .tc main_v96)) (after ops V (Proc.devRef .tc main_arg13)) :=
  read_binary ops Ws hW 143 (hk 143 (by decide)) V main_v96 main_arg13 main_v98 _ ⟨by decide, rfl⟩ ⟨by decide, rfl⟩ ⟨by decide, rfl⟩ rfl (by decide) (by decide) (by decide)
theorem r_v99 (V : Valuation τ sig (Elt F)) : after ops V (Proc.devRef .tc main_v99) = (broadcastInDim S1x64 ![1] bcast_S64_S1x64_1 : (⟨S64, .f32⟩ : BufTy).Contents (Elt F) → (⟨S1x64, .f32⟩ : BufTy).Contents (Elt F)) (after ops V (Proc.devRef .tc main_arg14)) :=
  read_unary ops Ws hW 144 (hk 144 (by decide)) V main_arg14 main_v99 _ ⟨by decide, rfl⟩ ⟨by decide, rfl⟩ rfl (by decide) (by decide)
theorem r_v100 (V : Valuation τ sig (Elt F)) : after ops V (Proc.devRef .tc main_v100) = (broadcastInDim S100000x64 ![0, 1] bcast_S1x64_S100000x64_0_1 : (⟨S1x64, .f32⟩ : BufTy).Contents (Elt F) → (⟨S100000x64, .f32⟩ : BufTy).Contents (Elt F)) (after ops V (Proc.devRef .tc main_v99)) :=
  read_unary ops Ws hW 145 (hk 145 (by decide)) V main_v99 main_v100 _ ⟨by decide, rfl⟩ ⟨by decide, rfl⟩ rfl (by decide) (by decide)
theorem r_v101 (V : Valuation τ sig (Elt F)) : after ops V (Proc.devRef .tc main_v101) = (addf : (⟨S100000x64, .f32⟩ : BufTy).Contents (Elt F) → (⟨S100000x64, .f32⟩ : BufTy).Contents (Elt F) → (⟨S100000x64, .f32⟩ : BufTy).Contents (Elt F)) (after ops V (Proc.devRef .tc main_v98)) (after ops V (Proc.devRef .tc main_v100)) :=
  read_binary ops Ws hW 146 (hk 146 (by decide)) V main_v98 main_v100 main_v101 _ ⟨by decide, rfl⟩ ⟨by decide, rfl⟩ ⟨by decide, rfl⟩ rfl (by decide) (by decide) (by decide)
theorem r_c_25 (V : Valuation τ sig (Elt F)) : after ops V (Proc.devRef .tc main_c_25) = (constantI S_ 32 0#32) :=
  read_nullary ops Ws hW 147 (hk 147 (by decide)) V main_c_25 _ ⟨by decide, rfl⟩ rfl (by decide)
theorem r_v102 (V : Valuation τ sig (Elt F)) : after ops V (Proc.devRef .tc main_v102) = (broadcastInDim S500000 ![] bcast_S_S500000 : (⟨S_, .i32⟩ : BufTy).Contents (Elt F) → (⟨S500000, .i32⟩ : BufTy).Contents (Elt F)) (after ops V (Proc.devRef .tc main_c_25)) :=
  read_unary ops Ws hW 148 (hk 148 (by decide)) V main_c_25 main_v102 _ ⟨by decide, rfl⟩ ⟨by decide, rfl⟩ rfl (by decide) (by decide)
theorem r_v103 (V : Valuation τ sig (Elt F)) : after ops V (Proc.devRef .tc main_v103) = (cmpi .slt : (⟨S500000, .i32⟩ : BufTy).Contents (Elt F) → (⟨S500000, .i32⟩ : BufTy).Contents (Elt F) → (⟨S500000, .i1⟩ : BufTy).Contents (Elt F)) (after ops V (Proc.devRef .tc main_arg3)) (after ops V (Proc.devRef .tc main_v102)) :=
  read_binary ops Ws hW 149 (hk 149 (by decide)) V main_arg3 main_v102 main_v103 _ ⟨by decide, rfl⟩ ⟨by decide, rfl⟩ ⟨by decide, rfl⟩ rfl (by decide) (by decide) (by decide)
theorem r_c_26 (V : Valuation τ sig (Elt F)) : after ops V (Proc.devRef .tc main_c_26) = (constantI S_ 32 100000#32) :=
  read_nullary ops Ws hW 150 (hk 150 (by decide)) V main_c_26 _ ⟨by decide, rfl⟩ rfl (by decide)
theorem r_v104 (V : Valuation τ sig (Elt F)) : after ops V (Proc.devRef .tc main_v104) = (broadcastInDim S500000 ![] bcast_S_S500000 : (⟨S_, .i32⟩ : BufTy).Contents (Elt F) → (⟨S500000, .i32⟩ : BufTy).Contents (Elt F)) (after ops V (Proc.devRef .tc main_c_26)) :=
  read_unary ops Ws hW 151 (hk 151 (by decide)) V main_c_26 main_v104 _ ⟨by decide, rfl⟩ ⟨by decide, rfl⟩ rfl (by decide) (by decide)
theorem r_v105 (V : Valuation τ sig (Elt F)) : after ops V (Proc.devRef .tc main_v105) = (addi : (⟨S500000, .i32⟩ : BufTy).Contents (Elt F) → (⟨S500000, .i32⟩ : BufTy).Contents (Elt F) → (⟨S500000, .i32⟩ : BufTy).Contents (Elt F)) (after ops V (Proc.devRef .tc main_arg3)) (after ops V (Proc.devRef .tc main_v104)) :=
  read_binary ops Ws hW 152 (hk 152 (by decide)) V main_arg3 main_v104 main_v105 _ ⟨by decide, rfl⟩ ⟨by decide, rfl⟩ ⟨by decide, rfl⟩ rfl (by decide) (by decide) (by decide)
theorem r_v106 (V : Valuation τ sig (Elt F)) : after ops V (Proc.devRef .tc main_v106) = (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) (after ops V (Proc.devRef .tc main_v103)) (after ops V (Proc.devRef .tc main_v105)) (after ops V (Proc.devRef .tc main_arg3)) :=
  read_ternary ops Ws hW 153 (hk 153 (by decide)) V main_v103 main_v105 main_arg3 main_v106 _ ⟨by decide, rfl⟩ ⟨by decide, rfl⟩ ⟨by decide, rfl⟩ ⟨by decide, rfl⟩ rfl (by decide) (by decide) (by decide) (by decide)
theorem r_v107 (V : Valuation τ sig (Elt F)) : after ops V (Proc.devRef .tc main_v107) = (broadcastInDim S500000x1 ![0] bcast_S500000_S500000x1_0 : (⟨S500000, .i32⟩ : BufTy).Contents (Elt F) → (⟨S500000x1, .i32⟩ : BufTy).Contents (Elt F)) (after ops V (Proc.devRef .tc main_v106)) :=
  read_unary ops Ws hW 154 (hk 154 (by decide)) V main_v106 main_v107 _ ⟨by decide, rfl⟩ ⟨by decide, rfl⟩ rfl (by decide) (by decide)
theorem r_v108 (V : Valuation τ sig (Elt F)) : after ops V (Proc.devRef .tc main_v108) = ((fun x i => Host.gather gather_S100000x64_S500000x1_S500000x64_1_0_n_n_0_1_164 x i) : (⟨S100000x64, .f32⟩ : BufTy).Contents (Elt F) → (⟨S500000x1, .i32⟩ : BufTy).Contents (Elt F) → (⟨S500000x64, .f32⟩ : BufTy).Contents (Elt F)) (after ops V (Proc.devRef .tc main_v101)) (after ops V (Proc.devRef .tc main_v107)) :=
  read_binary ops Ws hW 155 (hk 155 (by decide)) V main_v101 main_v107 main_v108 _ ⟨by decide, rfl⟩ ⟨by decide, rfl⟩ ⟨by decide, rfl⟩ rfl (by decide) (by decide) (by decide)
theorem r_cst_27 (V : Valuation τ sig (Elt F)) : after ops V (Proc.devRef .tc main_cst_27) = (constant S_ .f32 0x00000000#32) :=
  read_nullary ops Ws hW 156 (hk 156 (by decide)) V main_cst_27 _ ⟨by decide, rfl⟩ rfl (by decide)
theorem r_v109 (V : Valuation τ sig (Elt F)) : after ops V (Proc.devRef .tc main_v109) = (broadcastInDim S500000x64 ![] bcast_S_S500000x64 : (⟨S_, .f32⟩ : BufTy).Contents (Elt F) → (⟨S500000x64, .f32⟩ : BufTy).Contents (Elt F)) (after ops V (Proc.devRef .tc main_cst_27)) :=
  read_unary ops Ws hW 157 (hk 157 (by decide)) V main_cst_27 main_v109 _ ⟨by decide, rfl⟩ ⟨by decide, rfl⟩ rfl (by decide) (by decide)
theorem r_v110 (V : Valuation τ sig (Elt F)) : after ops V (Proc.devRef .tc main_v110) = (broadcastInDim S500000x1 ![0] bcast_S500000_S500000x1_0 : (⟨S500000, .i32⟩ : BufTy).Contents (Elt F) → (⟨S500000x1, .i32⟩ : BufTy).Contents (Elt F)) (after ops V (Proc.devRef .tc main_arg4)) :=
  read_unary ops Ws hW 158 (hk 158 (by decide)) V main_arg4 main_v110 _ ⟨by decide, rfl⟩ ⟨by decide, rfl⟩ rfl (by decide) (by decide)
theorem r_v111 (V : Valuation τ sig (Elt F)) : after ops V (Proc.devRef .tc main_v111) = ((fun x i u => Host.scatterAdd scatter_S500000x64_S500000x1_S500000x64_1_0_0_1 x i u) : (⟨S500000x64, .f32⟩ : BufTy).Contents (Elt F) → (⟨S500000x1, .i32⟩ : BufTy).Contents (Elt F) → (⟨S500000x64, .f32⟩ : BufTy).Contents (Elt F) → (⟨S500000x64, .f32⟩ : BufTy).Contents (Elt F)) (after ops V (Proc.devRef .tc main_v109)) (after ops V (Proc.devRef .tc main_v110)) (after ops V (Proc.devRef .tc main_v108)) :=
  read_ternary ops Ws hW 159 (hk 159 (by decide)) V main_v109 main_v110 main_v108 main_v111 _ ⟨by decide, rfl⟩ ⟨by decide, rfl⟩ ⟨by decide, rfl⟩ ⟨by decide, rfl⟩ rfl (by decide) (by decide) (by decide) (by decide)
theorem r_cst_28 (V : Valuation τ sig (Elt F)) : after ops V (Proc.devRef .tc main_cst_28) = (constant S_ .f32 0x3F800000#32) :=
  read_nullary ops Ws hW 160 (hk 160 (by decide)) V main_cst_28 _ ⟨by decide, rfl⟩ rfl (by decide)
theorem r_v112 (V : Valuation τ sig (Elt F)) : after ops V (Proc.devRef .tc main_v112) = (broadcastInDim S500000x1 ![] bcast_S_S500000x1 : (⟨S_, .f32⟩ : BufTy).Contents (Elt F) → (⟨S500000x1, .f32⟩ : BufTy).Contents (Elt F)) (after ops V (Proc.devRef .tc main_cst_28)) :=
  read_unary ops Ws hW 161 (hk 161 (by decide)) V main_cst_28 main_v112 _ ⟨by decide, rfl⟩ ⟨by decide, rfl⟩ rfl (by decide) (by decide)
theorem r_cst_29 (V : Valuation τ sig (Elt F)) : after ops V (Proc.devRef .tc main_cst_29) = (constant S_ .f32 0x00000000#32) :=
  read_nullary ops Ws hW 162 (hk 162 (by decide)) V main_cst_29 _ ⟨by decide, rfl⟩ rfl (by decide)
theorem r_v113 (V : Valuation τ sig (Elt F)) : after ops V (Proc.devRef .tc main_v113) = (broadcastInDim S500000x1 ![] bcast_S_S500000x1 : (⟨S_, .f32⟩ : BufTy).Contents (Elt F) → (⟨S500000x1, .f32⟩ : BufTy).Contents (Elt F)) (after ops V (Proc.devRef .tc main_cst_29)) :=
  read_unary ops Ws hW 163 (hk 163 (by decide)) V main_cst_29 main_v113 _ ⟨by decide, rfl⟩ ⟨by decide, rfl⟩ rfl (by decide) (by decide)
theorem r_v114 (V : Valuation τ sig (Elt F)) : after ops V (Proc.devRef .tc main_v114) = (broadcastInDim S500000x1 ![0] bcast_S500000_S500000x1_0 : (⟨S500000, .i32⟩ : BufTy).Contents (Elt F) → (⟨S500000x1, .i32⟩ : BufTy).Contents (Elt F)) (after ops V (Proc.devRef .tc main_arg4)) :=
  read_unary ops Ws hW 164 (hk 164 (by decide)) V main_arg4 main_v114 _ ⟨by decide, rfl⟩ ⟨by decide, rfl⟩ rfl (by decide) (by decide)
theorem r_v115 (V : Valuation τ sig (Elt F)) : after ops V (Proc.devRef .tc main_v115) = ((fun x i u => Host.scatterAdd scatter_S500000x1_S500000x1_S500000x1_1_0_0_1 x i u) : (⟨S500000x1, .f32⟩ : BufTy).Contents (Elt F) → (⟨S500000x1, .i32⟩ : BufTy).Contents (Elt F) → (⟨S500000x1, .f32⟩ : BufTy).Contents (Elt F) → (⟨S500000x1, .f32⟩ : BufTy).Contents (Elt F)) (after ops V (Proc.devRef .tc main_v113)) (after ops V (Proc.devRef .tc main_v114)) (after ops V (Proc.devRef .tc main_v112)) :=
  read_ternary ops Ws hW 165 (hk 165 (by decide)) V main_v113 main_v114 main_v112 main_v115 _ ⟨by decide, rfl⟩ ⟨by decide, rfl⟩ ⟨by decide, rfl⟩ ⟨by decide, rfl⟩ rfl (by decide) (by decide) (by decide) (by decide)
theorem r_cst_30 (V : Valuation τ sig (Elt F)) : after ops V (Proc.devRef .tc main_cst_30) = (constant S_ .f32 0x3F800000#32) :=
  read_nullary ops Ws hW 166 (hk 166 (by decide)) V main_cst_30 _ ⟨by decide, rfl⟩ rfl (by decide)
theorem r_v116 (V : Valuation τ sig (Elt F)) : after ops V (Proc.devRef .tc main_v116) = (broadcastInDim S500000x1 ![] bcast_S_S500000x1 : (⟨S_, .f32⟩ : BufTy).Contents (Elt F) → (⟨S500000x1, .f32⟩ : BufTy).Contents (Elt F)) (after ops V (Proc.devRef .tc main_cst_30)) :=
  read_unary ops Ws hW 167 (hk 167 (by decide)) V main_cst_30 main_v116 _ ⟨by decide, rfl⟩ ⟨by decide, rfl⟩ rfl (by decide) (by decide)
theorem r_v117 (V : Valuation τ sig (Elt F)) : after ops V (Proc.devRef .tc main_v117) = (maximumf : (⟨S500000x1, .f32⟩ : BufTy).Contents (Elt F) → (⟨S500000x1, .f32⟩ : BufTy).Contents (Elt F) → (⟨S500000x1, .f32⟩ : BufTy).Contents (Elt F)) (after ops V (Proc.devRef .tc main_v115)) (after ops V (Proc.devRef .tc main_v116)) :=
  read_binary ops Ws hW 168 (hk 168 (by decide)) V main_v115 main_v116 main_v117 _ ⟨by decide, rfl⟩ ⟨by decide, rfl⟩ ⟨by decide, rfl⟩ rfl (by decide) (by decide) (by decide)
theorem r_v118 (V : Valuation τ sig (Elt F)) : after ops V (Proc.devRef .tc main_v118) = (broadcastInDim S500000x64 ![0, 1] bcast_S500000x1_S500000x64_0_1 : (⟨S500000x1, .f32⟩ : BufTy).Contents (Elt F) → (⟨S500000x64, .f32⟩ : BufTy).Contents (Elt F)) (after ops V (Proc.devRef .tc main_v117)) :=
  read_unary ops Ws hW 169 (hk 169 (by decide)) V main_v117 main_v118 _ ⟨by decide, rfl⟩ ⟨by decide, rfl⟩ rfl (by decide) (by decide)
theorem r_v119 (V : Valuation τ sig (Elt F)) : after ops V (Proc.devRef .tc main_v119) = (Host.divf : (⟨S500000x64, .f32⟩ : BufTy).Contents (Elt F) → (⟨S500000x64, .f32⟩ : BufTy).Contents (Elt F) → (⟨S500000x64, .f32⟩ : BufTy).Contents (Elt F)) (after ops V (Proc.devRef .tc main_v111)) (after ops V (Proc.devRef .tc main_v118)) :=
  read_binary ops Ws hW 170 (hk 170 (by decide)) V main_v111 main_v118 main_v119 _ ⟨by decide, rfl⟩ ⟨by decide, rfl⟩ ⟨by decide, rfl⟩ rfl (by decide) (by decide) (by decide)
theorem r_cst_31 (V : Valuation τ sig (Elt F)) : after ops V (Proc.devRef .tc main_cst_31) = (constant S_ .f32 0x00000000#32) :=
  read_nullary ops Ws hW 171 (hk 171 (by decide)) V main_cst_31 _ ⟨by decide, rfl⟩ rfl (by decide)
theorem r_v120 (V : Valuation τ sig (Elt F)) : after ops V (Proc.devRef .tc main_v120) = (broadcastInDim S500000x64 ![] bcast_S_S500000x64 : (⟨S_, .f32⟩ : BufTy).Contents (Elt F) → (⟨S500000x64, .f32⟩ : BufTy).Contents (Elt F)) (after ops V (Proc.devRef .tc main_cst_31)) :=
  read_unary ops Ws hW 172 (hk 172 (by decide)) V main_cst_31 main_v120 _ ⟨by decide, rfl⟩ ⟨by decide, rfl⟩ rfl (by decide) (by decide)
theorem r_v121 (V : Valuation τ sig (Elt F)) : after ops V (Proc.devRef .tc main_v121) = (addf : (⟨S500000x64, .f32⟩ : BufTy).Contents (Elt F) → (⟨S500000x64, .f32⟩ : BufTy).Contents (Elt F) → (⟨S500000x64, .f32⟩ : BufTy).Contents (Elt F)) (after ops V (Proc.devRef .tc main_v120)) (after ops V (Proc.devRef .tc main_v119)) :=
  read_binary ops Ws hW 173 (hk 173 (by decide)) V main_v120 main_v119 main_v121 _ ⟨by decide, rfl⟩ ⟨by decide, rfl⟩ ⟨by decide, rfl⟩ rfl (by decide) (by decide) (by decide)
theorem r_v122 (V : Valuation τ sig (Elt F)) : after ops V (Proc.devRef .tc main_v122) = ((fun l r => Host.dotGeneral dot_S20000x64_S64x64_S20000x64_1_0_0_1_n_n none l r) : (⟨S20000x64, .f32⟩ : BufTy).Contents (Elt F) → (⟨S64x64, .f32⟩ : BufTy).Contents (Elt F) → (⟨S20000x64, .f32⟩ : BufTy).Contents (Elt F)) (after ops V (Proc.devRef .tc main_v97)) (after ops V (Proc.devRef .tc main_arg17)) :=
  read_binary ops Ws hW 174 (hk 174 (by decide)) V main_v97 main_arg17 main_v122 _ ⟨by decide, rfl⟩ ⟨by decide, rfl⟩ ⟨by decide, rfl⟩ rfl (by decide) (by decide) (by decide)
theorem r_v123 (V : Valuation τ sig (Elt F)) : after ops V (Proc.devRef .tc main_v123) = (broadcastInDim S1x64 ![1] bcast_S64_S1x64_1 : (⟨S64, .f32⟩ : BufTy).Contents (Elt F) → (⟨S1x64, .f32⟩ : BufTy).Contents (Elt F)) (after ops V (Proc.devRef .tc main_arg18)) :=
  read_unary ops Ws hW 175 (hk 175 (by decide)) V main_arg18 main_v123 _ ⟨by decide, rfl⟩ ⟨by decide, rfl⟩ rfl (by decide) (by decide)
theorem r_v124 (V : Valuation τ sig (Elt F)) : after ops V (Proc.devRef .tc main_v124) = (broadcastInDim S20000x64 ![0, 1] bcast_S1x64_S20000x64_0_1 : (⟨S1x64, .f32⟩ : BufTy).Contents (Elt F) → (⟨S20000x64, .f32⟩ : BufTy).Contents (Elt F)) (after ops V (Proc.devRef .tc main_v123)) :=
  read_unary ops Ws hW 176 (hk 176 (by decide)) V main_v123 main_v124 _ ⟨by decide, rfl⟩ ⟨by decide, rfl⟩ rfl (by decide) (by decide)
theorem r_v125 (V : Valuation τ sig (Elt F)) : after ops V (Proc.devRef .tc main_v125) = (addf : (⟨S20000x64, .f32⟩ : BufTy).Contents (Elt F) → (⟨S20000x64, .f32⟩ : BufTy).Contents (Elt F) → (⟨S20000x64, .f32⟩ : BufTy).Contents (Elt F)) (after ops V (Proc.devRef .tc main_v122)) (after ops V (Proc.devRef .tc main_v124)) :=
  read_binary ops Ws hW 177 (hk 177 (by decide)) V main_v122 main_v124 main_v125 _ ⟨by decide, rfl⟩ ⟨by decide, rfl⟩ ⟨by decide, rfl⟩ rfl (by decide) (by decide) (by decide)
theorem r_c_32 (V : Valuation τ sig (Elt F)) : after ops V (Proc.devRef .tc main_c_32) = (constantI S_ 32 0#32) :=
  read_nullary ops Ws hW 178 (hk 178 (by decide)) V main_c_32 _ ⟨by decide, rfl⟩ rfl (by decide)
theorem r_v126 (V : Valuation τ sig (Elt F)) : after ops V (Proc.devRef .tc main_v126) = (broadcastInDim S500000 ![] bcast_S_S500000 : (⟨S_, .i32⟩ : BufTy).Contents (Elt F) → (⟨S500000, .i32⟩ : BufTy).Contents (Elt F)) (after ops V (Proc.devRef .tc main_c_32)) :=
  read_unary ops Ws hW 179 (hk 179 (by decide)) V main_c_32 main_v126 _ ⟨by decide, rfl⟩ ⟨by decide, rfl⟩ rfl (by decide) (by decide)
theorem r_v127 (V : Valuation τ sig (Elt F)) : after ops V (Proc.devRef .tc main_v127) = (cmpi .slt : (⟨S500000, .i32⟩ : BufTy).Contents (Elt F) → (⟨S500000, .i32⟩ : BufTy).Contents (Elt F) → (⟨S500000, .i1⟩ : BufTy).Contents (Elt F)) (after ops V (Proc.devRef .tc main_arg5)) (after ops V (Proc.devRef .tc main_v126)) :=
  read_binary ops Ws hW 180 (hk 180 (by decide)) V main_arg5 main_v126 main_v127 _ ⟨by decide, rfl⟩ ⟨by decide, rfl⟩ ⟨by decide, rfl⟩ rfl (by decide) (by decide) (by decide)
theorem r_c_33 (V : Valuation τ sig (Elt F)) : after ops V (Proc.devRef .tc main_c_33) = (constantI S_ 32 20000#32) :=
  read_nullary ops Ws hW 181 (hk 181 (by decide)) V main_c_33 _ ⟨by decide, rfl⟩ rfl (by decide)
theorem r_v128 (V : Valuation τ sig (Elt F)) : after ops V (Proc.devRef .tc main_v128) = (broadcastInDim S500000 ![] bcast_S_S500000 : (⟨S_, .i32⟩ : BufTy).Contents (Elt F) → (⟨S500000, .i32⟩ : BufTy).Contents (Elt F)) (after ops V (Proc.devRef .tc main_c_33)) :=
  read_unary ops Ws hW 182 (hk 182 (by decide)) V main_c_33 main_v128 _ ⟨by decide, rfl⟩ ⟨by decide, rfl⟩ rfl (by decide) (by decide)
theorem r_v129 (V : Valuation τ sig (Elt F)) : after ops V (Proc.devRef .tc main_v129) = (addi : (⟨S500000, .i32⟩ : BufTy).Contents (Elt F) → (⟨S500000, .i32⟩ : BufTy).Contents (Elt F) → (⟨S500000, .i32⟩ : BufTy).Contents (Elt F)) (after ops V (Proc.devRef .tc main_arg5)) (after ops V (Proc.devRef .tc main_v128)) :=
  read_binary ops Ws hW 183 (hk 183 (by decide)) V main_arg5 main_v128 main_v129 _ ⟨by decide, rfl⟩ ⟨by decide, rfl⟩ ⟨by decide, rfl⟩ rfl (by decide) (by decide) (by decide)
theorem r_v130 (V : Valuation τ sig (Elt F)) : after ops V (Proc.devRef .tc main_v130) = (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) (after ops V (Proc.devRef .tc main_v127)) (after ops V (Proc.devRef .tc main_v129)) (after ops V (Proc.devRef .tc main_arg5)) :=
  read_ternary ops Ws hW 184 (hk 184 (by decide)) V main_v127 main_v129 main_arg5 main_v130 _ ⟨by decide, rfl⟩ ⟨by decide, rfl⟩ ⟨by decide, rfl⟩ ⟨by decide, rfl⟩ rfl (by decide) (by decide) (by decide) (by decide)
theorem r_v131 (V : Valuation τ sig (Elt F)) : after ops V (Proc.devRef .tc main_v131) = (broadcastInDim S500000x1 ![0] bcast_S500000_S500000x1_0 : (⟨S500000, .i32⟩ : BufTy).Contents (Elt F) → (⟨S500000x1, .i32⟩ : BufTy).Contents (Elt F)) (after ops V (Proc.devRef .tc main_v130)) :=
  read_unary ops Ws hW 185 (hk 185 (by decide)) V main_v130 main_v131 _ ⟨by decide, rfl⟩ ⟨by decide, rfl⟩ rfl (by decide) (by decide)
theorem r_v132 (V : Valuation τ sig (Elt F)) : after ops V (Proc.devRef .tc main_v132) = ((fun x i => Host.gather gather_S20000x64_S500000x1_S500000x64_1_0_n_n_0_1_164 x i) : (⟨S20000x64, .f32⟩ : BufTy).Contents (Elt F) → (⟨S500000x1, .i32⟩ : BufTy).Contents (Elt F) → (⟨S500000x64, .f32⟩ : BufTy).Contents (Elt F)) (after ops V (Proc.devRef .tc main_v125)) (after ops V (Proc.devRef .tc main_v131)) :=
  read_binary ops Ws hW 186 (hk 186 (by decide)) V main_v125 main_v131 main_v132 _ ⟨by decide, rfl⟩ ⟨by decide, rfl⟩ ⟨by decide, rfl⟩ rfl (by decide) (by decide) (by decide)
theorem r_cst_34 (V : Valuation τ sig (Elt F)) : after ops V (Proc.devRef .tc main_cst_34) = (constant S_ .f32 0x00000000#32) :=
  read_nullary ops Ws hW 187 (hk 187 (by decide)) V main_cst_34 _ ⟨by decide, rfl⟩ rfl (by decide)
theorem r_v133 (V : Valuation τ sig (Elt F)) : after ops V (Proc.devRef .tc main_v133) = (broadcastInDim S500000x64 ![] bcast_S_S500000x64 : (⟨S_, .f32⟩ : BufTy).Contents (Elt F) → (⟨S500000x64, .f32⟩ : BufTy).Contents (Elt F)) (after ops V (Proc.devRef .tc main_cst_34)) :=
  read_unary ops Ws hW 188 (hk 188 (by decide)) V main_cst_34 main_v133 _ ⟨by decide, rfl⟩ ⟨by decide, rfl⟩ rfl (by decide) (by decide)
theorem r_v134 (V : Valuation τ sig (Elt F)) : after ops V (Proc.devRef .tc main_v134) = (broadcastInDim S500000x1 ![0] bcast_S500000_S500000x1_0 : (⟨S500000, .i32⟩ : BufTy).Contents (Elt F) → (⟨S500000x1, .i32⟩ : BufTy).Contents (Elt F)) (after ops V (Proc.devRef .tc main_arg6)) :=
  read_unary ops Ws hW 189 (hk 189 (by decide)) V main_arg6 main_v134 _ ⟨by decide, rfl⟩ ⟨by decide, rfl⟩ rfl (by decide) (by decide)
theorem r_v135 (V : Valuation τ sig (Elt F)) : after ops V (Proc.devRef .tc main_v135) = ((fun x i u => Host.scatterAdd scatter_S500000x64_S500000x1_S500000x64_1_0_0_1 x i u) : (⟨S500000x64, .f32⟩ : BufTy).Contents (Elt F) → (⟨S500000x1, .i32⟩ : BufTy).Contents (Elt F) → (⟨S500000x64, .f32⟩ : BufTy).Contents (Elt F) → (⟨S500000x64, .f32⟩ : BufTy).Contents (Elt F)) (after ops V (Proc.devRef .tc main_v133)) (after ops V (Proc.devRef .tc main_v134)) (after ops V (Proc.devRef .tc main_v132)) :=
  read_ternary ops Ws hW 190 (hk 190 (by decide)) V main_v133 main_v134 main_v132 main_v135 _ ⟨by decide, rfl⟩ ⟨by decide, rfl⟩ ⟨by decide, rfl⟩ ⟨by decide, rfl⟩ rfl (by decide) (by decide) (by decide) (by decide)
theorem r_cst_35 (V : Valuation τ sig (Elt F)) : after ops V (Proc.devRef .tc main_cst_35) = (constant S_ .f32 0x3F800000#32) :=
  read_nullary ops Ws hW 191 (hk 191 (by decide)) V main_cst_35 _ ⟨by decide, rfl⟩ rfl (by decide)
theorem r_v136 (V : Valuation τ sig (Elt F)) : after ops V (Proc.devRef .tc main_v136) = (broadcastInDim S500000x1 ![] bcast_S_S500000x1 : (⟨S_, .f32⟩ : BufTy).Contents (Elt F) → (⟨S500000x1, .f32⟩ : BufTy).Contents (Elt F)) (after ops V (Proc.devRef .tc main_cst_35)) :=
  read_unary ops Ws hW 192 (hk 192 (by decide)) V main_cst_35 main_v136 _ ⟨by decide, rfl⟩ ⟨by decide, rfl⟩ rfl (by decide) (by decide)
theorem r_cst_36 (V : Valuation τ sig (Elt F)) : after ops V (Proc.devRef .tc main_cst_36) = (constant S_ .f32 0x00000000#32) :=
  read_nullary ops Ws hW 193 (hk 193 (by decide)) V main_cst_36 _ ⟨by decide, rfl⟩ rfl (by decide)
theorem r_v137 (V : Valuation τ sig (Elt F)) : after ops V (Proc.devRef .tc main_v137) = (broadcastInDim S500000x1 ![] bcast_S_S500000x1 : (⟨S_, .f32⟩ : BufTy).Contents (Elt F) → (⟨S500000x1, .f32⟩ : BufTy).Contents (Elt F)) (after ops V (Proc.devRef .tc main_cst_36)) :=
  read_unary ops Ws hW 194 (hk 194 (by decide)) V main_cst_36 main_v137 _ ⟨by decide, rfl⟩ ⟨by decide, rfl⟩ rfl (by decide) (by decide)
theorem r_v138 (V : Valuation τ sig (Elt F)) : after ops V (Proc.devRef .tc main_v138) = (broadcastInDim S500000x1 ![0] bcast_S500000_S500000x1_0 : (⟨S500000, .i32⟩ : BufTy).Contents (Elt F) → (⟨S500000x1, .i32⟩ : BufTy).Contents (Elt F)) (after ops V (Proc.devRef .tc main_arg6)) :=
  read_unary ops Ws hW 195 (hk 195 (by decide)) V main_arg6 main_v138 _ ⟨by decide, rfl⟩ ⟨by decide, rfl⟩ rfl (by decide) (by decide)
theorem r_v139 (V : Valuation τ sig (Elt F)) : after ops V (Proc.devRef .tc main_v139) = ((fun x i u => Host.scatterAdd scatter_S500000x1_S500000x1_S500000x1_1_0_0_1 x i u) : (⟨S500000x1, .f32⟩ : BufTy).Contents (Elt F) → (⟨S500000x1, .i32⟩ : BufTy).Contents (Elt F) → (⟨S500000x1, .f32⟩ : BufTy).Contents (Elt F) → (⟨S500000x1, .f32⟩ : BufTy).Contents (Elt F)) (after ops V (Proc.devRef .tc main_v137)) (after ops V (Proc.devRef .tc main_v138)) (after ops V (Proc.devRef .tc main_v136)) :=
  read_ternary ops Ws hW 196 (hk 196 (by decide)) V main_v137 main_v138 main_v136 main_v139 _ ⟨by decide, rfl⟩ ⟨by decide, rfl⟩ ⟨by decide, rfl⟩ ⟨by decide, rfl⟩ rfl (by decide) (by decide) (by decide) (by decide)
theorem r_cst_37 (V : Valuation τ sig (Elt F)) : after ops V (Proc.devRef .tc main_cst_37) = (constant S_ .f32 0x3F800000#32) :=
  read_nullary ops Ws hW 197 (hk 197 (by decide)) V main_cst_37 _ ⟨by decide, rfl⟩ rfl (by decide)
theorem r_v140 (V : Valuation τ sig (Elt F)) : after ops V (Proc.devRef .tc main_v140) = (broadcastInDim S500000x1 ![] bcast_S_S500000x1 : (⟨S_, .f32⟩ : BufTy).Contents (Elt F) → (⟨S500000x1, .f32⟩ : BufTy).Contents (Elt F)) (after ops V (Proc.devRef .tc main_cst_37)) :=
  read_unary ops Ws hW 198 (hk 198 (by decide)) V main_cst_37 main_v140 _ ⟨by decide, rfl⟩ ⟨by decide, rfl⟩ rfl (by decide) (by decide)
theorem r_v141 (V : Valuation τ sig (Elt F)) : after ops V (Proc.devRef .tc main_v141) = (maximumf : (⟨S500000x1, .f32⟩ : BufTy).Contents (Elt F) → (⟨S500000x1, .f32⟩ : BufTy).Contents (Elt F) → (⟨S500000x1, .f32⟩ : BufTy).Contents (Elt F)) (after ops V (Proc.devRef .tc main_v139)) (after ops V (Proc.devRef .tc main_v140)) :=
  read_binary ops Ws hW 199 (hk 199 (by decide)) V main_v139 main_v140 main_v141 _ ⟨by decide, rfl⟩ ⟨by decide, rfl⟩ ⟨by decide, rfl⟩ rfl (by decide) (by decide) (by decide)
theorem r_v142 (V : Valuation τ sig (Elt F)) : after ops V (Proc.devRef .tc main_v142) = (broadcastInDim S500000x64 ![0, 1] bcast_S500000x1_S500000x64_0_1 : (⟨S500000x1, .f32⟩ : BufTy).Contents (Elt F) → (⟨S500000x64, .f32⟩ : BufTy).Contents (Elt F)) (after ops V (Proc.devRef .tc main_v141)) :=
  read_unary ops Ws hW 200 (hk 200 (by decide)) V main_v141 main_v142 _ ⟨by decide, rfl⟩ ⟨by decide, rfl⟩ rfl (by decide) (by decide)
theorem r_v143 (V : Valuation τ sig (Elt F)) : after ops V (Proc.devRef .tc main_v143) = (Host.divf : (⟨S500000x64, .f32⟩ : BufTy).Contents (Elt F) → (⟨S500000x64, .f32⟩ : BufTy).Contents (Elt F) → (⟨S500000x64, .f32⟩ : BufTy).Contents (Elt F)) (after ops V (Proc.devRef .tc main_v135)) (after ops V (Proc.devRef .tc main_v142)) :=
  read_binary ops Ws hW 201 (hk 201 (by decide)) V main_v135 main_v142 main_v143 _ ⟨by decide, rfl⟩ ⟨by decide, rfl⟩ ⟨by decide, rfl⟩ rfl (by decide) (by decide) (by decide)
theorem r_v144 (V : Valuation τ sig (Elt F)) : after ops V (Proc.devRef .tc main_v144) = (addf : (⟨S500000x64, .f32⟩ : BufTy).Contents (Elt F) → (⟨S500000x64, .f32⟩ : BufTy).Contents (Elt F) → (⟨S500000x64, .f32⟩ : BufTy).Contents (Elt F)) (after ops V (Proc.devRef .tc main_v121)) (after ops V (Proc.devRef .tc main_v143)) :=
  read_binary ops Ws hW 202 (hk 202 (by decide)) V main_v121 main_v143 main_v144 _ ⟨by decide, rfl⟩ ⟨by decide, rfl⟩ ⟨by decide, rfl⟩ rfl (by decide) (by decide) (by decide)
theorem r_v193 (V : Valuation τ sig (Elt F)) : after ops V (Proc.devRef .tc main_v193) = ((fun l r => Host.dotGeneral dot_S500000x64_S64x2_S500000x2_1_0_0_1_n_n none l r) : (⟨S500000x64, .f32⟩ : BufTy).Contents (Elt F) → (⟨S64x2, .f32⟩ : BufTy).Contents (Elt F) → (⟨S500000x2, .f32⟩ : BufTy).Contents (Elt F)) (after ops V (Proc.devRef .tc main_v144)) (after ops V (Proc.devRef .tc main_arg27)) :=
  read_binary ops Ws hW 265 (hk 265 (by decide)) V main_v144 main_arg27 main_v193 _ ⟨by decide, rfl⟩ ⟨by decide, rfl⟩ ⟨by decide, rfl⟩ rfl (by decide) (by decide) (by decide)
theorem r_v194 (V : Valuation τ sig (Elt F)) : after ops V (Proc.devRef .tc main_v194) = (broadcastInDim S1x2 ![1] bcast_S2_S1x2_1 : (⟨S2, .f32⟩ : BufTy).Contents (Elt F) → (⟨S1x2, .f32⟩ : BufTy).Contents (Elt F)) (after ops V (Proc.devRef .tc main_arg28)) :=
  read_unary ops Ws hW 266 (hk 266 (by decide)) V main_arg28 main_v194 _ ⟨by decide, rfl⟩ ⟨by decide, rfl⟩ rfl (by decide) (by decide)
theorem r_v195 (V : Valuation τ sig (Elt F)) : after ops V (Proc.devRef .tc main_v195) = (broadcastInDim S500000x2 ![0, 1] bcast_S1x2_S500000x2_0_1 : (⟨S1x2, .f32⟩ : BufTy).Contents (Elt F) → (⟨S500000x2, .f32⟩ : BufTy).Contents (Elt F)) (after ops V (Proc.devRef .tc main_v194)) :=
  read_unary ops Ws hW 267 (hk 267 (by decide)) V main_v194 main_v195 _ ⟨by decide, rfl⟩ ⟨by decide, rfl⟩ rfl (by decide) (by decide)
theorem r_v196 (V : Valuation τ sig (Elt F)) : after ops V (Proc.devRef .tc main_v196) = (addf : (⟨S500000x2, .f32⟩ : BufTy).Contents (Elt F) → (⟨S500000x2, .f32⟩ : BufTy).Contents (Elt F) → (⟨S500000x2, .f32⟩ : BufTy).Contents (Elt F)) (after ops V (Proc.devRef .tc main_v193)) (after ops V (Proc.devRef .tc main_v195)) :=
  read_binary ops Ws hW 268 (hk 268 (by decide)) V main_v193 main_v195 main_v196 _ ⟨by decide, rfl⟩ ⟨by decide, rfl⟩ ⟨by decide, rfl⟩ rfl (by decide) (by decide) (by decide)

end Cert.ReferenceIdeal.RefRun

end
-- ==== Proof.RefSpec.lean ====
/-
  The reference program read at the level of the specification.  Its result depends on a chain of host operations that
  falls into stages, each a function of the stage before it: a product with a broadcast bias row is the linear map; a
  lookup through the wrapped, broadcast index words is the row lookup; an accumulating scatter into zeros is the
  segment sum, and of ones the segment sizes; the quotient by the floored sizes is the segment mean; the select between
  a value and its slope multiple is the leaky rectifier.  The first layer runs these stages once per relation (100000
  and 20000 segments) from the same features; the second layer aggregates each hidden state into the 500000 target
  nodes; the two aggregations are added and mapped by the last linear map.  Composed, the result buffer holds the model
  of the argument arrays.
-/
import proofs.«126305_j61735859913388_2_alg».proof.Proof.RefRead
import proofs.«126305_j61735859913388_2_alg».proof.Proof.Patterns
import proofs.«126305_j61735859913388_2_alg».proof.Proof.Model

noncomputable section

namespace Cert.ReferenceIdeal.RefSpec

open Cert.ReferenceIdeal Cert.ReferenceIdeal.Gen Cert.ReferenceIdeal.RefRun Idealize.ShloMosaic Idealize.ShloMosaic.TcCoe
open Idealize.ShloMosaic.StableHlo Idealize.ShloMosaic.ValueIdx Cert.HG Cert.LibSG

/-! ## The products' dimension numbers -/

/-- The plain rows-times-columns contraction has one contracted axis, of the inner extent; at output index (i, j) and
    contraction position k it reads the left operand at (i, k) and the right operand at (k, j). -/
theorem plainDot_plain (n K C : ℕ) : PlainDot (DotDims.plain n K C) where
  rank := rfl
  size := rfl
  lhs j k := by
    funext ax; apply Fin.ext
    match ax with
    | ⟨0, _⟩ => simp [DotDims.lhsIdx, DotDims.plain] <;> rfl
    | ⟨1, _⟩ => simp [DotDims.lhsIdx, DotDims.plain] <;> exact contrEquiv1_symm_val (DotDims.plain n K C) K rfl rfl k
  rhs j k := by
    funext ax; apply Fin.ext
    match ax with
    | ⟨0, _⟩ => simp [DotDims.rhsIdx, DotDims.plain] <;> exact contrEquiv1_symm_val (DotDims.plain n K C) K rfl rfl k
    | ⟨1, _⟩ => simp [DotDims.rhsIdx, DotDims.plain] <;> rfl

/-- Each of the reference's four products is that plain contraction. -/
theorem plainDot_feat : PlainDot (n := 500000) (K := 128) (C := 64) dot_S500000x128_S128x64_S500000x64_1_0_0_1_n_n :=
  plainDot_plain 500000 128 64
theorem plainDot_hid1 : PlainDot (n := 100000) (K := 64) (C := 64) dot_S100000x64_S64x64_S100000x64_1_0_0_1_n_n :=
  plainDot_plain 100000 64 64
theorem plainDot_hid2 : PlainDot (n := 20000) (K := 64) (C := 64) dot_S20000x64_S64x64_S20000x64_1_0_0_1_n_n :=
  plainDot_plain 20000 64 64
theorem plainDot_out : PlainDot (n := 500000) (K := 64) (C := 2) dot_S500000x64_S64x2_S500000x2_1_0_0_1_n_n :=
  plainDot_plain 500000 64 2

variable (V : Valuation τ sig (Elt Ideal))

/-! ## The first layer, first relation (100000 segments) -/

/-- The first relation's input map: features · W + b. -/
theorem lin_feat1 : after (ops (F := Ideal)) V (Proc.devRef .tc main_v50)
    = lin (n := 500000) (K := 128) (C := 64) (V (Proc.devRef .tc main_arg0)) (V (Proc.devRef .tc main_arg19)) (V (Proc.devRef .tc main_arg20)) := by
  rw [r_v50 (F := Ideal) V, r_v47 (F := Ideal) V, r_v49 (F := Ideal) V, r_v48 (F := Ideal) V, k_arg0 (F := Ideal) V, k_arg19 (F := Ideal) V, k_arg20 (F := Ideal) V]
  exact dot_bias_eq_lin dot_S500000x128_S128x64_S500000x64_1_0_0_1_n_n plainDot_feat _ _ _ _ _

/-- Its rows looked up by source word. -/
theorem take1 : after (ops (F := Ideal)) V (Proc.devRef .tc main_v57)
    = take (N := 500000) (M := 500000) (C := 64) (by decide) 500000#32 (after (ops (F := Ideal)) V (Proc.devRef .tc main_v50)) (V (Proc.devRef .tc main_arg7)) := by
  rw [r_v57 (F := Ideal) V, r_v56 (F := Ideal) V, r_v55 (F := Ideal) V, r_v52 (F := Ideal) V, r_v54 (F := Ideal) V, r_v51 (F := Ideal) V, r_v53 (F := Ideal) V, r_c_11 (F := Ideal) V, r_c_12 (F := Ideal) V, k_arg7 (F := Ideal) V]
  exact gather_wrapped_eq_take (by decide) 500000#32 gather_S500000x64_S500000x1_S500000x64_1_0_n_n_0_1_164 _ rfl _ _ _ _

/-- The looked-up rows summed by destination word. -/
theorem sum1 : after (ops (F := Ideal)) V (Proc.devRef .tc main_v60)
    = segSum (N := 100000) (M := 500000) (C := 64) (after (ops (F := Ideal)) V (Proc.devRef .tc main_v57)) (V (Proc.devRef .tc main_arg8)) := by
  rw [r_v60 (F := Ideal) V, r_v58 (F := Ideal) V, r_v59 (F := Ideal) V, r_cst_13 (F := Ideal) V, k_arg8 (F := Ideal) V]
  exact scatter_zero_eq_segSum scatter_S100000x64_S500000x1_S500000x64_1_0_0_1 _ rfl _ _ _ _

/-- The segment sizes. -/
theorem cnt1 : colOf (n := 100000) (after (ops (F := Ideal)) V (Proc.devRef .tc main_v64))
    = segCnt (N := 100000) (M := 500000) (V (Proc.devRef .tc main_arg8)) := by
  rw [r_v64 (F := Ideal) V, r_v62 (F := Ideal) V, r_v63 (F := Ideal) V, r_v61 (F := Ideal) V, r_cst_15 (F := Ideal) V, r_cst_14 (F := Ideal) V, k_arg8 (F := Ideal) V]
  exact scatter_ones_col_eq_segCnt scatter_S100000x1_S500000x1_S500000x1_1_0_0_1 _ rfl _ _ _ _

/-- The segment means (the program then adds a broadcast zero). -/
theorem mean1 : after (ops (F := Ideal)) V (Proc.devRef .tc main_v70)
    = mean (n := 100000) (C := 64) (after (ops (F := Ideal)) V (Proc.devRef .tc main_v60)) (colOf (n := 100000) (after (ops (F := Ideal)) V (Proc.devRef .tc main_v64))) := by
  rw [r_v70 (F := Ideal) V, r_v69 (F := Ideal) V, r_cst_17 (F := Ideal) V, r_v68 (F := Ideal) V, r_v67 (F := Ideal) V, r_v66 (F := Ideal) V, r_v65 (F := Ideal) V, r_cst_16 (F := Ideal) V]
  refine (zero_bcast_add _ _).trans ?_
  exact div_max_eq_mean _ _ _ _

/-- The leaky rectifier, entry by entry. -/
theorem act1 : after (ops (F := Ideal)) V (Proc.devRef .tc main_v96) = act (n := 100000) (C := 64) (after (ops (F := Ideal)) V (Proc.devRef .tc main_v70)) := by
  rw [r_v96 (F := Ideal) V, r_call1_v1 (F := Ideal) V, r_call1_v3 (F := Ideal) V, r_call1_v0 (F := Ideal) V, r_call1_v2 (F := Ideal) V, r_call1_cst (F := Ideal) V, r_call1_cst_0 (F := Ideal) V]
  exact select_eq_act _ _ _

/-- The rectified means mapped linearly. -/
theorem lin_hid1 : after (ops (F := Ideal)) V (Proc.devRef .tc main_v101)
    = lin (n := 100000) (K := 64) (C := 64) (after (ops (F := Ideal)) V (Proc.devRef .tc main_v96)) (V (Proc.devRef .tc main_arg13)) (V (Proc.devRef .tc main_arg14)) := by
  rw [r_v101 (F := Ideal) V, r_v98 (F := Ideal) V, r_v100 (F := Ideal) V, r_v99 (F := Ideal) V, k_arg13 (F := Ideal) V, k_arg14 (F := Ideal) V]
  exact dot_bias_eq_lin dot_S100000x64_S64x64_S100000x64_1_0_0_1_n_n plainDot_hid1 _ _ _ _ _

/-! ## The first layer, second relation (20000 segments) -/

/-- The second relation's input map: features · W + b. -/
theorem lin_feat2 : after (ops (F := Ideal)) V (Proc.devRef .tc main_v74)
    = lin (n := 500000) (K := 128) (C := 64) (V (Proc.devRef .tc main_arg0)) (V (Proc.devRef .tc main_arg23)) (V (Proc.devRef .tc main_arg24)) := by
  rw [r_v74 (F := Ideal) V, r_v71 (F := Ideal) V, r_v73 (F := Ideal) V, r_v72 (F := Ideal) V, k_arg0 (F := Ideal) V, k_arg23 (F := Ideal) V, k_arg24 (F := Ideal) V]
  exact dot_bias_eq_lin dot_S500000x128_S128x64_S500000x64_1_0_0_1_n_n plainDot_feat _ _ _ _ _

/-- Its rows looked up by source word. -/
theorem take2 : after (ops (F := Ideal)) V (Proc.devRef .tc main_v81)
    = take (N := 500000) (M := 500000) (C := 64) (by decide) 500000#32 (after (ops (F := Ideal)) V (Proc.devRef .tc main_v74)) (V (Proc.devRef .tc main_arg9)) := by
  rw [r_v81 (F := Ideal) V, r_v80 (F := Ideal) V, r_v79 (F := Ideal) V, r_v76 (F := Ideal) V, r_v78 (F := Ideal) V, r_v75 (F := Ideal) V, r_v77 (F := Ideal) V, r_c_18 (F := Ideal) V, r_c_19 (F := Ideal) V, k_arg9 (F := Ideal) V]
  exact gather_wrapped_eq_take (by decide) 500000#32 gather_S500000x64_S500000x1_S500000x64_1_0_n_n_0_1_164 _ rfl _ _ _ _

/-- The looked-up rows summed by destination word. -/
theorem sum2 : after (ops (F := Ideal)) V (Proc.devRef .tc main_v84)
    = segSum (N := 20000) (M := 500000) (C := 64) (after (ops (F := Ideal)) V (Proc.devRef .tc main_v81)) (V (Proc.devRef .tc main_arg10)) := by
  rw [r_v84 (F := Ideal) V, r_v82 (F := Ideal) V, r_v83 (F := Ideal) V, r_cst_20 (F := Ideal) V, k_arg10 (F := Ideal) V]
  exact scatter_zero_eq_segSum scatter_S20000x64_S500000x1_S500000x64_1_0_0_1 _ rfl _ _ _ _

/-- The segment sizes. -/
theorem cnt2 : colOf (n := 20000) (after (ops (F := Ideal)) V (Proc.devRef .tc main_v88))
    = segCnt (N := 20000) (M := 500000) (V (Proc.devRef .tc main_arg10)) := by
  rw [r_v88 (F := Ideal) V, r_v86 (F := Ideal) V, r_v87 (F := Ideal) V, r_v85 (F := Ideal) V, r_cst_22 (F := Ideal) V, r_cst_21 (F := Ideal) V, k_arg10 (F := Ideal) V]
  exact scatter_ones_col_eq_segCnt scatter_S20000x1_S500000x1_S500000x1_1_0_0_1 _ rfl _ _ _ _

/-- The segment means (the program then adds a broadcast zero). -/
theorem mean2 : after (ops (F := Ideal)) V (Proc.devRef .tc main_v94)
    = mean (n := 20000) (C := 64) (after (ops (F := Ideal)) V (Proc.devRef .tc main_v84)) (colOf (n := 20000) (after (ops (F := Ideal)) V (Proc.devRef .tc main_v88))) := by
  rw [r_v94 (F := Ideal) V, r_v93 (F := Ideal) V, r_cst_24 (F := Ideal) V, r_v92 (F := Ideal) V, r_v91 (F := Ideal) V, r_v90 (F := Ideal) V, r_v89 (F := Ideal) V, r_cst_23 (F := Ideal) V]
  refine (zero_bcast_add _ _).trans ?_
  exact div_max_eq_mean _ _ _ _

/-- The leaky rectifier, entry by entry. -/
theorem act2 : after (ops (F := Ideal)) V (Proc.devRef .tc main_v97) = act (n := 20000) (C := 64) (after (ops (F := Ideal)) V (Proc.devRef .tc main_v94)) := by
  rw [r_v97 (F := Ideal) V, r_call2_v1 (F := Ideal) V, r_call2_v3 (F := Ideal) V, r_call2_v0 (F := Ideal) V, r_call2_v2 (F := Ideal) V, r_call2_cst (F := Ideal) V, r_call2_cst_0 (F := Ideal) V]
  exact select_eq_act _ _ _

/-- The rectified means mapped linearly. -/
theorem lin_hid2 : after (ops (F := Ideal)) V (Proc.devRef .tc main_v125)
    = lin (n := 20000) (K := 64) (C := 64) (after (ops (F := Ideal)) V (Proc.devRef .tc main_v97)) (V (Proc.devRef .tc main_arg17)) (V (Proc.devRef .tc main_arg18)) := by
  rw [r_v125 (F := Ideal) V, r_v122 (F := Ideal) V, r_v124 (F := Ideal) V, r_v123 (F := Ideal) V, k_arg17 (F := Ideal) V, k_arg18 (F := Ideal) V]
  exact dot_bias_eq_lin dot_S20000x64_S64x64_S20000x64_1_0_0_1_n_n plainDot_hid2 _ _ _ _ _

/-! ## The second layer: both relations into the 500000 target nodes -/

/-- The first hidden state's rows looked up by source word. -/
theorem take3 : after (ops (F := Ideal)) V (Proc.devRef .tc main_v108)
    = take (N := 100000) (M := 500000) (C := 64) (by decide) 100000#32 (after (ops (F := Ideal)) V (Proc.devRef .tc main_v101)) (V (Proc.devRef .tc main_arg3)) := by
  rw [r_v108 (F := Ideal) V, r_v107 (F := Ideal) V, r_v106 (F := Ideal) V, r_v103 (F := Ideal) V, r_v105 (F := Ideal) V, r_v102 (F := Ideal) V, r_v104 (F := Ideal) V, r_c_25 (F := Ideal) V, r_c_26 (F := Ideal) V, k_arg3 (F := Ideal) V]
  exact gather_wrapped_eq_take (by decide) 100000#32 gather_S100000x64_S500000x1_S500000x64_1_0_n_n_0_1_164 _ rfl _ _ _ _

/-- Summed by destination word. -/
theorem sum3 : after (ops (F := Ideal)) V (Proc.devRef .tc main_v111)
    = segSum (N := 500000) (M := 500000) (C := 64) (after (ops (F := Ideal)) V (Proc.devRef .tc main_v108)) (V (Proc.devRef .tc main_arg4)) := by
  rw [r_v111 (F := Ideal) V, r_v109 (F := Ideal) V, r_v110 (F := Ideal) V, r_cst_27 (F := Ideal) V, k_arg4 (F := Ideal) V]
  exact scatter_zero_eq_segSum scatter_S500000x64_S500000x1_S500000x64_1_0_0_1 _ rfl _ _ _ _

/-- The segment sizes. -/
theorem cnt3 : colOf (n := 500000) (after (ops (F := Ideal)) V (Proc.devRef .tc main_v115))
    = segCnt (N := 500000) (M := 500000) (V (Proc.devRef .tc main_arg4)) := by
  rw [r_v115 (F := Ideal) V, r_v113 (F := Ideal) V, r_v114 (F := Ideal) V, r_v112 (F := Ideal) V, r_cst_29 (F := Ideal) V, r_cst_28 (F := Ideal) V, k_arg4 (F := Ideal) V]
  exact scatter_ones_col_eq_segCnt scatter_S500000x1_S500000x1_S500000x1_1_0_0_1 _ rfl _ _ _ _

/-- The segment means (the program then adds a broadcast zero). -/
theorem mean3 : after (ops (F := Ideal)) V (Proc.devRef .tc main_v121)
    = mean (n := 500000) (C := 64) (after (ops (F := Ideal)) V (Proc.devRef .tc main_v111)) (colOf (n := 500000) (after (ops (F := Ideal)) V (Proc.devRef .tc main_v115))) := by
  rw [r_v121 (F := Ideal) V, r_v120 (F := Ideal) V, r_cst_31 (F := Ideal) V, r_v119 (F := Ideal) V, r_v118 (F := Ideal) V, r_v117 (F := Ideal) V, r_v116 (F := Ideal) V, r_cst_30 (F := Ideal) V]
  refine (zero_bcast_add _ _).trans ?_
  exact div_max_eq_mean _ _ _ _

/-- The second hidden state's rows looked up by source word. -/
theorem take4 : after (ops (F := Ideal)) V (Proc.devRef .tc main_v132)
    = take (N := 20000) (M := 500000) (C := 64) (by decide) 20000#32 (after (ops (F := Ideal)) V (Proc.devRef .tc main_v125)) (V (Proc.devRef .tc main_arg5)) := by
  rw [r_v132 (F := Ideal) V, r_v131 (F := Ideal) V, r_v130 (F := Ideal) V, r_v127 (F := Ideal) V, r_v129 (F := Ideal) V, r_v126 (F := Ideal) V, r_v128 (F := Ideal) V, r_c_32 (F := Ideal) V, r_c_33 (F := Ideal) V, k_arg5 (F := Ideal) V]
  exact gather_wrapped_eq_take (by decide) 20000#32 gather_S20000x64_S500000x1_S500000x64_1_0_n_n_0_1_164 _ rfl _ _ _ _

/-- Summed by destination word. -/
theorem sum4 : after (ops (F := Ideal)) V (Proc.devRef .tc main_v135)
    = segSum (N := 500000) (M := 500000) (C := 64) (after (ops (F := Ideal)) V (Proc.devRef .tc main_v132)) (V (Proc.devRef .tc main_arg6)) := by
  rw [r_v135 (F := Ideal) V, r_v133 (F := Ideal) V, r_v134 (F := Ideal) V, r_cst_34 (F := Ideal) V, k_arg6 (F := Ideal) V]
  exact scatter_zero_eq_segSum scatter_S500000x64_S500000x1_S500000x64_1_0_0_1 _ rfl _ _ _ _

/-- The segment sizes. -/
theorem cnt4 : colOf (n := 500000) (after (ops (F := Ideal)) V (Proc.devRef .tc main_v139))
    = segCnt (N := 500000) (M := 500000) (V (Proc.devRef .tc main_arg6)) := by
  rw [r_v139 (F := Ideal) V, r_v137 (F := Ideal) V, r_v138 (F := Ideal) V, r_v136 (F := Ideal) V, r_cst_36 (F := Ideal) V, r_cst_35 (F := Ideal) V, k_arg6 (F := Ideal) V]
  exact scatter_ones_col_eq_segCnt scatter_S500000x1_S500000x1_S500000x1_1_0_0_1 _ rfl _ _ _ _

/-- The segment means. -/
theorem mean4 : after (ops (F := Ideal)) V (Proc.devRef .tc main_v143)
    = mean (n := 500000) (C := 64) (after (ops (F := Ideal)) V (Proc.devRef .tc main_v135)) (colOf (n := 500000) (after (ops (F := Ideal)) V (Proc.devRef .tc main_v139))) := by
  rw [r_v143 (F := Ideal) V, r_v142 (F := Ideal) V, r_v141 (F := Ideal) V, r_v140 (F := Ideal) V, r_cst_37 (F := Ideal) V]
  exact div_max_eq_mean _ _ _ _

/-- The two aggregations added entry by entry. -/
theorem add_agg : after (ops (F := Ideal)) V (Proc.devRef .tc main_v144) = add (n := 500000) (C := 64) (after (ops (F := Ideal)) V (Proc.devRef .tc main_v121)) (after (ops (F := Ideal)) V (Proc.devRef .tc main_v143)) := by
  rw [r_v144 (F := Ideal) V]
  exact addf_eq_add _ _

/-- The last linear map. -/
theorem lin_out : after (ops (F := Ideal)) V (Proc.devRef .tc main_v196)
    = lin (n := 500000) (K := 64) (C := 2) (after (ops (F := Ideal)) V (Proc.devRef .tc main_v144)) (V (Proc.devRef .tc main_arg27)) (V (Proc.devRef .tc main_arg28)) := by
  rw [r_v196 (F := Ideal) V, r_v193 (F := Ideal) V, r_v195 (F := Ideal) V, r_v194 (F := Ideal) V, k_arg27 (F := Ideal) V, k_arg28 (F := Ideal) V]
  exact dot_bias_eq_lin dot_S500000x64_S64x2_S500000x2_1_0_0_1_n_n plainDot_out _ _ _ _ _

/-! ## The stages composed -/

/-- The first relation's aggregation of the first layer. -/
theorem rel1 : after (ops (F := Ideal)) V (Proc.devRef .tc main_v70)
    = relMean (Ns := 500000) (Nd := 100000) (M := 500000) (C := 64) (by decide) 500000#32 (lin (n := 500000) (K := 128) (C := 64) (V (Proc.devRef .tc main_arg0)) (V (Proc.devRef .tc main_arg19)) (V (Proc.devRef .tc main_arg20))) (V (Proc.devRef .tc main_arg7)) (V (Proc.devRef .tc main_arg8)) := by
  rw [mean1 V, sum1 V, cnt1 V, take1 V, lin_feat1 V]
  rfl

/-- The hidden state the first relation hands to the second layer. -/
theorem hid1 : after (ops (F := Ideal)) V (Proc.devRef .tc main_v101)
    = hidden (Nd := 100000) (M := 500000) (V (Proc.devRef .tc main_arg0)) (V (Proc.devRef .tc main_arg19)) (V (Proc.devRef .tc main_arg20)) (V (Proc.devRef .tc main_arg7)) (V (Proc.devRef .tc main_arg8)) (V (Proc.devRef .tc main_arg13)) (V (Proc.devRef .tc main_arg14)) := by
  rw [lin_hid1 V, act1 V, rel1 V]
  rfl

/-- The second relation's aggregation of the first layer. -/
theorem rel2 : after (ops (F := Ideal)) V (Proc.devRef .tc main_v94)
    = relMean (Ns := 500000) (Nd := 20000) (M := 500000) (C := 64) (by decide) 500000#32 (lin (n := 500000) (K := 128) (C := 64) (V (Proc.devRef .tc main_arg0)) (V (Proc.devRef .tc main_arg23)) (V (Proc.devRef .tc main_arg24))) (V (Proc.devRef .tc main_arg9)) (V (Proc.devRef .tc main_arg10)) := by
  rw [mean2 V, sum2 V, cnt2 V, take2 V, lin_feat2 V]
  rfl

/-- The hidden state the second relation hands to the second layer. -/
theorem hid2 : after (ops (F := Ideal)) V (Proc.devRef .tc main_v125)
    = hidden (Nd := 20000) (M := 500000) (V (Proc.devRef .tc main_arg0)) (V (Proc.devRef .tc main_arg23)) (V (Proc.devRef .tc main_arg24)) (V (Proc.devRef .tc main_arg9)) (V (Proc.devRef .tc main_arg10)) (V (Proc.devRef .tc main_arg17)) (V (Proc.devRef .tc main_arg18)) := by
  rw [lin_hid2 V, act2 V, rel2 V]
  rfl

/-- The second layer's aggregation of the first hidden state into the target nodes. -/
theorem agg1 : after (ops (F := Ideal)) V (Proc.devRef .tc main_v121)
    = relMean (Ns := 100000) (Nd := 500000) (M := 500000) (C := 64) (by decide) 100000#32
        (hidden (Nd := 100000) (M := 500000) (V (Proc.devRef .tc main_arg0)) (V (Proc.devRef .tc main_arg19)) (V (Proc.devRef .tc main_arg20)) (V (Proc.devRef .tc main_arg7)) (V (Proc.devRef .tc main_arg8)) (V (Proc.devRef .tc main_arg13)) (V (Proc.devRef .tc main_arg14))) (V (Proc.devRef .tc main_arg3)) (V (Proc.devRef .tc main_arg4)) := by
  rw [mean3 V, sum3 V, cnt3 V, take3 V, hid1 V]
  rfl

/-- The second layer's aggregation of the second hidden state into the target nodes. -/
theorem agg2 : after (ops (F := Ideal)) V (Proc.devRef .tc main_v143)
    = relMean (Ns := 20000) (Nd := 500000) (M := 500000) (C := 64) (by decide) 20000#32
        (hidden (Nd := 20000) (M := 500000) (V (Proc.devRef .tc main_arg0)) (V (Proc.devRef .tc main_arg23)) (V (Proc.devRef .tc main_arg24)) (V (Proc.devRef .tc main_arg9)) (V (Proc.devRef .tc main_arg10)) (V (Proc.devRef .tc main_arg17)) (V (Proc.devRef .tc main_arg18))) (V (Proc.devRef .tc main_arg5)) (V (Proc.devRef .tc main_arg6)) := by
  rw [mean4 V, sum4 V, cnt4 V, take4 V, hid2 V]
  rfl

/-- THE REFERENCE'S RESULT is the model of its argument arrays. -/
theorem out_eq : after (ops (F := Ideal)) V (Proc.devRef .tc main_v196)
    = Cert.HG.model (V (Proc.devRef .tc main_arg0)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg13)) (V (Proc.devRef .tc main_arg14)) (V (Proc.devRef .tc main_arg17)) (V (Proc.devRef .tc main_arg18)) (V (Proc.devRef .tc main_arg19)) (V (Proc.devRef .tc main_arg20)) (V (Proc.devRef .tc main_arg23)) (V (Proc.devRef .tc main_arg24)) (V (Proc.devRef .tc main_arg27)) (V (Proc.devRef .tc main_arg28)) := by
  rw [lin_out V, add_agg V, agg1 V, agg2 V]
  rfl

end Cert.ReferenceIdeal.RefSpec

end
-- ==== Proof.lean ====
/-
  A two-layer relational graph convolution: the kernel program runs its dense stages (a fused first-layer product, the
  mean-rectify-product of the second layer, the final mean-sum-product) as four tiled regions among host lookups and
  segment sums, the reference runs every stage on the host.  At the ideal instance both end with the same array: each
  side's result is the one network function of the argument arrays (Model), the kernel's by chaining its regions'
  whole-array values through its host stretches, the reference's by reading its line of operations.  The laws used are
  that zero is neutral for addition and that a column slice of a product with two weight blocks side by side is the
  product with one block; no finiteness is needed, so the precondition is not opened.
-/
import proofs.«126305_j61735859913388_2_alg».proof.Defs
import proofs.«126305_j61735859913388_2_alg».proof.Proof.Gen.Kernel
import proofs.«126305_j61735859913388_2_alg».proof.Proof.Gen.Kernel.Frame
import proofs.«126305_j61735859913388_2_alg».proof.Proof.Gen.KernelIdeal
import proofs.«126305_j61735859913388_2_alg».proof.Proof.Gen.KernelIdeal.Frame
import proofs.«126305_j61735859913388_2_alg».proof.Proof.Gen.ReferenceIdeal
import proofs.«126305_j61735859913388_2_alg».proof.Proof.Gen.Pre_finite_inputs
import proofs.«126305_j61735859913388_2_alg».proof.Proof.KRun
import proofs.«126305_j61735859913388_2_alg».proof.Proof.KSpec
import proofs.«126305_j61735859913388_2_alg».proof.Proof.RefSpec
import Idealize.ShloMosaic.Adequacy
import Idealize.ShloMosaic.Init

set_option maxRecDepth 16384

noncomputable section

namespace Cert.Proof

open Idealize.ShloMosaic Idealize.ShloMosaic.TcCoe Idealize.SL.Sem

section Claims

variable [hKernel : Cert.Kernel.Facts] [hKernelIdeal : Cert.KernelIdeal.Facts] [hReferenceIdeal : Cert.ReferenceIdeal.Facts]
  [hPre : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The reference's run with the result dropped: no operation of its line writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefRun.k_arg0 _),
      (h c Cert.ReferenceIdeal.main_arg1).trans (Cert.ReferenceIdeal.RefRun.k_arg1 _),
      (h c Cert.ReferenceIdeal.main_arg2).trans (Cert.ReferenceIdeal.RefRun.k_arg2 _),
      (h c Cert.ReferenceIdeal.main_arg3).trans (Cert.ReferenceIdeal.RefRun.k_arg3 _),
      (h c Cert.ReferenceIdeal.main_arg4).trans (Cert.ReferenceIdeal.RefRun.k_arg4 _),
      (h c Cert.ReferenceIdeal.main_arg5).trans (Cert.ReferenceIdeal.RefRun.k_arg5 _),
      (h c Cert.ReferenceIdeal.main_arg6).trans (Cert.ReferenceIdeal.RefRun.k_arg6 _),
      (h c Cert.ReferenceIdeal.main_arg7).trans (Cert.ReferenceIdeal.RefRun.k_arg7 _),
      (h c Cert.ReferenceIdeal.main_arg8).trans (Cert.ReferenceIdeal.RefRun.k_arg8 _),
      (h c Cert.ReferenceIdeal.main_arg9).trans (Cert.ReferenceIdeal.RefRun.k_arg9 _),
      (h c Cert.ReferenceIdeal.main_arg10).trans (Cert.ReferenceIdeal.RefRun.k_arg10 _),
      (h c Cert.ReferenceIdeal.main_arg11).trans (Cert.ReferenceIdeal.RefRun.k_arg11 _),
      (h c Cert.ReferenceIdeal.main_arg12).trans (Cert.ReferenceIdeal.RefRun.k_arg12 _),
      (h c Cert.ReferenceIdeal.main_arg13).trans (Cert.ReferenceIdeal.RefRun.k_arg13 _),
      (h c Cert.ReferenceIdeal.main_arg14).trans (Cert.ReferenceIdeal.RefRun.k_arg14 _),
      (h c Cert.ReferenceIdeal.main_arg15).trans (Cert.ReferenceIdeal.RefRun.k_arg15 _),
      (h c Cert.ReferenceIdeal.main_arg16).trans (Cert.ReferenceIdeal.RefRun.k_arg16 _),
      (h c Cert.ReferenceIdeal.main_arg17).trans (Cert.ReferenceIdeal.RefRun.k_arg17 _),
      (h c Cert.ReferenceIdeal.main_arg18).trans (Cert.ReferenceIdeal.RefRun.k_arg18 _),
      (h c Cert.ReferenceIdeal.main_arg19).trans (Cert.ReferenceIdeal.RefRun.k_arg19 _),
      (h c Cert.ReferenceIdeal.main_arg20).trans (Cert.ReferenceIdeal.RefRun.k_arg20 _),
      (h c Cert.ReferenceIdeal.main_arg21).trans (Cert.ReferenceIdeal.RefRun.k_arg21 _),
      (h c Cert.ReferenceIdeal.main_arg22).trans (Cert.ReferenceIdeal.RefRun.k_arg22 _),
      (h c Cert.ReferenceIdeal.main_arg23).trans (Cert.ReferenceIdeal.RefRun.k_arg23 _),
      (h c Cert.ReferenceIdeal.main_arg24).trans (Cert.ReferenceIdeal.RefRun.k_arg24 _),
      (h c Cert.ReferenceIdeal.main_arg25).trans (Cert.ReferenceIdeal.RefRun.k_arg25 _),
      (h c Cert.ReferenceIdeal.main_arg26).trans (Cert.ReferenceIdeal.RefRun.k_arg26 _),
      (h c Cert.ReferenceIdeal.main_arg27).trans (Cert.ReferenceIdeal.RefRun.k_arg27 _),
      (h c Cert.ReferenceIdeal.main_arg28).trans (Cert.ReferenceIdeal.RefRun.k_arg28 _)⟩)
    (Cert.ReferenceIdeal.RefRun.run_all (F := Ideal) m ρ)

set_option maxHeartbeats 2000000 in
/-- Both runs end with the network function of the argument arrays, which agree. -/
theorem algebraic : Cert.algebraic_KernelIdeal_ReferenceIdeal := by
  intro m ρ m' ρ' _ hagree
  refine ⟨fun c => Cert.HG.model (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)), ?_, ?_⟩
  · exact (θ_run Cert.KernelIdeal.defs _ _).mono (fun r h c => ⟨(h c).1.trans (Cert.KernelIdeal.KSpec.out_eq m ρ c), (h c).2⟩)
      (Cert.KernelIdeal.KRun.run_out (F := Ideal) m ρ)
  · refine (θ_run Cert.ReferenceIdeal.defs _ _).mono (fun r h c => ⟨?_,
      (h c Cert.ReferenceIdeal.main_arg0).trans (Cert.ReferenceIdeal.RefRun.k_arg0 _),
      (h c Cert.ReferenceIdeal.main_arg1).trans (Cert.ReferenceIdeal.RefRun.k_arg1 _),
      (h c Cert.ReferenceIdeal.main_arg2).trans (Cert.ReferenceIdeal.RefRun.k_arg2 _),
      (h c Cert.ReferenceIdeal.main_arg3).trans (Cert.ReferenceIdeal.RefRun.k_arg3 _),
      (h c Cert.ReferenceIdeal.main_arg4).trans (Cert.ReferenceIdeal.RefRun.k_arg4 _),
      (h c Cert.ReferenceIdeal.main_arg5).trans (Cert.ReferenceIdeal.RefRun.k_arg5 _),
      (h c Cert.ReferenceIdeal.main_arg6).trans (Cert.ReferenceIdeal.RefRun.k_arg6 _),
      (h c Cert.ReferenceIdeal.main_arg7).trans (Cert.ReferenceIdeal.RefRun.k_arg7 _),
      (h c Cert.ReferenceIdeal.main_arg8).trans (Cert.ReferenceIdeal.RefRun.k_arg8 _),
      (h c Cert.ReferenceIdeal.main_arg9).trans (Cert.ReferenceIdeal.RefRun.k_arg9 _),
      (h c Cert.ReferenceIdeal.main_arg10).trans (Cert.ReferenceIdeal.RefRun.k_arg10 _),
      (h c Cert.ReferenceIdeal.main_arg11).trans (Cert.ReferenceIdeal.RefRun.k_arg11 _),
      (h c Cert.ReferenceIdeal.main_arg12).trans (Cert.ReferenceIdeal.RefRun.k_arg12 _),
      (h c Cert.ReferenceIdeal.main_arg13).trans (Cert.ReferenceIdeal.RefRun.k_arg13 _),
      (h c Cert.ReferenceIdeal.main_arg14).trans (Cert.ReferenceIdeal.RefRun.k_arg14 _),
      (h c Cert.ReferenceIdeal.main_arg15).trans (Cert.ReferenceIdeal.RefRun.k_arg15 _),
      (h c Cert.ReferenceIdeal.main_arg16).trans (Cert.ReferenceIdeal.RefRun.k_arg16 _),
      (h c Cert.ReferenceIdeal.main_arg17).trans (Cert.ReferenceIdeal.RefRun.k_arg17 _),
      (h c Cert.ReferenceIdeal.main_arg18).trans (Cert.ReferenceIdeal.RefRun.k_arg18 _),
      (h c Cert.ReferenceIdeal.main_arg19).trans (Cert.ReferenceIdeal.RefRun.k_arg19 _),
      (h c Cert.ReferenceIdeal.main_arg20).trans (Cert.ReferenceIdeal.RefRun.k_arg20 _),
      (h c Cert.ReferenceIdeal.main_arg21).trans (Cert.ReferenceIdeal.RefRun.k_arg21 _),
      (h c Cert.ReferenceIdeal.main_arg22).trans (Cert.ReferenceIdeal.RefRun.k_arg22 _),
      (h c Cert.ReferenceIdeal.main_arg23).trans (Cert.ReferenceIdeal.RefRun.k_arg23 _),
      (h c Cert.ReferenceIdeal.main_arg24).trans (Cert.ReferenceIdeal.RefRun.k_arg24 _),
      (h c Cert.ReferenceIdeal.main_arg25).trans (Cert.ReferenceIdeal.RefRun.k_arg25 _),
      (h c Cert.ReferenceIdeal.main_arg26).trans (Cert.ReferenceIdeal.RefRun.k_arg26 _),
      (h c Cert.ReferenceIdeal.main_arg27).trans (Cert.ReferenceIdeal.RefRun.k_arg27 _),
      (h c Cert.ReferenceIdeal.main_arg28).trans (Cert.ReferenceIdeal.RefRun.k_arg28 _)⟩)
      (Cert.ReferenceIdeal.RefRun.run_all (F := Ideal) m' ρ')
    refine ((h c Cert.ReferenceIdeal.main_v196).trans (Cert.ReferenceIdeal.RefSpec.out_eq _)).trans ?_
    obtain ⟨h0, h1, h2, h3, h4, h5, h6, h7, h8, h9, h10, h11, h12, h13, h14, h15, h16, h17, h18, h19, h20, h21, h22, h23, h24, h25, h26, h27, h28⟩ := hagree c
    have e : Cert.HG.model (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg27)) (m' ((c.tc : Thread Cert.ReferenceIdeal.nD Cert.ReferenceIdeal.τ).loc Cert.ReferenceIdeal.main_arg28))
        = Cert.HG.model (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) := by
      rw [h0, h3, h4, h5, h6, h7, h8, h9, h10, h13, h14, h17, h18, h19, h20, h23, h24, h27, h28]
    exact e

end Claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
